-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x256 : Shape := ⟨2, ![10000, 256]⟩
abbrev S160000x256 : Shape := ⟨2, ![160000, 256]⟩
abbrev S2x160000 : Shape := ⟨2, ![2, 160000]⟩
abbrev S768x1 : Shape := ⟨2, ![768, 1]⟩
abbrev S1 : Shape := ⟨1, ![1]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S160000x256 : S_.BroadcastsInDim S160000x256 (![] : Fin 0 → Fin S160000x256.rank)
  reducesTo_S160000x256_S_d0_1 : S160000x256.ReducesTo [0, 1] S_
  bcast_S_S768x1 : S_.BroadcastsInDim S768x1 (![] : Fin 0 → Fin S768x1.rank)
  reducesTo_S768x1_S_d0_1 : S768x1.ReducesTo [0, 1] S_
  bcast_S_S1 : S_.BroadcastsInDim S1 (![] : Fin 0 → Fin S1.rank)
  reducesTo_S1_S_d0 : S1.ReducesTo [0] S_
  bcast_S_S2x160000 : S_.BroadcastsInDim S2x160000 (![] : Fin 0 → Fin S2x160000.rank)
  reducesTo_S2x160000_S_d0_1 : S2x160000.ReducesTo [0, 1] S_

variable [Facts]

def fn_part1 {F : FTy → Type} [FloatOps F] (main_arg2 : IVec S2x160000 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 0#32
  let main_v19 : IVec S2x160000 32 := broadcastInDim S2x160000 ![] bcast_S_S2x160000 main_c_6
  let main_v20 : IVec S2x160000 1 := cmpi .sge main_arg2 main_v19
  let main_c_7 : IVec S_ 32 := constantI S_ 32 9999#32
  let main_v21 : IVec S2x160000 32 := broadcastInDim S2x160000 ![] bcast_S_S2x160000 main_c_7
  let main_v22 : IVec S2x160000 1 := cmpi .sle main_arg2 main_v21
  let main_v23 : IVec S2x160000 1 := andi main_v20 main_v22
  let main_c_8 : IVec S_ 1 := constantI S_ 1 1#1
  let main_v24 : IVec S_ 1 := (fun x v => Host.reduce IntOp.andi x v reducesTo_S2x160000_S_d0_1 h_S_) main_v23 main_c_8
  let main_v25 : IVec S_ 1 := andi main_v18 main_v24
  main_v25

def fn {F : FTy → Type} [FloatOps F] (main_arg0 : FVec F S10000x256 .f32) (main_arg1 : FVec F S160000x256 .f32) (main_arg2 : IVec S2x160000 32) (main_arg3 : FVec F S768x1 .f32) (main_arg4 : FVec F S1 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S160000x256 .f32 := Host.absf main_arg1
  let main_cst_0 : FVec F S_ .f32 := constant S_ .f32 0x7F800000#32
  let main_v5 : FVec F S160000x256 .f32 := broadcastInDim S160000x256 ![] bcast_S_S160000x256 main_cst_0
  let main_v6 : IVec S160000x256 1 := cmpf .olt main_v4 main_v5
  let main_c_1 : IVec S_ 1 := constantI S_ 1 1#1
  let main_v7 : IVec S_ 1 := (fun x v => Host.reduce IntOp.andi x v reducesTo_S160000x256_S_d0_1 h_S_) main_v6 main_c_1
  let main_v8 : IVec S_ 1 := andi main_v3 main_v7
  let main_v9 : FVec F S768x1 .f32 := Host.absf main_arg3
  let main_cst_2 : FVec F S_ .f32 := constant S_ .f32 0x7F800000#32
  let main_v10 : FVec F S768x1 .f32 := broadcastInDim S768x1 ![] bcast_S_S768x1 main_cst_2
  let main_v11 : IVec S768x1 1 := cmpf .olt main_v9 main_v10
  let main_c_3 : IVec S_ 1 := constantI S_ 1 1#1
  let main_v12 : IVec S_ 1 := (fun x v => Host.reduce IntOp.andi x v reducesTo_S768x1_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg2 main_v13 main_v16
-- ==== Kernel.lean ====
abbrev S10000x256 : Shape := ⟨2, ![10000, 256]⟩
abbrev S160000x256 : Shape := ⟨2, ![160000, 256]⟩
abbrev S2x160000 : Shape := ⟨2, ![2, 160000]⟩
abbrev S768x1 : Shape := ⟨2, ![768, 1]⟩
abbrev S1 : Shape := ⟨1, ![1]⟩
abbrev S1x160000 : Shape := ⟨2, ![1, 160000]⟩
abbrev S160000 : Shape := ⟨1, ![160000]⟩
abbrev S256x1 : Shape := ⟨2, ![256, 1]⟩
abbrev S256x2 : Shape := ⟨2, ![256, 2]⟩
abbrev S1x1 : Shape := ⟨2, ![1, 1]⟩
abbrev S10000x2 : Shape := ⟨2, ![10000, 2]⟩
abbrev S2000x256 : Shape := ⟨2, ![2000, 256]⟩
abbrev S2000x2 : Shape := ⟨2, ![2000, 2]⟩
abbrev S20000 : Shape := ⟨1, ![20000]⟩
abbrev S4x40000x256 : Shape := ⟨3, ![4, 40000, 256]⟩
abbrev S40000x1 : Shape := ⟨2, ![40000, 1]⟩
abbrev S1x2000x256 : Shape := ⟨3, ![1, 2000, 256]⟩
abbrev S2000x1 : Shape := ⟨2, ![2000, 1]⟩
abbrev S40000 : Shape := ⟨1, ![40000]⟩
abbrev S_ : Shape := ⟨0, ![]⟩
abbrev S1280 : Shape := ⟨1, ![1280]⟩
abbrev S161280 : Shape := ⟨1, ![161280]⟩
abbrev S5040 : Shape := ⟨1, ![5040]⟩
abbrev S16 : Shape := ⟨1, ![16]⟩

abbrev nBuf : Table → Nat
  | .hbm => 34
  | .local .tc .vmem => 23
  | .local .scVector .vmem => 5
  | _ => 0

abbrev bufTy : (tb : Table) → Fin (nBuf tb) → BufTy
  | .hbm, ⟨0, _⟩ => ⟨S10000x256, .f32⟩
  | .hbm, ⟨1, _⟩ => ⟨S160000x256, .f32⟩
  | .hbm, ⟨2, _⟩ => ⟨S2x160000, .i32⟩
  | .hbm, ⟨3, _⟩ => ⟨S768x1, .f32⟩
  | .hbm, ⟨4, _⟩ => ⟨S1, .f32⟩
  | .hbm, ⟨5, _⟩ => ⟨S1x160000, .i32⟩
  | .hbm, ⟨6, _⟩ => ⟨S160000, .i32⟩
  | .hbm, ⟨7, _⟩ => ⟨S1x160000, .i32⟩
  | .hbm, ⟨8, _⟩ => ⟨S160000, .i32⟩
  | .hbm, ⟨9, _⟩ => ⟨S256x1, .f32⟩
  | .hbm, ⟨10, _⟩ => ⟨S256x1, .f32⟩
  | .hbm, ⟨11, _⟩ => ⟨S256x2, .f32⟩
  | .hbm, ⟨12, _⟩ => ⟨S256x1, .f32⟩
  | .hbm, ⟨13, _⟩ => ⟨S1x1, .f32⟩
  | .hbm, ⟨14, _⟩ => ⟨S10000x2, .f32⟩
  | .hbm, ⟨15, _⟩ => ⟨S20000, .f32⟩
  | .hbm, ⟨16, _⟩ => ⟨S4x40000x256, .f32⟩
  | .hbm, ⟨17, _⟩ => ⟨S40000x1, .f32⟩
  | .hbm, ⟨18, _⟩ => ⟨S40000x1, .f32⟩
  | .hbm, ⟨19, _⟩ => ⟨S40000x1, .f32⟩
  | .hbm, ⟨20, _⟩ => ⟨S40000x1, .f32⟩
  | .hbm, ⟨21, _⟩ => ⟨S40000, .f32⟩
  | .hbm, ⟨22, _⟩ => ⟨S40000, .f32⟩
  | .hbm, ⟨23, _⟩ => ⟨S40000, .f32⟩
  | .hbm, ⟨24, _⟩ => ⟨S40000, .f32⟩
  | .hbm, ⟨25, _⟩ => ⟨S_, .f32⟩
  | .hbm, ⟨26, _⟩ => ⟨S1280, .f32⟩
  | .hbm, ⟨27, _⟩ => ⟨S161280, .f32⟩
  | .hbm, ⟨28, _⟩ => ⟨S_, .i32⟩
  | .hbm, ⟨29, _⟩ => ⟨S1280, .i32⟩
  | .hbm, ⟨30, _⟩ => ⟨S161280, .i32⟩
  | .hbm, ⟨31, _⟩ => ⟨S161280, .i32⟩
  | .hbm, ⟨32, _⟩ => ⟨S161280, .f32⟩
  | .hbm, ⟨33, _⟩ => ⟨S160000, .f32⟩
  | .local .tc .vmem, ⟨0, _⟩ => ⟨S2000x256, .f32⟩
  | .local .tc .vmem, ⟨1, _⟩ => ⟨S2000x256, .f32⟩
  | .local .tc .vmem, ⟨2, _⟩ => ⟨S256x2, .f32⟩
  | .local .tc .vmem, ⟨3, _⟩ => ⟨S2000x2, .f32⟩
  | .local .tc .vmem, ⟨4, _⟩ => ⟨S2000x2, .f32⟩
  | .local .tc .vmem, ⟨5, _⟩ => ⟨S1x2000x256, .f32⟩
  | .local .tc .vmem, ⟨6, _⟩ => ⟨S1x2000x256, .f32⟩
  | .local .tc .vmem, ⟨7, _⟩ => ⟨S1x2000x256, .f32⟩
  | .local .tc .vmem, ⟨8, _⟩ => ⟨S1x2000x256, .f32⟩
  | .local .tc .vmem, ⟨9, _⟩ => ⟨S1x2000x256, .f32⟩
  | .local .tc .vmem, ⟨10, _⟩ => ⟨S1x2000x256, .f32⟩
  | .local .tc .vmem, ⟨11, _⟩ => ⟨S1x2000x256, .f32⟩
  | .local .tc .vmem, ⟨12, _⟩ => ⟨S1x2000x256, .f32⟩
  | .local .tc .vmem, ⟨13, _⟩ => ⟨S256x1, .f32⟩
  | .local .tc .vmem, ⟨14, _⟩ => ⟨S1x1, .f32⟩
  | .local .tc .vmem, ⟨15, _⟩ => ⟨S2000x1, .f32⟩
  | .local .tc .vmem, ⟨16, _⟩ => ⟨S2000x1, .f32⟩
  | .local .tc .vmem, ⟨17, _⟩ => ⟨S2000x1, .f32⟩
  | .local .tc .vmem, ⟨18, _⟩ => ⟨S2000x1, .f32⟩
  | .local .tc .vmem, ⟨19, _⟩ => ⟨S2000x1, .f32⟩
  | .local .tc .vmem, ⟨20, _⟩ => ⟨S2000x1, .f32⟩
  | .local .tc .vmem, ⟨21, _⟩ => ⟨S2000x1, .f32⟩
  | .local .tc .vmem, ⟨22, _⟩ => ⟨S2000x1, .f32⟩
  | .local .scVector .vmem, ⟨0, _⟩ => ⟨S20000, .f32⟩
  | .local .scVector .vmem, ⟨1, _⟩ => ⟨S5040, .i32⟩
  | .local .scVector .vmem, ⟨2, _⟩ => ⟨S5040, .i32⟩
  | .local .scVector .vmem, ⟨3, _⟩ => ⟨S5040, .f32⟩
  | .local .scVector .vmem, ⟨4, _⟩ => ⟨S5040, .f32⟩
  | _, _ => ⟨S10000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => false
  | ⟨24, _⟩ => false
  | ⟨25, _⟩ => false
  | ⟨26, _⟩ => false
  | ⟨27, _⟩ => false
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v10_scv : Ref sig .scVector := ⟨.hbm, 15, rfl⟩
abbrev main_v20_scv : Ref sig .scVector := ⟨.hbm, 30, rfl⟩
abbrev main_v21_scv : Ref sig .scVector := ⟨.hbm, 31, rfl⟩
abbrev main_v18_scv : Ref sig .scVector := ⟨.hbm, 27, rfl⟩
abbrev main_v22_scv : Ref sig .scVector := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc1_sem8_1 : DmaSem sig := 20
abbrev cc1_sem9_0 : DmaSem sig := 21
abbrev cc1_sem9_1 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5040_i32 : BitVec 32 := 5040#32
  let v2 : BitVec 32 := Scalar.muli v1 c5040_i32
  ![v2.toNat]
@[reducible] def k2_t1_loop : Scf.Loop 32 :=
  let c0_i32_0 : BitVec 32 := 0#32
  let c315_i32 : BitVec 32 := 315#32
  let v3 : BitVec 32 := Scalar.addi c0_i32_0 c315_i32
  let c1_i32 : BitVec 32 := 1#32
  ⟨c0_i32_0, v3, c1_i32⟩
def k2_off2 (k2_t1 : Fin k2_t1_loop.trips) : Fin 1 → Nat :=
  let c0_i32_0 : BitVec 32 := 0#32
  let c1_i32 : BitVec 32 := 1#32
  let arg12 : BitVec 32 := Scf.iv c0_i32_0 c1_i32 k2_t1
  let c16_i32 : BitVec 32 := 16#32
  let v4 : BitVec 32 := Scalar.muli arg12 c16_i32
  let v5 : Index := Scalar.indexCast v4
  ![v5.toNat]

def k2_chk1 (v10 : IVec S16 32) : Prop :=
  (∀ a x, ((![v10] : Fin 1 → IVec S16 32) a x).toNat < S20000.size a)
instance k2_chk1.dec : ∀ (v10 : IVec S16 32), Decidable (k2_chk1 v10) := fun v10 => decidable_of_iff' _ (Iff.of_eq (k2_chk1.eq_1 v10))
theorem k2_idx1_inb : ∀ (v10 : IVec S16 32) (k2_hw1 : k2_chk1 v10), ∀ a x, ((![v10] : Fin 1 → IVec S16 32) a x).toNat < S20000.size a := fun v10 k2_hw1 => k2_hw1

def k2_chk2 (v15 : IVec S16 32) : Prop :=
  (∀ a x, ((![v15] : Fin 1 → IVec S16 32) a x).toNat < S20000.size a)
instance k2_chk2.dec : ∀ (v15 : IVec S16 32), Decidable (k2_chk2 v15) := fun v15 => decidable_of_iff' _ (Iff.of_eq (k2_chk2.eq_1 v15))
theorem k2_idx2_inb : ∀ (v15 : IVec S16 32) (k2_hw2 : k2_chk2 v15), ∀ a x, ((![v15] : Fin 1 → IVec S16 32) a x).toNat < S20000.size a := fun v15 k2_hw2 => k2_hw2
def k2_off3 (k2_t1 : Fin k2_t1_loop.trips) : Fin 1 → Nat :=
  let c0_i32_0 : BitVec 32 := 0#32
  let c1_i32 : BitVec 32 := 1#32
  let arg12 : BitVec 32 := Scf.iv c0_i32_0 c1_i32 k2_t1
  let c16_i32 : BitVec 32 := 16#32
  let v4 : BitVec 32 := Scalar.muli arg12 c16_i32
  let v18 : Index := Scalar.indexCast v4
  ![v18.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  slices_S768x1_S256x1_0_0 : S768x1.Slices ![0, 0] S256x1
  slices_S768x1_S256x1_256_0 : S768x1.Slices ![256, 0] S256x1
  concatenates_S256x1_S256x1_S256x2_d1 : Shape.Concatenates [S256x1, S256x1] S256x2 1
  slices_S768x1_S256x1_512_0 : S768x1.Slices ![512, 0] S256x1
  shapeCasts_S1_S1x1 : S1.ShapeCasts S1x1
  inb_S2000x256_S2000x256_0_0 : ∀ a, (![0, 0] : Fin 2 → Nat) a + S2000x256.size a ≤ S2000x256.size a
  h_S2000x256 : 0 < S2000x256.numel
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S2000x2_S2000x2_0_0 : ∀ a, (![0, 0] : Fin 2 → Nat) a + S2000x2.size a ≤ S2000x2.size a
  h_S2000x2 : 0 < S2000x2.numel
  shapeCasts_S10000x2_S20000 : S10000x2.ShapeCasts S20000
  shapeCasts_S160000x256_S4x40000x256 : S160000x256.ShapeCasts S4x40000x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x2000x256_S1x2000x256_0_0_0 : ∀ a, (![0, 0, 0] : Fin 3 → Nat) a + S1x2000x256.size a ≤ S1x2000x256.size a
  h_S1x2000x256 : 0 < S1x2000x256.numel
  shapeCasts_S1x2000x256_S2000x256 : S1x2000x256.ShapeCasts S2000x256
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S40000x1_S40000 : S40000x1.ShapeCasts S40000
  bcast_S_S1280 : S_.BroadcastsInDim S1280 (![] : Fin 0 → Fin S1280.rank)
  concatenates_S40000_S40000_S40000_S40000_S1280_S161280_d0 : Shape.Concatenates [S40000, S40000, S40000, S40000, S1280] S161280 0
  concatenates_S160000_S1280_S161280_d0 : Shape.Concatenates [S160000, S1280] S161280 0
  h_S16 : 0 < S16.numel
  h_S20000 : 0 < S20000.numel
  slices_S161280_S160000_0 : S161280.Slices ![0] S160000
  dot_S2000x256_S256x2_S2000x2_1_0_0_1_n_n_wf : DotDims.WF S2000x256 S256x2 S2000x2 [1] [0] [0] [1] [] []
  dot_S2000x256_S256x1_S2000x1_1_0_0_1_n_n_wf : DotDims.WF S2000x256 S256x1 S2000x1 [1] [0] [0] [1] [] []
  hcc2_scoped0 : 23 + S_.numel ≤ 28
  hcc2_scoped1 : 24 + S_.numel ≤ 28
  hcc2_scoped2 : 25 + S_.numel ≤ 28
  hcc2_scoped3 : 26 + S_.numel ≤ 28
  hcc2_scoped4 : 27 + S_.numel ≤ 28
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2.size a ≤ S256x2.size a
  hwx0_1 : ∀ i : grid0.Coords, EltTy.bits .f32 = 32 ∨ (Rect.block (s := S256x2) S256x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x2.size a ≤ S10000x2.size a
  hwx0_2 : ∀ i : grid0.Coords, EltTy.bits .f32 = 32 ∨ (Rect.block (s := S10000x2) S2000x2.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2000x256.size a ≤ S4x40000x256.size a
  hwx1_0 : ∀ i : grid1.Coords, EltTy.bits .f32 = 32 ∨ (Rect.block (s := S4x40000x256) S1x2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2000x256.size a ≤ S4x40000x256.size a
  hwx1_1 : ∀ i : grid1.Coords, EltTy.bits .f32 = 32 ∨ (Rect.block (s := S4x40000x256) S1x2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2000x256.size a ≤ S4x40000x256.size a
  hwx1_2 : ∀ i : grid1.Coords, EltTy.bits .f32 = 32 ∨ (Rect.block (s := S4x40000x256) S1x2000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2000x256.size a ≤ S4x40000x256.size a
  hwx1_3 : ∀ i : grid1.Coords, EltTy.bits .f32 = 32 ∨ (Rect.block (s := S4x40000x256) S1x2000x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S256x1.size a
  hwx1_4 : ∀ i : grid1.Coords, EltTy.bits .f32 = 32 ∨ (Rect.block (s := S256x1) S256x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x1.size a ≤ S40000x1.size a
  hwx1_6 : ∀ i : grid1.Coords, EltTy.bits .f32 = 32 ∨ (Rect.block (s := S40000x1) S2000x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x1.size a ≤ S40000x1.size a
  hwx1_7 : ∀ i : grid1.Coords, EltTy.bits .f32 = 32 ∨ (Rect.block (s := S40000x1) S2000x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x1.size a ≤ S40000x1.size a
  hwx1_8 : ∀ i : grid1.Coords, EltTy.bits .f32 = 32 ∨ (Rect.block (s := S40000x1) S2000x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x1.size a ≤ S40000x1.size a
  hwx1_9 : ∀ i : grid1.Coords, EltTy.bits .f32 = 32 ∨ (Rect.block (s := S40000x1) S2000x1.size (cc1_transform_9 i) (hinb1_9 i)).WholeWords (EltTy.packing .f32)
  hcore2 : grid2.bound 0 ≤ τ.nSC
  hsub2 : grid2.bound 1 ≤ τ.nSub
  k2_off1_inb : ∀ i : grid2.Coords, ∀ a, (k2_off1 i) a + S5040.size a ≤ S161280.size a
  k2_t1_ok : k2_t1_loop.OK
  k2_off2_inb : ∀ k2_t1 : Fin k2_t1_loop.trips, ∀ a, (k2_off2 k2_t1) a + S16.size a ≤ S5040.size a
  k2_off3_inb : ∀ k2_t1 : Fin k2_t1_loop.trips, ∀ a, (k2_off3 k2_t1) a + S16.size a ≤ S5040.size a

variable [Facts₀]

abbrev cc2_scoped0 : DmaSems sig S_ := SemArray.consecutive 23 S_ hcc2_scoped0
abbrev cc2_scoped1 : DmaSems sig S_ := SemArray.consecutive 24 S_ hcc2_scoped1
abbrev cc2_scoped2 : DmaSems sig S_ := SemArray.consecutive 25 S_ hcc2_scoped2
abbrev cc2_scoped3 : DmaSems sig S_ := SemArray.consecutive 26 S_ hcc2_scoped3
abbrev cc2_scoped4 : DmaSems sig S_ := SemArray.consecutive 27 S_ hcc2_scoped4
def dot_S2000x256_S256x2_S2000x2_1_0_0_1_n_n : DotDims S2000x256 S256x2 S2000x2 where
  lhsContracting := [1]
  rhsContracting := [0]
  lhsNonContracting := [0]
  rhsNonContracting := [1]
  lhsBatch := []
  rhsBatch := []
  wf := dot_S2000x256_S256x2_S2000x2_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2000x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S1x2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x2000x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S256x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12_0) S2000x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v12_1) S2000x1.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v12_2) S2000x1.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v12_3) S2000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S10000x256 : Shape := ⟨2, ![10000, 256]⟩
abbrev S160000x256 : Shape := ⟨2, ![160000, 256]⟩
abbrev S2x160000 : Shape := ⟨2, ![2, 160000]⟩
abbrev S768x1 : Shape := ⟨2, ![768, 1]⟩
abbrev S1 : Shape := ⟨1, ![1]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S1x1 : Shape := ⟨2, ![1, 1]⟩
abbrev S160000x512 : Shape := ⟨2, ![160000, 512]⟩
abbrev S160000x768 : Shape := ⟨2, ![160000, 768]⟩

abbrev nBuf : Space → Nat
  | .hbm => 62
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S160000x256, .f32⟩
  | .hbm, ⟨2, _⟩ => ⟨S2x160000, .i32⟩
  | .hbm, ⟨3, _⟩ => ⟨S768x1, .f32⟩
  | .hbm, ⟨4, _⟩ => ⟨S1, .f32⟩
  | .hbm, ⟨5, _⟩ => ⟨S1x160000, .i32⟩
  | .hbm, ⟨6, _⟩ => ⟨S160000, .i32⟩
  | .hbm, ⟨7, _⟩ => ⟨S1x160000, .i32⟩
  | .hbm, ⟨8, _⟩ => ⟨S160000, .i32⟩
  | .hbm, ⟨9, _⟩ => ⟨S_, .i32⟩
  | .hbm, ⟨10, _⟩ => ⟨S160000, .i32⟩
  | .hbm, ⟨11, _⟩ => ⟨S160000, .i1⟩
  | .hbm, ⟨12, _⟩ => ⟨S_, .i32⟩
  | .hbm, ⟨13, _⟩ => ⟨S160000, .i32⟩
  | .hbm, ⟨14, _⟩ => ⟨S160000, .i32⟩
  | .hbm, ⟨15, _⟩ => ⟨S160000, .i32⟩
  | .hbm, ⟨16, _⟩ => ⟨S160000x1, .i32⟩
  | .hbm, ⟨17, _⟩ => ⟨S1, .i32⟩
  | .hbm, ⟨18, _⟩ => ⟨S_, .i32⟩
  | .hbm, ⟨19, _⟩ => ⟨S160000x1, .i32⟩
  | .hbm, ⟨20, _⟩ => ⟨S160000x1, .i1⟩
  | .hbm, ⟨21, _⟩ => ⟨S1x1, .i32⟩
  | .hbm, ⟨22, _⟩ => ⟨S160000x1, .i32⟩
  | .hbm, ⟨23, _⟩ => ⟨S160000x1, .i1⟩
  | .hbm, ⟨24, _⟩ => ⟨S160000x1, .i1⟩
  | .hbm, ⟨25, _⟩ => ⟨S_, .i1⟩
  | .hbm, ⟨26, _⟩ => ⟨S160000, .i1⟩
  | .hbm, ⟨27, _⟩ => ⟨S160000x256, .f32⟩
  | .hbm, ⟨28, _⟩ => ⟨S160000x256, .i1⟩
  | .hbm, ⟨29, _⟩ => ⟨S_, .f32⟩
  | .hbm, ⟨30, _⟩ => ⟨S160000x256, .f32⟩
  | .hbm, ⟨31, _⟩ => ⟨S160000x256, .f32⟩
  | .hbm, ⟨32, _⟩ => ⟨S_, .i32⟩
  | .hbm, ⟨33, _⟩ => ⟨S160000, .i32⟩
  | .hbm, ⟨34, _⟩ => ⟨S160000, .i1⟩
  | .hbm, ⟨35, _⟩ => ⟨S_, .i32⟩
  | .hbm, ⟨36, _⟩ => ⟨S160000, .i32⟩
  | .hbm, ⟨37, _⟩ => ⟨S160000, .i32⟩
  | .hbm, ⟨38, _⟩ => ⟨S160000, .i32⟩
  | .hbm, ⟨39, _⟩ => ⟨S160000x1, .i32⟩
  | .hbm, ⟨40, _⟩ => ⟨S1, .i32⟩
  | .hbm, ⟨41, _⟩ => ⟨S_, .i32⟩
  | .hbm, ⟨42, _⟩ => ⟨S160000x1, .i32⟩
  | .hbm, ⟨43, _⟩ => ⟨S160000x1, .i1⟩
  | .hbm, ⟨44, _⟩ => ⟨S1x1, .i32⟩
  | .hbm, ⟨45, _⟩ => ⟨S160000x1, .i32⟩
  | .hbm, ⟨46, _⟩ => ⟨S160000x1, .i1⟩
  | .hbm, ⟨47, _⟩ => ⟨S160000x1, .i1⟩
  | .hbm, ⟨48, _⟩ => ⟨S_, .i1⟩
  | .hbm, ⟨49, _⟩ => ⟨S160000, .i1⟩
  | .hbm, ⟨50, _⟩ => ⟨S160000x256, .f32⟩
  | .hbm, ⟨51, _⟩ => ⟨S160000x256, .i1⟩
  | .hbm, ⟨52, _⟩ => ⟨S_, .f32⟩
  | .hbm, ⟨53, _⟩ => ⟨S160000x256, .f32⟩
  | .hbm, ⟨54, _⟩ => ⟨S160000x256, .f32⟩
  | .hbm, ⟨55, _⟩ => ⟨S160000x512, .f32⟩
  | .hbm, ⟨56, _⟩ => ⟨S160000x768, .f32⟩
  | .hbm, ⟨57, _⟩ => ⟨S160000x1, .f32⟩
  | .hbm, ⟨58, _⟩ => ⟨S1x1, .f32⟩
  | .hbm, ⟨59, _⟩ => ⟨S160000x1, .f32⟩
  | .hbm, ⟨60, _⟩ => ⟨S160000x1, .f32⟩
  | .hbm, ⟨61, _⟩ => ⟨S160000, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v4 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S160000x1 : S_.BroadcastsInDim S160000x1 (![] : Fin 0 → Fin S160000x1.rank)
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  reducesTo_S160000x1_S160000_d1 : S160000x1.ReducesTo [1] S160000
  h_S_ : 0 < S_.numel
  bcast_S160000_S160000x256_0 : S160000.BroadcastsInDim S160000x256 (![0] : Fin 1 → Fin S160000x256.rank)
  bcast_S_S160000x256 : S_.BroadcastsInDim S160000x256 (![] : Fin 0 → Fin S160000x256.rank)
  concatenates_S160000x256_S160000x256_S160000x512_d1 : Shape.Concatenates [S160000x256, S160000x256] S160000x512 1
  concatenates_S160000x512_S160000x256_S160000x768_d1 : Shape.Concatenates [S160000x512, S160000x256] S160000x768 1
  shapeCasts_S160000x1_S160000 : S160000x1.ShapeCasts S160000
  gather_S10000x256_S160000x1_S160000x256_1_0_n_n_0_1_1256_wf : GatherDims.WF S10000x256 S160000x1 S160000x256 [1] [0] [] [0] [] 1 ![1, 256]
  dot_S160000x768_S768x1_S160000x1_1_0_0_1_n_n_wf : DotDims.WF S160000x768 S768x1 S160000x1 [1] [0] [0] [1] [] []

variable [Facts₀]

def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def dot_S160000x768_S768x1_S160000x1_1_0_0_1_n_n : DotDims S160000x768 S768x1 S160000x1 where
  lhsContracting := [1]
  rhsContracting := [0]
  lhsNonContracting := [0]
  rhsNonContracting := [1]
  lhsBatch := []
  rhsBatch := []
  wf := dot_S160000x768_S768x1_S160000x1_1_0_0_1_n_n_wf

class Facts : Prop extends Facts₀ where

variable [Facts]
-- ==== Proof.CommonI.lean ====
/-
  The program as the launch of its threads sees it, and the ghost state the proof keeps.

  One device; its TensorCore runs the host program, which enters two pipelined matrix products and then starts a
  kernel on the thirty-two vector subcores of the two SparseCores. The ghost state has three independent parts: the
  rounds of the four start / done handshakes between the TensorCore, the sequencers and the vector subcores; the rounds
  of each vector subcore's own five copy-completion counters; and the rounds of the two pipelines' staging counters.
-/
import proofs.«207961_g9620726743389_cont_9to1c4b_395_8_alg».proof.KernelIdeal
import proofs.«207961_g9620726743389_cont_9to1c4b_395_8_alg».proof.Proof.Gen.KernelIdeal
import proofs.«207961_g9620726743389_cont_9to1c4b_395_8_alg».proof.Proof.Gen.KernelIdeal.Skeleton
import proofs.«207961_g9620726743389_cont_9to1c4b_395_8_alg».proof.Proof.Gen.KernelIdeal.Launch
import proofs.«207961_g9620726743389_cont_9to1c4b_395_8_alg».proof.Proof.Gen.KernelIdeal.Points
import Idealize.ShloMosaic.Lib.SparseCore.Launch
import Idealize.ShloMosaic.Lib.SparseCore.Ops
import Idealize.ShloMosaic.Lib.Pipeline.Regions
import Idealize.ShloMosaic.Lib.StableHlo.Run
import Idealize.ShloMosaic.Lib.Tactic

noncomputable section

namespace Cert.KernelIdeal.Common

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The vector subcores' copy-completion counters' rounds. -/
abbrev UK : Type := URounds (GSem nD τ sig) Unit
/-- The pipelines' staging counters' rounds. -/
abbrev UP : Type := URounds (GSem nD τ sig) Unit
abbrev UU : Type := UH × (UK × UP)

abbrev 𝕄 (F : FTy → Type) : Type := MT nD τ sig (HIx 1) (Elt F) ℕ UU ℕ

def EH : Emb UH (𝕄 F) :=
  (Emb.inl : Emb UH UU).trans (uEmb (nD := nD) (sig := sig) (Ix := HIx 1) (Val := Elt F) (Name := ℕ) (U := UU) (Lvl := ℕ)).toEmb
def EK : Emb UK (𝕄 F) :=
  ((Emb.inl : Emb UK (UK × UP)).trans (Emb.inr : Emb (UK × UP) UU)).trans (uEmb (nD := nD) (sig := sig) (Ix := HIx 1) (Val := Elt F) (Name := ℕ) (U := UU) (Lvl := ℕ)).toEmb
def EP : Emb UP (𝕄 F) :=
  ((Emb.inr : Emb UP (UK × UP)).trans (Emb.inr : Emb (UK × UP) UU)).trans (uEmb (nD := nD) (sig := sig) (Ix := HIx 1) (Val := Elt F) (Name := ℕ) (U := UU) (Lvl := ℕ)).toEmb

instance EH_landsIn : (EH : Emb UH (𝕄 F)).LandsIn (upEmb : UEmb _ (𝕄 F)) := by unfold EH; infer_instance
instance EK_landsIn : (EK : Emb UK (𝕄 F)).LandsIn (upEmb : UEmb _ (𝕄 F)) := by unfold EK; infer_instance
instance EP_landsIn : (EP : Emb UP (𝕄 F)).LandsIn (upEmb : UEmb _ (𝕄 F)) := by unfold EP; infer_instance

end Cert.KernelIdeal.Common

end
-- ==== Proof.MainShapeI.lean ====
/-
  The host program cut at its three calls.

  Between the calls the TensorCore runs plain array operations: first the two rows of the edge list are cut out and
  flattened, the weight column is cut into its three runs of 256 (the first two set side by side as a 256 x 2 matrix) and
  the bias is made a 1 x 1 matrix; after the first call its 10000 x 2 result is flattened to 20000 entries and the edge
  features are viewed as four stacks of 40000 rows; after the second call its four 40000 x 1 results are flattened,
  laid end to end and padded with 1280 zeros, and the two flattened edge-list rows are padded with 1280 zero words;
  after the kernel on the vector subcores the first 160000 entries of its result are kept.
-/
import proofs.«207961_g9620726743389_cont_9to1c4b_395_8_alg».proof.Proof.CommonI

noncomputable section

namespace Cert.KernelIdeal.MainShape

open Cert.KernelIdeal Cert.KernelIdeal.Gen Cert.KernelIdeal.Common
open Idealize.ShloMosaic Idealize.ShloMosaic.TcCoe Idealize.SL.Sem Idealize.ShloMosaic.StableHlo

variable {F : FTy → Type} [FloatOps F]

/-- The nine operations before the first call. -/
abbrev ops1 : List (HloOp τ sig (Elt F)) :=
  [
    unary main_arg2 main_v0 ((extractStridedSlice S1x160000 ![0, 0] · slices_S2x160000_S1x160000_0_0) : (⟨S2x160000, .i32⟩ : BufTy).Contents (Elt F) → (⟨S1x160000, .i32⟩ : BufTy).Contents (Elt F)),
    reshape main_v0 main_v1 rfl shapeCasts_S1x160000_S160000,
    unary main_arg2 main_v2 ((extractStridedSlice S1x160000 ![1, 0] · slices_S2x160000_S1x160000_1_0) : (⟨S2x160000, .i32⟩ : BufTy).Contents (Elt F) → (⟨S1x160000, .i32⟩ : BufTy).Contents (Elt F)),
    reshape main_v2 main_v3 rfl shapeCasts_S1x160000_S160000,
    unary main_arg3 main_v4 ((extractStridedSlice S256x1 ![0, 0] · slices_S768x1_S256x1_0_0) : (⟨S768x1, .f32⟩ : BufTy).Contents (Elt F) → (⟨S256x1, .f32⟩ : BufTy).Contents (Elt F)),
    unary main_arg3 main_v5 ((extractStridedSlice S256x1 ![256, 0] · slices_S768x1_S256x1_256_0) : (⟨S768x1, .f32⟩ : BufTy).Contents (Elt F) → (⟨S256x1, .f32⟩ : BufTy).Contents (Elt F)),
    binary main_v4 main_v5 main_v6 ((fun a b => concatenate S256x2 1 [⟨S256x1, a⟩, ⟨S256x1, b⟩] concatenates_S256x1_S256x1_S256x2_d1) : (⟨S256x1, .f32⟩ : BufTy).Contents (Elt F) → (⟨S256x1, .f32⟩ : BufTy).Contents (Elt F) → (⟨S256x2, .f32⟩ : BufTy).Contents (Elt F)),
    unary main_arg3 main_v7 ((extractStridedSlice S256x1 ![512, 0] · slices_S768x1_S256x1_512_0) : (⟨S768x1, .f32⟩ : BufTy).Contents (Elt F) → (⟨S256x1, .f32⟩ : BufTy).Contents (Elt F)),
    reshape main_arg4 main_v8 rfl shapeCasts_S1_S1x1 ]

/-- The two operations between the calls. -/
abbrev ops2 : List (HloOp τ sig (Elt F)) :=
  [
    reshape main_v9 main_v10 rfl shapeCasts_S10000x2_S20000,
    reshape main_arg1 main_v11 rfl shapeCasts_S160000x256_S4x40000x256 ]

/-- The twelve operations between the second call and the kernel on the vector subcores. -/
abbrev ops3 : List (HloOp τ sig (Elt F)) :=
  [
    reshape main_v12_0 main_v13 rfl shapeCasts_S40000x1_S40000,
    reshape main_v12_1 main_v14 rfl shapeCasts_S40000x1_S40000,
    reshape main_v12_2 main_v15 rfl shapeCasts_S40000x1_S40000,
    reshape main_v12_3 main_v16 rfl shapeCasts_S40000x1_S40000,
    nullary main_cst (constant S_ .f32 0x00000000#32),
    unary main_cst main_v17 (broadcastInDim S1280 ![] bcast_S_S1280 : (⟨S_, .f32⟩ : BufTy).Contents (Elt F) → (⟨S1280, .f32⟩ : BufTy).Contents (Elt F)),
    nary ![main_v13, main_v14, main_v15, main_v16, main_v17] main_v18 (fun u => concatenate S161280 0 [⟨S40000, u 0⟩, ⟨S40000, u 1⟩, ⟨S40000, u 2⟩, ⟨S40000, u 3⟩, ⟨S1280, u 4⟩] concatenates_S40000_S40000_S40000_S40000_S1280_S161280_d0),
    nullary main_c (constantI S_ 32 0#32),
    unary main_c main_v19 (broadcastInDim S1280 ![] bcast_S_S1280 : (⟨S_, .i32⟩ : BufTy).Contents (Elt F) → (⟨S1280, .i32⟩ : BufTy).Contents (Elt F)),
    binary main_v1 main_v19 main_v20 ((fun a b => concatenate S161280 0 [⟨S160000, a⟩, ⟨S1280, b⟩] concatenates_S160000_S1280_S161280_d0) : (⟨S160000, .i32⟩ : BufTy).Contents (Elt F) → (⟨S1280, .i32⟩ : BufTy).Contents (Elt F) → (⟨S161280, .i32⟩ : BufTy).Contents (Elt F)),
    binary main_v3 main_v19 main_v21 ((fun a b => concatenate S161280 0 [⟨S160000, a⟩, ⟨S1280, b⟩] concatenates_S160000_S1280_S161280_d0) : (⟨S160000, .i32⟩ : BufTy).Contents (Elt F) → (⟨S1280, .i32⟩ : BufTy).Contents (Elt F) → (⟨S161280, .i32⟩ : BufTy).Contents (Elt F)) ]

/-- The one operation after it. -/
abbrev ops4 : List (HloOp τ sig (Elt F)) :=
  [
    unary main_v22 main_v23 ((extractStridedSlice S160000 ![0] · slices_S161280_S160000_0) : (⟨S161280, .f32⟩ : BufTy).Contents (Elt F) → (⟨S160000, .f32⟩ : BufTy).Contents (Elt F)) ]

/-- The host program is those four stretches with the three calls between them. -/
theorem main_eq (d : Dev nD) :
    main (F := F) d
      = (seq ops1 >>= fun _ => Prog.lift (.customCall (SparseCore.inner (Pipeline.entry 0)) ()) >>= fun _ =>
          seq ops2 >>= fun _ => Prog.lift (.customCall (SparseCore.inner (Pipeline.entry 1)) ()) >>= fun _ =>
          seq ops3 >>= fun _ => (sc (F := F)).run d 0 >>= fun _ => seq ops4) := rfl

end Cert.KernelIdeal.MainShape

end
-- ==== Proof.HostI.lean ====
/-
  The TensorCore's arrays between the calls.

  All the arrays the host program names live in the device's main memory and belong to no call's staging; the proof
  keeps them together, each whole, at a table of contents. A stretch of array operations carries the table to the table
  after the operations; nothing else of the device is touched.
-/
import proofs.«207961_g9620726743389_cont_9to1c4b_395_8_alg».proof.Proof.MainShapeI

noncomputable section

namespace Cert.KernelIdeal.Host

open Cert.KernelIdeal Cert.KernelIdeal.Gen Cert.KernelIdeal.Common Cert.KernelIdeal.MainShape
open Idealize.ShloMosaic Idealize.ShloMosaic.TcCoe Idealize.ShloMosaic.StableHlo
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-- The host program's arrays: the references the TensorCore names that no call stages through. -/
def SU : Finset (DevRef τ sig) :=
  (Finset.univ.filter fun b : Ref sig .tc => ¬ b.isScoped).map ⟨Proc.devRef .tc, Proc.devRef_injective _⟩

theorem mem_SU (r : Ref sig .tc) (h : r.isScoped = false) : (Proc.devRef .tc r : DevRef τ sig) ∈ SU :=
  Finset.mem_map.mpr ⟨r, Finset.mem_filter.mpr ⟨Finset.mem_univ _, by simp [h]⟩, rfl⟩

/-- Held together at a table of contents, they are what the launch deals the TensorCore. -/
theorem unscoped_held (d : Dev nD) (W : Valuation τ sig (Elt F)) :
    (unscopedBufs d (fun b => W (Proc.devRef .tc b)) : sProp (𝕄 F)) = held (T d) SU W := by
  unfold unscopedBufs held SU
  rw [bigSep_map]; rfl

/-- The launch table: every array at what the memory holds. -/
def V0 (m : (ℓ : Loc nD τ sig) → Buf (Elt F) ℓ) (d : Dev nD) : Valuation τ sig (Elt F) := fun b => m (d, b)

variable [FloatOps F]

theorem ops1_sub : ∀ op ∈ (ops1 : List (HloOp τ sig (Elt F))), op.bufs ⊆ SU := by
  intro op hop
  simp only [ops1, List.mem_cons, List.mem_nil_iff, or_false] at hop
  rcases hop with rfl | rfl | rfl | rfl | rfl | rfl | rfl | rfl | rfl <;>
    (intro b hb; simp only [StableHlo.unary, StableHlo.reshape, StableHlo.binary, Finset.mem_insert, Finset.mem_singleton] at hb;
     rcases hb with rfl | rfl | rfl <;> exact mem_SU _ (by decide))

theorem ops2_sub : ∀ op ∈ (ops2 : List (HloOp τ sig (Elt F))), op.bufs ⊆ SU := by
  intro op hop
  simp only [ops2, List.mem_cons, List.mem_nil_iff, or_false] at hop
  rcases hop with rfl | rfl <;>
    (intro b hb; simp only [StableHlo.reshape, Finset.mem_insert, Finset.mem_singleton] at hb;
     rcases hb with rfl | rfl <;> exact mem_SU _ (by decide))

theorem ops3_sub : ∀ op ∈ (ops3 : List (HloOp τ sig (Elt F))), op.bufs ⊆ SU := by
  intro op hop
  simp only [ops3, List.mem_cons, List.mem_nil_iff, or_false] at hop
  rcases hop with rfl | rfl | rfl | rfl | rfl | rfl | rfl | rfl | rfl | rfl | rfl <;>
    (intro b hb
     simp only [StableHlo.unary, StableHlo.reshape, StableHlo.binary, StableHlo.nullary, StableHlo.nary, Finset.mem_insert, Finset.mem_singleton,
       Finset.mem_image, Finset.mem_univ, true_and] at hb
     first
       | (rcases hb with rfl | rfl | rfl <;> exact mem_SU _ (by decide))
       | (rcases hb with rfl | rfl <;> exact mem_SU _ (by decide))
       | (rcases hb with rfl; exact mem_SU _ (by decide))
       | (rcases hb with rfl | ⟨k, rfl⟩
          · exact mem_SU _ (by decide)
          · fin_cases k <;> exact mem_SU _ (by decide)))

theorem ops4_sub : ∀ op ∈ (ops4 : List (HloOp τ sig (Elt F))), op.bufs ⊆ SU := by
  intro op hop
  simp only [ops4, List.mem_cons, List.mem_nil_iff, or_false] at hop
  rcases hop with rfl
  intro b hb; simp only [StableHlo.unary, Finset.mem_insert, Finset.mem_singleton] at hb
  rcases hb with rfl | rfl <;> exact mem_SU _ (by decide)

end Cert.KernelIdeal.Host

end
-- ==== Proof.TileCells.lean ====
/-
  One vector subcore's part of the gather kernel: the arrays it is called on, the slice of them it owns, the value it
  leaves there, and the ghost state of its five copy-completion counters.

  Subcore (c, s) copies the whole table and its 5040-entry slices of the row words, the column words and the edge
  scores into its own scratch, computes entry by entry (table at twice the row word + table at twice the column word
  plus one) + edge score, and copies the 5040 results to its slice of the output. Each copy completes on a counter of its
  own, a cell of one round with one duty; what a landing hands back names the contents exactly, so the schedule is
  stated over the arrays' contents when the kernel starts.
-/
import proofs.«207961_g9620726743389_cont_9to1c4b_395_8_alg».proof.Proof.CommonI
import Idealize.ShloMosaic.Lib.ValueIdx

noncomputable section

namespace Cert.KernelIdeal.Tile

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The arrays -/

/-- The table, the row words, the column words, the edge scores and the result, as locations of device d. -/
abbrev tabLoc (d : Dev nD) : Loc nD τ sig := (SparseCore.T d).loc main_v10
abbrev rowLoc (d : Dev nD) : Loc nD τ sig := (SparseCore.T d).loc main_v20
abbrev colLoc (d : Dev nD) : Loc nD τ sig := (SparseCore.T d).loc main_v21
abbrev esLoc (d : Dev nD) : Loc nD τ sig := (SparseCore.T d).loc main_v18
abbrev outLoc (d : Dev nD) : Loc nD τ sig := (SparseCore.T d).loc main_v22

abbrev tabV : Memref sig .scVector .hbm S20000 .f32 := Memref.whole main_v10_scv
abbrev rowV : Memref sig .scVector .hbm S161280 .i32 := Memref.whole main_v20_scv
abbrev colV : Memref sig .scVector .hbm S161280 .i32 := Memref.whole main_v21_scv
abbrev esV : Memref sig .scVector .hbm S161280 .f32 := Memref.whole main_v18_scv
abbrev outV : Memref sig .scVector .hbm S161280 .f32 := Memref.whole main_v22_scv
/-- A subcore's scratch: the table, its row words, its column words, its edge scores, its results. -/
abbrev sTab : Memref sig .scVector .vmem S20000 .f32 := Memref.whole cc2_scratch0
abbrev sRow : Memref sig .scVector .vmem S5040 .i32 := Memref.whole cc2_scratch1
abbrev sCol : Memref sig .scVector .vmem S5040 .i32 := Memref.whole cc2_scratch2
abbrev sEs : Memref sig .scVector .vmem S5040 .f32 := Memref.whole cc2_scratch3
abbrev sOut : Memref sig .scVector .vmem S5040 .f32 := Memref.whole cc2_scratch4

/-! ## The subcore and its slice -/

abbrev cV (L : grid2.Coords) : Fin τ.nSC := (L 0).castLE hcore2
abbrev jV (L : grid2.Coords) : Fin τ.nSub := (L 1).castLE hsub2
/-- The grid point of subcore (c, i). -/
abbrev Lof (c : Fin τ.nSC) (i : Fin τ.nSub) : grid2.Coords :=
  fun | 0 => c | 1 => i | ⟨_ + 2, h⟩ => absurd h (Nat.not_lt.2 (Nat.le_add_left _ _))

theorem Lof_cV_jV (L : grid2.Coords) : Lof (cV L) (jV L) = L := by
  funext a
  match a with
  | 0 => rfl
  | 1 => rfl

/-- The 5040 entries from the subcore's offset: the rectangle every slice of the kernel is cut at. -/
abbrev slR (L : grid2.Coords) : Rect S161280 := Rect.unit (s := S161280) (k2_off1 L) S5040.size (k2_off1_inb L)
/-- The slice of a [161280] array that subcore L owns. -/
abbrev sl (L : grid2.Coords) : Finset S161280.Idx := (slR L).set

abbrev rowSl (L : grid2.Coords) : Memref sig .scVector .hbm S5040 .i32 := (rowV).slice (slR L) (fun _ => rfl)
abbrev colSl (L : grid2.Coords) : Memref sig .scVector .hbm S5040 .i32 := (colV).slice (slR L) (fun _ => rfl)
abbrev esSl (L : grid2.Coords) : Memref sig .scVector .hbm S5040 .f32 := (esV).slice (slR L) (fun _ => rfl)
abbrev outSl (L : grid2.Coords) : Memref sig .scVector .hbm S5040 .f32 := (outV).slice (slR L) (fun _ => rfl)

theorem set_rowSl (L : grid2.Coords) : (rowSl L).view.set = sl L := by
  show ((View.whole (main_v20_scv : Ref sig .scVector)).slice (slR L)).set = _
  rw [View.set_slice]; exact Finset.map_refl
theorem set_colSl (L : grid2.Coords) : (colSl L).view.set = sl L := by
  show ((View.whole (main_v21_scv : Ref sig .scVector)).slice (slR L)).set = _
  rw [View.set_slice]; exact Finset.map_refl
theorem set_esSl (L : grid2.Coords) : (esSl L).view.set = sl L := by
  show ((View.whole (main_v18_scv : Ref sig .scVector)).slice (slR L)).set = _
  rw [View.set_slice]; exact Finset.map_refl
theorem set_outSl (L : grid2.Coords) : (outSl L).view.set = sl L := by
  show ((View.whole (main_v22_scv : Ref sig .scVector)).slice (slR L)).set = _
  rw [View.set_slice]; exact Finset.map_refl

/-! ## The value -/

/-- An index of the table from a number, capped at the last entry. -/
def tIx (n : Nat) : S20000.Idx := ix1 (⟨min n 19999, by omega⟩ : Fin 20000)

variable [FloatOps F]

/-- What the kernel leaves in the result: entry by entry, (the table at twice the row word + the table at twice the
    column word plus one) + the edge score, in the float instance's own addition. -/
def outVal (d : Dev nD) (tabF : Buf (Elt F) (tabLoc d)) (rowF : Buf (Elt F) (rowLoc d)) (colF : Buf (Elt F) (colLoc d))
    (esF : Buf (Elt F) (esLoc d)) : Buf (Elt F) (outLoc d) :=
  fun j => FloatOps.addf (φ := .f32) (FloatOps.addf (φ := .f32) (tabF (tIx (2 * (rowF j : BitVec 32).toNat))) (tabF (tIx (2 * (colF j : BitVec 32).toNat + 1)))) (esF j)

/-- What the kernel is started on, fixed when the program is launched: the share of the table each subcore reads (one per subcore), and
    the contents of the table, the row words, the column words and the edge scores on each device. -/
structure Ins (F : FTy → Type) where
  q : Fin τ.nSC → Fin τ.nSub → PosShare TreeShare
  tab : (d : Dev nD) → Buf (Elt F) (tabLoc d)
  row : (d : Dev nD) → Buf (Elt F) (rowLoc d)
  col : (d : Dev nD) → Buf (Elt F) (colLoc d)
  es : (d : Dev nD) → Buf (Elt F) (esLoc d)

/-! ## The kernel's cells -/

abbrev c0cell (d : Dev nD) (c : Fin τ.nSC) (i : Fin τ.nSub) : GSem nD τ sig := (V d c i, .dma cc2_scoped0.sem)
abbrev c1cell (d : Dev nD) (c : Fin τ.nSC) (i : Fin τ.nSub) : GSem nD τ sig := (V d c i, .dma cc2_scoped1.sem)
abbrev c2cell (d : Dev nD) (c : Fin τ.nSC) (i : Fin τ.nSub) : GSem nD τ sig := (V d c i, .dma cc2_scoped2.sem)
abbrev c3cell (d : Dev nD) (c : Fin τ.nSC) (i : Fin τ.nSub) : GSem nD τ sig := (V d c i, .dma cc2_scoped3.sem)
abbrev c4cell (d : Dev nD) (c : Fin τ.nSC) (i : Fin τ.nSub) : GSem nD τ sig := (V d c i, .dma cc2_scoped4.sem)

abbrev N0 : ℕ := (sTab : Memref sig .scVector .vmem S20000 .f32).view.dmaCredit
abbrev N1 : ℕ := (sRow : Memref sig .scVector .vmem S5040 .i32).view.dmaCredit
abbrev N2 : ℕ := (sCol : Memref sig .scVector .vmem S5040 .i32).view.dmaCredit
abbrev N3 : ℕ := (sEs : Memref sig .scVector .vmem S5040 .f32).view.dmaCredit
abbrev N4 : ℕ := sig.dmaCredit .scVector (Kind.scVector.table .hbm) (main_v22_scv : Ref sig .scVector).idx S5040 .f32
theorem N0_pos : 0 < N0 := View.dmaCredit_pos _ (by decide)
theorem N1_pos : 0 < N1 := View.dmaCredit_pos _ (by decide)
theorem N2_pos : 0 < N2 := View.dmaCredit_pos _ (by decide)
theorem N3_pos : 0 < N3 := View.dmaCredit_pos _ (by decide)
theorem N4_pos : 0 < N4 := sig.dmaCredit_pos _ _ _ _ _ (by decide)

inductive CellKind | k0 | k1 | k2 | k3 | k4
  deriving DecidableEq

def cellKind (g : GSem nD τ sig) : Option CellKind :=
  match g with
  | ((_, .scVector _ _), sm) =>
      if sm = .dma cc2_scoped0.sem then some .k0 else if sm = .dma cc2_scoped1.sem then some .k1
      else if sm = .dma cc2_scoped2.sem then some .k2 else if sm = .dma cc2_scoped3.sem then some .k3
      else if sm = .dma cc2_scoped4.sem then some .k4 else none
  | _ => none

theorem dsem10 : (cc2_scoped1.sem : DmaSem sig) ≠ cc2_scoped0.sem := by decide
theorem dsem20 : (cc2_scoped2.sem : DmaSem sig) ≠ cc2_scoped0.sem := by decide
theorem dsem21 : (cc2_scoped2.sem : DmaSem sig) ≠ cc2_scoped1.sem := by decide
theorem dsem30 : (cc2_scoped3.sem : DmaSem sig) ≠ cc2_scoped0.sem := by decide
theorem dsem31 : (cc2_scoped3.sem : DmaSem sig) ≠ cc2_scoped1.sem := by decide
theorem dsem32 : (cc2_scoped3.sem : DmaSem sig) ≠ cc2_scoped2.sem := by decide
theorem dsem40 : (cc2_scoped4.sem : DmaSem sig) ≠ cc2_scoped0.sem := by decide
theorem dsem41 : (cc2_scoped4.sem : DmaSem sig) ≠ cc2_scoped1.sem := by decide
theorem dsem42 : (cc2_scoped4.sem : DmaSem sig) ≠ cc2_scoped2.sem := by decide
theorem dsem43 : (cc2_scoped4.sem : DmaSem sig) ≠ cc2_scoped3.sem := by decide
theorem sem10 : (SemLoc.dma cc2_scoped1.sem : SemLoc sig) ≠ .dma cc2_scoped0.sem := fun h => dsem10 (SemLoc.dma.inj h)
theorem sem20 : (SemLoc.dma cc2_scoped2.sem : SemLoc sig) ≠ .dma cc2_scoped0.sem := fun h => dsem20 (SemLoc.dma.inj h)
theorem sem21 : (SemLoc.dma cc2_scoped2.sem : SemLoc sig) ≠ .dma cc2_scoped1.sem := fun h => dsem21 (SemLoc.dma.inj h)
theorem sem30 : (SemLoc.dma cc2_scoped3.sem : SemLoc sig) ≠ .dma cc2_scoped0.sem := fun h => dsem30 (SemLoc.dma.inj h)
theorem sem31 : (SemLoc.dma cc2_scoped3.sem : SemLoc sig) ≠ .dma cc2_scoped1.sem := fun h => dsem31 (SemLoc.dma.inj h)
theorem sem32 : (SemLoc.dma cc2_scoped3.sem : SemLoc sig) ≠ .dma cc2_scoped2.sem := fun h => dsem32 (SemLoc.dma.inj h)
theorem sem40 : (SemLoc.dma cc2_scoped4.sem : SemLoc sig) ≠ .dma cc2_scoped0.sem := fun h => dsem40 (SemLoc.dma.inj h)
theorem sem41 : (SemLoc.dma cc2_scoped4.sem : SemLoc sig) ≠ .dma cc2_scoped1.sem := fun h => dsem41 (SemLoc.dma.inj h)
theorem sem42 : (SemLoc.dma cc2_scoped4.sem : SemLoc sig) ≠ .dma cc2_scoped2.sem := fun h => dsem42 (SemLoc.dma.inj h)
theorem sem43 : (SemLoc.dma cc2_scoped4.sem : SemLoc sig) ≠ .dma cc2_scoped3.sem := fun h => dsem43 (SemLoc.dma.inj h)

@[simp] theorem cellKind_c0 (d : Dev nD) (c : Fin τ.nSC) (i : Fin τ.nSub) : cellKind (c0cell d c i) = some .k0 := by simp [cellKind]
@[simp] theorem cellKind_c1 (d : Dev nD) (c : Fin τ.nSC) (i : Fin τ.nSub) : cellKind (c1cell d c i) = some .k1 := by
  simp [cellKind, dsem10]
@[simp] theorem cellKind_c2 (d : Dev nD) (c : Fin τ.nSC) (i : Fin τ.nSub) : cellKind (c2cell d c i) = some .k2 := by
  simp [cellKind, dsem20, dsem21]
@[simp] theorem cellKind_c3 (d : Dev nD) (c : Fin τ.nSC) (i : Fin τ.nSub) : cellKind (c3cell d c i) = some .k3 := by
  simp [cellKind, dsem30, dsem31, dsem32]
@[simp] theorem cellKind_c4 (d : Dev nD) (c : Fin τ.nSC) (i : Fin τ.nSub) : cellKind (c4cell d c i) = some .k4 := by
  simp [cellKind, dsem40, dsem41, dsem42, dsem43]

variable (X : Ins F)

/-- What a landing hands back. The four fetches: the scratch at what the source reads, and the source share back.
    The write-out: the subcore's slice of the result at the value, and the result scratch at some contents. -/
def kPay (g : GSem nD τ sig) : sProp (𝕄 F) :=
  match g with
  | ((d, .scVector c i), sm) =>
      if sm = .dma cc2_scoped0.sem then
        iprop(((V d c i).loc cc2_scratch0 ↦{fullShare} (tabV).view.read (Elt F) (X.tab d)) ∗ tabLoc d ↦{X.q c i} X.tab d)
      else if sm = .dma cc2_scoped1.sem then
        iprop(((V d c i).loc cc2_scratch1 ↦{fullShare} (rowSl (Lof c i)).view.read (Elt F) (X.row d)) ∗ rowLoc d ↦[sl (Lof c i)]{fullShare} X.row d)
      else if sm = .dma cc2_scoped2.sem then
        iprop(((V d c i).loc cc2_scratch2 ↦{fullShare} (colSl (Lof c i)).view.read (Elt F) (X.col d)) ∗ colLoc d ↦[sl (Lof c i)]{fullShare} X.col d)
      else if sm = .dma cc2_scoped3.sem then
        iprop(((V d c i).loc cc2_scratch3 ↦{fullShare} (esSl (Lof c i)).view.read (Elt F) (X.es d)) ∗ esLoc d ↦[sl (Lof c i)]{fullShare} X.es d)
      else iprop((outLoc d ↦[sl (Lof c i)]{fullShare} outVal d (X.tab d) (X.row d) (X.col d) (X.es d)) ∗ ∃ f, (V d c i).loc cc2_scratch4 ↦{fullShare} f)
  | _ => iprop(emp)

def kRd : Rounds.Schedule (GSem nD τ sig) Unit (𝕄 F) where
  duties g r := if (cellKind g).isSome ∧ r = 0 then {()} else ∅
  amount g _ _ := match cellKind g with | some .k0 => N0 | some .k1 => N1 | some .k2 => N2 | some .k3 => N3 | _ => N4
  payload g _ _ := kPay X g
  amount_pos g _ _ _ := by
    rcases cellKind g with _ | ⟨_ | _ | _ | _ | _⟩
    · exact N4_pos
    · exact N0_pos
    · exact N1_pos
    · exact N2_pos
    · exact N3_pos
    · exact N4_pos

instance kRd_payload_storable (g : GSem nD τ sig) (r : ℕ) (u : Unit) : BI.Storable (upEmb : UEmb _ (𝕄 F)) ((kRd X).payload g r u) := by
  show BI.Storable upEmb (kPay X g)
  unfold kPay
  rcases g with ⟨⟨d, _ | c | ⟨c, i⟩⟩, sm⟩ <;> dsimp only <;> (repeat' split) <;> infer_instance

theorem kRd_duties₀ {g : GSem nD τ sig} (h : (cellKind g).isSome) : (kRd X).duties g 0 = {()} := if_pos ⟨h, rfl⟩
theorem kRd_mem₀ {g : GSem nD τ sig} (h : (cellKind g).isSome) : () ∈ (kRd X).duties g 0 := by
  rw [kRd_duties₀ X h]; exact Finset.mem_singleton_self _
theorem kRd_later (g : GSem nD τ sig) : ∀ r, 0 + 1 ≤ r → (kRd X).duties g r = ∅ :=
  fun r hr => if_neg fun ⟨_, h⟩ => by omega
theorem kRd_back {g : GSem nD τ sig} (h : (cellKind g).isSome) :
    bigSep ((kRd X).duties g 0 \ ∅) (fun u => (kRd X).payload g 0 u) ⊢ (kRd X).payload g 0 () := by
  rw [Finset.sdiff_empty, kRd_duties₀ X h, bigSep_singleton]
theorem kRd_expect {g : GSem nD τ sig} (h : (cellKind g).isSome) : (kRd X).expect g 0 = (kRd X).amount g 0 () := by
  unfold Rounds.Schedule.expect; rw [kRd_duties₀ X h]; exact Finset.sum_singleton _ _
theorem kRd_amount_c0 (d : Dev nD) (c : Fin τ.nSC) (i : Fin τ.nSub) : (kRd X).amount (c0cell d c i) 0 () = N0 := by
  show (match cellKind (c0cell d c i) with | some .k0 => N0 | some .k1 => N1 | some .k2 => N2 | some .k3 => N3 | _ => N4) = N0
  rw [cellKind_c0]
theorem kRd_amount_c1 (d : Dev nD) (c : Fin τ.nSC) (i : Fin τ.nSub) : (kRd X).amount (c1cell d c i) 0 () = N1 := by
  show (match cellKind (c1cell d c i) with | some .k0 => N0 | some .k1 => N1 | some .k2 => N2 | some .k3 => N3 | _ => N4) = N1
  rw [cellKind_c1]
theorem kRd_amount_c2 (d : Dev nD) (c : Fin τ.nSC) (i : Fin τ.nSub) : (kRd X).amount (c2cell d c i) 0 () = N2 := by
  show (match cellKind (c2cell d c i) with | some .k0 => N0 | some .k1 => N1 | some .k2 => N2 | some .k3 => N3 | _ => N4) = N2
  rw [cellKind_c2]
theorem kRd_amount_c3 (d : Dev nD) (c : Fin τ.nSC) (i : Fin τ.nSub) : (kRd X).amount (c3cell d c i) 0 () = N3 := by
  show (match cellKind (c3cell d c i) with | some .k0 => N0 | some .k1 => N1 | some .k2 => N2 | some .k3 => N3 | _ => N4) = N3
  rw [cellKind_c3]
theorem kRd_amount_c4 (d : Dev nD) (c : Fin τ.nSC) (i : Fin τ.nSub) : (kRd X).amount (c4cell d c i) 0 () = N4 := by
  show (match cellKind (c4cell d c i) with | some .k0 => N0 | some .k1 => N1 | some .k2 => N2 | some .k3 => N3 | _ => N4) = N4
  rw [cellKind_c4]

theorem kRd_payload_c0 (d : Dev nD) (c : Fin τ.nSC) (i : Fin τ.nSub) :
    (kRd X).payload (c0cell d c i) 0 ()
      = iprop(((V d c i).loc cc2_scratch0 ↦{fullShare} (tabV).view.read (Elt F) (X.tab d)) ∗ tabLoc d ↦{X.q c i} X.tab d) := by
  show kPay X (c0cell d c i) = _; unfold kPay; exact if_pos rfl
theorem kRd_payload_c1 (d : Dev nD) (L : grid2.Coords) :
    (kRd X).payload (c1cell d (cV L) (jV L)) 0 ()
      = iprop(((V d (cV L) (jV L)).loc cc2_scratch1 ↦{fullShare} (rowSl L).view.read (Elt F) (X.row d)) ∗ rowLoc d ↦[sl L]{fullShare} X.row d) := by
  show kPay X (c1cell d (cV L) (jV L)) = _; unfold kPay
  refine ((if_neg sem10).trans (if_pos rfl)).trans ?_
  rw [Lof_cV_jV]
theorem kRd_payload_c2 (d : Dev nD) (L : grid2.Coords) :
    (kRd X).payload (c2cell d (cV L) (jV L)) 0 ()
      = iprop(((V d (cV L) (jV L)).loc cc2_scratch2 ↦{fullShare} (colSl L).view.read (Elt F) (X.col d)) ∗ colLoc d ↦[sl L]{fullShare} X.col d) := by
  show kPay X (c2cell d (cV L) (jV L)) = _; unfold kPay
  refine ((if_neg sem20).trans ((if_neg sem21).trans (if_pos rfl))).trans ?_
  rw [Lof_cV_jV]
theorem kRd_payload_c3 (d : Dev nD) (L : grid2.Coords) :
    (kRd X).payload (c3cell d (cV L) (jV L)) 0 ()
      = iprop(((V d (cV L) (jV L)).loc cc2_scratch3 ↦{fullShare} (esSl L).view.read (Elt F) (X.es d)) ∗ esLoc d ↦[sl L]{fullShare} X.es d) := by
  show kPay X (c3cell d (cV L) (jV L)) = _; unfold kPay
  refine ((if_neg sem30).trans ((if_neg sem31).trans ((if_neg sem32).trans (if_pos rfl)))).trans ?_
  rw [Lof_cV_jV]
theorem kRd_payload_c4 (d : Dev nD) (L : grid2.Coords) :
    (kRd X).payload (c4cell d (cV L) (jV L)) 0 ()
      = iprop((outLoc d ↦[sl L]{fullShare} outVal d (X.tab d) (X.row d) (X.col d) (X.es d)) ∗ ∃ f, (V d (cV L) (jV L)).loc cc2_scratch4 ↦{fullShare} f) := by
  show kPay X (c4cell d (cV L) (jV L)) = _; unfold kPay
  refine ((if_neg sem40).trans ((if_neg sem41).trans ((if_neg sem42).trans (if_neg sem43)))).trans ?_
  rw [Lof_cV_jV]

/-- A cell's kit: its round state, its owner's position before round 0, round 0 reached, and the one duty's token. -/
def kit (g : GSem nD τ sig) : sProp (𝕄 F) :=
  iprop(roundState EK (kRd X) g 0 ∗ atPos EK g 0 ∅ 0 ∗ reached EK g 0 ∗ dutyTok EK g 0 ())

/-- The five kits of vector subcore (c, i) of device d. -/
def kits (d : Dev nD) (c : Fin τ.nSC) (i : Fin τ.nSub) : sProp (𝕄 F) :=
  iprop(kit X (c0cell d c i) ∗ kit X (c1cell d c i) ∗ kit X (c2cell d c i) ∗ kit X (c3cell d c i) ∗ kit X (c4cell d c i))

end Cert.KernelIdeal.Tile

end
-- ==== Proof.SplitI.lean ====
/-
  The padded arrays cut among the thirty-two vector subcores.

  Vector subcore `i` of SparseCore `c` is worker number `2 i + c`; it owns the 5040 entries of each padded array
  from entry `5040 (2 i + c)` on. The thirty-two pieces do not overlap and leave nothing out (32 x 5040 = 161280), so
  an array held whole is the thirty-two pieces held side by side, and back.
-/
import proofs.«207961_g9620726743389_cont_9to1c4b_395_8_alg».proof.Proof.TileCells
import Idealize.ShloMosaic.Lib.Transfers

noncomputable section

namespace Cert.KernelIdeal.Split

open Cert.KernelIdeal Cert.KernelIdeal.Gen Cert.KernelIdeal.Common Cert.KernelIdeal.Tile
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Entry `j` is in the piece of worker `2 i + c` when it lies in that worker's run of 5040. -/
theorem mem_sl (c : Fin τ.nSC) (i : Fin τ.nSub) (j : S161280.Idx) :
    j ∈ sl (Lof c i) ↔ 5040 * (2 * i.val + c.val) ≤ (j 0).val ∧ (j 0).val < 5040 * (2 * i.val + c.val) + 5040 := by
  show j ∈ (Rect.unit (s := S161280) (k2_off1 (Lof c i)) S5040.size (k2_off1_inb (Lof c i))).set ↔ _
  rw [Rect.mem_set_unit, k2_off1_eq]
  constructor
  · intro h
    have h0 := h 0
    simp only [Matrix.cons_val_zero] at h0
    have e : (10080 * ((Lof c i) 1).val + 5040 * ((Lof c i) 0).val) = 5040 * (2 * i.val + c.val) := by
      show 10080 * i.val + 5040 * c.val = _; omega
    have hs : S5040.size 0 = 5040 := rfl
    omega
  · intro h a
    obtain rfl : a = 0 := Subsingleton.elim _ _
    simp only [Matrix.cons_val_zero]
    have e : (10080 * ((Lof c i) 1).val + 5040 * ((Lof c i) 0).val) = 5040 * (2 * i.val + c.val) := by
      show 10080 * i.val + 5040 * c.val = _; omega
    have hs : S5040.size 0 = 5040 := rfl
    omega

/-- Different workers' pieces do not overlap. -/
theorem sl_disjoint : ∀ p ∈ (Finset.univ : Finset (Fin τ.nSC × Fin τ.nSub)), ∀ p' ∈ (Finset.univ : Finset (Fin τ.nSC × Fin τ.nSub)),
    p ≠ p' → Disjoint (sl (Lof p.1 p.2)) (sl (Lof p'.1 p'.2)) := by
  rintro ⟨c, i⟩ - ⟨c', i'⟩ - hne
  refine Finset.disjoint_left.mpr fun j h h' => hne ?_
  rw [mem_sl] at h h'
  dsimp only at h h'
  have hc : c.val < 2 := c.isLt
  have hc' : c'.val < 2 := c'.isLt
  have : 2 * i.val + c.val = 2 * i'.val + c'.val := by omega
  exact Prod.ext (Fin.ext (show c.val = c'.val by omega)) (Fin.ext (show i.val = i'.val by omega))

/-- Every entry is in some worker's piece. -/
theorem sl_cover : (Finset.univ : Finset (Fin τ.nSC × Fin τ.nSub)).biUnion (fun p => sl (Lof p.1 p.2)) = Finset.univ := by
  ext j
  simp only [Finset.mem_biUnion, Finset.mem_univ, true_and, iff_true]
  have hj : (j 0).val < 161280 := (j 0).isLt
  have hw : (j 0).val / 5040 < 32 := by omega
  refine ⟨(⟨(j 0).val / 5040 % 2, by show _ < 2; omega⟩, ⟨(j 0).val / 5040 / 2, by show _ < 16; omega⟩), ?_⟩
  rw [mem_sl]
  show 5040 * (2 * ((j 0).val / 5040 / 2) + (j 0).val / 5040 % 2) ≤ _ ∧ _ < 5040 * (2 * ((j 0).val / 5040 / 2) + (j 0).val / 5040 % 2) + 5040
  have e : 2 * ((j 0).val / 5040 / 2) + (j 0).val / 5040 % 2 = (j 0).val / 5040 := by omega
  rw [e]; omega

/-- A padded array held whole is its thirty-two pieces held side by side: the source-node words, -/
theorem rowPts_pieces (d : Dev nD) (f : Buf (Elt F) (rowLoc d)) :
    (rowLoc d ↦{fullShare} f : sProp (𝕄 F))
      = bigSep Finset.univ fun p : Fin τ.nSC × Fin τ.nSub => rowLoc d ↦[sl (Lof p.1 p.2)]{fullShare} f := by
  rw [← pointsTo_biUnion Finset.univ (ℓ := rowLoc d) (fun p : Fin τ.nSC × Fin τ.nSub => sl (Lof p.1 p.2)) sl_disjoint, sl_cover]; try rfl
/-- the target-node words, -/
theorem colPts_pieces (d : Dev nD) (f : Buf (Elt F) (colLoc d)) :
    (colLoc d ↦{fullShare} f : sProp (𝕄 F))
      = bigSep Finset.univ fun p : Fin τ.nSC × Fin τ.nSub => colLoc d ↦[sl (Lof p.1 p.2)]{fullShare} f := by
  rw [← pointsTo_biUnion Finset.univ (ℓ := colLoc d) (fun p : Fin τ.nSC × Fin τ.nSub => sl (Lof p.1 p.2)) sl_disjoint, sl_cover]; try rfl
/-- the edges' own scores, -/
theorem esPts_pieces (d : Dev nD) (f : Buf (Elt F) (esLoc d)) :
    (esLoc d ↦{fullShare} f : sProp (𝕄 F))
      = bigSep Finset.univ fun p : Fin τ.nSC × Fin τ.nSub => esLoc d ↦[sl (Lof p.1 p.2)]{fullShare} f := by
  rw [← pointsTo_biUnion Finset.univ (ℓ := esLoc d) (fun p : Fin τ.nSC × Fin τ.nSub => sl (Lof p.1 p.2)) sl_disjoint, sl_cover]; try rfl
/-- and the result. -/
theorem outPts_pieces (d : Dev nD) (f : Buf (Elt F) (outLoc d)) :
    (outLoc d ↦{fullShare} f : sProp (𝕄 F))
      = bigSep Finset.univ fun p : Fin τ.nSC × Fin τ.nSub => outLoc d ↦[sl (Lof p.1 p.2)]{fullShare} f := by
  rw [← pointsTo_biUnion Finset.univ (ℓ := outLoc d) (fun p : Fin τ.nSC × Fin τ.nSub => sl (Lof p.1 p.2)) sl_disjoint, sl_cover]; try rfl

/-! ## The table: one read share per worker -/

/-- The worker number of vector subcore `i` of SparseCore `c`. -/
def wid (c : Fin τ.nSC) (i : Fin τ.nSub) : Fin 32 := ⟨2 * i.val + c.val, by have hc : c.val < 2 := c.isLt; have hi : i.val < 16 := i.isLt; omega⟩

/-- Subcores and worker numbers correspond one to one. -/
def widEquiv : Fin τ.nSC × Fin τ.nSub ≃ Fin 32 where
  toFun p := wid p.1 p.2
  invFun k := (⟨k.val % 2, by show _ < 2; omega⟩, ⟨k.val / 2, by have := k.isLt; show _ < 16; omega⟩)
  left_inv := by
    rintro ⟨c, i⟩
    have hc : c.val < 2 := c.isLt
    refine Prod.ext (Fin.ext ?_) (Fin.ext ?_)
    · show (2 * i.val + c.val) % 2 = c.val; omega
    · show (2 * i.val + c.val) / 2 = i.val; omega
  right_inv := by
    intro k
    refine Fin.ext ?_
    show 2 * (k.val / 2) + k.val % 2 = k.val; omega

/-- The read share of the table dealt to a subcore: the token of its worker number. -/
def tabShare (c : Fin τ.nSC) (i : Fin τ.nSub) : PosShare TreeShare := Transfers.shareTok fullShare 32 (wid c i)
/-- What is left of the table's share after the thirty-two tokens. -/
def tabRest : PosShare TreeShare := Transfers.shareDrop fullShare 32

omit [FloatOps F] in
theorem toks_reindex (Φ : Fin 32 → sProp (𝕄 F)) :
    bigSep Finset.univ Φ = bigSep Finset.univ fun p : Fin τ.nSC × Fin τ.nSub => Φ (wid p.1 p.2) := by
  rw [← Finset.map_univ_equiv widEquiv, bigSep_map]; rfl

/-- The table held whole is the remainder and one read token per subcore, -/
theorem tabPts_split (d : Dev nD) (f : Buf (Elt F) (tabLoc d)) :
    (tabLoc d ↦{fullShare} f : sProp (𝕄 F))
      ⊢ iprop((tabLoc d ↦{tabRest} f) ∗ bigSep Finset.univ fun p : Fin τ.nSC × Fin τ.nSub => tabLoc d ↦{tabShare p.1 p.2} f) := by
  refine (Transfers.pointsTo_toks_split (ℓ := tabLoc d) (S := Finset.univ) (f := f) fullShare 32).trans ?_
  rw [toks_reindex (F := F) (fun k => tabLoc d ↦{Transfers.shareTok fullShare 32 k} f)]
  exact BI.Entails.refl _
/-- and back. -/
theorem tabPts_join (d : Dev nD) (f : Buf (Elt F) (tabLoc d)) :
    iprop((tabLoc d ↦{tabRest} f) ∗ bigSep Finset.univ fun p : Fin τ.nSC × Fin τ.nSub => tabLoc d ↦{tabShare p.1 p.2} f)
      ⊢ (tabLoc d ↦{fullShare} f : sProp (𝕄 F)) := by
  refine BI.Entails.trans ?_ (Transfers.pointsTo_toks_join (ℓ := tabLoc d) (S := Finset.univ) (f := f) fullShare 32)
  rw [toks_reindex (F := F) (fun k => tabLoc d ↦{Transfers.shareTok fullShare 32 k} f)]
  exact BI.Entails.refl _

end Cert.KernelIdeal.Split

end
-- ==== Proof.PayI.lean ====
/-
  What the start / done handshakes of the kernel on the vector subcores carry.

  When the TensorCore starts the kernel it hands each vector subcore a read share of the gather table and the subcore's
  own 5040-entry pieces of the two index arrays, the edge scores and the result; when the subcore's task is done the same
  come back, the piece of the result now holding, entry by entry, (table at twice the source word + table at twice the
  target word plus one) + edge score. A SparseCore's sequencer passes the sixteen subcores' parts through unchanged.
-/
import proofs.«207961_g9620726743389_cont_9to1c4b_395_8_alg».proof.Proof.SplitI

noncomputable section

namespace Cert.KernelIdeal.Launch

open Cert.KernelIdeal Cert.KernelIdeal.Gen Cert.KernelIdeal.Common Cert.KernelIdeal.Tile Cert.KernelIdeal.Split

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## One subcore's task, as the launch uses it -/

/-- One vector subcore's run of the kernel body: from its table share and its four pieces (the result's at any contents)
    to the same with the result's piece at the value, its own scratch and counters handed through. -/
def TileBodySpec (X : Ins F) : Prop :=
  ∀ (_ : (K (F := F)).Facts) (d : Dev nD) (L : grid2.Coords) (outF : Buf (Elt F) (outLoc d))
    (_ : ∀ j ∈ sl L, (X.row d j : BitVec 32).toNat ≤ 9999) (_ : ∀ j ∈ sl L, (X.col d j : BitVec 32).toNat ≤ 9999)
    (O : CellTallies nD τ sig (HIx 1)) (W : Waits sig (HIx 1)) (_ : ∀ g, O g none = 0),
    iprop(levAts (K (F := F)).L (K (F := F)).lev ∗ kits X d (cV L) (jV L)
        ∗ ((tabLoc d ↦{X.q (cV L) (jV L)} X.tab d) ∗ (rowLoc d ↦[sl L]{fullShare} X.row d) ∗ (colLoc d ↦[sl L]{fullShare} X.col d)
            ∗ (esLoc d ↦[sl L]{fullShare} X.es d) ∗ outLoc d ↦[sl L]{fullShare} outF)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_sc_gather L tabV (Memref.isWhole_whole _) rowV (Memref.isWhole_whole _) colV (Memref.isWhole_whole _) esV (Memref.isWhole_whole _)
            outV (Memref.isWhole_whole _) sTab (Memref.isWhole_whole _) sRow (Memref.isWhole_whole _) sCol (Memref.isWhole_whole _)
            sEs (Memref.isWhole_whole _) sOut (Memref.isWhole_whole _) cc2_scoped0 cc2_scoped1 cc2_scoped2 cc2_scoped3 cc2_scoped4)
          fun _ => iprop(((tabLoc d ↦{X.q (cV L) (jV L)} X.tab d) ∗ (rowLoc d ↦[sl L]{fullShare} X.row d) ∗ (colLoc d ↦[sl L]{fullShare} X.col d)
            ∗ (esLoc d ↦[sl L]{fullShare} X.es d) ∗ outLoc d ↦[sl L]{fullShare} outVal d (X.tab d) (X.row d) (X.col d) (X.es d))
            ∗ scopedBufs (V d (cV L) (jV L)) ∗ scopedSems0 (V d (cV L) (jV L))
            ∗ ∃ W', ⌜∀ p ∈ W', p ∈ W ∨ p.2 = none⌝ ∗ owes (V d (cV L) (jV L)) O W')

/-! ## What the handshakes carry -/

variable (X : Ins F) (out0 : (d : Dev nD) → Buf (Elt F) (outLoc d))

/-- What a subcore is handed at its task's start, -/
def goRes (d : Dev nD) (c : Fin τ.nSC) (i : Fin τ.nSub) : sProp (𝕄 F) :=
  iprop((tabLoc d ↦{X.q c i} X.tab d) ∗ (rowLoc d ↦[sl (Lof c i)]{fullShare} X.row d) ∗ (colLoc d ↦[sl (Lof c i)]{fullShare} X.col d)
    ∗ (esLoc d ↦[sl (Lof c i)]{fullShare} X.es d) ∗ outLoc d ↦[sl (Lof c i)]{fullShare} out0 d)
/-- and what it hands back at its end. -/
def tdRes (d : Dev nD) (c : Fin τ.nSC) (i : Fin τ.nSub) : sProp (𝕄 F) :=
  iprop((tabLoc d ↦{X.q c i} X.tab d) ∗ (rowLoc d ↦[sl (Lof c i)]{fullShare} X.row d) ∗ (colLoc d ↦[sl (Lof c i)]{fullShare} X.col d)
    ∗ (esLoc d ↦[sl (Lof c i)]{fullShare} X.es d) ∗ outLoc d ↦[sl (Lof c i)]{fullShare} outVal d (X.tab d) (X.row d) (X.col d) (X.es d))

/-- The one call: each SparseCore is handed its sixteen subcores' parts and hands them back. -/
def P : (K (F := F)).Pay (nD := nD) (Val := Elt F) (Name := ℕ) (U := UU) where
  st := fun q d c => match q with
    | 0 => bigSep Finset.univ fun i : Fin ((K (F := F)).nSub 0) => goRes X out0 d ((K (F := F)).core 0 c) ((K (F := F)).sub 0 i)
  dn := fun q d c => match q with
    | 0 => bigSep Finset.univ fun i : Fin ((K (F := F)).nSub 0) => tdRes X d ((K (F := F)).core 0 c) ((K (F := F)).sub 0 i)
  go := fun q d c i => match q with | 0 => goRes X out0 d ((K (F := F)).core 0 c) ((K (F := F)).sub 0 i)
  td := fun q d c i => match q with | 0 => tdRes X d ((K (F := F)).core 0 c) ((K (F := F)).sub 0 i)
  x := fun q thr => match q, thr with
    | 0, (d, .scVector c i) => kits X d c i
    | _, _ => iprop(emp)

instance goRes_storable (d : Dev nD) (c : Fin τ.nSC) (i : Fin τ.nSub) : BI.Storable (upEmb : UEmb _ (𝕄 F)) (goRes X out0 d c i) := by
  unfold goRes; infer_instance
instance tdRes_storable (d : Dev nD) (c : Fin τ.nSC) (i : Fin τ.nSub) : BI.Storable (upEmb : UEmb _ (𝕄 F)) (tdRes X d c i) := by
  unfold tdRes; infer_instance

instance P_storable : (P X out0).IsStorable where
  st q d c := match q with
    | 0 => (inferInstance : BI.Storable (upEmb : UEmb _ (𝕄 F))
        (bigSep Finset.univ fun i : Fin ((K (F := F)).nSub 0) => goRes X out0 d ((K (F := F)).core 0 c) ((K (F := F)).sub 0 i)))
  dn q d c := match q with
    | 0 => (inferInstance : BI.Storable (upEmb : UEmb _ (𝕄 F))
        (bigSep Finset.univ fun i : Fin ((K (F := F)).nSub 0) => tdRes X d ((K (F := F)).core 0 c) ((K (F := F)).sub 0 i)))
  go q d c i := match q with
    | 0 => (inferInstance : BI.Storable (upEmb : UEmb _ (𝕄 F)) (goRes X out0 d ((K (F := F)).core 0 c) ((K (F := F)).sub 0 i)))
  td q d c i := match q with
    | 0 => (inferInstance : BI.Storable (upEmb : UEmb _ (𝕄 F)) (tdRes X d ((K (F := F)).core 0 c) ((K (F := F)).sub 0 i)))

/-- A sequencer passes its subcores' parts through. -/
theorem vecSplit : (K (F := F)).VecSplit' (P X out0) 0 := by
  intro d c
  show (bigSep Finset.univ fun i : Fin ((K (F := F)).nSub 0) => goRes X out0 d ((K (F := F)).core 0 c) ((K (F := F)).sub 0 i))
    ⊢ |={Set.univ}=> iprop((bigSep Finset.univ fun i : Fin ((K (F := F)).nSub 0) => goRes X out0 d ((K (F := F)).core 0 c) ((K (F := F)).sub 0 i))
      ∗ ((bigSep Finset.univ fun i : Fin ((K (F := F)).nSub 0) => tdRes X d ((K (F := F)).core 0 c) ((K (F := F)).sub 0 i))
          -∗ bigSep Finset.univ fun i : Fin ((K (F := F)).nSub 0) => tdRes X d ((K (F := F)).core 0 c) ((K (F := F)).sub 0 i)))
  iintro H; imodintro
  isplitl [H]; · iexact H
  iintro H'; iexact H'

/-! ## The task obligation -/

/-- The body table's row for a vector subcore is the kernel function at that subcore's grid point. -/
theorem defs₀_vector (c : Fin τ.nSC) (s : Fin τ.nSub) :
    defs₀ (F := F) (.scVector c s) 2 ()
      = SparseCore.onTile hcore2 hsub2 (fun c s => cc2_sc_gather (fun | 0 => c | 1 => s | ⟨_ + 2, h⟩ => absurd h (Nat.not_lt.2 (Nat.le_add_left _ _)))
          tabV (Memref.isWhole_whole _) rowV (Memref.isWhole_whole _) colV (Memref.isWhole_whole _) esV (Memref.isWhole_whole _)
          outV (Memref.isWhole_whole _) sTab (Memref.isWhole_whole _) sRow (Memref.isWhole_whole _) sCol (Memref.isWhole_whole _)
          sEs (Memref.isWhole_whole _) sOut (Memref.isWhole_whole _) cc2_scoped0 cc2_scoped1 cc2_scoped2 cc2_scoped3 cc2_scoped4) ⟨⟩ c s := rfl

omit [FloatOps F] in
theorem obl_post {thr : Thread nD τ} {A B C : sProp (𝕄 F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task, from one subcore's run of the body at a symbolic grid point. -/
theorem tileObl (hF : (K (F := F)).Facts) (hbody : TileBodySpec X)
    (hrow : ∀ d j, (X.row d j : BitVec 32).toNat ≤ 9999) (hcol : ∀ d j, (X.col d j : BitVec 32).toNat ≤ 9999) :
    (K (F := F)).TileObl (D (F := F)) 𝒱 (P X out0) v₀ 0 := by
  intro d c i O W hO _ _
  simp only [show (P X out0).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  exact (hbody hF d (Lof ⟨_, hc.1⟩ ⟨_, hc.2⟩) (out0 d) (fun j _ => hrow d j) (fun j _ => hcol d j) O W hO).trans
    (wp_mono frame _ _ fun _ => obl_post)

end Cert.KernelIdeal.Launch

end
-- ==== Proof.ValsI.lean ====
/-
  The arrays' contents at each point of the host program, as functions of the memory the program is launched on.

  Each stretch of array operations maps the table of contents to the table after it; each of the three calls replaces its
  result arrays' entries: the first by the node scores (a 10000 x 2 product), the second by the four stacks of edge scores,
  the third by the gathered sums on the padded edges. The table before the third call names what the vector subcores are
  started on.
-/
import proofs.«207961_g9620726743389_cont_9to1c4b_395_8_alg».proof.Proof.HostI
import proofs.«207961_g9620726743389_cont_9to1c4b_395_8_alg».proof.Proof.PayI

noncomputable section

namespace Cert.KernelIdeal.Vals

open Cert.KernelIdeal Cert.KernelIdeal.Gen Cert.KernelIdeal.Common Cert.KernelIdeal.MainShape Cert.KernelIdeal.Host
open Cert.KernelIdeal.Tile Cert.KernelIdeal.Split Cert.KernelIdeal.Launch
open Idealize.ShloMosaic Idealize.ShloMosaic.TcCoe Idealize.ShloMosaic.StableHlo

variable {F : FTy → Type} [FloatOps F]

/-- What the two pipelined calls compute, as functions of their operands: the node scores, and stack `s` of the edge scores. -/
structure RegVals (F : FTy → Type) where
  node : FVec F S10000x256 .f32 → FVec F S256x2 .f32 → FVec F S10000x2 .f32
  edge : Fin 4 → FVec F S4x40000x256 .f32 → FVec F S256x1 .f32 → FVec F S1x1 .f32 → FVec F S40000x1 .f32

variable (R : RegVals F) (m : (ℓ : Loc nD τ sig) → Buf (Elt F) ℓ) (d : Dev nD)

/-- A TensorCore array as a buffer of the device. -/
abbrev r (x : Ref sig .tc) : DevRef τ sig := Proc.devRef .tc x

/-- After the first stretch; -/
def V1 : Valuation τ sig (Elt F) := after ops1 (V0 m d)
/-- after the first call; -/
def V2 : Valuation τ sig (Elt F) := Function.update (V1 m d) (r main_v9) (R.node (V1 m d (r main_arg0)) (V1 m d (r main_v6)))
/-- after the second stretch; -/
def V3 : Valuation τ sig (Elt F) := after ops2 (V2 R m d)
/-- after the second call; -/
def V4 : Valuation τ sig (Elt F) :=
  Function.update (Function.update (Function.update (Function.update (V3 R m d)
    (r main_v12_0) (R.edge 0 (V3 R m d (r main_v11)) (V3 R m d (r main_v7)) (V3 R m d (r main_v8))))
    (r main_v12_1) (R.edge 1 (V3 R m d (r main_v11)) (V3 R m d (r main_v7)) (V3 R m d (r main_v8))))
    (r main_v12_2) (R.edge 2 (V3 R m d (r main_v11)) (V3 R m d (r main_v7)) (V3 R m d (r main_v8))))
    (r main_v12_3) (R.edge 3 (V3 R m d (r main_v11)) (V3 R m d (r main_v7)) (V3 R m d (r main_v8)))
/-- after the third stretch: what the kernel on the vector subcores is started on; -/
def V5 : Valuation τ sig (Elt F) := after ops3 (V4 R m d)

/-- The vector subcores' inputs: each its own read token of the table, and the four arrays as the third stretch leaves them. -/
def Xof : Ins F where
  q := tabShare
  tab := fun d => V5 R m d (r main_v10)
  row := fun d => V5 R m d (r main_v20)
  col := fun d => V5 R m d (r main_v21)
  es := fun d => V5 R m d (r main_v18)

/-- The result array before the kernel writes it. -/
def out0 : (d : Dev nD) → Buf (Elt F) (outLoc d) := fun d => V5 R m d (r main_v22)

/-- After the kernel on the vector subcores; -/
def V6 : Valuation τ sig (Elt F) :=
  Function.update (V5 R m d) (r main_v22) (outVal d ((Xof R m).tab d) ((Xof R m).row d) ((Xof R m).col d) ((Xof R m).es d))
/-- at the end. -/
def V7 : Valuation τ sig (Elt F) := after ops4 (V6 R m d)

end Cert.KernelIdeal.Vals

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.Region0I.lean ====
/-
  The first pipelined matrix product of the host program, as one step of the TensorCore's proof.

  The node features `x : [10000, 256]` are multiplied, 2000 rows at a time over a grid of five points, by the
  `[256, 2]` matrix of the first two runs of weights; block `t` of the `[10000, 2]` result is the product of block `t`
  of `x` with that matrix, added into a zero accumulator. The step is stated around whatever the TensorCore still
  owes its SparseCores: the pipeline's own waits are at the index no handshake uses, below every such debt.
-/
import proofs.«207961_g9620726743389_cont_9to1c4b_395_8_alg».proof.Proof.CommonI
import Idealize.ShloMosaic.Lib.Pipeline.FrameBody
import Idealize.ShloMosaic.Lib.Pipeline.Value
import Idealize.ShloMosaic.Lib.ValueIdx
import proofs.«207961_g9620726743389_cont_9to1c4b_395_8_alg».proof.Proof.LibMatmul2

set_option maxRecDepth 16384

noncomputable section

namespace Cert.KernelIdeal.Regions

open Cert.KernelIdeal Cert.KernelIdeal.Gen Cert.KernelIdeal.Common
open Idealize.ShloMosaic Idealize.ShloMosaic.TcCoe Idealize.ShloMosaic.Tactic Idealize.ShloMosaic.ValueIdx
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The TensorCore of device `c`, as a thread. -/
local notation "𝕥" => SparseCore.T (τ := τ)

/-- No pipeline has a prefetched table: the admissible contents are the empty ones. -/
abbrev adm : (p : Fin 2) → (pcfgs (F := F) p).Adm := fun p => (cfgs p).toPCfg_adm

section Region0

variable (xs : (c : Dev nD) → Buf (Elt F) ((𝕥 c).loc main_arg0)) (ws : (c : Dev nD) → Buf (Elt F) ((𝕥 c).loc main_v6))
  (fs : (c : Dev nD) → Buf (Elt F) ((𝕥 c).loc main_v9)) (O : CellTallies nD τ sig (HIx 1))

/-! ## The blocks -/

/-- Block `t` of the node features: rows `2000 t` to `2000 t + 1999`. -/
def blkX (c : Dev nD) (t : Fin cfg0.N) : ((cfg0.win 0).xblock (cfg0.grid.coords t)).Idx → Elt F (cfg0.win 0).elt :=
  ((cfg0.win 0).blk t).view.read (Elt F) (xs c)

/-- The weight matrix, whole at every point. -/
def blkW (c : Dev nD) (t : Fin cfg0.N) : ((cfg0.win 1).xblock (cfg0.grid.coords t)).Idx → Elt F (cfg0.win 1).elt :=
  ((cfg0.win 1).blk t).view.read (Elt F) (ws c)

abbrev rX : Rect S2000x256 := Rect.unit (s := S2000x256) ![0, 0] S2000x256.size inb_S2000x256_S2000x256_0_0
abbrev rW : Rect S256x2 := Rect.unit (s := S256x2) ![0, 0] S256x2.size inb_S256x2_S256x2_0_0
abbrev rO : Rect S2000x2 := Rect.unit (s := S2000x2) ![0, 0] S2000x2.size inb_S2000x2_S2000x2_0_0

/-- What the body leaves in the result's staging buffer: the product of the two blocks, as its one store. -/
def outBlk (x0 : Vec F S2000x256 .f32) (x1 : Vec F S256x2 .f32) : Vec F S2000x2 .f32 :=
  View.canon [⟨rO, k0_pay1 (View.ld x0 rX) (View.ld x1 rW)⟩]

/-- The one store covers the buffer. -/
theorem coverO (p0 : Vec F S2000x2 .f32) (y : S2000x2.Idx) :
    ∃ pc ∈ ([⟨rO, p0⟩] : List (View.Piece (Elt F) S2000x2 .f32)), y ∈ pc.1.set :=
  View.cover_of_tiled [⟨rO, p0⟩] S2000x2.size (by rfl) y

/-! ## The body's triple -/

set_option maxHeartbeats 1000000 in
/-- The body on whole staging buffers, the two operands' at contents `x0`, `x1` and the result's at anything: the operands'
    stay and the result's holds the product. -/
theorem sound_kernel0 (c : Dev nD) (E : Set ℕ) (i : grid0.Coords)
    (arg1 : Memref sig .tc .vmem S2000x256 .f32) (harg1 : arg1.IsWhole) (arg2 : Memref sig .tc .vmem S256x2 .f32) (harg2 : arg2.IsWhole)
    (arg3 : Memref sig .tc .vmem S2000x2 .f32) (harg3 : arg3.IsWhole)
    (x0 : Vec F S2000x256 .f32) (x1 : Vec F S256x2 .f32) (Kp : PUnit → sProp (𝕄 F)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlk x0 x1)) -∗ Kp ⟨⟩))
      ⊢ wp frame (wpE (defs₀ (F := F)) Variants.none c none) E (cc0__node_scores_body i arg1 harg1 arg2 harg2 arg3 harg3) Kp := by
  simp only [cc0__node_scores_body_eq_skeleton]; unfold cc0__node_scores_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverO _)

/-! ## The proof data -/

/-- Pipeline 0's proof data on core `c`: the arrays as the region finds them; after the body at point `t` each operand's
    buffer at its block and the result's at their product; the invariant the scoped buffers no window stages; full shares;
    throughout, the tallies `O` owed. -/
def dat0 (c : Dev nD) : Dat τ (Elt F) (HIx 1) ℕ UU ℕ cfg0 c where
  A w := match w with
    | ⟨0, _⟩ => xs c
    | ⟨1, _⟩ => ws c
    | ⟨2, _⟩ => fs c
  after w t := match w with
    | ⟨0, _⟩ => blkX xs c t
    | ⟨1, _⟩ => blkW ws c t
    | ⟨2, _⟩ => outBlk (blkX xs c t) (blkW ws c t)
  Φ _ := Pipeline.scopedRest spec0 c
  q _ := fullShare
  owed _ := O
  recorded _ := {p | (K (F := F)).lev (𝕥 c, p.1) p.2 ≤ 0}

theorem A_eq0 (c : Dev nD) : (dat0 xs ws fs O c).A 0 = xs c := by dsimp only [dat0]
theorem A_eq1 (c : Dev nD) : (dat0 xs ws fs O c).A 1 = ws c := by dsimp only [dat0]
theorem A_eq2 (c : Dev nD) : (dat0 xs ws fs O c).A 2 = fs c := by dsimp only [dat0]
theorem after0_0 (c : Dev nD) (t : Fin cfg0.N) : (dat0 xs ws fs O c).after 0 t = blkX xs c t := by dsimp only [dat0]
theorem after0_1 (c : Dev nD) (t : Fin cfg0.N) : (dat0 xs ws fs O c).after 1 t = blkW ws c t := by dsimp only [dat0]
theorem after0_2 (c : Dev nD) (t : Fin cfg0.N) : (dat0 xs ws fs O c).after 2 t = outBlk (blkX xs c t) (blkW ws c t) := by dsimp only [dat0]

/-- An operand's current staging buffer holds its block at every point, fetched there or not. -/
theorem before0_0 (c : Dev nD) (t : Fin cfg0.N) (d) : (dat0 xs ws fs O c).before 0 t d = blkX xs c t :=
  ((dat0 xs ws fs O c).before_in_eq_fetched 0 rfl (fun _ => rfl) (fun _ _ _ => rfl)
    (fun t => by rw [after0_0]; unfold Dat.blockOf blkX; rw [A_eq0]; try rfl) t d).trans
    (by unfold Dat.fetched Dat.blockOf blkX; rw [A_eq0]; try rfl)
theorem before0_1 (c : Dev nD) (t : Fin cfg0.N) (d) : (dat0 xs ws fs O c).before 1 t d = blkW ws c t :=
  ((dat0 xs ws fs O c).before_in_eq_fetched 1 rfl (fun _ => rfl) (fun _ _ _ => rfl)
    (fun t => by rw [after0_1]; unfold Dat.blockOf blkW; rw [A_eq1]; try rfl) t d).trans
    (by unfold Dat.fetched Dat.blockOf blkW; rw [A_eq1]; try rfl)

/-! ## The body obligation -/

def bodyPre0 (c : Dev nD) (t : Fin cfg0.N) : sProp (𝕄 F) :=
  iprop((dat0 xs ws fs O c).Φ t.castSucc ∗ (dat0 xs ws fs O c).owesAt none t.castSucc
    ∗ (∃ d, owns (c : Thread nD τ) (st0_0 t) fullShare ((dat0 xs ws fs O c).before 0 t d))
    ∗ (∃ d, owns (c : Thread nD τ) (st0_1 t) fullShare ((dat0 xs ws fs O c).before 1 t d))
    ∗ (∃ d, owns (c : Thread nD τ) (st0_2 t) fullShare ((dat0 xs ws fs O c).before 2 t d)))

def bodyPost0 (c : Dev nD) (t : Fin cfg0.N) : sProp (𝕄 F) :=
  iprop((dat0 xs ws fs O c).Φ t.succ ∗ (dat0 xs ws fs O c).owesAt none t.succ
    ∗ owns (c : Thread nD τ) (st0_0 t) fullShare ((dat0 xs ws fs O c).after 0 t)
    ∗ owns (c : Thread nD τ) (st0_1 t) fullShare ((dat0 xs ws fs O c).after 1 t)
    ∗ owns (c : Thread nD τ) (st0_2 t) fullShare ((dat0 xs ws fs O c).after 2 t))

theorem sound_body0 (c : Dev nD) (t : Fin cfg0.N) :
    bodyPre0 xs ws fs O c t ⊢ wp frame (wpE (defs₀ (F := F)) Variants.none c none) Set.univ (bodyAt0 t) (fun _ => bodyPost0 xs ws fs O c t) := by
  unfold bodyPre0 bodyPost0 bodyAt0
  simp only [before0_0, before0_1]
  rw [show (dat0 xs ws fs O c).Φ t.succ = (dat0 xs ws fs O c).Φ t.castSucc from rfl,
    show (dat0 xs ws fs O c).owesAt none t.succ = (dat0 xs ws fs O c).owesAt none t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (blkX xs c t) (blkW ws c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) xs ws fs O c) (defs₀ (F := F)) Variants.none (none : HIx 1) Set.univ := fun t => by
  rw [bigSep_W0, bigSep_W0]
  exact sound_body0 xs ws fs O c t

/-! ## The operand arrays are never written -/

theorem arrAt_x (c : Dev nD) : (dat0 xs ws fs O c).arrAt 0 cfg0.N = xs c :=
  funext fun i => ((dat0 xs ws fs O c).arrAt_apply_of_forall_not_mem 0 cfg0.N i fun t _ hf _ => by
    rw [show (cfg0.win 0).flush t = false from rfl] at hf; exact absurd hf Bool.false_ne_true).trans (congrFun (A_eq0 xs ws fs O c) i)

theorem arrAt_w (c : Dev nD) : (dat0 xs ws fs O c).arrAt 1 cfg0.N = ws c :=
  funext fun i => ((dat0 xs ws fs O c).arrAt_apply_of_forall_not_mem 1 cfg0.N i fun t _ hf _ => by
    rw [show (cfg0.win 1).flush t = false from rfl] at hf; exact absurd hf Bool.false_ne_true).trans (congrFun (A_eq1 xs ws fs O c) i)

/-! ## The result array as one function of the two operands -/

theorem off_zero2 : (![0, 0] : Fin 2 → Nat) = fun _ => 0 := funext fun a => by fin_cases a <;> rfl

/-- The 2000 rows of block `q` of the features. -/
def rowsOf (x : FVec F S10000x256 .f32) (q : ℕ) : FVec F S2000x256 .f32 :=
  fun y => x (ix2 (⟨min (2000 * q + (y 0).val) 9999, by omega⟩ : Fin 10000) (⟨(y 1).val, (y 1).isLt⟩ : Fin 256))

/-- The product `x · w12` as the call computes it: row `r` lies in block `r / 2000`, and is row `r % 2000` of that block's
    product with `w12` into a zero accumulator. -/
def nodeVal (x : FVec F S10000x256 .f32) (w12 : FVec F S256x2 .f32) : FVec F S10000x2 .f32 :=
  fun i => k0_pay1 (rowsOf x ((i 0).val / 2000)) w12
    (ix2 (⟨(i 0).val % 2000, Nat.mod_lt _ (by decide)⟩ : Fin 2000) (⟨(i 1).val, (i 1).isLt⟩ : Fin 2))

/-- The printed index maps over the grid: the features' and the result's blocks move with the point, the weights' stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 5 :=
  (by decide +kernel : ∀ t : Fin grid0.N, _)

/-- What point `t` writes back is block `t` of `nodeVal` of the operands as the region finds them. -/
theorem flushed0_eq (c : Dev nD) (t : Fin cfg0.N) :
    (dat0 xs ws fs O c).flushed 2 t = ((cfg0.win 2).blk t).view.read (Elt F) (nodeVal (xs c) (ws c)) := by
  show (cfg0.win 2).cut (grid0.coords t) ((dat0 xs ws fs O c).after 2 t) = _
  rw [after0_2]
  unfold outBlk
  rw [View.canon_unit_zero off_zero2]
  simp only [View.ld_unit_zero (S := S2000x256) off_zero2, View.ld_unit_zero (S := S256x2) off_zero2]
  obtain ⟨e0, e1, e2, e3, e4, e5, e6⟩ := idx_facts0 t
  funext j
  have hj0 : (j 0).val < 2000 := (j 0).isLt
  have hj1 : (j 1).val < 2 := (j 1).isLt
  have hi0 : ((((cfg0.win 2).blk t).view.emb j) 0).val = t.val * 2000 + (j 0).val := by
    show win0_2.index t (0 : Fin 2) * 2000 + 1 * (j 0).val = _; rw [e4]; omega
  have hi1 : ((((cfg0.win 2).blk t).view.emb j) 1).val = (j 1).val := by
    show win0_2.index t (1 : Fin 2) * 2 + 1 * (j 1).val = _; rw [e5]; omega
  show k0_pay1 (blkX xs c t) (blkW ws c t) j = nodeVal (xs c) (ws c) (((cfg0.win 2).blk t).view.emb j)
  unfold nodeVal
  have hX : blkX xs c t = rowsOf (xs c) (((((cfg0.win 2).blk t).view.emb j) 0).val / 2000) := by
    funext y
    have hy0 : (y 0).val < 2000 := (y 0).isLt
    have hy1 : (y 1).val < 256 := (y 1).isLt
    show xs c (((cfg0.win 0).blk t).view.emb y) = xs c (ix2 _ _)
    congr 1
    funext a; apply Fin.ext
    match a with
    | ⟨0, _⟩ =>
      show win0_0.index t (0 : Fin 2) * 2000 + 1 * (y 0).val = min (2000 * (((((cfg0.win 2).blk t).view.emb j) 0).val / 2000) + (y 0).val) 9999
      rw [hi0, e0]; omega
    | ⟨1, _⟩ => show win0_0.index t (1 : Fin 2) * 256 + 1 * (y 1).val = (y 1).val; rw [e1]; omega
  have hW : blkW ws c t = ws c := by
    funext y
    show ws c (((cfg0.win 1).blk t).view.emb y) = ws c y
    congr 1
    funext a; apply Fin.ext
    match a with
    | ⟨0, _⟩ => show win0_1.index t (0 : Fin 2) * 256 + 1 * (y 0).val = (y 0).val; rw [e2]; omega
    | ⟨1, _⟩ => show win0_1.index t (1 : Fin 2) * 2 + 1 * (y 1).val = (y 1).val; rw [e3]; omega
  rw [hX, hW]
  congr 1
  funext a; apply Fin.ext
  match a with
  | ⟨0, _⟩ => show (j 0).val = ((((cfg0.win 2).blk t).view.emb j) 0).val % 2000; rw [hi0]; omega
  | ⟨1, _⟩ => show (j 1).val = ((((cfg0.win 2).blk t).view.emb j) 1).val; rw [hi1]

/-- An index of the result is in point `t`'s block iff each coordinate is in the block's range on its axis. -/
theorem mem_blk0 (t : Fin cfg0.N) (i : S10000x2.Idx) :
    i ∈ ((cfg0.win 2).blk t).view.set ↔ ∀ a : Fin 2, win0_2.index t a * S2000x2.size a ≤ (i a).val ∧ (i a).val < win0_2.index t a * S2000x2.size a + S2000x2.size a := by
  show i ∈ ((View.whole main_v9).slice (win0_2.rect t)).set ↔ _
  rw [View.set_slice_whole, Rect.mem_set_unit]
  exact Iff.rfl

/-- Row `r` of the result is written back by point `r / 2000`. -/
theorem cover0 (i : S10000x2.Idx) : ∃ t : Fin cfg0.N, (cfg0.win 2).flush t = true ∧ i ∈ ((cfg0.win 2).blk t).view.set := by
  have hi0 : (i 0).val < 10000 := (i 0).isLt
  have hi1 : (i 1).val < 2 := (i 1).isLt
  refine ⟨⟨(i 0).val / 2000, by rw [show cfg0.N = 5 from N_0]; omega⟩, flush0_2 _, ?_⟩
  obtain ⟨e0, e1, e2, e3, e4, e5, e6⟩ := idx_facts0 ⟨(i 0).val / 2000, by rw [show cfg0.N = 5 from N_0]; omega⟩
  rw [mem_blk0]
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 2 ≤ (i 1).val ∧ (i 1).val < win0_2.index _ (1 : Fin 2) * 2 + 2
    rw [e5]; omega

/-- THE RESULT after the last write-back: `nodeVal` of the operands. -/
theorem final0 (c : Dev nD) : (dat0 xs ws fs O c).arrAt 2 cfg0.N = nodeVal (xs c) (ws c) :=
  (dat0 xs ws fs O c).arrAt_eq_of_cover 2 (nodeVal (xs c) (ws c)) (fun t _ => flushed0_eq xs ws fs O c t) cover0

/-! ## The region -/

/-- The other pipeline's entry of the proof data family: never read while pipeline 0 runs. -/
def datIdle (p : Fin 2) (c : Dev nD) : Dat τ (Elt F) (HIx 1) ℕ UU ℕ (Pipeline.pin (pcfgs (F := F)) adm p) c where
  A w := Classical.arbitrary _
  after w t := Classical.arbitrary _
  Φ _ := BI.emp
  q _ := fullShare
  owed _ := 0

/-- The proof data family as the region's theorem takes it: pipeline 0's entry is `dat0`. -/
def pdats0 : (p : Fin 2) → (c : Dev nD) → Dat τ (Elt F) (HIx 1) ℕ UU ℕ (Pipeline.pin (pcfgs (F := F)) adm p) c
  | ⟨0, _⟩ => fun c => dat0 xs ws fs O c
  | ⟨1, _⟩ => fun c => datIdle 1 c

/-- What the TensorCore holds of the call's three arrays, and its debts, when it enters the call, -/
def pre0 (c : Dev nD) : sProp (𝕄 F) :=
  iprop(((𝕥 c).loc main_arg0 ↦{fullShare} xs c) ∗ ((𝕥 c).loc main_v6 ↦{fullShare} ws c) ∗ ((𝕥 c).loc main_v9 ↦{fullShare} fs c)
    ∗ ∃ W, ⌜(K (F := F)).WBelow (𝕥 c) W 0⌝ ∗ owes (𝕥 c) O W)

/-- and when it leaves it: each array after every write-back. -/
def post0 (c : Dev nD) : sProp (𝕄 F) :=
  iprop(((𝕥 c).loc main_arg0 ↦{fullShare} (dat0 xs ws fs O c).arrAt 0 cfg0.N) ∗ ((𝕥 c).loc main_v6 ↦{fullShare} (dat0 xs ws fs O c).arrAt 1 cfg0.N)
    ∗ ((𝕥 c).loc main_v9 ↦{fullShare} (dat0 xs ws fs O c).arrAt 2 cfg0.N) ∗ ∃ W, ⌜(K (F := F)).WBelow (𝕥 c) W 0⌝ ∗ owes (𝕥 c) O W)

/-- The operands are as they were. -/
theorem post0_eq (c : Dev nD) : post0 xs ws fs O c =
    iprop(((𝕥 c).loc main_arg0 ↦{fullShare} xs c) ∗ ((𝕥 c).loc main_v6 ↦{fullShare} ws c)
      ∗ ((𝕥 c).loc main_v9 ↦{fullShare} (dat0 xs ws fs O c).arrAt 2 cfg0.N) ∗ ∃ W, ⌜(K (F := F)).WBelow (𝕥 c) W 0⌝ ∗ owes (𝕥 c) O W) := by
  unfold post0; rw [arrAt_x, arrAt_w]

set_option backward.isDefEq.respectTransparency.types false in
/-- The call as a region of the host program: its arrays enter the pipeline's invariant and come back after the last
    write-back; the scoped buffers no window stages are the invariant; the TensorCore's debts ride through unchanged,
    every wait of the pipeline sitting below them. -/
def reg0 (hO : ∀ g, O g none = 0) :
    Pipeline.RegionSeg (pcfgs (F := F)) adm (pdats0 xs ws fs O) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 xs ws fs O c).loose
  hwaits c := Pipeline.cellsWaits_intro (Pipeline.pin (pcfgs (F := F)) adm) (pdats0 xs ws fs O) (none : HIx 1) 0 c
    fun w s t => (K (F := F)).mayWait_none _ hO
  pre := pre0 xs ws fs O
  post := post0 xs ws fs O
  X _ := BI.emp
  Y _ := BI.emp
  Z _ := BI.emp
  hentry c := by
    rw [Pipeline.ownSems0_none, Pipeline.arrays_eq (Pipeline.pin (pcfgs (F := F)) adm) (pdats0 xs ws fs O) 0 c launch0.arr_whole
      (fun w => Pipeline.Dat.share_full _ (fun _ => rfl) w), bigSep_W0]
    unfold pre0
    iintro ⟨⟨Hx, Hw, Hf, HO⟩, -, -⟩
    imodintro
    isplitl [Hx Hw Hf]
    · isplitl [Hx]; · iexact Hx
      isplitl [Hw]; · iexact Hw
      iexact Hf
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats0 xs ws fs O 0 c).Φ 0 = Pipeline.scopedRest spec0 c from rfl]
    iintro ⟨-, -, Hr⟩; iexact Hr
  hout c := by
    rw [Pipeline.ownSems0_none, show (pdats0 xs ws fs O 0 c).Φ (Fin.last _) = Pipeline.scopedRest spec0 c from rfl]
    iintro Hr
    isplitr; · iempintro
    isplitr; · iempintro
    iexact Hr
  hexit c := by
    rw [Pipeline.arrays_eq (Pipeline.pin (pcfgs (F := F)) adm) (pdats0 xs ws fs O) 0 c launch0.arr_whole
      (fun w => Pipeline.Dat.share_full _ (fun _ => rfl) w), bigSep_W0]
    unfold post0
    iintro ⟨⟨Hx, Hw, Hf⟩, HO, -, -⟩
    imodintro
    isplitl [Hx]; · iexact Hx
    isplitl [Hw]; · iexact Hw
    isplitl [Hf]; · iexact Hf
    unfold Pipeline.Dat.owesAt Pipeline.owesWithin
    icases HO with ⟨%W, %hW, HO⟩; iexists W
    isplitr
    · ipureintro
      intro p hp
      rcases hW hp with h | ⟨w, s, rfl⟩
      · exact h
      · exact le_rfl
    iexact HO

set_option backward.isDefEq.respectTransparency.types false in
/-- THE STEP, over contents named on every device: from the level facts, the boundary, pipeline 0's ghost cells and
    duty tokens and the region's entry state, the call runs to the boundary and the exit state for the continuation. -/
theorem wp_region0_fam (hO : ∀ g, O g none = 0) (d : Dev nD) {α : Type}
    (k : PUnit → Prog (TpuEff nD τ sig (Elt F) (SparseCore.Sig (ΛP (F := F)) 1) .tc) α) (Φ : α → sProp (𝕄 F)) :
    iprop(levAts (K (F := F)).L (K (F := F)).lev ∗ boundary (𝕥 d)
        ∗ Pipeline.cellsGhost (Pipeline.pin (pcfgs (F := F)) adm) EP 0 d ∗ Pipeline.toksInit (Pipeline.pin (pcfgs (F := F)) adm) EP 0 d
        ∗ pre0 xs ws fs O d
        ∗ (iprop(boundary (𝕥 d) ∗ post0 xs ws fs O d) -∗ wp frame (wpE ((K (F := F)).defs D) 𝒱 (𝕥 d) none) Set.univ (k ⟨⟩) Φ))
      ⊢ wp frame (wpE ((K (F := F)).defs D) 𝒱 (𝕥 d) none) Set.univ (.op (.customCall (SparseCore.inner (Pipeline.entry 0)) ()) k) Φ := by
  have hR := Pipeline.RegionSeg.wp (pcfgs (F := F)) adm (pdats0 xs ws fs O) (none : HIx 1) cellOf_inj EP defs₀ 𝒱₀ (K (F := F)).L (K (F := F)).lev
    (reg0 xs ws fs O hO) d none (fun u hu => by cases hu) (fun r => .ret r)
    (fun r => wp frame (wpE ((K (F := F)).defs D) 𝒱 (𝕥 d) none) Set.univ (k r) Φ)
  simp only [wp_ret] at hR
  rw [show (reg0 xs ws fs O hO).pre d = pre0 xs ws fs O d from rfl, show (reg0 xs ws fs O hO).post d = post0 xs ws fs O d from rfl] at hR
  have hL := (K (F := F)).wp_liftProg D 𝒱 (𝕥 d) (Set.univ : Set ℕ) none
    (.op (.customCall (Pipeline.entry 0) ()) fun r => .ret r) (fun r => wp frame (wpE ((K (F := F)).defs D) 𝒱 (𝕥 d) none) Set.univ (k r) Φ)
  rw [show (Prog.op (TpuEff.customCall (SparseCore.inner (Pipeline.entry 0)) ()) k : Prog (TpuEff nD τ sig (Elt F) (SparseCore.Sig (ΛP (F := F)) 1) .tc) α)
      = (SparseCore.liftProg (Q := 1) (Prog.op (TpuEff.customCall (Pipeline.entry 0) ()) fun r => Prog.ret r) >>= k) from rfl, wp_bind]
  refine BIBase.Entails.trans ?_ hL
  refine BIBase.Entails.trans ?_ hR
  iintro ⟨HL, Hb, Hg, Ht, Hpre, Hk⟩
  isplitl [Hk]
  · iintro Hbp; imodintro; iapply Hk; iexact Hbp
  isplitl [Hb]; · iexact Hb
  isplitl [Hpre]; · iexact Hpre
  isplitl [HL]; · iexact HL
  isplitl [Hg]; · iexact Hg
  iexact Ht

end Region0

/-! ## The result at the ideal values -/

/-- At the ideal values the result at (r, q) is the inner product of row `r` of the features with column `q` of the weights. -/
theorem nodeVal_apply_ideal (x : FVec Ideal S10000x256 .f32) (w12 : FVec Ideal S256x2 .f32) (r : Fin 10000) (q : Fin 2) :
    nodeVal (F := Ideal) x w12 (ix2 r q) = ∑ k : Fin 256, x (ix2 r k) * w12 (ix2 k q) := by
  unfold nodeVal k0_pay1
  rw [shapeCast_self]
  refine (Cert.Lib.matmul2_zero_apply dot_S2000x256_S256x2_S2000x2_1_0_0_1_n_n_wf (rowsOf x (r.val / 2000)) w12
    (⟨r.val % 2000, Nat.mod_lt _ (by decide)⟩ : Fin 2000) q).trans ?_
  refine Finset.sum_congr rfl fun k _ => ?_
  have hr : r.val < 10000 := r.isLt
  have hx : rowsOf x (r.val / 2000) (ix2 (⟨r.val % 2000, Nat.mod_lt _ (by decide)⟩ : Fin 2000) k) = x (ix2 r k) := by
    show x (ix2 _ _) = x (ix2 r k)
    congr 1
    funext a; apply Fin.ext
    match a with
    | ⟨0, _⟩ => show min (2000 * (r.val / 2000) + r.val % 2000) 9999 = r.val; omega
    | ⟨1, _⟩ => rfl
  rw [hx]

/-! ## The step at one device -/

/-- Contents named at one device, on every device: there is one. -/
def onAll {β : Dev nD → Type} (d : Dev nD) (x : β d) : (c : Dev nD) → β c := fun c => (Subsingleton.elim d c) ▸ x
theorem onAll_self {β : Dev nD → Type} (d : Dev nD) (x : β d) : onAll d x d = x := rfl

/-- THE STEP. On device `d`'s TensorCore, holding the node features at `x`, the two-column weight matrix at `w12`, the result
    array at anything, and owing its SparseCores tallies `O` none of which is at the index the pipeline waits at: the first
    pipelined call runs to the same holdings with the result array at `nodeVal x w12`. -/
theorem wp_region0 (d : Dev nD) (x : Buf (Elt F) ((𝕥 d).loc main_arg0)) (w12 : Buf (Elt F) ((𝕥 d).loc main_v6))
    (O : CellTallies nD τ sig (HIx 1)) (hO : ∀ g, O g none = 0) {α : Type}
    (k : PUnit → Prog (TpuEff nD τ sig (Elt F) (SparseCore.Sig (ΛP (F := F)) 1) .tc) α) (Φ : α → sProp (𝕄 F)) :
    iprop(levAts (K (F := F)).L (K (F := F)).lev ∗ boundary (𝕥 d)
        ∗ Pipeline.cellsGhost (Pipeline.pin (pcfgs (F := F)) adm) EP 0 d ∗ Pipeline.toksInit (Pipeline.pin (pcfgs (F := F)) adm) EP 0 d
        ∗ ((𝕥 d).loc main_arg0 ↦{fullShare} x) ∗ ((𝕥 d).loc main_v6 ↦{fullShare} w12) ∗ (∃ f, ((𝕥 d).loc main_v9 ↦{fullShare} f))
        ∗ (∃ W, ⌜(K (F := F)).WBelow (𝕥 d) W 0⌝ ∗ owes (𝕥 d) O W)
        ∗ (iprop(boundary (𝕥 d) ∗ ((𝕥 d).loc main_arg0 ↦{fullShare} x) ∗ ((𝕥 d).loc main_v6 ↦{fullShare} w12)
              ∗ ((𝕥 d).loc main_v9 ↦{fullShare} nodeVal x w12) ∗ (∃ W, ⌜(K (F := F)).WBelow (𝕥 d) W 0⌝ ∗ owes (𝕥 d) O W))
            -∗ wp frame (wpE ((K (F := F)).defs D) 𝒱 (𝕥 d) none) Set.univ (k ⟨⟩) Φ))
      ⊢ wp frame (wpE ((K (F := F)).defs D) 𝒱 (𝕥 d) none) Set.univ (.op (.customCall (SparseCore.inner (Pipeline.entry 0)) ()) k) Φ := by
  iintro ⟨HL, Hb, Hg, Ht, Hx, Hw, ⟨%f, Hf⟩, HO, Hk⟩
  have h := wp_region0_fam (onAll d x) (onAll d w12) (onAll d f) O hO d k Φ
  rw [post0_eq, final0] at h
  unfold pre0 at h
  simp only [onAll_self] at h
  iapply h
  isplitl [HL]; · iexact HL
  isplitl [Hb]; · iexact Hb
  isplitl [Hg]; · iexact Hg
  isplitl [Ht]; · iexact Ht
  isplitl [Hx Hw Hf HO]
  · isplitl [Hx]; · iexact Hx
    isplitl [Hw]; · iexact Hw
    isplitl [Hf]; · iexact Hf
    iexact HO
  iexact Hk

end Cert.KernelIdeal.Regions

end
-- ==== Proof.HuI.lean ====
/-
  The ghost state the program is launched with, dealt to the threads.

  Three parts: the start / done handshakes' rounds; for every vector subcore the kits of its five copy-completion
  counters (one round, one duty each); and the two pipelines' staging counters' rounds with their duty tokens, which the
  TensorCore takes into the two pipelined calls.
-/
import proofs.«207961_g9620726743389_cont_9to1c4b_395_8_alg».proof.Proof.ValsI
import proofs.«207961_g9620726743389_cont_9to1c4b_395_8_alg».proof.Proof.Region0I

noncomputable section

namespace Cert.KernelIdeal.Launch

open Cert.KernelIdeal Cert.KernelIdeal.Gen Cert.KernelIdeal.Common Cert.KernelIdeal.Tile Cert.KernelIdeal.Split
open Cert.KernelIdeal.Regions (adm)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (X : Ins F) (out0 : (d : Dev nD) → Buf (Elt F) (outLoc d))

/-! ## The cells -/

/-- One semaphore of every vector subcore. -/
def fam (sm : SemLoc sig) : Finset (GSem nD τ sig) :=
  Finset.univ.image fun dci : Dev nD × Fin τ.nSC × Fin τ.nSub => ((V dci.1 dci.2.1 dci.2.2, sm) : GSem nD τ sig)

theorem fam_disjoint {sm sm' : SemLoc sig} (h : sm ≠ sm') : Disjoint (fam sm) (fam sm') := by
  refine Finset.disjoint_left.mpr fun g h1 h2 => ?_
  obtain ⟨a, -, rfl⟩ := Finset.mem_image.mp h1
  obtain ⟨b, -, e⟩ := Finset.mem_image.mp h2
  exact h (Prod.mk.inj e).2.symm

theorem inj3 (sm : SemLoc sig) :
    Set.InjOn (fun dci : Dev nD × Fin τ.nSC × Fin τ.nSub => ((V dci.1 dci.2.1 dci.2.2, sm) : GSem nD τ sig)) ((Finset.univ : Finset (Dev nD × Fin τ.nSC × Fin τ.nSub)) : Set _) := by
  intro a _ b _ e
  obtain ⟨h1, h2⟩ := Prod.mk.inj (Prod.mk.inj e).1; obtain ⟨h3, h4⟩ := Proc.scVector.inj h2
  exact Prod.ext h1 (Prod.ext h3 h4)

/-- The vector subcores' copy-completion counters, all of them, -/
def kCells : Finset (GSem nD τ sig) :=
  (((fam (.dma cc2_scoped0.sem) ∪ fam (.dma cc2_scoped1.sem)) ∪ fam (.dma cc2_scoped2.sem)) ∪ fam (.dma cc2_scoped3.sem)) ∪ fam (.dma cc2_scoped4.sem)
/-- each with its one duty at round 0. -/
def kToks : Finset (GSem nD τ sig × ℕ × Unit) := kCells.map ⟨fun g => (g, 0, ()), fun _ _ e => (Prod.mk.inj e).1⟩

/-- The pipelines' staging counters and their launch tokens. -/
abbrev pCells : Finset (GSem nD τ sig) := Pipeline.cells (nD := nD) (τ := τ) (Pipeline.pin (pcfgs (F := F)) adm) cellOf_inj
abbrev pToks : Finset (GSem nD τ sig × ℕ × Unit) := Pipeline.launchToks (nD := nD) (τ := τ) (Pipeline.pin (pcfgs (F := F)) adm) cellOf_inj

/-- The launch element. -/
def u₀ : UU := (initOf (K (F := F)).hsCells (K (F := F)).hsToks, (initOf kCells kToks, initOf (pCells (F := F)) (pToks (F := F))))

omit [FloatOps F] in
theorem ownU_split (a : UH) (b : UK) (c : UP) :
    (ownU (a, (b, c)) : sProp (𝕄 F)) ⊢ iprop(BI.own (EH a) ∗ BI.own (EK b) ∗ BI.own (EP c)) := by
  have h1 : (ownU (a, (b, c)) : sProp (𝕄 F))
      ⊢ iprop(BI.own (EH a) ∗ BI.own ((uEmb (nD := nD) (sig := sig) (Ix := HIx 1) (Val := Elt F) (Name := ℕ) (U := UU) (Lvl := ℕ)).toEmb ((1 : UH), (b, c)))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, c))))
  have h2 : (BI.own ((uEmb (nD := nD) (sig := sig) (Ix := HIx 1) (Val := Elt F) (Name := ℕ) (U := UU) (Lvl := ℕ)).toEmb ((1 : UH), (b, c))) : sProp (𝕄 F))
      ⊢ iprop(BI.own (EK b) ∗ BI.own (EP c)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op c))))
  iintro H
  ihave H' := (h1) $$ H
  icases H' with ⟨HA, HB⟩
  ihave H'' := (h2) $$ HB
  icases H'' with ⟨HB, HC⟩
  isplitl [HA]; · iexact HA
  isplitl [HB]; · iexact HB
  iexact HC

/-! ## The vector subcores' kits -/

omit [FloatOps F] in
theorem toks_eq : (bigSep kToks fun x => (dutyTok EK x.1 x.2.1 x.2.2 : sProp (𝕄 F))) = bigSep kCells fun g => dutyTok EK g 0 () := by
  unfold kToks; rw [bigSep_map]; rfl

theorem kits_intro : (BI.own (EK (initOf kCells kToks)) : sProp (𝕄 F)) ⊢ iprop(|==> bigSep kCells (kit X)) := by
  iintro H
  imod (Rounds.fund EK (kRd X) kCells kToks) $$ H with ⟨Hst, Hr, Hat, Htok⟩
  ihave Htok' := (Entails.of_eq (toks_eq (F := F))) $$ Htok
  imodintro
  unfold kit
  rw [bigSep_sep', bigSep_sep', bigSep_sep']
  isplitl [Hst]; · iexact Hst
  isplitl [Hat]; · iexact Hat
  isplitl [Hr]; · iexact Hr
  iexact Htok'

omit [FloatOps F] in
theorem bigSep_emp' {I : Type} (s : Finset I) : (bigSep s fun _ => iprop(emp)) = (iprop(emp) : sProp (𝕄 F)) := bigSep_emp_const s

theorem Px_T (d : Dev nD) : (bigSep Finset.univ fun q : Fin 1 => (P X out0).x q (SparseCore.T d)) = iprop(emp) :=
  bigSep_univ_of_subsingleton (0 : Fin 1)
theorem Px_S (d : Dev nD) (c : Fin τ.nSC) : (bigSep Finset.univ fun q : Fin 1 => (P X out0).x q (S d c)) = iprop(emp) :=
  bigSep_univ_of_subsingleton (0 : Fin 1)
theorem Px_V (d : Dev nD) (c : Fin τ.nSC) (i : Fin τ.nSub) :
    (bigSep Finset.univ fun q : Fin 1 => (P X out0).x q (V d c i))
      = iprop(kit X (c0cell d c i) ∗ kit X (c1cell d c i) ∗ kit X (c2cell d c i) ∗ kit X (c3cell d c i) ∗ kit X (c4cell d c i)) :=
  bigSep_univ_of_subsingleton (0 : Fin 1)

theorem kits_deal : (bigSep kCells (kit (F := F) X) : sProp (𝕄 F))
    ⊢ bigSep Finset.univ fun thr : Thread nD τ => bigSep Finset.univ fun q : Fin 1 => (P X out0).x q thr := by
  rw [SparseCore.Cfg.bigSep_threads (fun thr : Thread nD τ => bigSep Finset.univ fun q : Fin 1 => (P X out0).x q thr)]
  simp only [Px_T, Px_S, Px_V, bigSep_emp']
  unfold kCells
  rw [SparseCore.bigSep_union' (Finset.disjoint_union_left.mpr ⟨Finset.disjoint_union_left.mpr ⟨Finset.disjoint_union_left.mpr
        ⟨fam_disjoint sem40.symm, fam_disjoint sem41.symm⟩, fam_disjoint sem42.symm⟩, fam_disjoint sem43.symm⟩),
    SparseCore.bigSep_union' (Finset.disjoint_union_left.mpr ⟨Finset.disjoint_union_left.mpr
        ⟨fam_disjoint sem30.symm, fam_disjoint sem31.symm⟩, fam_disjoint sem32.symm⟩),
    SparseCore.bigSep_union' (Finset.disjoint_union_left.mpr ⟨fam_disjoint sem20.symm, fam_disjoint sem21.symm⟩),
    SparseCore.bigSep_union' (fam_disjoint sem10.symm)]
  unfold fam
  rw [SparseCore.bigSep_image_of_injOn (inj3 _) (kit X), SparseCore.bigSep_image_of_injOn (inj3 _) (kit X),
    SparseCore.bigSep_image_of_injOn (inj3 _) (kit X), SparseCore.bigSep_image_of_injOn (inj3 _) (kit X),
    SparseCore.bigSep_image_of_injOn (inj3 _) (kit X)]
  rw [bigSep_sep' (Finset.univ : Finset (Dev nD × Fin τ.nSC × Fin τ.nSub)), bigSep_sep' (Finset.univ : Finset (Dev nD × Fin τ.nSC × Fin τ.nSub)),
    bigSep_sep' (Finset.univ : Finset (Dev nD × Fin τ.nSC × Fin τ.nSub)), bigSep_sep' (Finset.univ : Finset (Dev nD × Fin τ.nSC × Fin τ.nSub))]
  iintro ⟨⟨⟨⟨H0, H1⟩, H2⟩, H3⟩, H4⟩
  isplitr; · iempintro
  isplitr; · iempintro
  isplitl [H0]; · iexact H0
  isplitl [H1]; · iexact H1
  isplitl [H2]; · iexact H2
  isplitl [H3]; · iexact H3
  iexact H4

/-! ## The pipelines' ghost state, and the launch element dealt -/

/-- What the TensorCore of `d` starts from besides its arrays: the two pipelines' cells' ghost state and duty tokens. -/
def G (d : Dev nD) : sProp (𝕄 F) :=
  iprop((bigSep Finset.univ fun p : Fin 2 => Pipeline.cellsGhost (nD := nD) (τ := τ) (Pipeline.pin (pcfgs (F := F)) adm) EP p d)
    ∗ bigSep Finset.univ fun p : Fin 2 => (Pipeline.toksInit (nD := nD) (τ := τ) (Pipeline.pin (pcfgs (F := F)) adm) EP p d : sProp (𝕄 F)))

theorem hu₀ : (ownU (u₀ (F := F)) : sProp (𝕄 F))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P X out0).x q thr) := by
  unfold u₀
  iintro Hu
  ihave H := (ownU_split _ _ _) $$ Hu
  icases H with ⟨HH, HK, HP⟩
  imod (kits_intro X) $$ HK with Hkits
  imod (Pipeline.fund_ghost (nD := nD) (τ := τ) (Pipeline.pin (pcfgs (F := F)) adm) EP cellOf_inj) $$ HP with ⟨Hcg, Htk⟩
  imodintro
  isplitl [HH]; · iexact HH
  isplitl [Hcg Htk]
  · unfold G; rw [bigSep_sep']
    isplitl [Hcg]; · iexact Hcg
    iexact Htk
  iapply (kits_deal X out0); iexact Hkits

end Cert.KernelIdeal.Launch

end
-- ==== Proof.HeldI.lean ====
/-
  Buffers held together: one taken out, put back changed, and all of them read off a final memory.
-/
import proofs.«207961_g9620726743389_cont_9to1c4b_395_8_alg».proof.Proof.HostI

noncomputable section

namespace Cert.KernelIdeal.Held

open Cert.KernelIdeal Cert.KernelIdeal.Common
open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem

variable {F : FTy → Type}

/-- One buffer of a held set, and the rest. -/
theorem held_take (c : Thread nD τ) {S : Finset (DevRef τ sig)} {b : DevRef τ sig} (hb : b ∈ S) (V : Valuation τ sig (Elt F)) :
    (held c S V : sProp (𝕄 F)) = iprop((((c.1, b) : Loc nD τ sig) ↦{fullShare} V b) ∗ held c (S.erase b) V) := by
  unfold held; exact bigSep_erase hb

/-- The rest does not see the buffer's contents. -/
theorem held_erase_update (c : Thread nD τ) (S : Finset (DevRef τ sig)) (b : DevRef τ sig) (V : Valuation τ sig (Elt F)) (v : b.ty.Contents (Elt F)) :
    (held c (S.erase b) (Function.update V b v) : sProp (𝕄 F)) = held c (S.erase b) V :=
  held_congr c fun b' hb' => Function.update_of_ne (Finset.ne_of_mem_erase hb') _ _

/-- A buffer put back at new contents: the set held at the table with that entry replaced. -/
theorem held_put (c : Thread nD τ) {S : Finset (DevRef τ sig)} {b : DevRef τ sig} (hb : b ∈ S) (V : Valuation τ sig (Elt F)) (v : b.ty.Contents (Elt F)) :
    (iprop((((c.1, b) : Loc nD τ sig) ↦{fullShare} v) ∗ held c (S.erase b) V) : sProp (𝕄 F)) = held c S (Function.update V b v) := by
  rw [held_take c hb (Function.update V b v), held_erase_update, Function.update_self]

/-- Held buffers agree with the memory of any state they are held beside. -/
theorem held_agree (c : Thread nD τ) (V : Valuation τ sig (Elt F)) (s' : Phys nD τ sig (Elt F)) :
    ∀ (S : Finset (DevRef τ sig)), iprop((held c S V : sProp (𝕄 F)) ∗ SI s') ⊢ (⌜∀ b ∈ S, s'.mem.mem ((c.1, b) : Loc nD τ sig) = V b⌝ : sProp (𝕄 F)) := by
  intro S
  induction S using Finset.induction_on with
  | empty => iintro -; ipureintro; intro b hb; exact absurd hb (Finset.notMem_empty b)
  | insert b S hb ih =>
    have e : (held c (insert b S) V : sProp (𝕄 F)) = iprop((((c.1, b) : Loc nD τ sig) ↦{fullShare} V b) ∗ held c S V) := by
      unfold held; exact bigSep_insert hb
    rw [e]
    iintro ⟨⟨Hb, HS⟩, HSI⟩
    ihave H := (persistent_entails_right (SI_pointsTo_agree (st := s') (ℓ := ((c.1, b) : Loc nD τ sig)) (I := Finset.univ) (q := fullShare) (f := V b))) $$ [HSI Hb]
    · isplitl [HSI] <;> iassumption
    icases H with ⟨%h1, HSI, -⟩
    ihave H2 := ih $$ [HS HSI]
    · isplitl [HS] <;> iassumption
    icases H2 with %h2
    ipureintro
    intro b' hb'
    rcases Finset.mem_insert.mp hb' with rfl | hb'
    · exact funext fun i => h1 i (Finset.mem_univ i)
    · exact h2 b' hb'

end Cert.KernelIdeal.Held

end
-- ==== Proof.RunI.lean ====
/-
  The kernel program's run, from its parts.

  Every weakly fair execution of the device's thirty-five threads from a memory with all counters at zero terminates,
  nothing faulting, with every array of the host program at the table of contents computed from the launch memory: in
  particular the result at its last entry of that table, and the five arguments as they were. What is used: each vector
  subcore's task (from one run of the body), the sequencers' pass-through, the launch's ghost state dealt, and the
  TensorCore's walk through the host program.
-/
import proofs.«207961_g9620726743389_cont_9to1c4b_395_8_alg».proof.Proof.HuI
import proofs.«207961_g9620726743389_cont_9to1c4b_395_8_alg».proof.Proof.HeldI

noncomputable section

namespace Cert.KernelIdeal.Launch

open Cert.KernelIdeal Cert.KernelIdeal.Gen Cert.KernelIdeal.Common Cert.KernelIdeal.Tile Cert.KernelIdeal.Split
open Cert.KernelIdeal.Vals Cert.KernelIdeal.Host Cert.KernelIdeal.Held

open Idealize.ShloMosaic Idealize.ShloMosaic.TcCoe
open Idealize.ShloMosaic.StableHlo (held)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (R : RegVals F) (m : (ℓ : Loc nD τ sig) → Buf (Elt F) ℓ) (ρ : Dev nD → PrngReg)

/-- What the TensorCore ends with: the host program's arrays at the last table of contents. -/
abbrev FIN (d : Dev nD) : sProp (𝕄 F) := held (SparseCore.T (τ := τ) d) SU (V7 R m d)

/-- What that says of a final memory. -/
def fq (d : Dev nD) (s' : Phys nD τ sig (Elt F)) : Prop := ∀ b ∈ SU, s'.mem.mem ((d, b) : Loc nD τ sig) = V7 R m d b

theorem hfin (d : Dev nD) (s' : Phys nD τ sig (Elt F)) : iprop(FIN R m d ∗ SI s') ⊢ (⌜fq R m d s'⌝ : sProp (𝕄 F)) :=
  held_agree (SparseCore.T (τ := τ) d) (V7 R m d) s' SU

/-- The TensorCore's walk through the host program: from what the launch deals it and the pipelines' ghost state, through
    the four stretches of array operations, the two pipelined calls and the kernel on the vector subcores, to every
    array at the last table of contents. -/
def HmainSpec : Prop := ∀ (κ : GSem nD τ sig → ℕ) (d : Dev nD),
    iprop((K (F := F)).ctx EH (P (Xof R m) (out0 R m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN R m d)

/-- The result at its entry of the last table, the five arguments as launched. -/
def QC : PUnit × MemSt nD τ sig (Elt F) → Prop := fun q => ∀ c : Dev nD,
  q.2.mem ((c.tc : Thread nD τ).loc main_v23) = V7 R m c (r main_v23)
    ∧ q.2.mem ((c.tc : Thread nD τ).loc main_arg0) = m ((c.tc : Thread nD τ).loc main_arg0)
    ∧ q.2.mem ((c.tc : Thread nD τ).loc main_arg1) = m ((c.tc : Thread nD τ).loc main_arg1)
    ∧ q.2.mem ((c.tc : Thread nD τ).loc main_arg2) = m ((c.tc : Thread nD τ).loc main_arg2)
    ∧ q.2.mem ((c.tc : Thread nD τ).loc main_arg3) = m ((c.tc : Thread nD τ).loc main_arg3)
    ∧ q.2.mem ((c.tc : Thread nD τ).loc main_arg4) = m ((c.tc : Thread nD τ).loc main_arg4)

/-- No operation and no call writes an argument. -/
def ArgsKept : Prop := ∀ d : Dev nD,
  V7 R m d (r main_arg0) = m (d, r main_arg0) ∧ V7 R m d (r main_arg1) = m (d, r main_arg1) ∧ V7 R m d (r main_arg2) = m (d, r main_arg2)
    ∧ V7 R m d (r main_arg3) = m (d, r main_arg3) ∧ V7 R m d (r main_arg4) = m (d, r main_arg4)

theorem run_kernel [∀ e, Nonempty (Elt F e)] (hbody : TileBodySpec (Xof R m))
    (hrow : ∀ d j, ((Xof R m).row d j : BitVec 32).toNat ≤ 9999) (hcol : ∀ d j, ((Xof R m).col d j : BitVec 32).toNat ≤ 9999)
    (hargs : ArgsKept R m) (hmain : HmainSpec R m ρ) :
    θ_run (Cert.KernelIdeal.defs (F := F)) (Cert.KernelIdeal.threads (F := F)) ⟨m, fun _ => 0, ρ⟩ (QC R m) :=
  SparseCore.Cfg.θ_run_sc (K := K (F := F)) (D := D (F := F)) (𝒱 := 𝒱) (EH := EH) (P := P (Xof R m) (out0 R m)) facts v₀
    (fun q hq => match q with | 0 => nomatch hq)
    (fun q _ => match q with | 0 => tileObl (Xof R m) (out0 R m) facts hbody hrow hcol)
    (fun q _ => match q with | 0 => SparseCore.Cfg.VecSplit.of_plain (vecSplit (Xof R m) (out0 R m)))
    m ρ main (fun d => G (F := F) d) (FIN R m) (u₀ (F := F)) (sep_elim_left.trans (hu₀ (Xof R m) (out0 R m))) hmain (fq R m) (hfin R m) (QC R m)
    (fun s' h c =>
      ⟨h c (r main_v23) (mem_SU main_v23 (by decide)),
       (h c (r main_arg0) (mem_SU main_arg0 (by decide))).trans (hargs c).1,
       (h c (r main_arg1) (mem_SU main_arg1 (by decide))).trans (hargs c).2.1,
       (h c (r main_arg2) (mem_SU main_arg2 (by decide))).trans (hargs c).2.2.1,
       (h c (r main_arg3) (mem_SU main_arg3 (by decide))).trans (hargs c).2.2.2.1,
       (h c (r main_arg4) (mem_SU main_arg4 (by decide))).trans (hargs c).2.2.2.2⟩)

end Cert.KernelIdeal.Launch

end
-- ==== Proof.MainI.lean ====
/-
  The TensorCore's walk through the host program, step by step.

  Each of the two pipelined calls is met holding all the host program's arrays together: the call's operand and result
  arrays are taken out, the call runs on them, and they are put back with the result arrays at what the call computes.
-/
import proofs.«207961_g9620726743389_cont_9to1c4b_395_8_alg».proof.Proof.RunI

noncomputable section

namespace Cert.KernelIdeal.Launch

open Cert.KernelIdeal Cert.KernelIdeal.Gen Cert.KernelIdeal.Common Cert.KernelIdeal.Tile Cert.KernelIdeal.Split
open Cert.KernelIdeal.Vals Cert.KernelIdeal.Host Cert.KernelIdeal.Held Cert.KernelIdeal.MainShape
open Cert.KernelIdeal.Regions (adm)

open Idealize.ShloMosaic Idealize.ShloMosaic.TcCoe
open Idealize.ShloMosaic.StableHlo (held held_sub_split held_congr)
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕥" => SparseCore.T (τ := τ)

omit [FloatOps F] in
theorem r_ne {x y : Ref sig .tc} (h : x ≠ y) : (r x : DevRef τ sig) ≠ r y := fun e => h (Proc.devRef_injective _ e)

/-- The TensorCore owes its SparseCores nothing at the index no handshake uses. -/
theorem Otc_none (d : Dev nD) (n : ℕ) (g : GSem nD τ sig) : (K (F := F)).Otc d n g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c _ => ?_
    rw [tallyAt_apply]; simp
  · rfl

/-! ## The first call -/

/-- The first pipelined call, as a step: from its two operands and its result array at any contents, the TensorCore's
    debts handed through, to the result array at the node scores. -/
def Region0Spec (R : RegVals F) : Prop :=
  ∀ (d : Dev nD) (x : Buf (Elt F) ((𝕥 d).loc main_arg0)) (w12 : Buf (Elt F) ((𝕥 d).loc main_v6))
    (O : CellTallies nD τ sig (HIx 1)) (_ : ∀ g, O g none = 0) {α : Type}
    (k : PUnit → Prog (TpuEff nD τ sig (Elt F) (SparseCore.Sig (ΛP (F := F)) 1) .tc) α) (Φ : α → sProp (𝕄 F)),
    iprop(levAts (K (F := F)).L (K (F := F)).lev ∗ boundary (𝕥 d)
        ∗ Pipeline.cellsGhost (Pipeline.pin (pcfgs (F := F)) adm) EP 0 d ∗ Pipeline.toksInit (Pipeline.pin (pcfgs (F := F)) adm) EP 0 d
        ∗ ((𝕥 d).loc main_arg0 ↦{fullShare} x) ∗ ((𝕥 d).loc main_v6 ↦{fullShare} w12) ∗ (∃ f, ((𝕥 d).loc main_v9 ↦{fullShare} f))
        ∗ (∃ W, ⌜(K (F := F)).WBelow (𝕥 d) W 0⌝ ∗ owes (𝕥 d) O W)
        ∗ (iprop(boundary (𝕥 d) ∗ ((𝕥 d).loc main_arg0 ↦{fullShare} x) ∗ ((𝕥 d).loc main_v6 ↦{fullShare} w12)
              ∗ ((𝕥 d).loc main_v9 ↦{fullShare} R.node x w12) ∗ (∃ W, ⌜(K (F := F)).WBelow (𝕥 d) W 0⌝ ∗ owes (𝕥 d) O W))
            -∗ wp frame (wpE ((K (F := F)).defs D) 𝒱 (𝕥 d) none) Set.univ (k ⟨⟩) Φ))
      ⊢ wp frame (wpE ((K (F := F)).defs D) 𝒱 (𝕥 d) none) Set.univ (.op (.customCall (SparseCore.inner (Pipeline.entry 0)) ()) k) Φ

variable (R : RegVals F) (m : (ℓ : Loc nD τ sig) → Buf (Elt F) ℓ)

/-- The first call's three arrays. -/
def T0 : Finset (DevRef τ sig) := {r main_arg0, r main_v6, r main_v9}

omit [FloatOps F] in
theorem T0_sub : T0 ⊆ SU := by
  intro b hb; simp only [T0, Finset.mem_insert, Finset.mem_singleton] at hb
  rcases hb with rfl | rfl | rfl <;> exact mem_SU _ (by decide)

omit [FloatOps F] in
theorem held_T0 (c : Thread nD τ) (W : Valuation τ sig (Elt F)) :
    (held c T0 W : sProp (𝕄 F))
      = iprop((((c.1, r main_arg0) : Loc nD τ sig) ↦{fullShare} W (r main_arg0)) ∗ (((c.1, r main_v6) : Loc nD τ sig) ↦{fullShare} W (r main_v6))
          ∗ (((c.1, r main_v9) : Loc nD τ sig) ↦{fullShare} W (r main_v9))) := by
  unfold held T0
  rw [bigSep_insert (by decide), bigSep_insert (by decide), bigSep_singleton]; rfl

theorem V2_arg0 (d : Dev nD) : V2 R m d (r main_arg0) = V1 m d (r main_arg0) := Function.update_of_ne (r_ne (by decide)) _ _
theorem V2_v6 (d : Dev nD) : V2 R m d (r main_v6) = V1 m d (r main_v6) := Function.update_of_ne (r_ne (by decide)) _ _
theorem V2_v9 (d : Dev nD) : V2 R m d (r main_v9) = R.node (V1 m d (r main_arg0)) (V1 m d (r main_v6)) := Function.update_self _ _ _
theorem held_rest0 (c : Thread nD τ) (d : Dev nD) : (held c (SU \ T0) (V2 R m d) : sProp (𝕄 F)) = held c (SU \ T0) (V1 m d) :=
  held_congr c fun b hb => Function.update_of_ne (fun e => (Finset.mem_sdiff.mp hb).2 (by rw [e]; simp [T0])) _ _

/-- The first call, holding all the host program's arrays: the table of contents moves on by the node scores. -/
theorem step_reg0 (hreg0 : Region0Spec R) (d : Dev nD) (O : CellTallies nD τ sig (HIx 1)) (hO : ∀ g, O g none = 0) {α : Type}
    (k : PUnit → Prog (TpuEff nD τ sig (Elt F) (SparseCore.Sig (ΛP (F := F)) 1) .tc) α) (Φ : α → sProp (𝕄 F)) :
    iprop(levAts (K (F := F)).L (K (F := F)).lev ∗ boundary (𝕥 d)
        ∗ Pipeline.cellsGhost (Pipeline.pin (pcfgs (F := F)) adm) EP 0 d ∗ Pipeline.toksInit (Pipeline.pin (pcfgs (F := F)) adm) EP 0 d
        ∗ held (𝕥 d) SU (V1 m d) ∗ (∃ W, ⌜(K (F := F)).WBelow (𝕥 d) W 0⌝ ∗ owes (𝕥 d) O W)
        ∗ (iprop(boundary (𝕥 d) ∗ held (𝕥 d) SU (V2 R m d) ∗ (∃ W, ⌜(K (F := F)).WBelow (𝕥 d) W 0⌝ ∗ owes (𝕥 d) O W))
            -∗ wp frame (wpE ((K (F := F)).defs D) 𝒱 (𝕥 d) none) Set.univ (k ⟨⟩) Φ))
      ⊢ wp frame (wpE ((K (F := F)).defs D) 𝒱 (𝕥 d) none) Set.univ (.op (.customCall (SparseCore.inner (Pipeline.entry 0)) ()) k) Φ := by
  rw [held_sub_split (𝕥 d) T0_sub (V1 m d), held_T0]
  iintro ⟨Hlev, Hb, Hcg, Htk, ⟨⟨Hx, Hw, Hf⟩, Hrest⟩, HO, Hk⟩
  iapply (hreg0 d (V1 m d (r main_arg0)) (V1 m d (r main_v6)) O hO k Φ)
  isplitl [Hlev]; · iexact Hlev
  isplitl [Hb]; · iexact Hb
  isplitl [Hcg]; · iexact Hcg
  isplitl [Htk]; · iexact Htk
  isplitl [Hx]; · iexact Hx
  isplitl [Hw]; · iexact Hw
  isplitl [Hf]; · iexists _; iexact Hf
  isplitl [HO]; · iexact HO
  iintro ⟨Hb, Hx, Hw, Hf, HO⟩
  iapply Hk
  isplitl [Hb]; · iexact Hb
  isplitr [HO]
  · rw [held_sub_split (𝕥 d) T0_sub (V2 R m d), held_T0, V2_arg0, V2_v6, V2_v9, held_rest0]
    isplitl [Hx Hw Hf]
    · isplitl [Hx]; · iexact Hx
      isplitl [Hw]; · iexact Hw
      iexact Hf
    iexact Hrest
  iexact HO

/-! ## The kernel on the vector subcores -/

variable (X : Ins F) (out0 : (d : Dev nD) → Buf (Elt F) (outLoc d))

/-- What the two SparseCores are handed at the call is the thirty-two subcores' parts, -/
theorem st_eq (d : Dev nD) : (bigSep Finset.univ fun c : Fin ((K (F := F)).nCore 0) => (P X out0).st 0 d c)
    = bigSep Finset.univ fun p : Fin τ.nSC × Fin τ.nSub => goRes X out0 d p.1 p.2 := by
  rw [bigSep_univ_prod]; rfl
/-- and what they hand back. -/
theorem dn_eq (d : Dev nD) : (bigSep Finset.univ fun c : Fin ((K (F := F)).nCore 0) => (P X out0).dn 0 d c)
    = bigSep Finset.univ fun p : Fin τ.nSC × Fin τ.nSub => tdRes X d p.1 p.2 := by
  rw [bigSep_univ_prod]; rfl

/-- The five arrays held whole are the remainder of the table's share and every subcore's part, -/
theorem go_all (hq : ∀ c i, X.q c i = tabShare c i) (d : Dev nD) :
    iprop((tabLoc d ↦{fullShare} X.tab d) ∗ (rowLoc d ↦{fullShare} X.row d) ∗ (colLoc d ↦{fullShare} X.col d) ∗ (esLoc d ↦{fullShare} X.es d)
        ∗ (outLoc d ↦{fullShare} out0 d))
      ⊢ iprop((tabLoc d ↦{tabRest} X.tab d) ∗ bigSep Finset.univ fun p : Fin τ.nSC × Fin τ.nSub => goRes X out0 d p.1 p.2) := by
  unfold goRes
  simp only [hq]
  rw [bigSep_sep', bigSep_sep', bigSep_sep', bigSep_sep', rowPts_pieces, colPts_pieces, esPts_pieces, outPts_pieces]
  iintro ⟨Ht, Hr, Hc, He, Ho⟩
  ihave Ht' := (tabPts_split (F := F) d (X.tab d)) $$ Ht
  icases Ht' with ⟨Hrest, Htoks⟩
  isplitl [Hrest]; · iexact Hrest
  isplitl [Htoks]; · iexact Htoks
  isplitl [Hr]; · iexact Hr
  isplitl [Hc]; · iexact Hc
  isplitl [He]; · iexact He
  iexact Ho
/-- and the parts handed back, with the remainder, are the five arrays whole, the result at the value. -/
theorem td_all (hq : ∀ c i, X.q c i = tabShare c i) (d : Dev nD) :
    iprop((tabLoc d ↦{tabRest} X.tab d) ∗ bigSep Finset.univ fun p : Fin τ.nSC × Fin τ.nSub => tdRes X d p.1 p.2)
      ⊢ iprop((tabLoc d ↦{fullShare} X.tab d) ∗ (rowLoc d ↦{fullShare} X.row d) ∗ (colLoc d ↦{fullShare} X.col d) ∗ (esLoc d ↦{fullShare} X.es d)
        ∗ (outLoc d ↦{fullShare} outVal d (X.tab d) (X.row d) (X.col d) (X.es d))) := by
  unfold tdRes
  simp only [hq]
  rw [bigSep_sep', bigSep_sep', bigSep_sep', bigSep_sep', rowPts_pieces, colPts_pieces, esPts_pieces, outPts_pieces]
  iintro ⟨Hrest, Htoks, Hr, Hc, He, Ho⟩
  isplitl [Hrest Htoks]
  · iapply (tabPts_join (F := F) d (X.tab d))
    isplitl [Hrest]; · iexact Hrest
    iexact Htoks
  isplitl [Hr]; · iexact Hr
  isplitl [Hc]; · iexact Hc
  isplitl [He]; · iexact He
  iexact Ho

/-- The kernel's five arrays. -/
def T5 : Finset (DevRef τ sig) := {r main_v10, r main_v20, r main_v21, r main_v18, r main_v22}

omit [FloatOps F] in
theorem T5_sub : T5 ⊆ SU := by
  intro b hb; simp only [T5, Finset.mem_insert, Finset.mem_singleton] at hb
  rcases hb with rfl | rfl | rfl | rfl | rfl <;> exact mem_SU _ (by decide)

omit [FloatOps F] in
theorem held_T5 (c : Thread nD τ) (W : Valuation τ sig (Elt F)) :
    (held c T5 W : sProp (𝕄 F))
      = iprop((((c.1, r main_v10) : Loc nD τ sig) ↦{fullShare} W (r main_v10)) ∗ (((c.1, r main_v20) : Loc nD τ sig) ↦{fullShare} W (r main_v20))
          ∗ (((c.1, r main_v21) : Loc nD τ sig) ↦{fullShare} W (r main_v21)) ∗ (((c.1, r main_v18) : Loc nD τ sig) ↦{fullShare} W (r main_v18))
          ∗ (((c.1, r main_v22) : Loc nD τ sig) ↦{fullShare} W (r main_v22))) := by
  unfold held T5
  rw [bigSep_insert (by decide), bigSep_insert (by decide), bigSep_insert (by decide), bigSep_insert (by decide), bigSep_singleton]; rfl

theorem V6_v10 (d : Dev nD) : V6 R m d (r main_v10) = V5 R m d (r main_v10) := Function.update_of_ne (r_ne (by decide)) _ _
theorem V6_v20 (d : Dev nD) : V6 R m d (r main_v20) = V5 R m d (r main_v20) := Function.update_of_ne (r_ne (by decide)) _ _
theorem V6_v21 (d : Dev nD) : V6 R m d (r main_v21) = V5 R m d (r main_v21) := Function.update_of_ne (r_ne (by decide)) _ _
theorem V6_v18 (d : Dev nD) : V6 R m d (r main_v18) = V5 R m d (r main_v18) := Function.update_of_ne (r_ne (by decide)) _ _
theorem V6_v22 (d : Dev nD) : V6 R m d (r main_v22) = outVal d ((Xof R m).tab d) ((Xof R m).row d) ((Xof R m).col d) ((Xof R m).es d) :=
  Function.update_self _ _ _
theorem held_rest5 (c : Thread nD τ) (d : Dev nD) : (held c (SU \ T5) (V6 R m d) : sProp (𝕄 F)) = held c (SU \ T5) (V5 R m d) :=
  held_congr c fun b hb => Function.update_of_ne (fun e => (Finset.mem_sdiff.mp hb).2 (by rw [e]; simp [T5])) _ _

/-- The call of the kernel on the vector subcores, holding all the host program's arrays: the table of contents moves on
    by the gathered sums. -/
theorem step_sc (κ : GSem nD τ sig → ℕ) (d : Dev nD) {Φ : PUnit → sProp (𝕄 F)} :
    iprop((K (F := F)).ctx EH (P (Xof R m) (Vals.out0 R m)) κ ∗ (K (F := F)).tcSt EH d 0 ∗ held (𝕥 d) SU (V5 R m d)
        ∗ (iprop((K (F := F)).tcSt EH d 1 ∗ held (𝕥 d) SU (V6 R m d)) -∗ Φ ⟨⟩))
      ⊢ wp frame (wpE ((K (F := F)).defs (D (F := F))) 𝒱 (𝕥 d) none) Set.univ ((K (F := F)).run d 0) Φ := by
  rw [held_sub_split (𝕥 d) T5_sub (V5 R m d), held_T5]
  iintro ⟨#Hctx, Hst, ⟨⟨Ht, Hr, Hc, He, Ho⟩, Hrest⟩, Hk⟩
  ihave Hgo := (go_all (Xof R m) (Vals.out0 R m) (fun _ _ => rfl) d) $$ [Ht Hr Hc He Ho]
  · isplitl [Ht]; · iexact Ht
    isplitl [Hr]; · iexact Hr
    isplitl [Hc]; · iexact Hc
    isplitl [He]; · iexact He
    iexact Ho
  icases Hgo with ⟨Htr, Hgo⟩
  iapply ((K (F := F)).wp_run (D (F := F)) 𝒱 (EH := EH) (P := P (Xof R m) (Vals.out0 R m)) κ d 0) $$ [Hst Hgo Htr Hrest Hk]
  isplitr; · iexact Hctx
  isplitl [Hst]; · iexact Hst
  isplitl [Hgo]
  · rw [st_eq]; iexact Hgo
  iintro ⟨Hst, Hdn⟩
  ihave Hdn' := (Entails.of_eq (dn_eq (Xof R m) (Vals.out0 R m) d)) $$ Hdn
  ihave Hall := (td_all (Xof R m) (fun _ _ => rfl) d) $$ [Htr Hdn']
  · isplitl [Htr]; · iexact Htr
    iexact Hdn'
  icases Hall with ⟨Ht, Hr, Hc, He, Ho⟩
  iapply Hk
  isplitl [Hst]; · iexact Hst
  rw [held_sub_split (𝕥 d) T5_sub (V6 R m d), held_T5, V6_v10, V6_v20, V6_v21, V6_v18, V6_v22, held_rest5]
  isplitl [Ht Hr Hc He Ho]
  · isplitl [Ht]; · iexact Ht
    isplitl [Hr]; · iexact Hr
    isplitl [Hc]; · iexact Hc
    isplitl [He]; · iexact He
    iexact Ho
  iexact Hrest

/-! ## The second call -/

/-- The second pipelined call, as a step: from the stacked edge features, the third run of weights and the bias, to the
    four stacks of edge scores. -/
def Region1Spec (R : RegVals F) : Prop :=
  ∀ (d : Dev nD) (e4 : Buf (Elt F) ((𝕥 d).loc main_v11)) (w3 : Buf (Elt F) ((𝕥 d).loc main_v7)) (b2 : Buf (Elt F) ((𝕥 d).loc main_v8))
    (O : CellTallies nD τ sig (HIx 1)) (_ : ∀ g, O g none = 0) {α : Type}
    (k : PUnit → Prog (TpuEff nD τ sig (Elt F) (SparseCore.Sig (ΛP (F := F)) 1) .tc) α) (Φ : α → sProp (𝕄 F)),
    iprop(levAts (K (F := F)).L (K (F := F)).lev ∗ boundary (𝕥 d)
        ∗ Pipeline.cellsGhost (Pipeline.pin (pcfgs (F := F)) adm) EP 1 d ∗ Pipeline.toksInit (Pipeline.pin (pcfgs (F := F)) adm) EP 1 d
        ∗ ((𝕥 d).loc main_v11 ↦{fullShare} e4) ∗ ((𝕥 d).loc main_v7 ↦{fullShare} w3) ∗ ((𝕥 d).loc main_v8 ↦{fullShare} b2)
        ∗ (∃ f, ((𝕥 d).loc main_v12_0 ↦{fullShare} f)) ∗ (∃ f, ((𝕥 d).loc main_v12_1 ↦{fullShare} f))
        ∗ (∃ f, ((𝕥 d).loc main_v12_2 ↦{fullShare} f)) ∗ (∃ f, ((𝕥 d).loc main_v12_3 ↦{fullShare} f))
        ∗ (∃ W, ⌜(K (F := F)).WBelow (𝕥 d) W 0⌝ ∗ owes (𝕥 d) O W)
        ∗ (iprop(boundary (𝕥 d) ∗ ((𝕥 d).loc main_v11 ↦{fullShare} e4) ∗ ((𝕥 d).loc main_v7 ↦{fullShare} w3) ∗ ((𝕥 d).loc main_v8 ↦{fullShare} b2)
              ∗ ((𝕥 d).loc main_v12_0 ↦{fullShare} R.edge 0 e4 w3 b2) ∗ ((𝕥 d).loc main_v12_1 ↦{fullShare} R.edge 1 e4 w3 b2)
              ∗ ((𝕥 d).loc main_v12_2 ↦{fullShare} R.edge 2 e4 w3 b2) ∗ ((𝕥 d).loc main_v12_3 ↦{fullShare} R.edge 3 e4 w3 b2)
              ∗ (∃ W, ⌜(K (F := F)).WBelow (𝕥 d) W 0⌝ ∗ owes (𝕥 d) O W))
            -∗ wp frame (wpE ((K (F := F)).defs D) 𝒱 (𝕥 d) none) Set.univ (k ⟨⟩) Φ))
      ⊢ wp frame (wpE ((K (F := F)).defs D) 𝒱 (𝕥 d) none) Set.univ (.op (.customCall (SparseCore.inner (Pipeline.entry 1)) ()) k) Φ

/-- The second call's seven arrays. -/
def T1 : Finset (DevRef τ sig) := {r main_v11, r main_v7, r main_v8, r main_v12_0, r main_v12_1, r main_v12_2, r main_v12_3}

omit [FloatOps F] in
theorem T1_sub : T1 ⊆ SU := by
  intro b hb; simp only [T1, Finset.mem_insert, Finset.mem_singleton] at hb
  rcases hb with rfl | rfl | rfl | rfl | rfl | rfl | rfl <;> exact mem_SU _ (by decide)

omit [FloatOps F] in
theorem held_T1 (c : Thread nD τ) (W : Valuation τ sig (Elt F)) :
    (held c T1 W : sProp (𝕄 F))
      = iprop((((c.1, r main_v11) : Loc nD τ sig) ↦{fullShare} W (r main_v11)) ∗ (((c.1, r main_v7) : Loc nD τ sig) ↦{fullShare} W (r main_v7))
          ∗ (((c.1, r main_v8) : Loc nD τ sig) ↦{fullShare} W (r main_v8)) ∗ (((c.1, r main_v12_0) : Loc nD τ sig) ↦{fullShare} W (r main_v12_0))
          ∗ (((c.1, r main_v12_1) : Loc nD τ sig) ↦{fullShare} W (r main_v12_1)) ∗ (((c.1, r main_v12_2) : Loc nD τ sig) ↦{fullShare} W (r main_v12_2))
          ∗ (((c.1, r main_v12_3) : Loc nD τ sig) ↦{fullShare} W (r main_v12_3))) := by
  unfold held T1
  rw [bigSep_insert (by decide), bigSep_insert (by decide), bigSep_insert (by decide), bigSep_insert (by decide), bigSep_insert (by decide),
    bigSep_insert (by decide), bigSep_singleton]; rfl

theorem V4_off (d : Dev nD) {b : DevRef τ sig} (h0 : b ≠ r main_v12_0) (h1 : b ≠ r main_v12_1) (h2 : b ≠ r main_v12_2) (h3 : b ≠ r main_v12_3) :
    V4 R m d b = V3 R m d b := by
  unfold V4
  rw [Function.update_of_ne h3, Function.update_of_ne h2, Function.update_of_ne h1, Function.update_of_ne h0]
theorem V4_v11 (d : Dev nD) : V4 R m d (r main_v11) = V3 R m d (r main_v11) :=
  V4_off R m d (r_ne (by decide)) (r_ne (by decide)) (r_ne (by decide)) (r_ne (by decide))
theorem V4_v7 (d : Dev nD) : V4 R m d (r main_v7) = V3 R m d (r main_v7) :=
  V4_off R m d (r_ne (by decide)) (r_ne (by decide)) (r_ne (by decide)) (r_ne (by decide))
theorem V4_v8 (d : Dev nD) : V4 R m d (r main_v8) = V3 R m d (r main_v8) :=
  V4_off R m d (r_ne (by decide)) (r_ne (by decide)) (r_ne (by decide)) (r_ne (by decide))
theorem V4_e0 (d : Dev nD) : V4 R m d (r main_v12_0) = R.edge 0 (V3 R m d (r main_v11)) (V3 R m d (r main_v7)) (V3 R m d (r main_v8)) := by
  unfold V4
  rw [Function.update_of_ne (r_ne (by decide)), Function.update_of_ne (r_ne (by decide)), Function.update_of_ne (r_ne (by decide)), Function.update_self]
theorem V4_e1 (d : Dev nD) : V4 R m d (r main_v12_1) = R.edge 1 (V3 R m d (r main_v11)) (V3 R m d (r main_v7)) (V3 R m d (r main_v8)) := by
  unfold V4
  rw [Function.update_of_ne (r_ne (by decide)), Function.update_of_ne (r_ne (by decide)), Function.update_self]
theorem V4_e2 (d : Dev nD) : V4 R m d (r main_v12_2) = R.edge 2 (V3 R m d (r main_v11)) (V3 R m d (r main_v7)) (V3 R m d (r main_v8)) := by
  unfold V4
  rw [Function.update_of_ne (r_ne (by decide)), Function.update_self]
theorem V4_e3 (d : Dev nD) : V4 R m d (r main_v12_3) = R.edge 3 (V3 R m d (r main_v11)) (V3 R m d (r main_v7)) (V3 R m d (r main_v8)) := by
  unfold V4
  rw [Function.update_self]
theorem held_rest1 (c : Thread nD τ) (d : Dev nD) : (held c (SU \ T1) (V4 R m d) : sProp (𝕄 F)) = held c (SU \ T1) (V3 R m d) :=
  held_congr c fun b hb => V4_off R m d
    (fun e => (Finset.mem_sdiff.mp hb).2 (by rw [e]; simp [T1])) (fun e => (Finset.mem_sdiff.mp hb).2 (by rw [e]; simp [T1]))
    (fun e => (Finset.mem_sdiff.mp hb).2 (by rw [e]; simp [T1])) (fun e => (Finset.mem_sdiff.mp hb).2 (by rw [e]; simp [T1]))

/-- The second call, holding all the host program's arrays: the table of contents moves on by the four stacks of edge scores. -/
theorem step_reg1 (hreg1 : Region1Spec R) (d : Dev nD) (O : CellTallies nD τ sig (HIx 1)) (hO : ∀ g, O g none = 0) {α : Type}
    (k : PUnit → Prog (TpuEff nD τ sig (Elt F) (SparseCore.Sig (ΛP (F := F)) 1) .tc) α) (Φ : α → sProp (𝕄 F)) :
    iprop(levAts (K (F := F)).L (K (F := F)).lev ∗ boundary (𝕥 d)
        ∗ Pipeline.cellsGhost (Pipeline.pin (pcfgs (F := F)) adm) EP 1 d ∗ Pipeline.toksInit (Pipeline.pin (pcfgs (F := F)) adm) EP 1 d
        ∗ held (𝕥 d) SU (V3 R m d) ∗ (∃ W, ⌜(K (F := F)).WBelow (𝕥 d) W 0⌝ ∗ owes (𝕥 d) O W)
        ∗ (iprop(boundary (𝕥 d) ∗ held (𝕥 d) SU (V4 R m d) ∗ (∃ W, ⌜(K (F := F)).WBelow (𝕥 d) W 0⌝ ∗ owes (𝕥 d) O W))
            -∗ wp frame (wpE ((K (F := F)).defs D) 𝒱 (𝕥 d) none) Set.univ (k ⟨⟩) Φ))
      ⊢ wp frame (wpE ((K (F := F)).defs D) 𝒱 (𝕥 d) none) Set.univ (.op (.customCall (SparseCore.inner (Pipeline.entry 1)) ()) k) Φ := by
  rw [held_sub_split (𝕥 d) T1_sub (V3 R m d), held_T1]
  iintro ⟨Hlev, Hb, Hcg, Htk, ⟨⟨He, Hw, Hbb, H0, H1, H2, H3⟩, Hrest⟩, HO, Hk⟩
  iapply (hreg1 d (V3 R m d (r main_v11)) (V3 R m d (r main_v7)) (V3 R m d (r main_v8)) O hO k Φ)
  isplitl [Hlev]; · iexact Hlev
  isplitl [Hb]; · iexact Hb
  isplitl [Hcg]; · iexact Hcg
  isplitl [Htk]; · iexact Htk
  isplitl [He]; · iexact He
  isplitl [Hw]; · iexact Hw
  isplitl [Hbb]; · iexact Hbb
  isplitl [H0]; · iexists _; iexact H0
  isplitl [H1]; · iexists _; iexact H1
  isplitl [H2]; · iexists _; iexact H2
  isplitl [H3]; · iexists _; iexact H3
  isplitl [HO]; · iexact HO
  iintro ⟨Hb, He, Hw, Hbb, H0, H1, H2, H3, HO⟩
  iapply Hk
  isplitl [Hb]; · iexact Hb
  isplitr [HO]
  · rw [held_sub_split (𝕥 d) T1_sub (V4 R m d), held_T1, V4_v11, V4_v7, V4_v8, V4_e0, V4_e1, V4_e2, V4_e3, held_rest1]
    isplitl [He Hw Hbb H0 H1 H2 H3]
    · isplitl [He]; · iexact He
      isplitl [Hw]; · iexact Hw
      isplitl [Hbb]; · iexact Hbb
      isplitl [H0]; · iexact H0
      isplitl [H1]; · iexact H1
      isplitl [H2]; · iexact H2
      iexact H3
    iexact Hrest
  iexact HO

/-! ## The whole walk -/

omit [FloatOps F] in
theorem bigSep_fin2 (Φ : Fin 2 → sProp (𝕄 F)) : bigSep Finset.univ Φ = iprop(Φ (0 : Fin 2) ∗ Φ (1 : Fin 2)) :=
  bigSep_univ_eq_bigSepL [(0 : Fin 2), (1 : Fin 2)] (by decide) (by decide) Φ

theorem ops1_fresh : ∀ op ∈ (ops1 : List (HloOp τ sig (Elt F))), op.fresh = ∅ := by
  intro op hop
  simp only [ops1, List.mem_cons, List.mem_nil_iff, or_false] at hop
  rcases hop with rfl | rfl | rfl | rfl | rfl | rfl | rfl | rfl | rfl <;> rfl
theorem ops2_fresh : ∀ op ∈ (ops2 : List (HloOp τ sig (Elt F))), op.fresh = ∅ := by
  intro op hop
  simp only [ops2, List.mem_cons, List.mem_nil_iff, or_false] at hop
  rcases hop with rfl | rfl <;> rfl
theorem ops3_fresh : ∀ op ∈ (ops3 : List (HloOp τ sig (Elt F))), op.fresh = ∅ := by
  intro op hop
  simp only [ops3, List.mem_cons, List.mem_nil_iff, or_false] at hop
  rcases hop with rfl | rfl | rfl | rfl | rfl | rfl | rfl | rfl | rfl | rfl | rfl <;> rfl
theorem ops4_fresh : ∀ op ∈ (ops4 : List (HloOp τ sig (Elt F))), op.fresh = ∅ := by
  intro op hop
  simp only [ops4, List.mem_cons, List.mem_nil_iff, or_false] at hop
  rcases hop with rfl; rfl

/-- The host program with every call in head position and the last stretch continued by the return. -/
theorem main_norm (d : Dev nD) :
    main (F := F) d
      = (StableHlo.seq ops1 >>= fun _ => (Prog.op (.customCall (SparseCore.inner (Pipeline.entry 0)) ()) fun _ =>
          StableHlo.seq ops2 >>= fun _ => (Prog.op (.customCall (SparseCore.inner (Pipeline.entry 1)) ()) fun _ =>
          StableHlo.seq ops3 >>= fun _ => ((sc (F := F)).run d 0 >>= fun _ => (StableHlo.seq ops4 >>= fun _ => Prog.ret PUnit.unit))))) := rfl

/-- The rest of the TensorCore's handshake state before call `n`, its debts apart. -/
def tcTail (d : Dev nD) (n : ℕ) : sProp (𝕄 F) :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt EH d n : sProp (𝕄 F))
      = iprop((∃ W, ⌜(K (F := F)).WBelow (𝕥 d) W (8 * n)⌝ ∗ owes (𝕥 d) ((K (F := F)).Otc d n) W) ∗ tcTail (F := F) d n) := rfl

variable (ρ : Dev nD → PrngReg)

theorem hmain (hreg0 : Region0Spec R) (hreg1 : Region1Spec R) : HmainSpec R m ρ := by
  intro κ d
  unfold SparseCore.Cfg.tcRes
  rw [show (unscopedBufs d (fun b => m ((𝕥 d).loc b)) : sProp (𝕄 F)) = held (𝕥 d) SU (V0 m d) from unscoped_held d (V0 m d),
    main_norm, tcSt_eq d 0]
  unfold G
  rw [bigSep_fin2, bigSep_fin2]
  iintro ⟨#Hctx, ⟨HO, Htail⟩, ⟨Hb, Hheld, -, -⟩, ⟨⟨Hcg0, Hcg1⟩, ⟨Htk0, Htk1⟩⟩⟩
  ihave #Hlev := ((K (F := F)).ctx_levAts (EH := EH) (P := P (Xof R m) (Vals.out0 R m)) κ) $$ Hctx
  -- the first stretch
  iapply (StableHlo.wp_seq 𝒱 none Set.univ d SU _ ops1 ops1_sub ops1_fresh (V0 m d)) $$ [Hb Hheld]
  · isplitl [Hb] <;> iassumption
  iintro ⟨Hb, Hheld⟩
  -- the first call
  iapply (step_reg0 R m hreg0 d ((K (F := F)).Otc d 0) (Otc_none d 0) _ _)
  isplitr; · iexact Hlev
  isplitl [Hb]; · iexact Hb
  isplitl [Hcg0]; · iexact Hcg0
  isplitl [Htk0]; · iexact Htk0
  isplitl [Hheld]; · iexact Hheld
  isplitl [HO]; · iexact HO
  iintro ⟨Hb, Hheld, HO⟩
  -- the second stretch
  iapply (StableHlo.wp_seq 𝒱 none Set.univ d SU _ ops2 ops2_sub ops2_fresh (V2 R m d)) $$ [Hb Hheld]
  · isplitl [Hb] <;> iassumption
  iintro ⟨Hb, Hheld⟩
  -- the second call
  iapply (step_reg1 R m hreg1 d ((K (F := F)).Otc d 0) (Otc_none d 0) _ _)
  isplitr; · iexact Hlev
  isplitl [Hb]; · iexact Hb
  isplitl [Hcg1]; · iexact Hcg1
  isplitl [Htk1]; · iexact Htk1
  isplitl [Hheld]; · iexact Hheld
  isplitl [HO]; · iexact HO
  iintro ⟨Hb, Hheld, HO⟩
  -- the third stretch
  iapply (StableHlo.wp_seq 𝒱 none Set.univ d SU _ ops3 ops3_sub ops3_fresh (V4 R m d)) $$ [Hb Hheld]
  · isplitl [Hb] <;> iassumption
  iintro ⟨Hb, Hheld⟩
  -- the kernel on the vector subcores
  rw [wp_bind]
  iapply (step_sc R m κ d)
  isplitr; · iexact Hctx
  isplitl [HO Htail]
  · rw [tcSt_eq d 0]
    isplitl [HO]; · iexact HO
    iexact Htail
  isplitl [Hheld]; · iexact Hheld
  iintro ⟨Hst, Hheld⟩
  -- the last stretch
  iapply (StableHlo.wp_seq 𝒱 none Set.univ d SU _ ops4 ops4_sub ops4_fresh (V6 R m d)) $$ [Hb Hheld]
  · isplitl [Hb] <;> iassumption
  iintro ⟨Hb, Hheld⟩
  rw [wp_ret]; imodintro
  isplitl [Hst]; · iexact Hst
  iexact Hheld

end Cert.KernelIdeal.Launch

end
-- ==== Proof.Region1I.lean ====
/-
  The second pipelined matrix product of the host program, as one step of the TensorCore's proof.

  The edge features, seen as four slabs of 40000 rows, are multiplied 2000 rows at a time over a grid of twenty points by
  the last run of 256 weights, and the bias is added: at point `t` four windows over the one array hold block `t` of
  each slab, and four results of 40000 rows each receive block `t` of their slab's product. The four windows over one
  array each hold a quarter of it. The step is stated around whatever the TensorCore still owes its SparseCores.
-/
import proofs.«207961_g9620726743389_cont_9to1c4b_395_8_alg».proof.Proof.Region0I

set_option maxRecDepth 16384

noncomputable section

namespace Cert.KernelIdeal.Regions

open Cert.KernelIdeal Cert.KernelIdeal.Gen Cert.KernelIdeal.Common
open Idealize.ShloMosaic Idealize.ShloMosaic.TcCoe Idealize.ShloMosaic.Tactic Idealize.ShloMosaic.ValueIdx
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕥" => SparseCore.T (τ := τ)

section Region1

variable (es : (c : Dev nD) → Buf (Elt F) ((𝕥 c).loc main_v11)) (w7s : (c : Dev nD) → Buf (Elt F) ((𝕥 c).loc main_v7))
  (b8s : (c : Dev nD) → Buf (Elt F) ((𝕥 c).loc main_v8))
  (f0s : (c : Dev nD) → Buf (Elt F) ((𝕥 c).loc main_v12_0)) (f1s : (c : Dev nD) → Buf (Elt F) ((𝕥 c).loc main_v12_1))
  (f2s : (c : Dev nD) → Buf (Elt F) ((𝕥 c).loc main_v12_2)) (f3s : (c : Dev nD) → Buf (Elt F) ((𝕥 c).loc main_v12_3))
  (O : CellTallies nD τ sig (HIx 1))

/-! ## The blocks -/

/-- Block `t` of slab 0 of the edge features. -/
def blkE0 (c : Dev nD) (t : Fin cfg1.N) : ((cfg1.win 0).xblock (cfg1.grid.coords t)).Idx → Elt F (cfg1.win 0).elt :=
  ((cfg1.win 0).blk t).view.read (Elt F) (es c)

/-- Block `t` of slab 1 of the edge features. -/
def blkE1 (c : Dev nD) (t : Fin cfg1.N) : ((cfg1.win 1).xblock (cfg1.grid.coords t)).Idx → Elt F (cfg1.win 1).elt :=
  ((cfg1.win 1).blk t).view.read (Elt F) (es c)

/-- Block `t` of slab 2 of the edge features. -/
def blkE2 (c : Dev nD) (t : Fin cfg1.N) : ((cfg1.win 2).xblock (cfg1.grid.coords t)).Idx → Elt F (cfg1.win 2).elt :=
  ((cfg1.win 2).blk t).view.read (Elt F) (es c)

/-- Block `t` of slab 3 of the edge features. -/
def blkE3 (c : Dev nD) (t : Fin cfg1.N) : ((cfg1.win 3).xblock (cfg1.grid.coords t)).Idx → Elt F (cfg1.win 3).elt :=
  ((cfg1.win 3).blk t).view.read (Elt F) (es c)

/-- The weights, whole at every point. -/
def blkW7 (c : Dev nD) (t : Fin cfg1.N) : ((cfg1.win 4).xblock (cfg1.grid.coords t)).Idx → Elt F (cfg1.win 4).elt :=
  ((cfg1.win 4).blk t).view.read (Elt F) (w7s c)

/-- The bias, whole at every point. -/
def blkB (c : Dev nD) (t : Fin cfg1.N) : ((cfg1.win 5).xblock (cfg1.grid.coords t)).Idx → Elt F (cfg1.win 5).elt :=
  ((cfg1.win 5).blk t).view.read (Elt F) (b8s c)

abbrev rE : Rect S1x2000x256 := Rect.unit (s := S1x2000x256) ![0, 0, 0] S1x2000x256.size inb_S1x2000x256_S1x2000x256_0_0_0
abbrev rW7 : Rect S256x1 := Rect.unit (s := S256x1) ![0, 0] S256x1.size inb_S256x1_S256x1_0_0
abbrev rB : Rect S1x1 := Rect.unit (s := S1x1) ![0, 0] S1x1.size inb_S1x1_S1x1_0_0
abbrev rO1 : Rect S2000x1 := Rect.unit (s := S2000x1) ![0, 0] S2000x1.size inb_S2000x1_S2000x1_0_0

/-- What the body leaves in result 0's staging buffer: its slab's block times the weights, plus the bias. -/
def outBlk6 (x4 : Vec F S256x1 .f32) (x5 : Vec F S1x1 .f32) (x : Vec F S1x2000x256 .f32) : Vec F S2000x1 .f32 :=
  View.canon [⟨rO1, k1_pay3 (View.ld x4 rW7) (View.ld x5 rB) (View.ld x rE)⟩]

/-- What the body leaves in result 1's staging buffer: its slab's block times the weights, plus the bias. -/
def outBlk7 (x4 : Vec F S256x1 .f32) (x5 : Vec F S1x1 .f32) (x : Vec F S1x2000x256 .f32) : Vec F S2000x1 .f32 :=
  View.canon [⟨rO1, k1_pay4 (View.ld x4 rW7) (View.ld x5 rB) (View.ld x rE)⟩]

/-- What the body leaves in result 2's staging buffer: its slab's block times the weights, plus the bias. -/
def outBlk8 (x4 : Vec F S256x1 .f32) (x5 : Vec F S1x1 .f32) (x : Vec F S1x2000x256 .f32) : Vec F S2000x1 .f32 :=
  View.canon [⟨rO1, k1_pay5 (View.ld x4 rW7) (View.ld x5 rB) (View.ld x rE)⟩]

/-- What the body leaves in result 3's staging buffer: its slab's block times the weights, plus the bias. -/
def outBlk9 (x4 : Vec F S256x1 .f32) (x5 : Vec F S1x1 .f32) (x : Vec F S1x2000x256 .f32) : Vec F S2000x1 .f32 :=
  View.canon [⟨rO1, k1_pay6 (View.ld x4 rW7) (View.ld x5 rB) (View.ld x rE)⟩]

/-- The one store covers the buffer. -/
theorem coverO1 (p0 : Vec F S2000x1 .f32) (y : S2000x1.Idx) :
    ∃ pc ∈ ([⟨rO1, p0⟩] : List (View.Piece (Elt F) S2000x1 .f32)), y ∈ pc.1.set :=
  View.cover_of_tiled [⟨rO1, p0⟩] S2000x1.size (by rfl) y

/-! ## The body's triple -/

set_option maxHeartbeats 4000000 in
/-- The body on whole staging buffers, the six operands' at contents `x0 … x5` and the four results' at anything: the operands'
    stay and each result's holds its slab's product plus the bias. -/
theorem sound_kernel1 (c : Dev nD) (E : Set ℕ) (i : grid1.Coords)
    (arg1 : Memref sig .tc .vmem S1x2000x256 .f32) (harg1 : arg1.IsWhole)
    (arg2 : Memref sig .tc .vmem S1x2000x256 .f32) (harg2 : arg2.IsWhole)
    (arg3 : Memref sig .tc .vmem S1x2000x256 .f32) (harg3 : arg3.IsWhole)
    (arg4 : Memref sig .tc .vmem S1x2000x256 .f32) (harg4 : arg4.IsWhole)
    (arg5 : Memref sig .tc .vmem S256x1 .f32) (harg5 : arg5.IsWhole)
    (arg6 : Memref sig .tc .vmem S1x1 .f32) (harg6 : arg6.IsWhole)
    (arg7 : Memref sig .tc .vmem S2000x1 .f32) (harg7 : arg7.IsWhole)
    (arg8 : Memref sig .tc .vmem S2000x1 .f32) (harg8 : arg8.IsWhole)
    (arg9 : Memref sig .tc .vmem S2000x1 .f32) (harg9 : arg9.IsWhole)
    (arg10 : Memref sig .tc .vmem S2000x1 .f32) (harg10 : arg10.IsWhole)
    (x0 x1 x2 x3 : Vec F S1x2000x256 .f32) (x4 : Vec F S256x1 .f32) (x5 : Vec F S1x1 .f32) (Kp : PUnit → sProp (𝕄 F)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (outBlk6 x4 x5 x0) ∗ owns (c : Thread nD τ) arg8 fullShare (outBlk7 x4 x5 x1) ∗ owns (c : Thread nD τ) arg9 fullShare (outBlk8 x4 x5 x2) ∗ owns (c : Thread nD τ) arg10 fullShare (outBlk9 x4 x5 x3)) -∗ Kp ⟨⟩))
      ⊢ wp frame (wpE (defs₀ (F := F)) Variants.none c none) E (cc1__edge_scores_body i arg1 harg1 arg2 harg2 arg3 harg3 arg4 harg4 arg5 harg5 arg6 harg6 arg7 harg7 arg8 harg8 arg9 harg9 arg10 harg10) Kp := by
  simp only [cc1__edge_scores_body_eq_skeleton]; unfold cc1__edge_scores_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverO1 _)
  isplitl [H7]
  · iexists _; isplitr
    swap; · iexact H7
    ipureintro
    exact View.read_writes_eq_canon _ _ _ (coverO1 _)
  isplitl [H8]
  · iexists _; isplitr
    swap; · iexact H8
    ipureintro
    exact View.read_writes_eq_canon _ _ _ (coverO1 _)
  iexists _; isplitr
  swap; · iexact H9
  ipureintro
  exact View.read_writes_eq_canon _ _ _ (coverO1 _)

/-! ## The proof data -/

/-- Pipeline 1's proof data on core `c`: the arrays as the region finds them, the four windows over the edge features each at a
    quarter of the array; after the body at point `t` each operand's buffer at its block and each result's at its product; the
    invariant the scoped buffers no window stages; throughout, the tallies `O` owed, the recorded waits all at the lowest level. -/
def dat1 (c : Dev nD) : Dat τ (Elt F) (HIx 1) ℕ UU ℕ cfg1 c where
  A w := match w with
    | ⟨0, _⟩ => es c
    | ⟨1, _⟩ => es c
    | ⟨2, _⟩ => es c
    | ⟨3, _⟩ => es c
    | ⟨4, _⟩ => w7s c
    | ⟨5, _⟩ => b8s c
    | ⟨6, _⟩ => f0s c
    | ⟨7, _⟩ => f1s c
    | ⟨8, _⟩ => f2s c
    | ⟨9, _⟩ => f3s c
  after w t := match w with
    | ⟨0, _⟩ => blkE0 es c t
    | ⟨1, _⟩ => blkE1 es c t
    | ⟨2, _⟩ => blkE2 es c t
    | ⟨3, _⟩ => blkE3 es c t
    | ⟨4, _⟩ => blkW7 w7s c t
    | ⟨5, _⟩ => blkB b8s c t
    | ⟨6, _⟩ => outBlk6 (blkW7 w7s c t) (blkB b8s c t) (blkE0 es c t)
    | ⟨7, _⟩ => outBlk7 (blkW7 w7s c t) (blkB b8s c t) (blkE1 es c t)
    | ⟨8, _⟩ => outBlk8 (blkW7 w7s c t) (blkB b8s c t) (blkE2 es c t)
    | ⟨9, _⟩ => outBlk9 (blkW7 w7s c t) (blkB b8s c t) (blkE3 es c t)
  Φ _ := Pipeline.scopedRest spec1 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
    | ⟨7, _⟩ => fullShare
    | ⟨8, _⟩ => fullShare
    | ⟨9, _⟩ => fullShare
  owed _ := O
  recorded _ := {p | (K (F := F)).lev (𝕥 c, p.1) p.2 ≤ 0}

theorem A1_eq0 (c : Dev nD) : (dat1 es w7s b8s f0s f1s f2s f3s O c).A 0 = es c := by dsimp only [dat1]
theorem A1_eq1 (c : Dev nD) : (dat1 es w7s b8s f0s f1s f2s f3s O c).A 1 = es c := by dsimp only [dat1]
theorem A1_eq2 (c : Dev nD) : (dat1 es w7s b8s f0s f1s f2s f3s O c).A 2 = es c := by dsimp only [dat1]
theorem A1_eq3 (c : Dev nD) : (dat1 es w7s b8s f0s f1s f2s f3s O c).A 3 = es c := by dsimp only [dat1]
theorem A1_eq4 (c : Dev nD) : (dat1 es w7s b8s f0s f1s f2s f3s O c).A 4 = w7s c := by dsimp only [dat1]
theorem A1_eq5 (c : Dev nD) : (dat1 es w7s b8s f0s f1s f2s f3s O c).A 5 = b8s c := by dsimp only [dat1]
theorem A1_eq6 (c : Dev nD) : (dat1 es w7s b8s f0s f1s f2s f3s O c).A 6 = f0s c := by dsimp only [dat1]
theorem A1_eq7 (c : Dev nD) : (dat1 es w7s b8s f0s f1s f2s f3s O c).A 7 = f1s c := by dsimp only [dat1]
theorem A1_eq8 (c : Dev nD) : (dat1 es w7s b8s f0s f1s f2s f3s O c).A 8 = f2s c := by dsimp only [dat1]
theorem A1_eq9 (c : Dev nD) : (dat1 es w7s b8s f0s f1s f2s f3s O c).A 9 = f3s c := by dsimp only [dat1]
theorem after1_0 (c : Dev nD) (t : Fin cfg1.N) : (dat1 es w7s b8s f0s f1s f2s f3s O c).after 0 t = blkE0 es c t := by dsimp only [dat1]
theorem after1_1 (c : Dev nD) (t : Fin cfg1.N) : (dat1 es w7s b8s f0s f1s f2s f3s O c).after 1 t = blkE1 es c t := by dsimp only [dat1]
theorem after1_2 (c : Dev nD) (t : Fin cfg1.N) : (dat1 es w7s b8s f0s f1s f2s f3s O c).after 2 t = blkE2 es c t := by dsimp only [dat1]
theorem after1_3 (c : Dev nD) (t : Fin cfg1.N) : (dat1 es w7s b8s f0s f1s f2s f3s O c).after 3 t = blkE3 es c t := by dsimp only [dat1]
theorem after1_4 (c : Dev nD) (t : Fin cfg1.N) : (dat1 es w7s b8s f0s f1s f2s f3s O c).after 4 t = blkW7 w7s c t := by dsimp only [dat1]
theorem after1_5 (c : Dev nD) (t : Fin cfg1.N) : (dat1 es w7s b8s f0s f1s f2s f3s O c).after 5 t = blkB b8s c t := by dsimp only [dat1]
theorem after1_6 (c : Dev nD) (t : Fin cfg1.N) : (dat1 es w7s b8s f0s f1s f2s f3s O c).after 6 t = outBlk6 (blkW7 w7s c t) (blkB b8s c t) (blkE0 es c t) := by dsimp only [dat1]
theorem after1_7 (c : Dev nD) (t : Fin cfg1.N) : (dat1 es w7s b8s f0s f1s f2s f3s O c).after 7 t = outBlk7 (blkW7 w7s c t) (blkB b8s c t) (blkE1 es c t) := by dsimp only [dat1]
theorem after1_8 (c : Dev nD) (t : Fin cfg1.N) : (dat1 es w7s b8s f0s f1s f2s f3s O c).after 8 t = outBlk8 (blkW7 w7s c t) (blkB b8s c t) (blkE2 es c t) := by dsimp only [dat1]
theorem after1_9 (c : Dev nD) (t : Fin cfg1.N) : (dat1 es w7s b8s f0s f1s f2s f3s O c).after 9 t = outBlk9 (blkW7 w7s c t) (blkB b8s c t) (blkE3 es c t) := by dsimp only [dat1]

/-- An operand's current staging buffer holds its block at every point, fetched there or not. -/
theorem before1_0 (c : Dev nD) (t : Fin cfg1.N) (d) : (dat1 es w7s b8s f0s f1s f2s f3s O c).before 0 t d = blkE0 es c t :=
  ((dat1 es w7s b8s f0s f1s f2s f3s O c).before_in_eq_fetched 0 rfl (fun _ => rfl) (fun _ _ _ => rfl)
    (fun t => by rw [after1_0]; unfold Dat.blockOf blkE0; rw [A1_eq0]; try rfl) t d).trans
    (by unfold Dat.fetched Dat.blockOf blkE0; rw [A1_eq0]; try rfl)
theorem before1_1 (c : Dev nD) (t : Fin cfg1.N) (d) : (dat1 es w7s b8s f0s f1s f2s f3s O c).before 1 t d = blkE1 es c t :=
  ((dat1 es w7s b8s f0s f1s f2s f3s O c).before_in_eq_fetched 1 rfl (fun _ => rfl) (fun _ _ _ => rfl)
    (fun t => by rw [after1_1]; unfold Dat.blockOf blkE1; rw [A1_eq1]; try rfl) t d).trans
    (by unfold Dat.fetched Dat.blockOf blkE1; rw [A1_eq1]; try rfl)
theorem before1_2 (c : Dev nD) (t : Fin cfg1.N) (d) : (dat1 es w7s b8s f0s f1s f2s f3s O c).before 2 t d = blkE2 es c t :=
  ((dat1 es w7s b8s f0s f1s f2s f3s O c).before_in_eq_fetched 2 rfl (fun _ => rfl) (fun _ _ _ => rfl)
    (fun t => by rw [after1_2]; unfold Dat.blockOf blkE2; rw [A1_eq2]; try rfl) t d).trans
    (by unfold Dat.fetched Dat.blockOf blkE2; rw [A1_eq2]; try rfl)
theorem before1_3 (c : Dev nD) (t : Fin cfg1.N) (d) : (dat1 es w7s b8s f0s f1s f2s f3s O c).before 3 t d = blkE3 es c t :=
  ((dat1 es w7s b8s f0s f1s f2s f3s O c).before_in_eq_fetched 3 rfl (fun _ => rfl) (fun _ _ _ => rfl)
    (fun t => by rw [after1_3]; unfold Dat.blockOf blkE3; rw [A1_eq3]; try rfl) t d).trans
    (by unfold Dat.fetched Dat.blockOf blkE3; rw [A1_eq3]; try rfl)
theorem before1_4 (c : Dev nD) (t : Fin cfg1.N) (d) : (dat1 es w7s b8s f0s f1s f2s f3s O c).before 4 t d = blkW7 w7s c t :=
  ((dat1 es w7s b8s f0s f1s f2s f3s O c).before_in_eq_fetched 4 rfl (fun _ => rfl) (fun _ _ _ => rfl)
    (fun t => by rw [after1_4]; unfold Dat.blockOf blkW7; rw [A1_eq4]; try rfl) t d).trans
    (by unfold Dat.fetched Dat.blockOf blkW7; rw [A1_eq4]; try rfl)
theorem before1_5 (c : Dev nD) (t : Fin cfg1.N) (d) : (dat1 es w7s b8s f0s f1s f2s f3s O c).before 5 t d = blkB b8s c t :=
  ((dat1 es w7s b8s f0s f1s f2s f3s O c).before_in_eq_fetched 5 rfl (fun _ => rfl) (fun _ _ _ => rfl)
    (fun t => by rw [after1_5]; unfold Dat.blockOf blkB; rw [A1_eq5]; try rfl) t d).trans
    (by unfold Dat.fetched Dat.blockOf blkB; rw [A1_eq5]; try rfl)

/-! ## The body obligation -/

def bodyPre1 (c : Dev nD) (t : Fin cfg1.N) : sProp (𝕄 F) :=
  iprop((dat1 es w7s b8s f0s f1s f2s f3s O c).Φ t.castSucc ∗ (dat1 es w7s b8s f0s f1s f2s f3s O c).owesAt none t.castSucc
    ∗ (∃ d, owns (c : Thread nD τ) (st1_0 t) fullShare ((dat1 es w7s b8s f0s f1s f2s f3s O c).before 0 t d))
    ∗ (∃ d, owns (c : Thread nD τ) (st1_1 t) fullShare ((dat1 es w7s b8s f0s f1s f2s f3s O c).before 1 t d))
    ∗ (∃ d, owns (c : Thread nD τ) (st1_2 t) fullShare ((dat1 es w7s b8s f0s f1s f2s f3s O c).before 2 t d))
    ∗ (∃ d, owns (c : Thread nD τ) (st1_3 t) fullShare ((dat1 es w7s b8s f0s f1s f2s f3s O c).before 3 t d))
    ∗ (∃ d, owns (c : Thread nD τ) (st1_4 t) fullShare ((dat1 es w7s b8s f0s f1s f2s f3s O c).before 4 t d))
    ∗ (∃ d, owns (c : Thread nD τ) (st1_5 t) fullShare ((dat1 es w7s b8s f0s f1s f2s f3s O c).before 5 t d))
    ∗ (∃ d, owns (c : Thread nD τ) (st1_6 t) fullShare ((dat1 es w7s b8s f0s f1s f2s f3s O c).before 6 t d))
    ∗ (∃ d, owns (c : Thread nD τ) (st1_7 t) fullShare ((dat1 es w7s b8s f0s f1s f2s f3s O c).before 7 t d))
    ∗ (∃ d, owns (c : Thread nD τ) (st1_8 t) fullShare ((dat1 es w7s b8s f0s f1s f2s f3s O c).before 8 t d))
    ∗ (∃ d, owns (c : Thread nD τ) (st1_9 t) fullShare ((dat1 es w7s b8s f0s f1s f2s f3s O c).before 9 t d)))

def bodyPost1 (c : Dev nD) (t : Fin cfg1.N) : sProp (𝕄 F) :=
  iprop((dat1 es w7s b8s f0s f1s f2s f3s O c).Φ t.succ ∗ (dat1 es w7s b8s f0s f1s f2s f3s O c).owesAt none t.succ
    ∗ owns (c : Thread nD τ) (st1_0 t) fullShare ((dat1 es w7s b8s f0s f1s f2s f3s O c).after 0 t)
    ∗ owns (c : Thread nD τ) (st1_1 t) fullShare ((dat1 es w7s b8s f0s f1s f2s f3s O c).after 1 t)
    ∗ owns (c : Thread nD τ) (st1_2 t) fullShare ((dat1 es w7s b8s f0s f1s f2s f3s O c).after 2 t)
    ∗ owns (c : Thread nD τ) (st1_3 t) fullShare ((dat1 es w7s b8s f0s f1s f2s f3s O c).after 3 t)
    ∗ owns (c : Thread nD τ) (st1_4 t) fullShare ((dat1 es w7s b8s f0s f1s f2s f3s O c).after 4 t)
    ∗ owns (c : Thread nD τ) (st1_5 t) fullShare ((dat1 es w7s b8s f0s f1s f2s f3s O c).after 5 t)
    ∗ owns (c : Thread nD τ) (st1_6 t) fullShare ((dat1 es w7s b8s f0s f1s f2s f3s O c).after 6 t)
    ∗ owns (c : Thread nD τ) (st1_7 t) fullShare ((dat1 es w7s b8s f0s f1s f2s f3s O c).after 7 t)
    ∗ owns (c : Thread nD τ) (st1_8 t) fullShare ((dat1 es w7s b8s f0s f1s f2s f3s O c).after 8 t)
    ∗ owns (c : Thread nD τ) (st1_9 t) fullShare ((dat1 es w7s b8s f0s f1s f2s f3s O c).after 9 t))

theorem sound_body1 (c : Dev nD) (t : Fin cfg1.N) :
    bodyPre1 es w7s b8s f0s f1s f2s f3s O c t ⊢ wp frame (wpE (defs₀ (F := F)) Variants.none c none) Set.univ (bodyAt1 t) (fun _ => bodyPost1 es w7s b8s f0s f1s f2s f3s O c t) := by
  unfold bodyPre1 bodyPost1 bodyAt1
  simp only [before1_0, before1_1, before1_2, before1_3, before1_4, before1_5]
  rw [show (dat1 es w7s b8s f0s f1s f2s f3s O c).Φ t.succ = (dat1 es w7s b8s f0s f1s f2s f3s O c).Φ t.castSucc from rfl,
    show (dat1 es w7s b8s f0s f1s f2s f3s O c).owesAt none t.succ = (dat1 es w7s b8s f0s f1s f2s f3s O c).owesAt none t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (blkE0 es c t) (blkE1 es c t) (blkE2 es c t) (blkE3 es c t) (blkW7 w7s c t) (blkB b8s c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation1 (c : Dev nD) : BodyObligation (dat1 (F := F) es w7s b8s f0s f1s f2s f3s O c) (defs₀ (F := F)) Variants.none (none : HIx 1) Set.univ := fun t => by
  rw [bigSep_W1, bigSep_W1]
  exact sound_body1 es w7s b8s f0s f1s f2s f3s O c t

/-! ## The operand arrays are never written -/

theorem arrAt1_in0 (c : Dev nD) : (dat1 es w7s b8s f0s f1s f2s f3s O c).arrAt 0 cfg1.N = es c :=
  funext fun i => ((dat1 es w7s b8s f0s f1s f2s f3s O c).arrAt_apply_of_forall_not_mem 0 cfg1.N i fun t _ hf _ => by
    rw [show (cfg1.win 0).flush t = false from rfl] at hf; exact absurd hf Bool.false_ne_true).trans (congrFun (A1_eq0 es w7s b8s f0s f1s f2s f3s O c) i)
theorem arrAt1_in1 (c : Dev nD) : (dat1 es w7s b8s f0s f1s f2s f3s O c).arrAt 1 cfg1.N = es c :=
  funext fun i => ((dat1 es w7s b8s f0s f1s f2s f3s O c).arrAt_apply_of_forall_not_mem 1 cfg1.N i fun t _ hf _ => by
    rw [show (cfg1.win 1).flush t = false from rfl] at hf; exact absurd hf Bool.false_ne_true).trans (congrFun (A1_eq1 es w7s b8s f0s f1s f2s f3s O c) i)
theorem arrAt1_in2 (c : Dev nD) : (dat1 es w7s b8s f0s f1s f2s f3s O c).arrAt 2 cfg1.N = es c :=
  funext fun i => ((dat1 es w7s b8s f0s f1s f2s f3s O c).arrAt_apply_of_forall_not_mem 2 cfg1.N i fun t _ hf _ => by
    rw [show (cfg1.win 2).flush t = false from rfl] at hf; exact absurd hf Bool.false_ne_true).trans (congrFun (A1_eq2 es w7s b8s f0s f1s f2s f3s O c) i)
theorem arrAt1_in3 (c : Dev nD) : (dat1 es w7s b8s f0s f1s f2s f3s O c).arrAt 3 cfg1.N = es c :=
  funext fun i => ((dat1 es w7s b8s f0s f1s f2s f3s O c).arrAt_apply_of_forall_not_mem 3 cfg1.N i fun t _ hf _ => by
    rw [show (cfg1.win 3).flush t = false from rfl] at hf; exact absurd hf Bool.false_ne_true).trans (congrFun (A1_eq3 es w7s b8s f0s f1s f2s f3s O c) i)
theorem arrAt1_in4 (c : Dev nD) : (dat1 es w7s b8s f0s f1s f2s f3s O c).arrAt 4 cfg1.N = w7s c :=
  funext fun i => ((dat1 es w7s b8s f0s f1s f2s f3s O c).arrAt_apply_of_forall_not_mem 4 cfg1.N i fun t _ hf _ => by
    rw [show (cfg1.win 4).flush t = false from rfl] at hf; exact absurd hf Bool.false_ne_true).trans (congrFun (A1_eq4 es w7s b8s f0s f1s f2s f3s O c) i)
theorem arrAt1_in5 (c : Dev nD) : (dat1 es w7s b8s f0s f1s f2s f3s O c).arrAt 5 cfg1.N = b8s c :=
  funext fun i => ((dat1 es w7s b8s f0s f1s f2s f3s O c).arrAt_apply_of_forall_not_mem 5 cfg1.N i fun t _ hf _ => by
    rw [show (cfg1.win 5).flush t = false from rfl] at hf; exact absurd hf Bool.false_ne_true).trans (congrFun (A1_eq5 es w7s b8s f0s f1s f2s f3s O c) i)

/-! ## A whole array as four quarters -/

theorem quarters_split {ℓ : Loc nD τ sig} (f : Buf (Elt F) ℓ) :
    (ℓ ↦{fullShare} f : sProp (𝕄 F)) ⊢ iprop((ℓ ↦{fullShare.left.left} f) ∗ (ℓ ↦{fullShare.left.right} f) ∗ (ℓ ↦{fullShare.right.left} f) ∗ (ℓ ↦{fullShare.right.right} f)) := by
  refine ((pointsTo_share (PosShare.mem_left_op_right fullShare)).1.trans
    (BIClass.sep_mono (pointsTo_share (PosShare.mem_left_op_right fullShare.left)).1 (pointsTo_share (PosShare.mem_left_op_right fullShare.right)).1)).trans ?_
  iintro ⟨⟨Hll, Hlr⟩, Hrl, Hrr⟩
  isplitl [Hll]; · iexact Hll
  isplitl [Hlr]; · iexact Hlr
  isplitl [Hrl]; · iexact Hrl
  iexact Hrr

theorem quarters_join {ℓ : Loc nD τ sig} (f : Buf (Elt F) ℓ) :
    iprop((ℓ ↦{fullShare.left.left} f) ∗ (ℓ ↦{fullShare.left.right} f) ∗ (ℓ ↦{fullShare.right.left} f) ∗ (ℓ ↦{fullShare.right.right} f)) ⊢ (ℓ ↦{fullShare} f : sProp (𝕄 F)) := by
  refine BIBase.Entails.trans ?_ ((BIClass.sep_mono (pointsTo_share (PosShare.mem_left_op_right fullShare.left)).2 (pointsTo_share (PosShare.mem_left_op_right fullShare.right)).2).trans
    (pointsTo_share (PosShare.mem_left_op_right fullShare)).2)
  iintro ⟨Hll, Hlr, Hrl, Hrr⟩
  isplitl [Hll Hlr]
  · isplitl [Hll]; · iexact Hll
    iexact Hlr
  isplitl [Hrl]; · iexact Hrl
  iexact Hrr

/-! ## The result arrays, each as one function of the operands -/

theorem off_zero3 : (![0, 0, 0] : Fin 3 → Nat) = fun _ => 0 := funext fun a => by fin_cases a <;> rfl

/-- The 2000 rows of block `q` of slab `s` of the edge features, as a block of one slab. -/
def slabRows (e4 : FVec F S4x40000x256 .f32) (s : Fin 4) (q : ℕ) : FVec F S1x2000x256 .f32 :=
  fun y => e4 (ix3 s (⟨min (2000 * q + (y 1).val) 39999, by omega⟩ : Fin 40000) (⟨(y 2).val, (y 2).isLt⟩ : Fin 256))

/-- Result `s`: row `r` is row `r % 2000` of the product of block `r / 2000` of slab `s` with the weights, plus the bias. -/
def edgeVal (s : Fin 4) (e4 : FVec F S4x40000x256 .f32) (w7 : FVec F S256x1 .f32) (b : FVec F S1x1 .f32) : FVec F S40000x1 .f32 :=
  fun i => k1_pay3 w7 b (slabRows e4 s ((i 0).val / 2000))
    (ix2 (⟨(i 0).val % 2000, Nat.mod_lt _ (by decide)⟩ : Fin 2000) (⟨(i 1).val, (i 1).isLt⟩ : Fin 1))

/-- The printed index maps over the grid. -/
theorem idxE0 : ∀ t : Fin cfg1.N, win1_0.index t (0 : Fin 3) = 0 ∧ win1_0.index t (1 : Fin 3) = t.val ∧ win1_0.index t (2 : Fin 3) = 0 :=
  (by decide +kernel : ∀ t : Fin grid1.N, _)
theorem idxE1 : ∀ t : Fin cfg1.N, win1_1.index t (0 : Fin 3) = 1 ∧ win1_1.index t (1 : Fin 3) = t.val ∧ win1_1.index t (2 : Fin 3) = 0 :=
  (by decide +kernel : ∀ t : Fin grid1.N, _)
theorem idxE2 : ∀ t : Fin cfg1.N, win1_2.index t (0 : Fin 3) = 2 ∧ win1_2.index t (1 : Fin 3) = t.val ∧ win1_2.index t (2 : Fin 3) = 0 :=
  (by decide +kernel : ∀ t : Fin grid1.N, _)
theorem idxE3 : ∀ t : Fin cfg1.N, win1_3.index t (0 : Fin 3) = 3 ∧ win1_3.index t (1 : Fin 3) = t.val ∧ win1_3.index t (2 : Fin 3) = 0 :=
  (by decide +kernel : ∀ t : Fin grid1.N, _)
theorem idxW7 : ∀ t : Fin cfg1.N, win1_4.index t (0 : Fin 2) = 0 ∧ win1_4.index t (1 : Fin 2) = 0 := (by decide +kernel : ∀ t : Fin grid1.N, _)
theorem idxB : ∀ t : Fin cfg1.N, win1_5.index t (0 : Fin 2) = 0 ∧ win1_5.index t (1 : Fin 2) = 0 := (by decide +kernel : ∀ t : Fin grid1.N, _)
theorem idxO6 : ∀ t : Fin cfg1.N, win1_6.index t (0 : Fin 2) = t.val ∧ win1_6.index t (1 : Fin 2) = 0 ∧ t.val < 20 := (by decide +kernel : ∀ t : Fin grid1.N, _)
theorem idxO7 : ∀ t : Fin cfg1.N, win1_7.index t (0 : Fin 2) = t.val ∧ win1_7.index t (1 : Fin 2) = 0 ∧ t.val < 20 := (by decide +kernel : ∀ t : Fin grid1.N, _)
theorem idxO8 : ∀ t : Fin cfg1.N, win1_8.index t (0 : Fin 2) = t.val ∧ win1_8.index t (1 : Fin 2) = 0 ∧ t.val < 20 := (by decide +kernel : ∀ t : Fin grid1.N, _)
theorem idxO9 : ∀ t : Fin cfg1.N, win1_9.index t (0 : Fin 2) = t.val ∧ win1_9.index t (1 : Fin 2) = 0 ∧ t.val < 20 := (by decide +kernel : ∀ t : Fin grid1.N, _)

/-- The weights' and the bias' windows hold the whole arrays. -/
theorem blkW7_eq (c : Dev nD) (t : Fin cfg1.N) : blkW7 w7s c t = w7s c := by
  obtain ⟨a0, a1⟩ := idxW7 t
  funext y
  have hy0 : (y 0).val < 256 := (y 0).isLt
  have hy1 : (y 1).val < 1 := (y 1).isLt
  show w7s c (((cfg1.win 4).blk t).view.emb y) = w7s c y
  congr 1
  funext a; apply Fin.ext
  match a with
  | ⟨0, _⟩ => show win1_4.index t (0 : Fin 2) * 256 + 1 * (y 0).val = (y 0).val; rw [a0]; omega
  | ⟨1, _⟩ => show win1_4.index t (1 : Fin 2) * 1 + 1 * (y 1).val = (y 1).val; rw [a1]; omega
theorem blkB_eq (c : Dev nD) (t : Fin cfg1.N) : blkB b8s c t = b8s c := by
  obtain ⟨a0, a1⟩ := idxB t
  funext y
  have hy0 : (y 0).val < 1 := (y 0).isLt
  have hy1 : (y 1).val < 1 := (y 1).isLt
  show b8s c (((cfg1.win 5).blk t).view.emb y) = b8s c y
  congr 1
  funext a; apply Fin.ext
  match a with
  | ⟨0, _⟩ => show win1_5.index t (0 : Fin 2) * 1 + 1 * (y 0).val = (y 0).val; rw [a0]; omega
  | ⟨1, _⟩ => show win1_5.index t (1 : Fin 2) * 1 + 1 * (y 1).val = (y 1).val; rw [a1]; omega

/-- What point `t` writes back to result 0 is block `t` of `edgeVal 0` of the operands as the region finds them. -/
theorem flushed1_6_eq (c : Dev nD) (t : Fin cfg1.N) :
    (dat1 es w7s b8s f0s f1s f2s f3s O c).flushed 6 t = ((cfg1.win 6).blk t).view.read (Elt F) (edgeVal 0 (es c) (w7s c) (b8s c)) := by
  show (cfg1.win 6).cut (grid1.coords t) ((dat1 es w7s b8s f0s f1s f2s f3s O c).after 6 t) = _
  rw [after1_6]
  unfold outBlk6
  rw [View.canon_unit_zero off_zero2]
  simp only [View.ld_unit_zero (S := S256x1) off_zero2, View.ld_unit_zero (S := S1x1) off_zero2, View.ld_unit_zero (S := S1x2000x256) off_zero3]
  obtain ⟨e0, e1, e2⟩ := idxE0 t
  obtain ⟨o0, o1, o2⟩ := idxO6 t
  funext j
  have hj0 : (j 0).val < 2000 := (j 0).isLt
  have hj1 : (j 1).val < 1 := (j 1).isLt
  have hi0 : ((((cfg1.win 6).blk t).view.emb j) 0).val = t.val * 2000 + (j 0).val := by
    show win1_6.index t (0 : Fin 2) * 2000 + 1 * (j 0).val = _; rw [o0]; omega
  have hi1 : ((((cfg1.win 6).blk t).view.emb j) 1).val = (j 1).val := by
    show win1_6.index t (1 : Fin 2) * 1 + 1 * (j 1).val = _; rw [o1]; omega
  show k1_pay3 (blkW7 w7s c t) (blkB b8s c t) (blkE0 es c t) j = edgeVal 0 (es c) (w7s c) (b8s c) (((cfg1.win 6).blk t).view.emb j)
  unfold edgeVal
  have hE : blkE0 es c t = slabRows (es c) 0 (((((cfg1.win 6).blk t).view.emb j) 0).val / 2000) := by
    funext y
    have hy0 : (y 0).val < 1 := (y 0).isLt
    have hy1 : (y 1).val < 2000 := (y 1).isLt
    have hy2 : (y 2).val < 256 := (y 2).isLt
    show es c (((cfg1.win 0).blk t).view.emb y) = es c (ix3 _ _ _)
    congr 1
    funext a; apply Fin.ext
    match a with
    | ⟨0, _⟩ => show win1_0.index t (0 : Fin 3) * 1 + 1 * (y 0).val = 0; rw [e0]; omega
    | ⟨1, _⟩ =>
      show win1_0.index t (1 : Fin 3) * 2000 + 1 * (y 1).val = min (2000 * (((((cfg1.win 6).blk t).view.emb j) 0).val / 2000) + (y 1).val) 39999
      rw [hi0, e1]; omega
    | ⟨2, _⟩ => show win1_0.index t (2 : Fin 3) * 256 + 1 * (y 2).val = (y 2).val; rw [e2]; omega
  rw [hE, blkW7_eq, blkB_eq]
  congr 1
  funext a; apply Fin.ext
  match a with
  | ⟨0, _⟩ => show (j 0).val = ((((cfg1.win 6).blk t).view.emb j) 0).val % 2000; rw [hi0]; omega
  | ⟨1, _⟩ => show (j 1).val = ((((cfg1.win 6).blk t).view.emb j) 1).val; rw [hi1]

theorem mem_blk1_6 (t : Fin cfg1.N) (i : S40000x1.Idx) :
    i ∈ ((cfg1.win 6).blk t).view.set ↔ ∀ a : Fin 2, win1_6.index t a * S2000x1.size a ≤ (i a).val ∧ (i a).val < win1_6.index t a * S2000x1.size a + S2000x1.size a := by
  show i ∈ ((View.whole main_v12_0).slice (win1_6.rect t)).set ↔ _
  rw [View.set_slice_whole, Rect.mem_set_unit]
  exact Iff.rfl

theorem cover1_6 (i : S40000x1.Idx) : ∃ t : Fin cfg1.N, (cfg1.win 6).flush t = true ∧ i ∈ ((cfg1.win 6).blk t).view.set := by
  have hi0 : (i 0).val < 40000 := (i 0).isLt
  have hi1 : (i 1).val < 1 := (i 1).isLt
  refine ⟨⟨(i 0).val / 2000, by rw [show cfg1.N = 20 from N_1]; omega⟩, flush1_6 _, ?_⟩
  obtain ⟨o0, o1, o2⟩ := idxO6 ⟨(i 0).val / 2000, by rw [show cfg1.N = 20 from N_1]; omega⟩
  rw [mem_blk1_6]
  intro a
  match a with
  | ⟨0, _⟩ =>
    show win1_6.index _ (0 : Fin 2) * 2000 ≤ (i 0).val ∧ (i 0).val < win1_6.index _ (0 : Fin 2) * 2000 + 2000
    rw [o0]; show (i 0).val / 2000 * 2000 ≤ (i 0).val ∧ (i 0).val < (i 0).val / 2000 * 2000 + 2000; omega
  | ⟨1, _⟩ =>
    show win1_6.index _ (1 : Fin 2) * 1 ≤ (i 1).val ∧ (i 1).val < win1_6.index _ (1 : Fin 2) * 1 + 1
    rw [o1]; omega

/-- RESULT 0 after the last write-back. -/
theorem final1_6 (c : Dev nD) : (dat1 es w7s b8s f0s f1s f2s f3s O c).arrAt 6 cfg1.N = edgeVal 0 (es c) (w7s c) (b8s c) :=
  (dat1 es w7s b8s f0s f1s f2s f3s O c).arrAt_eq_of_cover 6 (edgeVal 0 (es c) (w7s c) (b8s c)) (fun t _ => flushed1_6_eq es w7s b8s f0s f1s f2s f3s O c t) cover1_6

/-- What point `t` writes back to result 1 is block `t` of `edgeVal 1` of the operands as the region finds them. -/
theorem flushed1_7_eq (c : Dev nD) (t : Fin cfg1.N) :
    (dat1 es w7s b8s f0s f1s f2s f3s O c).flushed 7 t = ((cfg1.win 7).blk t).view.read (Elt F) (edgeVal 1 (es c) (w7s c) (b8s c)) := by
  show (cfg1.win 7).cut (grid1.coords t) ((dat1 es w7s b8s f0s f1s f2s f3s O c).after 7 t) = _
  rw [after1_7]
  unfold outBlk7
  rw [View.canon_unit_zero off_zero2]
  simp only [View.ld_unit_zero (S := S256x1) off_zero2, View.ld_unit_zero (S := S1x1) off_zero2, View.ld_unit_zero (S := S1x2000x256) off_zero3]
  obtain ⟨e0, e1, e2⟩ := idxE1 t
  obtain ⟨o0, o1, o2⟩ := idxO7 t
  funext j
  have hj0 : (j 0).val < 2000 := (j 0).isLt
  have hj1 : (j 1).val < 1 := (j 1).isLt
  have hi0 : ((((cfg1.win 7).blk t).view.emb j) 0).val = t.val * 2000 + (j 0).val := by
    show win1_7.index t (0 : Fin 2) * 2000 + 1 * (j 0).val = _; rw [o0]; omega
  have hi1 : ((((cfg1.win 7).blk t).view.emb j) 1).val = (j 1).val := by
    show win1_7.index t (1 : Fin 2) * 1 + 1 * (j 1).val = _; rw [o1]; omega
  show k1_pay3 (blkW7 w7s c t) (blkB b8s c t) (blkE1 es c t) j = edgeVal 1 (es c) (w7s c) (b8s c) (((cfg1.win 7).blk t).view.emb j)
  unfold edgeVal
  have hE : blkE1 es c t = slabRows (es c) 1 (((((cfg1.win 7).blk t).view.emb j) 0).val / 2000) := by
    funext y
    have hy0 : (y 0).val < 1 := (y 0).isLt
    have hy1 : (y 1).val < 2000 := (y 1).isLt
    have hy2 : (y 2).val < 256 := (y 2).isLt
    show es c (((cfg1.win 1).blk t).view.emb y) = es c (ix3 _ _ _)
    congr 1
    funext a; apply Fin.ext
    match a with
    | ⟨0, _⟩ => show win1_1.index t (0 : Fin 3) * 1 + 1 * (y 0).val = 1; rw [e0]; omega
    | ⟨1, _⟩ =>
      show win1_1.index t (1 : Fin 3) * 2000 + 1 * (y 1).val = min (2000 * (((((cfg1.win 7).blk t).view.emb j) 0).val / 2000) + (y 1).val) 39999
      rw [hi0, e1]; omega
    | ⟨2, _⟩ => show win1_1.index t (2 : Fin 3) * 256 + 1 * (y 2).val = (y 2).val; rw [e2]; omega
  rw [hE, blkW7_eq, blkB_eq]
  congr 1
  funext a; apply Fin.ext
  match a with
  | ⟨0, _⟩ => show (j 0).val = ((((cfg1.win 7).blk t).view.emb j) 0).val % 2000; rw [hi0]; omega
  | ⟨1, _⟩ => show (j 1).val = ((((cfg1.win 7).blk t).view.emb j) 1).val; rw [hi1]

theorem mem_blk1_7 (t : Fin cfg1.N) (i : S40000x1.Idx) :
    i ∈ ((cfg1.win 7).blk t).view.set ↔ ∀ a : Fin 2, win1_7.index t a * S2000x1.size a ≤ (i a).val ∧ (i a).val < win1_7.index t a * S2000x1.size a + S2000x1.size a := by
  show i ∈ ((View.whole main_v12_1).slice (win1_7.rect t)).set ↔ _
  rw [View.set_slice_whole, Rect.mem_set_unit]
  exact Iff.rfl

theorem cover1_7 (i : S40000x1.Idx) : ∃ t : Fin cfg1.N, (cfg1.win 7).flush t = true ∧ i ∈ ((cfg1.win 7).blk t).view.set := by
  have hi0 : (i 0).val < 40000 := (i 0).isLt
  have hi1 : (i 1).val < 1 := (i 1).isLt
  refine ⟨⟨(i 0).val / 2000, by rw [show cfg1.N = 20 from N_1]; omega⟩, flush1_7 _, ?_⟩
  obtain ⟨o0, o1, o2⟩ := idxO7 ⟨(i 0).val / 2000, by rw [show cfg1.N = 20 from N_1]; omega⟩
  rw [mem_blk1_7]
  intro a
  match a with
  | ⟨0, _⟩ =>
    show win1_7.index _ (0 : Fin 2) * 2000 ≤ (i 0).val ∧ (i 0).val < win1_7.index _ (0 : Fin 2) * 2000 + 2000
    rw [o0]; show (i 0).val / 2000 * 2000 ≤ (i 0).val ∧ (i 0).val < (i 0).val / 2000 * 2000 + 2000; omega
  | ⟨1, _⟩ =>
    show win1_7.index _ (1 : Fin 2) * 1 ≤ (i 1).val ∧ (i 1).val < win1_7.index _ (1 : Fin 2) * 1 + 1
    rw [o1]; omega

/-- RESULT 1 after the last write-back. -/
theorem final1_7 (c : Dev nD) : (dat1 es w7s b8s f0s f1s f2s f3s O c).arrAt 7 cfg1.N = edgeVal 1 (es c) (w7s c) (b8s c) :=
  (dat1 es w7s b8s f0s f1s f2s f3s O c).arrAt_eq_of_cover 7 (edgeVal 1 (es c) (w7s c) (b8s c)) (fun t _ => flushed1_7_eq es w7s b8s f0s f1s f2s f3s O c t) cover1_7

/-- What point `t` writes back to result 2 is block `t` of `edgeVal 2` of the operands as the region finds them. -/
theorem flushed1_8_eq (c : Dev nD) (t : Fin cfg1.N) :
    (dat1 es w7s b8s f0s f1s f2s f3s O c).flushed 8 t = ((cfg1.win 8).blk t).view.read (Elt F) (edgeVal 2 (es c) (w7s c) (b8s c)) := by
  show (cfg1.win 8).cut (grid1.coords t) ((dat1 es w7s b8s f0s f1s f2s f3s O c).after 8 t) = _
  rw [after1_8]
  unfold outBlk8
  rw [View.canon_unit_zero off_zero2]
  simp only [View.ld_unit_zero (S := S256x1) off_zero2, View.ld_unit_zero (S := S1x1) off_zero2, View.ld_unit_zero (S := S1x2000x256) off_zero3]
  obtain ⟨e0, e1, e2⟩ := idxE2 t
  obtain ⟨o0, o1, o2⟩ := idxO8 t
  funext j
  have hj0 : (j 0).val < 2000 := (j 0).isLt
  have hj1 : (j 1).val < 1 := (j 1).isLt
  have hi0 : ((((cfg1.win 8).blk t).view.emb j) 0).val = t.val * 2000 + (j 0).val := by
    show win1_8.index t (0 : Fin 2) * 2000 + 1 * (j 0).val = _; rw [o0]; omega
  have hi1 : ((((cfg1.win 8).blk t).view.emb j) 1).val = (j 1).val := by
    show win1_8.index t (1 : Fin 2) * 1 + 1 * (j 1).val = _; rw [o1]; omega
  show k1_pay3 (blkW7 w7s c t) (blkB b8s c t) (blkE2 es c t) j = edgeVal 2 (es c) (w7s c) (b8s c) (((cfg1.win 8).blk t).view.emb j)
  unfold edgeVal
  have hE : blkE2 es c t = slabRows (es c) 2 (((((cfg1.win 8).blk t).view.emb j) 0).val / 2000) := by
    funext y
    have hy0 : (y 0).val < 1 := (y 0).isLt
    have hy1 : (y 1).val < 2000 := (y 1).isLt
    have hy2 : (y 2).val < 256 := (y 2).isLt
    show es c (((cfg1.win 2).blk t).view.emb y) = es c (ix3 _ _ _)
    congr 1
    funext a; apply Fin.ext
    match a with
    | ⟨0, _⟩ => show win1_2.index t (0 : Fin 3) * 1 + 1 * (y 0).val = 2; rw [e0]; omega
    | ⟨1, _⟩ =>
      show win1_2.index t (1 : Fin 3) * 2000 + 1 * (y 1).val = min (2000 * (((((cfg1.win 8).blk t).view.emb j) 0).val / 2000) + (y 1).val) 39999
      rw [hi0, e1]; omega
    | ⟨2, _⟩ => show win1_2.index t (2 : Fin 3) * 256 + 1 * (y 2).val = (y 2).val; rw [e2]; omega
  rw [hE, blkW7_eq, blkB_eq]
  congr 1
  funext a; apply Fin.ext
  match a with
  | ⟨0, _⟩ => show (j 0).val = ((((cfg1.win 8).blk t).view.emb j) 0).val % 2000; rw [hi0]; omega
  | ⟨1, _⟩ => show (j 1).val = ((((cfg1.win 8).blk t).view.emb j) 1).val; rw [hi1]

theorem mem_blk1_8 (t : Fin cfg1.N) (i : S40000x1.Idx) :
    i ∈ ((cfg1.win 8).blk t).view.set ↔ ∀ a : Fin 2, win1_8.index t a * S2000x1.size a ≤ (i a).val ∧ (i a).val < win1_8.index t a * S2000x1.size a + S2000x1.size a := by
  show i ∈ ((View.whole main_v12_2).slice (win1_8.rect t)).set ↔ _
  rw [View.set_slice_whole, Rect.mem_set_unit]
  exact Iff.rfl

theorem cover1_8 (i : S40000x1.Idx) : ∃ t : Fin cfg1.N, (cfg1.win 8).flush t = true ∧ i ∈ ((cfg1.win 8).blk t).view.set := by
  have hi0 : (i 0).val < 40000 := (i 0).isLt
  have hi1 : (i 1).val < 1 := (i 1).isLt
  refine ⟨⟨(i 0).val / 2000, by rw [show cfg1.N = 20 from N_1]; omega⟩, flush1_8 _, ?_⟩
  obtain ⟨o0, o1, o2⟩ := idxO8 ⟨(i 0).val / 2000, by rw [show cfg1.N = 20 from N_1]; omega⟩
  rw [mem_blk1_8]
  intro a
  match a with
  | ⟨0, _⟩ =>
    show win1_8.index _ (0 : Fin 2) * 2000 ≤ (i 0).val ∧ (i 0).val < win1_8.index _ (0 : Fin 2) * 2000 + 2000
    rw [o0]; show (i 0).val / 2000 * 2000 ≤ (i 0).val ∧ (i 0).val < (i 0).val / 2000 * 2000 + 2000; omega
  | ⟨1, _⟩ =>
    show win1_8.index _ (1 : Fin 2) * 1 ≤ (i 1).val ∧ (i 1).val < win1_8.index _ (1 : Fin 2) * 1 + 1
    rw [o1]; omega

/-- RESULT 2 after the last write-back. -/
theorem final1_8 (c : Dev nD) : (dat1 es w7s b8s f0s f1s f2s f3s O c).arrAt 8 cfg1.N = edgeVal 2 (es c) (w7s c) (b8s c) :=
  (dat1 es w7s b8s f0s f1s f2s f3s O c).arrAt_eq_of_cover 8 (edgeVal 2 (es c) (w7s c) (b8s c)) (fun t _ => flushed1_8_eq es w7s b8s f0s f1s f2s f3s O c t) cover1_8

/-- What point `t` writes back to result 3 is block `t` of `edgeVal 3` of the operands as the region finds them. -/
theorem flushed1_9_eq (c : Dev nD) (t : Fin cfg1.N) :
    (dat1 es w7s b8s f0s f1s f2s f3s O c).flushed 9 t = ((cfg1.win 9).blk t).view.read (Elt F) (edgeVal 3 (es c) (w7s c) (b8s c)) := by
  show (cfg1.win 9).cut (grid1.coords t) ((dat1 es w7s b8s f0s f1s f2s f3s O c).after 9 t) = _
  rw [after1_9]
  unfold outBlk9
  rw [View.canon_unit_zero off_zero2]
  simp only [View.ld_unit_zero (S := S256x1) off_zero2, View.ld_unit_zero (S := S1x1) off_zero2, View.ld_unit_zero (S := S1x2000x256) off_zero3]
  obtain ⟨e0, e1, e2⟩ := idxE3 t
  obtain ⟨o0, o1, o2⟩ := idxO9 t
  funext j
  have hj0 : (j 0).val < 2000 := (j 0).isLt
  have hj1 : (j 1).val < 1 := (j 1).isLt
  have hi0 : ((((cfg1.win 9).blk t).view.emb j) 0).val = t.val * 2000 + (j 0).val := by
    show win1_9.index t (0 : Fin 2) * 2000 + 1 * (j 0).val = _; rw [o0]; omega
  have hi1 : ((((cfg1.win 9).blk t).view.emb j) 1).val = (j 1).val := by
    show win1_9.index t (1 : Fin 2) * 1 + 1 * (j 1).val = _; rw [o1]; omega
  show k1_pay3 (blkW7 w7s c t) (blkB b8s c t) (blkE3 es c t) j = edgeVal 3 (es c) (w7s c) (b8s c) (((cfg1.win 9).blk t).view.emb j)
  unfold edgeVal
  have hE : blkE3 es c t = slabRows (es c) 3 (((((cfg1.win 9).blk t).view.emb j) 0).val / 2000) := by
    funext y
    have hy0 : (y 0).val < 1 := (y 0).isLt
    have hy1 : (y 1).val < 2000 := (y 1).isLt
    have hy2 : (y 2).val < 256 := (y 2).isLt
    show es c (((cfg1.win 3).blk t).view.emb y) = es c (ix3 _ _ _)
    congr 1
    funext a; apply Fin.ext
    match a with
    | ⟨0, _⟩ => show win1_3.index t (0 : Fin 3) * 1 + 1 * (y 0).val = 3; rw [e0]; omega
    | ⟨1, _⟩ =>
      show win1_3.index t (1 : Fin 3) * 2000 + 1 * (y 1).val = min (2000 * (((((cfg1.win 9).blk t).view.emb j) 0).val / 2000) + (y 1).val) 39999
      rw [hi0, e1]; omega
    | ⟨2, _⟩ => show win1_3.index t (2 : Fin 3) * 256 + 1 * (y 2).val = (y 2).val; rw [e2]; omega
  rw [hE, blkW7_eq, blkB_eq]
  congr 1
  funext a; apply Fin.ext
  match a with
  | ⟨0, _⟩ => show (j 0).val = ((((cfg1.win 9).blk t).view.emb j) 0).val % 2000; rw [hi0]; omega
  | ⟨1, _⟩ => show (j 1).val = ((((cfg1.win 9).blk t).view.emb j) 1).val; rw [hi1]

theorem mem_blk1_9 (t : Fin cfg1.N) (i : S40000x1.Idx) :
    i ∈ ((cfg1.win 9).blk t).view.set ↔ ∀ a : Fin 2, win1_9.index t a * S2000x1.size a ≤ (i a).val ∧ (i a).val < win1_9.index t a * S2000x1.size a + S2000x1.size a := by
  show i ∈ ((View.whole main_v12_3).slice (win1_9.rect t)).set ↔ _
  rw [View.set_slice_whole, Rect.mem_set_unit]
  exact Iff.rfl

theorem cover1_9 (i : S40000x1.Idx) : ∃ t : Fin cfg1.N, (cfg1.win 9).flush t = true ∧ i ∈ ((cfg1.win 9).blk t).view.set := by
  have hi0 : (i 0).val < 40000 := (i 0).isLt
  have hi1 : (i 1).val < 1 := (i 1).isLt
  refine ⟨⟨(i 0).val / 2000, by rw [show cfg1.N = 20 from N_1]; omega⟩, flush1_9 _, ?_⟩
  obtain ⟨o0, o1, o2⟩ := idxO9 ⟨(i 0).val / 2000, by rw [show cfg1.N = 20 from N_1]; omega⟩
  rw [mem_blk1_9]
  intro a
  match a with
  | ⟨0, _⟩ =>
    show win1_9.index _ (0 : Fin 2) * 2000 ≤ (i 0).val ∧ (i 0).val < win1_9.index _ (0 : Fin 2) * 2000 + 2000
    rw [o0]; show (i 0).val / 2000 * 2000 ≤ (i 0).val ∧ (i 0).val < (i 0).val / 2000 * 2000 + 2000; omega
  | ⟨1, _⟩ =>
    show win1_9.index _ (1 : Fin 2) * 1 ≤ (i 1).val ∧ (i 1).val < win1_9.index _ (1 : Fin 2) * 1 + 1
    rw [o1]; omega

/-- RESULT 3 after the last write-back. -/
theorem final1_9 (c : Dev nD) : (dat1 es w7s b8s f0s f1s f2s f3s O c).arrAt 9 cfg1.N = edgeVal 3 (es c) (w7s c) (b8s c) :=
  (dat1 es w7s b8s f0s f1s f2s f3s O c).arrAt_eq_of_cover 9 (edgeVal 3 (es c) (w7s c) (b8s c)) (fun t _ => flushed1_9_eq es w7s b8s f0s f1s f2s f3s O c t) cover1_9

/-! ## The region -/

/-- The proof data family as the region's theorem takes it: pipeline 1's entry is `dat1`. -/
def pdats1 : (p : Fin 2) → (c : Dev nD) → Dat τ (Elt F) (HIx 1) ℕ UU ℕ (Pipeline.pin (pcfgs (F := F)) adm p) c
  | ⟨0, _⟩ => fun c => datIdle 0 c
  | ⟨1, _⟩ => fun c => dat1 es w7s b8s f0s f1s f2s f3s O c

/-- What the TensorCore holds of the call's arrays, the edge features in four quarters, and its debts, when it enters the call, -/
def pre1 (c : Dev nD) : sProp (𝕄 F) :=
  iprop(((𝕥 c).loc main_v11 ↦{fullShare.left.left} es c)
    ∗ ((𝕥 c).loc main_v11 ↦{fullShare.left.right} es c)
    ∗ ((𝕥 c).loc main_v11 ↦{fullShare.right.left} es c)
    ∗ ((𝕥 c).loc main_v11 ↦{fullShare.right.right} es c)
    ∗ ((𝕥 c).loc main_v7 ↦{fullShare} w7s c)
    ∗ ((𝕥 c).loc main_v8 ↦{fullShare} b8s c)
    ∗ ((𝕥 c).loc main_v12_0 ↦{fullShare} f0s c)
    ∗ ((𝕥 c).loc main_v12_1 ↦{fullShare} f1s c)
    ∗ ((𝕥 c).loc main_v12_2 ↦{fullShare} f2s c)
    ∗ ((𝕥 c).loc main_v12_3 ↦{fullShare} f3s c)
    ∗ (∃ W, ⌜(K (F := F)).WBelow (𝕥 c) W 0⌝ ∗ owes (𝕥 c) O W))

/-- and when it leaves it: each array after every write-back. -/
def post1 (c : Dev nD) : sProp (𝕄 F) :=
  iprop(((𝕥 c).loc main_v11 ↦{fullShare.left.left} (dat1 es w7s b8s f0s f1s f2s f3s O c).arrAt 0 cfg1.N)
    ∗ ((𝕥 c).loc main_v11 ↦{fullShare.left.right} (dat1 es w7s b8s f0s f1s f2s f3s O c).arrAt 1 cfg1.N)
    ∗ ((𝕥 c).loc main_v11 ↦{fullShare.right.left} (dat1 es w7s b8s f0s f1s f2s f3s O c).arrAt 2 cfg1.N)
    ∗ ((𝕥 c).loc main_v11 ↦{fullShare.right.right} (dat1 es w7s b8s f0s f1s f2s f3s O c).arrAt 3 cfg1.N)
    ∗ ((𝕥 c).loc main_v7 ↦{fullShare} (dat1 es w7s b8s f0s f1s f2s f3s O c).arrAt 4 cfg1.N)
    ∗ ((𝕥 c).loc main_v8 ↦{fullShare} (dat1 es w7s b8s f0s f1s f2s f3s O c).arrAt 5 cfg1.N)
    ∗ ((𝕥 c).loc main_v12_0 ↦{fullShare} (dat1 es w7s b8s f0s f1s f2s f3s O c).arrAt 6 cfg1.N)
    ∗ ((𝕥 c).loc main_v12_1 ↦{fullShare} (dat1 es w7s b8s f0s f1s f2s f3s O c).arrAt 7 cfg1.N)
    ∗ ((𝕥 c).loc main_v12_2 ↦{fullShare} (dat1 es w7s b8s f0s f1s f2s f3s O c).arrAt 8 cfg1.N)
    ∗ ((𝕥 c).loc main_v12_3 ↦{fullShare} (dat1 es w7s b8s f0s f1s f2s f3s O c).arrAt 9 cfg1.N)
    ∗ (∃ W, ⌜(K (F := F)).WBelow (𝕥 c) W 0⌝ ∗ owes (𝕥 c) O W))

/-- The pipeline's arrays, each a whole buffer at its window's share. -/
theorem arrays1_eq (c : Dev nD) (Fn : (w : Fin (Pipeline.pin (pcfgs (F := F)) adm 1).W) → Buf (Elt F) (((Pipeline.pin (pcfgs (F := F)) adm 1).spec w).arr.view.loc (c.tc : Thread nD τ))) :
    (pdats1 es w7s b8s f0s f1s f2s f3s O 1 c).arrays Fn
      = bigSep Finset.univ fun w => (((c.tc : Thread nD τ).loc (Pipeline.arrRef (Pipeline.pin (pcfgs (F := F)) adm 1).spec w)) ↦{(pdats1 es w7s b8s f0s f1s f2s f3s O 1 c).share w} Fn w : sProp (𝕄 F)) := by
  unfold Dat.arrays
  exact bigSep_congr fun w _ => by
    have h : ((Pipeline.pin (pcfgs (F := F)) adm 1).win w).arr.IsWhole := arr_whole1 w
    rw [h.set_eq_univ]

set_option backward.isDefEq.respectTransparency.types false in
/-- The call as a region of the host program. -/
def reg1 (hO : ∀ g, O g none = 0) :
    Pipeline.RegionSeg (pcfgs (F := F)) adm (pdats1 es w7s b8s f0s f1s f2s f3s O) (none : HIx 1) defs₀ 𝒱₀ (K (F := F)).L (K (F := F)).lev 1 where
  win := winFacts₀1
  block_pos := block_pos1
  stage_whole := stage_whole1
  K := PEmpty
  osem k := k.elim
  ho := Pipeline.OwnSemFacts.none _
  hbody c := (body_obligation1 es w7s b8s f0s f1s f2s f3s O c).loose
  hwaits c := Pipeline.cellsWaits_intro (Pipeline.pin (pcfgs (F := F)) adm) (pdats1 es w7s b8s f0s f1s f2s f3s O) (none : HIx 1) 1 c
    fun w s t => (K (F := F)).mayWait_none _ hO
  pre := pre1 es w7s b8s f0s f1s f2s f3s O
  post := post1 es w7s b8s f0s f1s f2s f3s O
  X _ := BI.emp
  Y _ := BI.emp
  Z _ := BI.emp
  hentry c := by
    rw [Pipeline.ownSems0_none, arrays1_eq es w7s b8s f0s f1s f2s f3s O c, bigSep_W1]
    unfold pre1
    iintro ⟨⟨He0, He1, He2, He3, Hw7, Hb8, Hf0, Hf1, Hf2, Hf3, HO⟩, -, -⟩
    imodintro
    isplitl [He0 He1 He2 He3 Hw7 Hb8 Hf0 Hf1 Hf2 Hf3]
    · isplitl [He0]; · iexact He0
      isplitl [He1]; · iexact He1
      isplitl [He2]; · iexact He2
      isplitl [He3]; · iexact He3
      isplitl [Hw7]; · iexact Hw7
      isplitl [Hb8]; · iexact Hb8
      isplitl [Hf0]; · iexact Hf0
      isplitl [Hf1]; · iexact Hf1
      isplitl [Hf2]; · iexact Hf2
      iexact Hf3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats1 es w7s b8s f0s f1s f2s f3s O 1 c).Φ 0 = Pipeline.scopedRest spec1 c from rfl]
    iintro ⟨-, -, Hr⟩; iexact Hr
  hout c := by
    rw [Pipeline.ownSems0_none, show (pdats1 es w7s b8s f0s f1s f2s f3s O 1 c).Φ (Fin.last _) = Pipeline.scopedRest spec1 c from rfl]
    iintro Hr
    isplitr; · iempintro
    isplitr; · iempintro
    iexact Hr
  hexit c := by
    rw [arrays1_eq es w7s b8s f0s f1s f2s f3s O c, bigSep_W1]
    unfold post1
    iintro ⟨⟨He0, He1, He2, He3, Hw7, Hb8, Hf0, Hf1, Hf2, Hf3⟩, HO, -, -⟩
    imodintro
    isplitl [He0]; · iexact He0
    isplitl [He1]; · iexact He1
    isplitl [He2]; · iexact He2
    isplitl [He3]; · iexact He3
    isplitl [Hw7]; · iexact Hw7
    isplitl [Hb8]; · iexact Hb8
    isplitl [Hf0]; · iexact Hf0
    isplitl [Hf1]; · iexact Hf1
    isplitl [Hf2]; · iexact Hf2
    isplitl [Hf3]; · iexact Hf3
    unfold Pipeline.Dat.owesAt Pipeline.owesWithin
    icases HO with ⟨%W, %hW, HO⟩; iexists W
    isplitr
    · ipureintro
      intro p hp
      rcases hW hp with h | ⟨w, s, rfl⟩
      · exact h
      · exact le_rfl
    iexact HO

set_option backward.isDefEq.respectTransparency.types false in
/-- THE STEP, over contents named on every device. -/
theorem wp_region1_fam (hO : ∀ g, O g none = 0) (d : Dev nD) {α : Type}
    (k : PUnit → Prog (TpuEff nD τ sig (Elt F) (SparseCore.Sig (ΛP (F := F)) 1) .tc) α) (Φ : α → sProp (𝕄 F)) :
    iprop(levAts (K (F := F)).L (K (F := F)).lev ∗ boundary (𝕥 d)
        ∗ Pipeline.cellsGhost (Pipeline.pin (pcfgs (F := F)) adm) EP 1 d ∗ Pipeline.toksInit (Pipeline.pin (pcfgs (F := F)) adm) EP 1 d
        ∗ pre1 es w7s b8s f0s f1s f2s f3s O d
        ∗ (iprop(boundary (𝕥 d) ∗ post1 es w7s b8s f0s f1s f2s f3s O d) -∗ wp frame (wpE ((K (F := F)).defs D) 𝒱 (𝕥 d) none) Set.univ (k ⟨⟩) Φ))
      ⊢ wp frame (wpE ((K (F := F)).defs D) 𝒱 (𝕥 d) none) Set.univ (.op (.customCall (SparseCore.inner (Pipeline.entry 1)) ()) k) Φ := by
  have hR := Pipeline.RegionSeg.wp (pcfgs (F := F)) adm (pdats1 es w7s b8s f0s f1s f2s f3s O) (none : HIx 1) cellOf_inj EP defs₀ 𝒱₀ (K (F := F)).L (K (F := F)).lev
    (reg1 es w7s b8s f0s f1s f2s f3s O hO) d none (fun u hu => by cases hu) (fun r => .ret r)
    (fun r => wp frame (wpE ((K (F := F)).defs D) 𝒱 (𝕥 d) none) Set.univ (k r) Φ)
  simp only [wp_ret] at hR
  rw [show (reg1 es w7s b8s f0s f1s f2s f3s O hO).pre d = pre1 es w7s b8s f0s f1s f2s f3s O d from rfl, show (reg1 es w7s b8s f0s f1s f2s f3s O hO).post d = post1 es w7s b8s f0s f1s f2s f3s O d from rfl] at hR
  have hL := (K (F := F)).wp_liftProg D 𝒱 (𝕥 d) (Set.univ : Set ℕ) none
    (.op (.customCall (Pipeline.entry 1) ()) fun r => .ret r) (fun r => wp frame (wpE ((K (F := F)).defs D) 𝒱 (𝕥 d) none) Set.univ (k r) Φ)
  rw [show (Prog.op (TpuEff.customCall (SparseCore.inner (Pipeline.entry 1)) ()) k : Prog (TpuEff nD τ sig (Elt F) (SparseCore.Sig (ΛP (F := F)) 1) .tc) α)
      = (SparseCore.liftProg (Q := 1) (Prog.op (TpuEff.customCall (Pipeline.entry 1) ()) fun r => Prog.ret r) >>= k) from rfl, wp_bind]
  refine BIBase.Entails.trans ?_ hL
  refine BIBase.Entails.trans ?_ hR
  iintro ⟨HL, Hb, Hg, Ht, Hpre, Hk⟩
  isplitl [Hk]
  · iintro Hbp; imodintro; iapply Hk; iexact Hbp
  isplitl [Hb]; · iexact Hb
  isplitl [Hpre]; · iexact Hpre
  isplitl [HL]; · iexact HL
  isplitl [Hg]; · iexact Hg
  iexact Ht

/-! ## The step at one device -/

/-- The region's entry state from the edge features held whole. -/
theorem pre1_intro (c : Dev nD) :
    iprop(((𝕥 c).loc main_v11 ↦{fullShare} es c)
      ∗ ((𝕥 c).loc main_v7 ↦{fullShare} w7s c)
      ∗ ((𝕥 c).loc main_v8 ↦{fullShare} b8s c)
      ∗ ((𝕥 c).loc main_v12_0 ↦{fullShare} f0s c)
      ∗ ((𝕥 c).loc main_v12_1 ↦{fullShare} f1s c)
      ∗ ((𝕥 c).loc main_v12_2 ↦{fullShare} f2s c)
      ∗ ((𝕥 c).loc main_v12_3 ↦{fullShare} f3s c)
      ∗ (∃ W, ⌜(K (F := F)).WBelow (𝕥 c) W 0⌝ ∗ owes (𝕥 c) O W)) ⊢ pre1 es w7s b8s f0s f1s f2s f3s O c := by
  unfold pre1
  iintro ⟨He, Hw7, Hb8, Hf0, Hf1, Hf2, Hf3, HO⟩
  have hq := quarters_split (F := F) (es c)
  ihave He := hq $$ He
  icases He with ⟨He0, He1, He2, He3⟩
  isplitl [He0]; · iexact He0
  isplitl [He1]; · iexact He1
  isplitl [He2]; · iexact He2
  isplitl [He3]; · iexact He3
  isplitl [Hw7]; · iexact Hw7
  isplitl [Hb8]; · iexact Hb8
  isplitl [Hf0]; · iexact Hf0
  isplitl [Hf1]; · iexact Hf1
  isplitl [Hf2]; · iexact Hf2
  isplitl [Hf3]; · iexact Hf3
  iexact HO

/-- The region's exit state: the operands as they were, the edge features whole again, each result at its function of them. -/
theorem post1_elim (c : Dev nD) : post1 es w7s b8s f0s f1s f2s f3s O c ⊢
    iprop(((𝕥 c).loc main_v11 ↦{fullShare} es c)
      ∗ ((𝕥 c).loc main_v7 ↦{fullShare} w7s c)
      ∗ ((𝕥 c).loc main_v8 ↦{fullShare} b8s c)
      ∗ ((𝕥 c).loc main_v12_0 ↦{fullShare} edgeVal 0 (es c) (w7s c) (b8s c))
      ∗ ((𝕥 c).loc main_v12_1 ↦{fullShare} edgeVal 1 (es c) (w7s c) (b8s c))
      ∗ ((𝕥 c).loc main_v12_2 ↦{fullShare} edgeVal 2 (es c) (w7s c) (b8s c))
      ∗ ((𝕥 c).loc main_v12_3 ↦{fullShare} edgeVal 3 (es c) (w7s c) (b8s c))
      ∗ (∃ W, ⌜(K (F := F)).WBelow (𝕥 c) W 0⌝ ∗ owes (𝕥 c) O W)) := by
  unfold post1
  rw [arrAt1_in0, arrAt1_in1, arrAt1_in2, arrAt1_in3, arrAt1_in4, arrAt1_in5, final1_6, final1_7, final1_8, final1_9]
  iintro ⟨He0, He1, He2, He3, Hw7, Hb8, Hf0, Hf1, Hf2, Hf3, HO⟩
  isplitl [He0 He1 He2 He3]
  · iapply (quarters_join (F := F) (es c))
    isplitl [He0]; · iexact He0
    isplitl [He1]; · iexact He1
    isplitl [He2]; · iexact He2
    iexact He3
  isplitl [Hw7]; · iexact Hw7
  isplitl [Hb8]; · iexact Hb8
  isplitl [Hf0]; · iexact Hf0
  isplitl [Hf1]; · iexact Hf1
  isplitl [Hf2]; · iexact Hf2
  isplitl [Hf3]; · iexact Hf3
  iexact HO

end Region1

/-! ## The results at the ideal values -/

/-- At the ideal values result `s` at row `r` is the inner product of row `r` of slab `s` with the weights, plus the bias. -/
theorem edgeVal_apply_ideal (s : Fin 4) (e4 : FVec Ideal S4x40000x256 .f32) (w7 : FVec Ideal S256x1 .f32) (b : FVec Ideal S1x1 .f32) (r : Fin 40000) :
    edgeVal (F := Ideal) s e4 w7 b (ix2 r (0 : Fin 1))
      = (∑ k : Fin 256, e4 (ix3 s r k) * w7 (ix2 k (0 : Fin 1))) + b (ix2 (0 : Fin 1) (0 : Fin 1)) := by
  have hr : r.val < 40000 := r.isLt
  unfold edgeVal k1_pay3 k1_pay1 k1_pay2
  rw [shapeCast_self, shapeCast_self, addf_apply]
  congr 1
  · refine (Cert.Lib.matmul2_zero_apply dot_S2000x256_S256x1_S2000x1_1_0_0_1_n_n_wf
      (shapeCast S2000x256 (slabRows e4 s (r.val / 2000)) shapeCasts_S1x2000x256_S2000x256) w7
      (⟨r.val % 2000, Nat.mod_lt _ (by decide)⟩ : Fin 2000) (0 : Fin 1)).trans ?_
    refine Finset.sum_congr rfl fun k _ => ?_
    have hx : shapeCast S2000x256 (slabRows e4 s (r.val / 2000)) shapeCasts_S1x2000x256_S2000x256
        (ix2 (⟨r.val % 2000, Nat.mod_lt _ (by decide)⟩ : Fin 2000) k) = e4 (ix3 s r k) := by
      rw [shapeCast_dropUnit_apply]
      show e4 (ix3 _ _ _) = e4 (ix3 s r k)
      congr 1
      funext a; apply Fin.ext
      match a with
      | ⟨0, _⟩ => rfl
      | ⟨1, _⟩ => show min (2000 * (r.val / 2000) + r.val % 2000) 39999 = r.val; omega
      | ⟨2, _⟩ => rfl
    rw [hx]
  · exact broadcastTo_apply b broadcasts_S1x1_S2000x1 _ (ix2 (0 : Fin 1) (0 : Fin 1)) fun a => by
      match a with
      | ⟨0, _⟩ => rfl
      | ⟨1, _⟩ => rfl

/-- THE STEP. On device `d`'s TensorCore, holding the edge features (as four slabs) at `e`, the last run of weights at `w7`, the bias
    at `b8`, the four result arrays at anything, and owing its SparseCores tallies `O` none of which is at the index the pipeline
    waits at: the second pipelined call runs to the same holdings with result `s` at `edgeVal e w7 b8 s`. -/
theorem wp_region1 (d : Dev nD) (e : Buf (Elt F) ((𝕥 d).loc main_v11)) (w7 : Buf (Elt F) ((𝕥 d).loc main_v7)) (b8 : Buf (Elt F) ((𝕥 d).loc main_v8))
    (O : CellTallies nD τ sig (HIx 1)) (hO : ∀ g, O g none = 0) {α : Type}
    (k : PUnit → Prog (TpuEff nD τ sig (Elt F) (SparseCore.Sig (ΛP (F := F)) 1) .tc) α) (Φ : α → sProp (𝕄 F)) :
    iprop(levAts (K (F := F)).L (K (F := F)).lev ∗ boundary (𝕥 d)
        ∗ Pipeline.cellsGhost (Pipeline.pin (pcfgs (F := F)) adm) EP 1 d ∗ Pipeline.toksInit (Pipeline.pin (pcfgs (F := F)) adm) EP 1 d
        ∗ ((𝕥 d).loc main_v11 ↦{fullShare} e) ∗ ((𝕥 d).loc main_v7 ↦{fullShare} w7) ∗ ((𝕥 d).loc main_v8 ↦{fullShare} b8)
        ∗ (∃ f, ((𝕥 d).loc main_v12_0 ↦{fullShare} f)) ∗ (∃ f, ((𝕥 d).loc main_v12_1 ↦{fullShare} f))
        ∗ (∃ f, ((𝕥 d).loc main_v12_2 ↦{fullShare} f)) ∗ (∃ f, ((𝕥 d).loc main_v12_3 ↦{fullShare} f))
        ∗ (∃ W, ⌜(K (F := F)).WBelow (𝕥 d) W 0⌝ ∗ owes (𝕥 d) O W)
        ∗ (iprop(boundary (𝕥 d) ∗ ((𝕥 d).loc main_v11 ↦{fullShare} e) ∗ ((𝕥 d).loc main_v7 ↦{fullShare} w7) ∗ ((𝕥 d).loc main_v8 ↦{fullShare} b8)
              ∗ ((𝕥 d).loc main_v12_0 ↦{fullShare} edgeVal 0 e w7 b8) ∗ ((𝕥 d).loc main_v12_1 ↦{fullShare} edgeVal 1 e w7 b8)
              ∗ ((𝕥 d).loc main_v12_2 ↦{fullShare} edgeVal 2 e w7 b8) ∗ ((𝕥 d).loc main_v12_3 ↦{fullShare} edgeVal 3 e w7 b8)
              ∗ (∃ W, ⌜(K (F := F)).WBelow (𝕥 d) W 0⌝ ∗ owes (𝕥 d) O W))
            -∗ wp frame (wpE ((K (F := F)).defs D) 𝒱 (𝕥 d) none) Set.univ (k ⟨⟩) Φ))
      ⊢ wp frame (wpE ((K (F := F)).defs D) 𝒱 (𝕥 d) none) Set.univ (.op (.customCall (SparseCore.inner (Pipeline.entry 1)) ()) k) Φ := by
  iintro ⟨HL, Hb, Hg, Ht, He, Hw7, Hb8, ⟨%g0, Hf0⟩, ⟨%g1, Hf1⟩, ⟨%g2, Hf2⟩, ⟨%g3, Hf3⟩, HO, Hk⟩
  have h := wp_region1_fam (onAll d e) (onAll d w7) (onAll d b8) (onAll d g0) (onAll d g1) (onAll d g2) (onAll d g3) O hO d k Φ
  have hpre := pre1_intro (onAll d e) (onAll d w7) (onAll d b8) (onAll d g0) (onAll d g1) (onAll d g2) (onAll d g3) O d
  have hpost := post1_elim (onAll d e) (onAll d w7) (onAll d b8) (onAll d g0) (onAll d g1) (onAll d g2) (onAll d g3) O d
  simp only [onAll_self] at hpre hpost
  iapply h
  isplitl [HL]; · iexact HL
  isplitl [Hb]; · iexact Hb
  isplitl [Hg]; · iexact Hg
  isplitl [Ht]; · iexact Ht
  isplitl [He Hw7 Hb8 Hf0 Hf1 Hf2 Hf3 HO]
  · iapply hpre
    isplitl [He]; · iexact He
    isplitl [Hw7]; · iexact Hw7
    isplitl [Hb8]; · iexact Hb8
    isplitl [Hf0]; · iexact Hf0
    isplitl [Hf1]; · iexact Hf1
    isplitl [Hf2]; · iexact Hf2
    isplitl [Hf3]; · iexact Hf3
    iexact HO
  iintro ⟨Hb, Hpost⟩
  iapply Hk
  isplitl [Hb]; · iexact Hb
  iapply hpost; iexact Hpost

end Cert.KernelIdeal.Regions

end
-- ==== Proof.TileViews.lean ====
/-
  How one vector subcore's resources are spelt: the slices and scratches as the kernel's memrefs address them are the
  arrays' slices and the subcore's own buffers; its five copy-completion counters and five scratch buffers are among
  the semaphores and buffers it owns.
-/
import proofs.«207961_g9620726743389_cont_9to1c4b_395_8_alg».proof.Proof.TileCells

noncomputable section

namespace Cert.KernelIdeal.Tile

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

section Views

variable (d : Dev nD) (c : Fin τ.nSC) (i : Fin τ.nSub) (L : grid2.Coords)

/-! ## The arrays' slices, as the subcore's memrefs address them -/

theorem pts_tabV (q : PosShare TreeShare) (f : Buf (Elt F) (tabLoc d)) :
    ((tabV).view.loc (V d c i) ↦[(tabV).view.set]{q} f : sProp (𝕄 F)) = tabLoc d ↦{q} f := by
  simp only [Memref.view_whole, View.set_whole]
theorem pts_rowSl (f : Buf (Elt F) (rowLoc d)) :
    ((rowSl L).view.loc (V d c i) ↦[(rowSl L).view.set]{fullShare} f : sProp (𝕄 F)) = rowLoc d ↦[sl L]{fullShare} f := by
  rw [set_rowSl]
theorem pts_colSl (f : Buf (Elt F) (colLoc d)) :
    ((colSl L).view.loc (V d c i) ↦[(colSl L).view.set]{fullShare} f : sProp (𝕄 F)) = colLoc d ↦[sl L]{fullShare} f := by
  rw [set_colSl]
theorem pts_esSl (f : Buf (Elt F) (esLoc d)) :
    ((esSl L).view.loc (V d c i) ↦[(esSl L).view.set]{fullShare} f : sProp (𝕄 F)) = esLoc d ↦[sl L]{fullShare} f := by
  rw [set_esSl]
theorem pts_outSl (f : Buf (Elt F) (outLoc d)) :
    ((outSl L).view.loc (V d c i) ↦[(outSl L).view.set]{fullShare} f : sProp (𝕄 F)) = outLoc d ↦[sl L]{fullShare} f := by
  rw [set_outSl]

/-! ## The scratches -/

theorem pts_sTab (f : Buf (Elt F) ((V d c i).loc cc2_scratch0)) :
    ((sTab).view.loc (V d c i) ↦[(sTab).view.set]{fullShare} f : sProp (𝕄 F)) = (V d c i).loc cc2_scratch0 ↦{fullShare} f := by
  simp only [Memref.view_whole, View.set_whole]
theorem pts_sRow (f : Buf (Elt F) ((V d c i).loc cc2_scratch1)) :
    ((sRow).view.loc (V d c i) ↦[(sRow).view.set]{fullShare} f : sProp (𝕄 F)) = (V d c i).loc cc2_scratch1 ↦{fullShare} f := by
  simp only [Memref.view_whole, View.set_whole]
theorem pts_sCol (f : Buf (Elt F) ((V d c i).loc cc2_scratch2)) :
    ((sCol).view.loc (V d c i) ↦[(sCol).view.set]{fullShare} f : sProp (𝕄 F)) = (V d c i).loc cc2_scratch2 ↦{fullShare} f := by
  simp only [Memref.view_whole, View.set_whole]
theorem pts_sEs (f : Buf (Elt F) ((V d c i).loc cc2_scratch3)) :
    ((sEs).view.loc (V d c i) ↦[(sEs).view.set]{fullShare} f : sProp (𝕄 F)) = (V d c i).loc cc2_scratch3 ↦{fullShare} f := by
  simp only [Memref.view_whole, View.set_whole]
theorem pts_sOut (f : Buf (Elt F) ((V d c i).loc cc2_scratch4)) :
    ((sOut).view.loc (V d c i) ↦[(sOut).view.set]{fullShare} f : sProp (𝕄 F)) = (V d c i).loc cc2_scratch4 ↦{fullShare} f := by
  simp only [Memref.view_whole, View.set_whole]

theorem pts_sTab_access (f : Buf (Elt F) ((V d c i).loc cc2_scratch0)) :
    ((((sTab).access (.whole S20000)).loc (V d c i)) ↦{fullShare} f : sProp (𝕄 F)) = (V d c i).loc cc2_scratch0 ↦{fullShare} f := rfl
theorem pts_sRow_univ (f : Buf (Elt F) ((V d c i).loc cc2_scratch1)) :
    ((sRow).view.loc (V d c i) ↦{fullShare} f : sProp (𝕄 F)) = (V d c i).loc cc2_scratch1 ↦{fullShare} f := rfl
theorem pts_sCol_univ (f : Buf (Elt F) ((V d c i).loc cc2_scratch2)) :
    ((sCol).view.loc (V d c i) ↦{fullShare} f : sProp (𝕄 F)) = (V d c i).loc cc2_scratch2 ↦{fullShare} f := rfl
theorem pts_sEs_univ (f : Buf (Elt F) ((V d c i).loc cc2_scratch3)) :
    ((sEs).view.loc (V d c i) ↦{fullShare} f : sProp (𝕄 F)) = (V d c i).loc cc2_scratch3 ↦{fullShare} f := rfl
theorem pts_sOut_univ (f : Buf (Elt F) ((V d c i).loc cc2_scratch4)) :
    ((sOut).view.loc (V d c i) ↦{fullShare} f : sProp (𝕄 F)) = (V d c i).loc cc2_scratch4 ↦{fullShare} f := rfl
theorem pts_sOut_access (r : Rect S5040) (f : Buf (Elt F) ((V d c i).loc cc2_scratch4)) :
    ((((sOut).access r).loc (V d c i)) ↦{fullShare} f : sProp (𝕄 F)) = (V d c i).loc cc2_scratch4 ↦{fullShare} f := rfl

/-! ## The subcore's own semaphores and buffers -/

theorem ownSems0_V :
    (ownSems0 (V d c i) : sProp (𝕄 F))
      = iprop(semVal (c0cell d c i) 0 ∗ semVal (c1cell d c i) 0 ∗ semVal (c2cell d c i) 0 ∗ semVal (c3cell d c i) 0 ∗ semVal (c4cell d c i) 0
          ∗ bigSep ((((((ownCells (V d c i)).erase (c0cell d c i)).erase (c1cell d c i)).erase (c2cell d c i)).erase (c3cell d c i)).erase (c4cell d c i))
              fun g => semVal g 0) := by
  have m0 : c0cell d c i ∈ ownCells (V d c i) := (mem_ownCells (g := c0cell d c i)).mpr ⟨rfl, by
    show (SemLoc.dma cc2_scoped0.sem : SemLoc sig).isScoped .scVector = true; decide⟩
  have m1 : c1cell d c i ∈ ownCells (V d c i) := (mem_ownCells (g := c1cell d c i)).mpr ⟨rfl, by
    show (SemLoc.dma cc2_scoped1.sem : SemLoc sig).isScoped .scVector = true; decide⟩
  have m2 : c2cell d c i ∈ ownCells (V d c i) := (mem_ownCells (g := c2cell d c i)).mpr ⟨rfl, by
    show (SemLoc.dma cc2_scoped2.sem : SemLoc sig).isScoped .scVector = true; decide⟩
  have m3 : c3cell d c i ∈ ownCells (V d c i) := (mem_ownCells (g := c3cell d c i)).mpr ⟨rfl, by
    show (SemLoc.dma cc2_scoped3.sem : SemLoc sig).isScoped .scVector = true; decide⟩
  have m4 : c4cell d c i ∈ ownCells (V d c i) := (mem_ownCells (g := c4cell d c i)).mpr ⟨rfl, by
    show (SemLoc.dma cc2_scoped4.sem : SemLoc sig).isScoped .scVector = true; decide⟩
  have n10 : c1cell d c i ≠ c0cell d c i := fun e => sem10 (Prod.mk.inj e).2
  have n20 : c2cell d c i ≠ c0cell d c i := fun e => sem20 (Prod.mk.inj e).2
  have n21 : c2cell d c i ≠ c1cell d c i := fun e => sem21 (Prod.mk.inj e).2
  have n30 : c3cell d c i ≠ c0cell d c i := fun e => sem30 (Prod.mk.inj e).2
  have n31 : c3cell d c i ≠ c1cell d c i := fun e => sem31 (Prod.mk.inj e).2
  have n32 : c3cell d c i ≠ c2cell d c i := fun e => sem32 (Prod.mk.inj e).2
  have n40 : c4cell d c i ≠ c0cell d c i := fun e => sem40 (Prod.mk.inj e).2
  have n41 : c4cell d c i ≠ c1cell d c i := fun e => sem41 (Prod.mk.inj e).2
  have n42 : c4cell d c i ≠ c2cell d c i := fun e => sem42 (Prod.mk.inj e).2
  have n43 : c4cell d c i ≠ c3cell d c i := fun e => sem43 (Prod.mk.inj e).2
  unfold SparseCore.Cfg.ownSems0
  rw [SparseCore.bigSep_erase' m0,
    SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩),
    SparseCore.bigSep_erase' (Finset.mem_erase.mpr ⟨n43, Finset.mem_erase.mpr ⟨n42, Finset.mem_erase.mpr ⟨n41, Finset.mem_erase.mpr ⟨n40, m4⟩⟩⟩⟩)]

/-- The buffers the subcore owns besides its five scratches. -/
abbrev restRefs : Finset (DevRef τ sig) :=
  (((((ownRefs (τ := τ) (.scVector c i)).erase ((Proc.scVector c i).devRef cc2_scratch0)).erase ((Proc.scVector c i).devRef cc2_scratch1)).erase
    ((Proc.scVector c i).devRef cc2_scratch2)).erase ((Proc.scVector c i).devRef cc2_scratch3)).erase ((Proc.scVector c i).devRef cc2_scratch4)

theorem ownBufs_V :
    (ownBufs (V d c i) : sProp (𝕄 F))
      = iprop((∃ f, (V d c i).loc cc2_scratch0 ↦{fullShare} f) ∗ (∃ f, (V d c i).loc cc2_scratch1 ↦{fullShare} f)
          ∗ (∃ f, (V d c i).loc cc2_scratch2 ↦{fullShare} f) ∗ (∃ f, (V d c i).loc cc2_scratch3 ↦{fullShare} f)
          ∗ (∃ f, (V d c i).loc cc2_scratch4 ↦{fullShare} f)
          ∗ bigSep (restRefs c i) fun b => iprop(∃ f, ((d, b) : Loc nD τ sig) ↦{fullShare} f)) := by
  have m0 : (Proc.scVector c i).devRef cc2_scratch0 ∈ ownRefs (τ := τ) (.scVector c i) :=
    SparseCore.Cfg.mem_ownRefs_of_owner (p := Proc.scVector c i) (b := (Proc.scVector c i).devRef cc2_scratch0) rfl
  have m1 : (Proc.scVector c i).devRef cc2_scratch1 ∈ ownRefs (τ := τ) (.scVector c i) :=
    SparseCore.Cfg.mem_ownRefs_of_owner (p := Proc.scVector c i) (b := (Proc.scVector c i).devRef cc2_scratch1) rfl
  have m2 : (Proc.scVector c i).devRef cc2_scratch2 ∈ ownRefs (τ := τ) (.scVector c i) :=
    SparseCore.Cfg.mem_ownRefs_of_owner (p := Proc.scVector c i) (b := (Proc.scVector c i).devRef cc2_scratch2) rfl
  have m3 : (Proc.scVector c i).devRef cc2_scratch3 ∈ ownRefs (τ := τ) (.scVector c i) :=
    SparseCore.Cfg.mem_ownRefs_of_owner (p := Proc.scVector c i) (b := (Proc.scVector c i).devRef cc2_scratch3) rfl
  have m4 : (Proc.scVector c i).devRef cc2_scratch4 ∈ ownRefs (τ := τ) (.scVector c i) :=
    SparseCore.Cfg.mem_ownRefs_of_owner (p := Proc.scVector c i) (b := (Proc.scVector c i).devRef cc2_scratch4) rfl
  have ne {r r' : Ref sig .scVector} (h : r ≠ r') : (Proc.scVector c i).devRef r ≠ (Proc.scVector c i).devRef r' :=
    fun e => h (Proc.devRef_injective _ e)
  have h10 : (cc2_scratch1 : Ref sig .scVector) ≠ cc2_scratch0 := by decide
  have h20 : (cc2_scratch2 : Ref sig .scVector) ≠ cc2_scratch0 := by decide
  have h21 : (cc2_scratch2 : Ref sig .scVector) ≠ cc2_scratch1 := by decide
  have h30 : (cc2_scratch3 : Ref sig .scVector) ≠ cc2_scratch0 := by decide
  have h31 : (cc2_scratch3 : Ref sig .scVector) ≠ cc2_scratch1 := by decide
  have h32 : (cc2_scratch3 : Ref sig .scVector) ≠ cc2_scratch2 := by decide
  have h40 : (cc2_scratch4 : Ref sig .scVector) ≠ cc2_scratch0 := by decide
  have h41 : (cc2_scratch4 : Ref sig .scVector) ≠ cc2_scratch1 := by decide
  have h42 : (cc2_scratch4 : Ref sig .scVector) ≠ cc2_scratch2 := by decide
  have h43 : (cc2_scratch4 : Ref sig .scVector) ≠ cc2_scratch3 := by decide
  unfold SparseCore.Cfg.ownBufs restRefs
  refine (SparseCore.bigSep_erase' m0).trans ?_
  rw [SparseCore.bigSep_erase' (Finset.mem_erase.mpr ⟨ne h10, m1⟩),
    SparseCore.bigSep_erase' (Finset.mem_erase.mpr ⟨ne h21, Finset.mem_erase.mpr ⟨ne h20, m2⟩⟩),
    SparseCore.bigSep_erase' (Finset.mem_erase.mpr ⟨ne h32, Finset.mem_erase.mpr ⟨ne h31, Finset.mem_erase.mpr ⟨ne h30, m3⟩⟩⟩),
    SparseCore.bigSep_erase' (Finset.mem_erase.mpr ⟨ne h43, Finset.mem_erase.mpr ⟨ne h42, Finset.mem_erase.mpr ⟨ne h41, Finset.mem_erase.mpr ⟨ne h40, m4⟩⟩⟩⟩)]

end Views

end Cert.KernelIdeal.Tile

end
-- ==== Proof.TileVal.lean ====
/-
  The pure facts of one vector subcore's loop: what the sixteen lanes of a trip compute, that a trip's store extends the
  part of the result scratch already holding the value by sixteen entries, and that the scratch written out through the
  subcore's slice is the value stated on the arrays.

  A row word w ≤ 9999 doubled as a 32-bit word is the number 2 w (no wrap), and doubled plus one is 2 w + 1, both below
  20000: the two range checks of the indexed loads hold, and the entries they name are the table's entries 2 w and 2 w + 1.
-/
import proofs.«207961_g9620726743389_cont_9to1c4b_395_8_alg».proof.Proof.TileCells
import Idealize.ShloMosaic.PureOps.Ideal

noncomputable section

namespace Cert.KernelIdeal.Tile

open Cert.KernelIdeal Cert.KernelIdeal.Gen Cert.KernelIdeal.Common

open Idealize.ShloMosaic
open Idealize.ShloMosaic.SparseCore (S V T)
open Idealize.ShloMosaic.ValueIdx

variable {F : FTy → Type}

/-! ## The trip's rectangles -/

theorem unit_congr {s : Shape} {off off' size : Fin s.rank → Nat} {inb : ∀ a, off a + size a ≤ s.size a}
    {inb' : ∀ a, off' a + size a ≤ s.size a} (h : off = off') : Rect.unit (s := s) off size inb = Rect.unit off' size inb' := by
  subst h; rfl

/-- The sixteen entries a trip loads of the row and column words, and those it loads and stores of the scores and results. -/
abbrev r2 (k : Fin k2_t1_loop.trips) : Rect S5040 := Rect.unit (s := S5040) (k2_off2 k) S16.size (k2_off2_inb k)
abbrev r3 (k : Fin k2_t1_loop.trips) : Rect S5040 := Rect.unit (s := S5040) (k2_off3 k) S16.size (k2_off3_inb k)
theorem r2_eq_r3 (k : Fin k2_t1_loop.trips) : r2 k = r3 k := unit_congr ((k2_off2_eq k).trans (k2_off3_eq k).symm)

theorem trips_eq : k2_t1_loop.trips = 315 := by decide

/-- Lane x of trip k is entry 16 k + x of the scratch. -/
theorem r3_emb_val (k : Fin k2_t1_loop.trips) (x : S16.Idx) : (((r3 k).emb x) 0).val = 16 * k.val + (x 0).val := by
  rw [Rect.emb_apply]
  simp only [Rect.off_unit, Rect.stride_unit, k2_off3_eq]
  simp

theorem r2_idx_val (k : Fin k2_t1_loop.trips) (x : S16.Idx) : (((r2 k).toLoadRect.idx x) 0).val = 16 * k.val + (x 0).val := by
  rw [LoadRect.idx_apply]
  simp only [Rect.off_unit, Rect.stride_unit, k2_off2_eq]
  simp
theorem r2_idx_eq (k : Fin k2_t1_loop.trips) (x : S16.Idx) : (r2 k).toLoadRect.idx x = (r3 k).emb x := by
  funext a
  have ha : a = 0 := Fin.eq_zero a
  subst ha
  apply Fin.ext
  rw [r2_idx_val, r3_emb_val]

/-! ## Words in range -/

theorem toNat_dbl {w : BitVec 32} (h : w.toNat ≤ 9999) : (w * 2#32).toNat = 2 * w.toNat := by
  rw [BitVec.toNat_mul]
  show (w.toNat * 2) % 2 ^ 32 = 2 * w.toNat
  omega
theorem toNat_dbl1 {w : BitVec 32} (h : w.toNat ≤ 9999) : (w * 2#32 + 1#32).toNat = 2 * w.toNat + 1 := by
  rw [BitVec.toNat_add, toNat_dbl h]
  show (2 * w.toNat + 1) % 2 ^ 32 = 2 * w.toNat + 1
  omega

variable [FloatOps F]

theorem pay1_apply (v6 : Vec F S16 .i32) (x : S16.Idx) : k2_pay1 v6 x = (v6 x : BitVec 32) * 2#32 := rfl
theorem pay2_apply (v8 : Vec F S16 .i32) (x : S16.Idx) : k2_pay2 v8 x = (v8 x : BitVec 32) * 2#32 + 1#32 := rfl

/-- The first range check: every doubled row word is below 20000. -/
theorem chk1_of (v6 : Vec F S16 .i32) (h : ∀ x, (v6 x : BitVec 32).toNat ≤ 9999) : k2_chk1 (k2_pay1 v6) := by
  intro a x
  obtain rfl : a = 0 := Subsingleton.elim _ _
  show (k2_pay1 v6 x).toNat < 20000
  rw [pay1_apply, toNat_dbl (h x)]; have := h x; omega
/-- The second: every doubled column word plus one is below 20000. -/
theorem chk2_of (v8 : Vec F S16 .i32) (h : ∀ x, (v8 x : BitVec 32).toNat ≤ 9999) : k2_chk2 (k2_pay2 v8) := by
  intro a x
  obtain rfl : a = 0 := Subsingleton.elim _ _
  show (k2_pay2 v8 x).toNat < 20000
  rw [pay2_apply, toNat_dbl1 (h x)]; have := h x; omega

theorem tIx_of_lt {n : Nat} (hn : n < 20000) : tIx n = ix1 (⟨n, hn⟩ : Fin 20000) := by
  unfold tIx; congr 1; apply Fin.ext; exact Nat.min_eq_left (by omega)

/-! ## The value, from the scratches' contents -/

/-- Entry j of the result from the four scratches' contents. -/
def valS (tabS : S20000.Idx → F .f32) (rowS colS : S5040.Idx → BitVec 32) (esS : S5040.Idx → F .f32) : S5040.Idx → F .f32 :=
  fun j => FloatOps.addf (FloatOps.addf (tabS (tIx (2 * (rowS j).toNat))) (tabS (tIx (2 * (colS j).toNat + 1)))) (esS j)

/-- The result scratch before trip n: the value on its first 16 n entries, what it held on the rest. -/
def acc (f0 v : S5040.Idx → F .f32) (n : Nat) : S5040.Idx → F .f32 := fun j => if (j 0).val < 16 * n then v j else f0 j

theorem acc_zero (f0 v : S5040.Idx → F .f32) : acc f0 v 0 = f0 := by
  funext j; unfold acc; rw [if_neg (by omega)]
theorem acc_last (f0 v : S5040.Idx → F .f32) : acc f0 v 315 = v := by
  funext j; unfold acc
  have : (j 0).val < 5040 := (j 0).isLt
  rw [if_pos (by omega)]

/-- What the sixteen lanes of trip k compute is the value at the trip's sixteen entries. -/
theorem lane_val (k : Fin k2_t1_loop.trips) (tabS : S20000.Idx → F .f32) (rowS colS : S5040.Idx → BitVec 32) (esS : S5040.Idx → F .f32)
    (hr : ∀ y, (rowS y).toNat ≤ 9999) (hc : ∀ y, (colS y).toNat ≤ 9999)
    (h1 : ∀ a x, ((![k2_pay1 (F := F) fun x => rowS ((r2 k).toLoadRect.idx x)] : Fin 1 → IVec S16 32) a x).toNat < S20000.size a)
    (h2 : ∀ a x, ((![k2_pay2 (F := F) fun x => colS ((r2 k).toLoadRect.idx x)] : Fin 1 → IVec S16 32) a x).toNat < S20000.size a)
    (x : S16.Idx) :
    k2_pay3 (F := F) (loadIdx (F := F) (e := .f32) tabS ![k2_pay1 (F := F) fun x => rowS ((r2 k).toLoadRect.idx x)] h1)
        (loadIdx (F := F) (e := .f32) tabS ![k2_pay2 (F := F) fun x => colS ((r2 k).toLoadRect.idx x)] h2)
        (fun x => esS ((r3 k).toLoadRect.idx x)) x
      = valS tabS rowS colS esS ((r3 k).emb x) := by
  have e23 : (r2 k).toLoadRect.idx x = (r3 k).emb x := r2_idx_eq k x
  have i1 : idxAt ![k2_pay1 (F := F) fun x => rowS ((r2 k).toLoadRect.idx x)] h1 x = tIx (2 * (rowS ((r3 k).emb x)).toNat) := by
    rw [tIx_of_lt (by have := hr ((r3 k).emb x); omega)]
    funext a
    obtain rfl : a = 0 := Subsingleton.elim _ _
    apply Fin.ext
    show (k2_pay1 (F := F) (fun x => rowS ((r2 k).toLoadRect.idx x)) x).toNat = 2 * (rowS ((r3 k).emb x)).toNat
    rw [pay1_apply, e23, toNat_dbl (hr _)]
  have i2 : idxAt ![k2_pay2 (F := F) fun x => colS ((r2 k).toLoadRect.idx x)] h2 x = tIx (2 * (colS ((r3 k).emb x)).toNat + 1) := by
    rw [tIx_of_lt (by have := hc ((r3 k).emb x); omega)]
    funext a
    obtain rfl : a = 0 := Subsingleton.elim _ _
    apply Fin.ext
    show (k2_pay2 (F := F) (fun x => colS ((r2 k).toLoadRect.idx x)) x).toNat = 2 * (colS ((r3 k).emb x)).toNat + 1
    rw [pay2_apply, e23, toNat_dbl1 (hc _)]
  show FloatOps.addf (FloatOps.addf (tabS (idxAt _ h1 x)) (tabS (idxAt _ h2 x))) (esS ((r3 k).toLoadRect.idx x)) = _
  rw [i1, i2]; rfl

/-- A trip's store: the value on sixteen more entries. -/
theorem acc_step (k : Fin k2_t1_loop.trips) (f0 v : S5040.Idx → F .f32) (w : S16.Idx → F .f32)
    (hw : ∀ x, w x = v ((r3 k).emb x)) :
    ((sOut).access (r3 k)).write (Elt F) (acc f0 v k.val) w Finset.univ = acc f0 v (k.val + 1) := by
  funext i
  by_cases hi : 16 * k.val ≤ (i 0).val ∧ (i 0).val < 16 * k.val + 16
  · have hx0 : (i 0).val - 16 * k.val < 16 := by omega
    let x : S16.Idx := ix1 (⟨(i 0).val - 16 * k.val, hx0⟩ : Fin 16)
    have hx : (r3 k).emb x = i := by
      funext a
      have ha : a = 0 := Fin.eq_zero a
      subst ha
      apply Fin.ext
      rw [r3_emb_val]; show 16 * k.val + ((i 0).val - 16 * k.val) = (i 0).val; omega
    have hwr : ((sOut).access (r3 k)).write (Elt F) (acc f0 v k.val) w Finset.univ ((r3 k).emb x) = w x :=
      (View.write_emb_of_mem (v := (sOut).access (r3 k)) (Val := Elt F) (acc f0 v k.val) w (Finset.mem_univ x)).trans (cast_eq _ _)
    rw [← hx, hwr, hw]
    unfold acc
    rw [if_pos (by rw [r3_emb_val]; show 16 * k.val + ((i 0).val - 16 * k.val) < 16 * (k.val + 1); omega)]
  · have hn : i ∉ ((sOut).access (r3 k)).setOn Finset.univ := by
      intro hmem
      obtain ⟨x, -, hx⟩ := Finset.mem_map.mp hmem
      have h0 : (((r3 k).emb x) 0).val = (i 0).val := congrArg (fun j : S5040.Idx => (j 0).val) hx
      rw [r3_emb_val] at h0
      have : (x 0).val < 16 := (x 0).isLt
      omega
    rw [View.write_of_not_mem _ _ _ hn]
    unfold acc
    by_cases h1 : (i 0).val < 16 * k.val
    · rw [if_pos h1, if_pos (by omega)]
    · rw [if_neg h1, if_neg (by omega)]

/-! ## The slice written out -/

/-- The scratches' contents after the four fetches, from the arrays'. -/
abbrev tabS (d : Dev nD) (tabF : Buf (Elt F) (tabLoc d)) : S20000.Idx → F .f32 := (tabV).view.read (Elt F) tabF
abbrev rowS (d : Dev nD) (L : grid2.Coords) (rowF : Buf (Elt F) (rowLoc d)) : S5040.Idx → BitVec 32 := (rowSl L).view.read (Elt F) rowF
abbrev colS (d : Dev nD) (L : grid2.Coords) (colF : Buf (Elt F) (colLoc d)) : S5040.Idx → BitVec 32 := (colSl L).view.read (Elt F) colF
abbrev esS (d : Dev nD) (L : grid2.Coords) (esF : Buf (Elt F) (esLoc d)) : S5040.Idx → F .f32 := (esSl L).view.read (Elt F) esF

theorem rowS_apply (d : Dev nD) (L : grid2.Coords) (rowF : Buf (Elt F) (rowLoc d)) (y : S5040.Idx) : rowS d L rowF y = rowF ((slR L).emb y) :=
  (View.read_apply _ _).trans (cast_eq _ _)
theorem colS_apply (d : Dev nD) (L : grid2.Coords) (colF : Buf (Elt F) (colLoc d)) (y : S5040.Idx) : colS d L colF y = colF ((slR L).emb y) :=
  (View.read_apply _ _).trans (cast_eq _ _)
theorem esS_apply (d : Dev nD) (L : grid2.Coords) (esF : Buf (Elt F) (esLoc d)) (y : S5040.Idx) : esS d L esF y = esF ((slR L).emb y) :=
  (View.read_apply _ _).trans (cast_eq _ _)

theorem emb_mem_sl (L : grid2.Coords) (y : S5040.Idx) : (slR L).emb y ∈ sl L := by
  show (slR L).emb y ∈ (slR L).set
  rw [← Rect.map_emb_univ]; exact Finset.mem_map_of_mem _ (Finset.mem_univ y)

/-- The range hypotheses, on the scratches. -/
theorem rowS_le (d : Dev nD) (L : grid2.Coords) (rowF : Buf (Elt F) (rowLoc d)) (h : ∀ j ∈ sl L, (rowF j : BitVec 32).toNat ≤ 9999) (y : S5040.Idx) :
    (rowS d L rowF y).toNat ≤ 9999 := by rw [rowS_apply]; exact h _ (emb_mem_sl L y)
theorem colS_le (d : Dev nD) (L : grid2.Coords) (colF : Buf (Elt F) (colLoc d)) (h : ∀ j ∈ sl L, (colF j : BitVec 32).toNat ≤ 9999) (y : S5040.Idx) :
    (colS d L colF y).toNat ≤ 9999 := by rw [colS_apply]; exact h _ (emb_mem_sl L y)

/-- The result scratch, holding the value everywhere, written through the subcore's slice of the result: on the slice, the value stated on the arrays. -/
theorem out_final (d : Dev nD) (L : grid2.Coords) (tabF : Buf (Elt F) (tabLoc d)) (rowF : Buf (Elt F) (rowLoc d)) (colF : Buf (Elt F) (colLoc d))
    (esF : Buf (Elt F) (esLoc d)) (outF : Buf (Elt F) (outLoc d)) :
    ∀ i ∈ sl L, (outSl L).view.write (Elt F) outF ((sOut).view.read (Elt F) (valS (tabS d tabF) (rowS d L rowF) (colS d L colF) (esS d L esF))) Finset.univ i
      = outVal d tabF rowF colF esF i := by
  intro i hi
  have hi' : i ∈ (slR L).set := hi
  rw [← Rect.map_emb_univ] at hi'
  obtain ⟨y, -, rfl⟩ := Finset.mem_map.mp hi'
  have hwr : (outSl L).view.write (Elt F) outF ((sOut).view.read (Elt F) (valS (tabS d tabF) (rowS d L rowF) (colS d L colF) (esS d L esF))) Finset.univ ((slR L).emb y)
      = valS (tabS d tabF) (rowS d L rowF) (colS d L colF) (esS d L esF) y :=
    (View.write_emb_of_mem (v := (outSl L).view) (Val := Elt F) outF _ (Finset.mem_univ y)).trans (cast_eq _ _)
  rw [hwr]
  unfold valS outVal
  rw [rowS_apply, colS_apply, esS_apply]; rfl

/-! ## The value at the ideal instance -/

theorem outVal_apply_ideal (d : Dev nD) (tabF : Buf (Elt Ideal) (tabLoc d)) (rowF : Buf (Elt Ideal) (rowLoc d)) (colF : Buf (Elt Ideal) (colLoc d))
    (esF : Buf (Elt Ideal) (esLoc d)) (j : (outLoc d).ty.Idx) (hr : (rowF j : BitVec 32).toNat ≤ 9999) (hc : (colF j : BitVec 32).toNat ≤ 9999) :
    outVal d tabF rowF colF esF j
      = @HAdd.hAdd (Ideal .f32) (Ideal .f32) (Ideal .f32) instHAdd
          (@HAdd.hAdd (Ideal .f32) (Ideal .f32) (Ideal .f32) instHAdd (tabF (ix1 (⟨2 * (rowF j : BitVec 32).toNat, by omega⟩ : Fin 20000)))
            (tabF (ix1 (⟨2 * (colF j : BitVec 32).toNat + 1, by omega⟩ : Fin 20000))))
          (esF j) := by
  unfold outVal
  rw [tIx_of_lt (by omega), tIx_of_lt (by omega)]
  rfl

end Cert.KernelIdeal.Tile

end
-- ==== Proof.TileI.lean ====
/-
  One vector subcore's run of the gather kernel, with the value it leaves.

  The subcore fetches the whole table and its slices of the row words, the column words and the edge scores into its
  scratch, one copy at a time, each on a counter of its own and waited for before the next; then 315 times it takes
  sixteen row words and sixteen column words, checks twice the row word and twice the column word plus one against
  the table's extent, reads the table there, adds the two entries and the edge score, and stores the sixteen sums; at
  last it copies the 5040 sums to its slice of the result. The loop's invariant: the four fetched scratches as
  fetched, the result scratch holding the value on its first 16 k entries. The arrays come back as they were, the
  subcore's slice of the result at the value.
-/
import proofs.«207961_g9620726743389_cont_9to1c4b_395_8_alg».proof.Proof.TileViews
import proofs.«207961_g9620726743389_cont_9to1c4b_395_8_alg».proof.Proof.TileVal

noncomputable section

namespace Cert.KernelIdeal.Tile

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section Tile

variable (X : Ins F) (d : Dev nD) (L : grid2.Coords)

/-- What a whole scratch holds after a fetch written over it: what was fetched. -/
theorem lands_sTab (fd w : Buf (Elt F) ((V d (cV L) (jV L)).loc cc2_scratch0)) : (sTab).view.write (Elt F) fd w Finset.univ = w := View.write_whole_univ _ _ _
theorem lands_sRow (fd w : Buf (Elt F) ((V d (cV L) (jV L)).loc cc2_scratch1)) : (sRow).view.write (Elt F) fd w Finset.univ = w := View.write_whole_univ _ _ _
theorem lands_sCol (fd w : Buf (Elt F) ((V d (cV L) (jV L)).loc cc2_scratch2)) : (sCol).view.write (Elt F) fd w Finset.univ = w := View.write_whole_univ _ _ _
theorem lands_sEs (fd w : Buf (Elt F) ((V d (cV L) (jV L)).loc cc2_scratch3)) : (sEs).view.write (Elt F) fd w Finset.univ = w := View.write_whole_univ _ _ _

/-- The table scratch read through its whole rectangle is its contents. -/
theorem tab_read_whole (f : Buf (Elt F) ((V d (cV L) (jV L)).loc cc2_scratch0)) : ((sTab).access (Rect.whole S20000)).read (Elt F) f = f :=
  Memref.read_access_whole (Elt F) cc2_scratch0 f

/-- The value on the subcore's scratches. -/
abbrev valL : S5040.Idx → F .f32 := valS (tabS d (X.tab d)) (rowS d L (X.row d)) (colS d L (X.col d)) (esS d L (X.es d))

/-- Before trip n: the four fetched scratches as fetched, the result scratch at the value on its first 16 n entries. -/
def loopInv (f4 : Buf (Elt F) ((V d (cV L) (jV L)).loc cc2_scratch4)) (n : Nat) (_ : Unit) : sProp (𝕄 F) :=
  iprop(((V d (cV L) (jV L)).loc cc2_scratch0 ↦{fullShare} tabS d (X.tab d))
    ∗ ((V d (cV L) (jV L)).loc cc2_scratch1 ↦{fullShare} rowS d L (X.row d))
    ∗ ((V d (cV L) (jV L)).loc cc2_scratch2 ↦{fullShare} colS d L (X.col d))
    ∗ ((V d (cV L) (jV L)).loc cc2_scratch3 ↦{fullShare} esS d L (X.es d))
    ∗ ((V d (cV L) (jV L)).loc cc2_scratch4 ↦{fullShare} acc f4 (valL X d L) n))

/-- A trip's store, on the result scratch. -/
theorem store_step (k : Fin k2_t1_loop.trips) (f0 v : S5040.Idx → F .f32) (w : S16.Idx → F .f32) (hw : ∀ x, w x = v ((r3 k).emb x)) :
    ((((sOut).access (r3 k)).loc (V d (cV L) (jV L))) ↦{fullShare} ((sOut).access (r3 k)).write (Elt F) (acc f0 v k.val) w Finset.univ : sProp (𝕄 F))
      = (V d (cV L) (jV L)).loc cc2_scratch4 ↦{fullShare} acc f0 v (k.val + 1) := by
  rw [acc_step k f0 v w hw]

theorem loop_end (f0 v : S5040.Idx → F .f32) :
    ((V d (cV L) (jV L)).loc cc2_scratch4 ↦{fullShare} acc f0 v k2_t1_loop.trips : sProp (𝕄 F)) = (V d (cV L) (jV L)).loc cc2_scratch4 ↦{fullShare} v := by
  rw [trips_eq, acc_last]

set_option maxHeartbeats 4000000 in
/-- Vector subcore (L 0, L 1) of device d runs the kernel: four fetches, the loop, the write-out. -/
theorem tile_body (hF : (K (F := F)).Facts) (outF : Buf (Elt F) (outLoc d))
    (hrow : ∀ j ∈ sl L, (X.row d j : BitVec 32).toNat ≤ 9999) (hcol : ∀ j ∈ sl L, (X.col d j : BitVec 32).toNat ≤ 9999)
    (O : CellTallies nD τ sig (HIx 1)) (W : Waits sig (HIx 1)) (hO : ∀ g, O g none = 0) :
    iprop(levAts (K (F := F)).L (K (F := F)).lev ∗ kits X d (cV L) (jV L)
        ∗ ((tabLoc d ↦{X.q (cV L) (jV L)} X.tab d) ∗ (rowLoc d ↦[sl L]{fullShare} X.row d) ∗ (colLoc d ↦[sl L]{fullShare} X.col d)
            ∗ (esLoc d ↦[sl L]{fullShare} X.es d) ∗ (outLoc d ↦[sl L]{fullShare} outF))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_sc_gather L tabV (Memref.isWhole_whole _) rowV (Memref.isWhole_whole _) colV (Memref.isWhole_whole _) esV (Memref.isWhole_whole _)
            outV (Memref.isWhole_whole _) sTab (Memref.isWhole_whole _) sRow (Memref.isWhole_whole _) sCol (Memref.isWhole_whole _)
            sEs (Memref.isWhole_whole _) sOut (Memref.isWhole_whole _) cc2_scoped0 cc2_scoped1 cc2_scoped2 cc2_scoped3 cc2_scoped4)
          fun _ => iprop(((tabLoc d ↦{X.q (cV L) (jV L)} X.tab d) ∗ (rowLoc d ↦[sl L]{fullShare} X.row d) ∗ (colLoc d ↦[sl L]{fullShare} X.col d)
              ∗ (esLoc d ↦[sl L]{fullShare} X.es d) ∗ (outLoc d ↦[sl L]{fullShare} outVal d (X.tab d) (X.row d) (X.col d) (X.es d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hr : ∀ y, (rowS d L (X.row d) y).toNat ≤ 9999 := rowS_le d L (X.row d) hrow
  have hc : ∀ y, (colS d L (X.col d) y).toNat ≤ 9999 := colS_le d L (X.col d) hcol
  simp only [cc2_sc_gather_eq_skeleton]; unfold cc2_sc_gather_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  unfold kits kit
  iintro ⟨#Hlv, ⟨⟨Hst0, Hat0, #Hr0, Htok0⟩, ⟨Hst1, Hat1, #Hr1, Htok1⟩, ⟨Hst2, Hat2, #Hr2, Htok2⟩, ⟨Hst3, Hat3, #Hr3, Htok3⟩, ⟨Hst4, Hat4, #Hr4, Htok4⟩⟩,
    ⟨Htab, Hrow, Hcol, Hes, Hout⟩, ⟨⟨%f0, Hs0⟩, ⟨%f1, Hs1⟩, ⟨%f2, Hs2⟩, ⟨%f3, Hs3⟩, ⟨%f4, Hs4⟩, Hbufs⟩, ⟨Hsem0, Hsem1, Hsem2, Hsem3, Hsem4, Hsems⟩, HO⟩
  imod ((Rounds.body_intro EK (kRd X) (c0cell d (cV L) (jV L))).trans inv_alloc) $$ [Hsem0 Hst0] with ⟨%κ0, #Hinv0⟩
  · isplitl [Hsem0] <;> iassumption
  imod ((Rounds.body_intro EK (kRd X) (c1cell d (cV L) (jV L))).trans inv_alloc) $$ [Hsem1 Hst1] with ⟨%κ1, #Hinv1⟩
  · isplitl [Hsem1] <;> iassumption
  imod ((Rounds.body_intro EK (kRd X) (c2cell d (cV L) (jV L))).trans inv_alloc) $$ [Hsem2 Hst2] with ⟨%κ2, #Hinv2⟩
  · isplitl [Hsem2] <;> iassumption
  imod ((Rounds.body_intro EK (kRd X) (c3cell d (cV L) (jV L))).trans inv_alloc) $$ [Hsem3 Hst3] with ⟨%κ3, #Hinv3⟩
  · isplitl [Hsem3] <;> iassumption
  imod ((Rounds.body_intro EK (kRd X) (c4cell d (cV L) (jV L))).trans inv_alloc) $$ [Hsem4 Hst4] with ⟨%κ4, #Hinv4⟩
  · isplitl [Hsem4] <;> iassumption
  -- the table fetched whole

  ihave Htab' := (Entails.of_eq (pts_tabV (F := F) d (cV L) (jV L) _ _).symm) $$ Htab
  ihave Hs0' := (Entails.of_eq (pts_sTab (F := F) d (cV L) (jV L) _).symm) $$ Hs0
  iapply (Rounds.wp_copy_pointsTo 𝒱₀ EK (kRd X) (V d (cV L) (jV L)) none (q := X.q (cV L) (jV L)) (fs := X.tab d) (fd := f0) (κ := κ0)
      (kRd_mem₀ X (by rw [cellKind_c0]; rfl)) none N0 rfl (kRd_amount_c0 X d _ _) ?hpay0) $$ [Htab' Hs0' Htok0]
  case hpay0 =>
    rw [kRd_payload_c0 X d (cV L) (jV L), pts_tabV (F := F) d (cV L) (jV L), pts_sTab (F := F) d (cV L) (jV L), lands_sTab d L]
  · isplitr; · iexact Hinv0
    isplitl [Htab']; · iexact Htab'
    isplitl [Hs0']; · iexact Hs0'
    isplitl [Htok0]; · iexact Htok0
    iexact Hr0
  iintro Hcred0
  iapply (Rounds.wp_wait_rest_token 𝒱₀ EK (kRd X) (V d (cV L) (jV L)) none (κ := κ0)
      (wpE_waitDma2_eq 𝒱₀ (V d (cV L) (jV L)) none Set.univ) (Set.mem_univ κ0) none (O := O) (W := W) (R := 0) (m := 0) (T := ∅)
      (by rw [Nat.zero_add, kRd_expect X (by rw [cellKind_c0]; rfl), kRd_amount_c0])) $$ [Hcred0 HO Hat0]
  · isplitr; · iexact Hinv0
    isplitl [Hcred0]; · iexact Hcred0
    isplitl [HO]; · iexact HO
    isplitr; · iapply ((K (F := F)).mayWait_none (SemLoc.dma cc2_scoped0.sem) hO); iexact Hlv
    iexact Hat0
  iintro ⟨HO, Hat0, -, Hpay⟩
  ihave Hp := ((kRd_back X (g := c0cell d (cV L) (jV L)) (by rw [cellKind_c0]; rfl)).trans (Entails.of_eq (kRd_payload_c0 X d _ _))) $$ Hpay
  icases Hp with ⟨Hs0, Htab⟩
  imod (Rounds.cell_close EK (kRd X) (Set.mem_univ κ0) (fun h => h) (R := 0 + 1) (kRd_later X (c0cell d _ _))) $$ [Hat0] with Hsem0
  · isplitr; · iexact Hinv0
    iexact Hat0
  -- the subcore's row words

  ihave Hrow' := (Entails.of_eq (pts_rowSl (F := F) d (cV L) (jV L) L _).symm) $$ Hrow
  ihave Hs1' := (Entails.of_eq (pts_sRow (F := F) d (cV L) (jV L) _).symm) $$ Hs1
  iapply (Rounds.wp_copy_pointsTo 𝒱₀ EK (kRd X) (V d (cV L) (jV L)) none (q := fullShare) (fs := X.row d) (fd := f1) (κ := κ1)
      (kRd_mem₀ X (by rw [cellKind_c1]; rfl)) none N1 rfl (kRd_amount_c1 X d _ _) ?hpay1) $$ [Hrow' Hs1' Htok1]
  case hpay1 =>
    rw [kRd_payload_c1 X d L, pts_rowSl (F := F) d (cV L) (jV L) L, pts_sRow (F := F) d (cV L) (jV L), lands_sRow d L]
  · isplitr; · iexact Hinv1
    isplitl [Hrow']; · iexact Hrow'
    isplitl [Hs1']; · iexact Hs1'
    isplitl [Htok1]; · iexact Htok1
    iexact Hr1
  iintro Hcred1
  iapply (Rounds.wp_wait_rest_token 𝒱₀ EK (kRd X) (V d (cV L) (jV L)) none (κ := κ1)
      (wpE_waitDma2_eq 𝒱₀ (V d (cV L) (jV L)) none Set.univ) (Set.mem_univ κ1) none (O := O) (W := insert (SemLoc.dma cc2_scoped0.sem, none) W) (R := 0) (m := 0) (T := ∅)
      (by rw [Nat.zero_add, kRd_expect X (by rw [cellKind_c1]; rfl), kRd_amount_c1])) $$ [Hcred1 HO Hat1]
  · isplitr; · iexact Hinv1
    isplitl [Hcred1]; · iexact Hcred1
    isplitl [HO]; · iexact HO
    isplitr; · iapply ((K (F := F)).mayWait_none (SemLoc.dma cc2_scoped1.sem) hO); iexact Hlv
    iexact Hat1
  iintro ⟨HO, Hat1, -, Hpay⟩
  ihave Hp := ((kRd_back X (g := c1cell d (cV L) (jV L)) (by rw [cellKind_c1]; rfl)).trans (Entails.of_eq (kRd_payload_c1 X d L))) $$ Hpay
  icases Hp with ⟨Hs1, Hrow⟩
  imod (Rounds.cell_close EK (kRd X) (Set.mem_univ κ1) (fun h => h) (R := 0 + 1) (kRd_later X (c1cell d _ _))) $$ [Hat1] with Hsem1
  · isplitr; · iexact Hinv1
    iexact Hat1
  -- its column words

  ihave Hcol' := (Entails.of_eq (pts_colSl (F := F) d (cV L) (jV L) L _).symm) $$ Hcol
  ihave Hs2' := (Entails.of_eq (pts_sCol (F := F) d (cV L) (jV L) _).symm) $$ Hs2
  iapply (Rounds.wp_copy_pointsTo 𝒱₀ EK (kRd X) (V d (cV L) (jV L)) none (q := fullShare) (fs := X.col d) (fd := f2) (κ := κ2)
      (kRd_mem₀ X (by rw [cellKind_c2]; rfl)) none N2 rfl (kRd_amount_c2 X d _ _) ?hpay2) $$ [Hcol' Hs2' Htok2]
  case hpay2 =>
    rw [kRd_payload_c2 X d L, pts_colSl (F := F) d (cV L) (jV L) L, pts_sCol (F := F) d (cV L) (jV L), lands_sCol d L]
  · isplitr; · iexact Hinv2
    isplitl [Hcol']; · iexact Hcol'
    isplitl [Hs2']; · iexact Hs2'
    isplitl [Htok2]; · iexact Htok2
    iexact Hr2
  iintro Hcred2
  iapply (Rounds.wp_wait_rest_token 𝒱₀ EK (kRd X) (V d (cV L) (jV L)) none (κ := κ2)
      (wpE_waitDma2_eq 𝒱₀ (V d (cV L) (jV L)) none Set.univ) (Set.mem_univ κ2) none (O := O) (W := insert (SemLoc.dma cc2_scoped1.sem, none) (insert (SemLoc.dma cc2_scoped0.sem, none) W)) (R := 0) (m := 0) (T := ∅)
      (by rw [Nat.zero_add, kRd_expect X (by rw [cellKind_c2]; rfl), kRd_amount_c2])) $$ [Hcred2 HO Hat2]
  · isplitr; · iexact Hinv2
    isplitl [Hcred2]; · iexact Hcred2
    isplitl [HO]; · iexact HO
    isplitr; · iapply ((K (F := F)).mayWait_none (SemLoc.dma cc2_scoped2.sem) hO); iexact Hlv
    iexact Hat2
  iintro ⟨HO, Hat2, -, Hpay⟩
  ihave Hp := ((kRd_back X (g := c2cell d (cV L) (jV L)) (by rw [cellKind_c2]; rfl)).trans (Entails.of_eq (kRd_payload_c2 X d L))) $$ Hpay
  icases Hp with ⟨Hs2, Hcol⟩
  imod (Rounds.cell_close EK (kRd X) (Set.mem_univ κ2) (fun h => h) (R := 0 + 1) (kRd_later X (c2cell d _ _))) $$ [Hat2] with Hsem2
  · isplitr; · iexact Hinv2
    iexact Hat2
  -- its edge scores

  ihave Hes' := (Entails.of_eq (pts_esSl (F := F) d (cV L) (jV L) L _).symm) $$ Hes
  ihave Hs3' := (Entails.of_eq (pts_sEs (F := F) d (cV L) (jV L) _).symm) $$ Hs3
  iapply (Rounds.wp_copy_pointsTo 𝒱₀ EK (kRd X) (V d (cV L) (jV L)) none (q := fullShare) (fs := X.es d) (fd := f3) (κ := κ3)
      (kRd_mem₀ X (by rw [cellKind_c3]; rfl)) none N3 rfl (kRd_amount_c3 X d _ _) ?hpay3) $$ [Hes' Hs3' Htok3]
  case hpay3 =>
    rw [kRd_payload_c3 X d L, pts_esSl (F := F) d (cV L) (jV L) L, pts_sEs (F := F) d (cV L) (jV L), lands_sEs d L]
  · isplitr; · iexact Hinv3
    isplitl [Hes']; · iexact Hes'
    isplitl [Hs3']; · iexact Hs3'
    isplitl [Htok3]; · iexact Htok3
    iexact Hr3
  iintro Hcred3
  iapply (Rounds.wp_wait_rest_token 𝒱₀ EK (kRd X) (V d (cV L) (jV L)) none (κ := κ3)
      (wpE_waitDma2_eq 𝒱₀ (V d (cV L) (jV L)) none Set.univ) (Set.mem_univ κ3) none (O := O) (W := insert (SemLoc.dma cc2_scoped2.sem, none) (insert (SemLoc.dma cc2_scoped1.sem, none) (insert (SemLoc.dma cc2_scoped0.sem, none) W))) (R := 0) (m := 0) (T := ∅)
      (by rw [Nat.zero_add, kRd_expect X (by rw [cellKind_c3]; rfl), kRd_amount_c3])) $$ [Hcred3 HO Hat3]
  · isplitr; · iexact Hinv3
    isplitl [Hcred3]; · iexact Hcred3
    isplitl [HO]; · iexact HO
    isplitr; · iapply ((K (F := F)).mayWait_none (SemLoc.dma cc2_scoped3.sem) hO); iexact Hlv
    iexact Hat3
  iintro ⟨HO, Hat3, -, Hpay⟩
  ihave Hp := ((kRd_back X (g := c3cell d (cV L) (jV L)) (by rw [cellKind_c3]; rfl)).trans (Entails.of_eq (kRd_payload_c3 X d L))) $$ Hpay
  icases Hp with ⟨Hs3, Hes⟩
  imod (Rounds.cell_close EK (kRd X) (Set.mem_univ κ3) (fun h => h) (R := 0 + 1) (kRd_later X (c3cell d _ _))) $$ [Hat3] with Hsem3
  · isplitr; · iexact Hinv3
    iexact Hat3
  -- the loop
  ihave Hs4 := (Entails.of_eq (congrArg (fun f => ((V d (cV L) (jV L)).loc cc2_scratch4 ↦{fullShare} f : sProp (𝕄 F))) (acc_zero f4 (valL X d L)).symm)) $$ Hs4
  sl_for (loopInv X d L f4) $$ [Hs0 Hs1 Hs2 Hs3 Hs4]
  case region =>
    intro k _
    unfold loopInv
    iintro ⟨Hs0, Hs1, Hs2, Hs3, Hs4⟩
    simp only [k2_t1_body, Prog.lift, Prog.bind_op, Prog.bind_ret, Prog.pure_eq_ret, Prog.bind_assoc]
    have hv6 : ∀ x, ((sRow).view.readAt (Elt F) (r2 k).toLoadRect (rowS d L (X.row d)) x : BitVec 32).toNat ≤ 9999 := by
      intro x; simp only [View.readAt_apply, Memref.view_whole, View.read_whole]; exact hr _
    have hv8 : ∀ x, ((sCol).view.readAt (Elt F) (r2 k).toLoadRect (colS d L (X.col d)) x : BitVec 32).toNat ≤ 9999 := by
      intro x; simp only [View.readAt_apply, Memref.view_whole, View.read_whole]; exact hc _
    -- sixteen row words, sixteen column words
    ihave Hs1' := (Entails.of_eq (pts_sRow_univ (F := F) d (cV L) (jV L) _).symm) $$ Hs1
    iapply (wp_load 𝒱₀ (V d (cV L) (jV L)) none Set.univ (m := (sRow)) (S := Finset.univ) (Finset.subset_univ _)) $$ Hs1'; iintro Hs1'
    try simp only [Prog.lift, Prog.bind_op, Prog.bind_ret, Prog.pure_eq_ret]
    ihave Hs2' := (Entails.of_eq (pts_sCol_univ (F := F) d (cV L) (jV L) _).symm) $$ Hs2
    iapply (wp_load 𝒱₀ (V d (cV L) (jV L)) none Set.univ (m := (sCol)) (S := Finset.univ) (Finset.subset_univ _)) $$ Hs2'; iintro Hs2'
    try simp only [Prog.lift, Prog.bind_op, Prog.bind_ret, Prog.pure_eq_ret]
    -- twice the row word is inside the table: the table read there
    rw [wp_assume_of _ _ _ _ (chk1_of (F := F) _ hv6)]
    try simp only [Prog.lift, Prog.bind_op, Prog.bind_ret, Prog.pure_eq_ret]
    ihave Hs0' := (Entails.of_eq (pts_sTab_access (F := F) d (cV L) (jV L) _).symm) $$ Hs0
    iapply (SparseCore.wp_vectorLoadIdx 𝒱₀ (V d (cV L) (jV L)) none Set.univ (base := (sTab)) (S := Finset.univ) (q := fullShare) (Finset.subset_univ _)) $$ Hs0'; iintro Hs0'
    try simp only [Memref.read_access_whole, Prog.lift, Prog.bind_op, Prog.bind_ret, Prog.pure_eq_ret]
    -- twice the column word plus one likewise
    rw [wp_assume_of _ _ _ _ (chk2_of (F := F) _ hv8)]
    try simp only [Prog.lift, Prog.bind_op, Prog.bind_ret, Prog.pure_eq_ret]
    iapply (SparseCore.wp_vectorLoadIdx 𝒱₀ (V d (cV L) (jV L)) none Set.univ (base := (sTab)) (S := Finset.univ) (q := fullShare) (Finset.subset_univ _)) $$ Hs0'; iintro Hs0'
    try simp only [Memref.read_access_whole, Prog.lift, Prog.bind_op, Prog.bind_ret, Prog.pure_eq_ret]
    -- the edge scores, the old results, the store of the sums
    ihave Hs3' := (Entails.of_eq (pts_sEs_univ (F := F) d (cV L) (jV L) _).symm) $$ Hs3
    iapply (wp_load 𝒱₀ (V d (cV L) (jV L)) none Set.univ (m := (sEs)) (S := Finset.univ) (Finset.subset_univ _)) $$ Hs3'; iintro Hs3'
    try simp only [Prog.lift, Prog.bind_op, Prog.bind_ret, Prog.pure_eq_ret]
    ihave Hs4' := (Entails.of_eq (pts_sOut_univ (F := F) d (cV L) (jV L) _).symm) $$ Hs4
    iapply (wp_load 𝒱₀ (V d (cV L) (jV L)) none Set.univ (m := (sOut)) (S := Finset.univ) (Finset.subset_univ _)) $$ Hs4'; iintro Hs4'
    try simp only [Prog.lift, Prog.bind_op, Prog.bind_ret, Prog.pure_eq_ret]
    simp only [tab_read_whole (F := F) d L]
    ihave Hs4a := (Entails.of_eq ((pts_sOut_univ (F := F) d (cV L) (jV L) _).trans (pts_sOut_access (F := F) d (cV L) (jV L) (r3 k) _).symm)) $$ Hs4'
    iapply (wp_store 𝒱₀ (V d (cV L) (jV L)) none Set.univ (m := (sOut)) (r := r3 k) (Mk := Finset.univ) (S := Finset.univ) (Finset.subset_univ _)) $$ Hs4a; iintro Hs4a
    try simp only [Prog.lift, Prog.bind_op, Prog.bind_ret, Prog.pure_eq_ret]
    ihave Hs0 := (Entails.of_eq (pts_sTab_access (F := F) d (cV L) (jV L) _)) $$ Hs0'
    ihave Hs1 := (Entails.of_eq (pts_sRow_univ (F := F) d (cV L) (jV L) _)) $$ Hs1'
    ihave Hs2 := (Entails.of_eq (pts_sCol_univ (F := F) d (cV L) (jV L) _)) $$ Hs2'
    ihave Hs3 := (Entails.of_eq (pts_sEs_univ (F := F) d (cV L) (jV L) _)) $$ Hs3'
    rw [wp_ret]; imodintro
    isplitl [Hs0]; · iexact Hs0
    isplitl [Hs1]; · iexact Hs1
    isplitl [Hs2]; · iexact Hs2
    isplitl [Hs3]; · iexact Hs3
    iapply (Entails.of_eq (store_step (F := F) d L k f4 (valL X d L) _ ?hw)) $$ Hs4a
    case hw =>
      exact fun x => lane_val k (tabS d (X.tab d)) (rowS d L (X.row d)) (colS d L (X.col d)) (esS d L (X.es d)) hr hc _ _ x
  · unfold loopInv
    isplitl [Hs0]; · iexact Hs0
    isplitl [Hs1]; · iexact Hs1
    isplitl [Hs2]; · iexact Hs2
    isplitl [Hs3]; · iexact Hs3
    iexact Hs4
  iintro %_ HI
  unfold loopInv
  icases HI with ⟨Hs0, Hs1, Hs2, Hs3, Hs4⟩
  ihave Hs4 := (Entails.of_eq (loop_end (F := F) d L f4 (valL X d L))) $$ Hs4
  -- the write-out: the result scratch read, the subcore's slice of the result written

  ihave Hs4' := (Entails.of_eq (pts_sOut (F := F) d (cV L) (jV L) _).symm) $$ Hs4
  ihave Hout' := (Entails.of_eq (pts_outSl (F := F) d (cV L) (jV L) L _).symm) $$ Hout
  iapply (Rounds.wp_copy_pointsTo 𝒱₀ EK (kRd X) (V d (cV L) (jV L)) none (q := fullShare) (fs := valL X d L) (fd := outF) (κ := κ4)
      (kRd_mem₀ X (by rw [cellKind_c4]; rfl)) none N4 rfl (kRd_amount_c4 X d _ _) ?hpay4) $$ [Hs4' Hout' Htok4]
  case hpay4 =>
    rw [kRd_payload_c4 X d L, pts_sOut (F := F) d (cV L) (jV L), pts_outSl (F := F) d (cV L) (jV L) L,
      pointsTo_congr (out_final d L (X.tab d) (X.row d) (X.col d) (X.es d) outF)]
    iintro ⟨Ho, Hc⟩
    isplitl [Ho]; · iexact Ho
    iexists _; iexact Hc
  · isplitr; · iexact Hinv4
    isplitl [Hs4']; · iexact Hs4'
    isplitl [Hout']; · iexact Hout'
    isplitl [Htok4]; · iexact Htok4
    iexact Hr4
  iintro Hcred4
  iapply (Rounds.wp_wait_rest_token 𝒱₀ EK (kRd X) (V d (cV L) (jV L)) none (κ := κ4)
      (wpE_waitDma2_eq 𝒱₀ (V d (cV L) (jV L)) none Set.univ) (Set.mem_univ κ4) none (O := O) (W := insert (SemLoc.dma cc2_scoped3.sem, none) (insert (SemLoc.dma cc2_scoped2.sem, none) (insert (SemLoc.dma cc2_scoped1.sem, none) (insert (SemLoc.dma cc2_scoped0.sem, none) W)))) (R := 0) (m := 0) (T := ∅)
      (by rw [Nat.zero_add, kRd_expect X (by rw [cellKind_c4]; rfl), kRd_amount_c4])) $$ [Hcred4 HO Hat4]
  · isplitr; · iexact Hinv4
    isplitl [Hcred4]; · iexact Hcred4
    isplitl [HO]; · iexact HO
    isplitr; · iapply ((K (F := F)).mayWait_none (SemLoc.dma cc2_scoped4.sem) hO); iexact Hlv
    iexact Hat4
  iintro ⟨HO, Hat4, -, Hpay⟩
  ihave Hp := ((kRd_back X (g := c4cell d (cV L) (jV L)) (by rw [cellKind_c4]; rfl)).trans (Entails.of_eq (kRd_payload_c4 X d L))) $$ Hpay
  icases Hp with ⟨Hout, ⟨%f4', Hs4⟩⟩
  imod (Rounds.cell_close EK (kRd X) (Set.mem_univ κ4) (fun h => h) (R := 0 + 1) (kRd_later X (c4cell d _ _))) $$ [Hat4] with Hsem4
  · isplitr; · iexact Hinv4
    iexact Hat4
  rw [wp_ret]; imodintro
  isplitl [Htab Hrow Hcol Hes Hout]
  · isplitl [Htab]; · iexact Htab
    isplitl [Hrow]; · iexact Hrow
    isplitl [Hcol]; · iexact Hcol
    isplitl [Hes]; · iexact Hes
    iexact Hout
  isplitl [Hs0 Hs1 Hs2 Hs3 Hs4 Hbufs]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    iexact Hbufs
  isplitl [Hsem0 Hsem1 Hsem2 Hsem3 Hsem4 Hsems]
  · isplitl [Hsem0]; · iexact Hsem0
    isplitl [Hsem1]; · iexact Hsem1
    isplitl [Hsem2]; · iexact Hsem2
    isplitl [Hsem3]; · iexact Hsem3
    isplitl [Hsem4]; · iexact Hsem4
    iexact Hsems
  iexists (insert (SemLoc.dma cc2_scoped4.sem, none) (insert (SemLoc.dma cc2_scoped3.sem, none) (insert (SemLoc.dma cc2_scoped2.sem, none) (insert (SemLoc.dma cc2_scoped1.sem, none) (insert (SemLoc.dma cc2_scoped0.sem, none) W))))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

end Cert.KernelIdeal.Tile

end
-- ==== Proof.Spec.lean ====
/-
  The result both programs are compared with, one entry at a time, over the extended reals.

  An edge `j` joins node `row j` to node `col j` (the two rows of the edge list). The score of the edge is the
  inner product of the 768 weights with the three feature rows laid end to end: the source node's 256 features against
  weights 0-255, the target node's against weights 256-511, the edge's own against weights 512-767, plus the bias.
  It is written here grouped as (source part + target part) + (edge part + bias): a sum of 768 products split into
  three runs of 256 and re-bracketed, which on the extended reals uses only that addition is associative.
-/
import Idealize.ShloMosaic.PureOps.Ideal
import Idealize.ShloMosaic.Lib.ValueIdx

noncomputable section

open scoped BigOperators

namespace Cert.Spec

open Idealize.ShloMosaic Idealize.ShloMosaic.ValueIdx

/-- The node an index word names: the word read as a natural number, capped at the last node. -/
def node (w : BitVec 32) : Fin 10000 := ⟨min w.toNat 9999, by omega⟩

/-- Every entry of the edge list names a node. -/
def InRange (ei : IVec ⟨2, ![2, 160000]⟩ 32) : Prop := ∀ i, (ei i).toNat ≤ 9999

/-- A word in range names the node it spells. -/
theorem node_val {w : BitVec 32} (h : w.toNat ≤ 9999) : (node w).val = w.toNat := by
  show min w.toNat 9999 = w.toNat; omega

/-- One run of 256 weights, starting at weight `o`, against a row of 256 features. -/
def part (W : FVec Ideal ⟨2, ![768, 1]⟩ .f32) (o : Nat) (ho : o + 256 ≤ 768) (v : Fin 256 → EReal) : EReal :=
  ∑ k : Fin 256, v k * W (ix2 (⟨o + k.val, by omega⟩ : Fin 768) (0 : Fin 1))

/-- The source node's part of edge `j`'s score. -/
def src (x : FVec Ideal ⟨2, ![10000, 256]⟩ .f32) (ei : IVec ⟨2, ![2, 160000]⟩ 32) (W : FVec Ideal ⟨2, ![768, 1]⟩ .f32) (j : Fin 160000) : EReal :=
  part W 0 (by omega) fun k => x (ix2 (node (ei (ix2 (0 : Fin 2) j))) k)

/-- The target node's part. -/
def tgt (x : FVec Ideal ⟨2, ![10000, 256]⟩ .f32) (ei : IVec ⟨2, ![2, 160000]⟩ 32) (W : FVec Ideal ⟨2, ![768, 1]⟩ .f32) (j : Fin 160000) : EReal :=
  part W 256 (by omega) fun k => x (ix2 (node (ei (ix2 (1 : Fin 2) j))) k)

/-- The edge's own part, with the bias. -/
def own (ee : FVec Ideal ⟨2, ![160000, 256]⟩ .f32) (W : FVec Ideal ⟨2, ![768, 1]⟩ .f32) (b : FVec Ideal ⟨1, ![1]⟩ .f32) (j : Fin 160000) : EReal :=
  part W 512 (by omega) (fun k => ee (ix2 j k)) + b (ix1 (0 : Fin 1))

/-- The score of edge `j`. -/
def score (x : FVec Ideal ⟨2, ![10000, 256]⟩ .f32) (ee : FVec Ideal ⟨2, ![160000, 256]⟩ .f32) (ei : IVec ⟨2, ![2, 160000]⟩ 32)
    (W : FVec Ideal ⟨2, ![768, 1]⟩ .f32) (b : FVec Ideal ⟨1, ![1]⟩ .f32) (j : Fin 160000) : EReal :=
  (src x ei W j + tgt x ei W j) + own ee W b j

/-- All the scores, as one array. -/
def scores (x : FVec Ideal ⟨2, ![10000, 256]⟩ .f32) (ee : FVec Ideal ⟨2, ![160000, 256]⟩ .f32) (ei : IVec ⟨2, ![2, 160000]⟩ 32)
    (W : FVec Ideal ⟨2, ![768, 1]⟩ .f32) (b : FVec Ideal ⟨1, ![1]⟩ .f32) : FVec Ideal ⟨1, ![160000]⟩ .f32 :=
  fun i => score x ee ei W b (i 0)

end Cert.Spec

end
-- ==== Proof.KernelValueI.lean ====
/-
  The kernel's host program, read entry by entry.

  The TensorCore's arrays go through four stretches of plain operations with three calls between them. Read at an
  entry, each stretch is a re-indexing: the edge list's two rows flattened, the weight column cut into three runs of
  256 (the first two side by side), the node scores flattened two to a node, the edge features viewed as four stacks,
  the four stacks of edge scores laid end to end and padded, the two rows padded with zero words, and at the end the
  first 160000 entries of the result kept. No operation and no call writes an argument array. With the two products
  stated as sums, the kept entry j is (node score of the source, first column + node score of the target, second
  column) + (edge score of j), which is the score of edge j.
-/
import proofs.«207961_g9620726743389_cont_9to1c4b_395_8_alg».proof.Proof.ValsI
import proofs.«207961_g9620726743389_cont_9to1c4b_395_8_alg».proof.Proof.TileVal
import proofs.«207961_g9620726743389_cont_9to1c4b_395_8_alg».proof.Proof.Spec
import Idealize.ShloMosaic.Lib.Pipeline.Value
import Idealize.ShloMosaic.Lib.ValueLayout
import Idealize.ShloMosaic.Lib.IdealHost

noncomputable section

open scoped BigOperators

namespace Cert.KernelIdeal.Value

open Cert.KernelIdeal Cert.KernelIdeal.Gen Cert.KernelIdeal.Common Cert.KernelIdeal.MainShape Cert.KernelIdeal.Host
open Cert.KernelIdeal.Vals Cert.KernelIdeal.Tile
open Idealize.ShloMosaic Idealize.ShloMosaic.TcCoe Idealize.ShloMosaic.StableHlo Idealize.ShloMosaic.ValueIdx

variable {F : FTy → Type} [FloatOps F]

/-! ## What each stretch leaves alone -/

theorem ops1_arg0 (V : Valuation τ sig (Elt F)) : after (ops1 (F := F)) V (r main_arg0) = V (r main_arg0) := by after_results_simp
theorem ops1_arg1 (V : Valuation τ sig (Elt F)) : after (ops1 (F := F)) V (r main_arg1) = V (r main_arg1) := by after_results_simp
theorem ops1_arg2 (V : Valuation τ sig (Elt F)) : after (ops1 (F := F)) V (r main_arg2) = V (r main_arg2) := by after_results_simp
theorem ops1_arg3 (V : Valuation τ sig (Elt F)) : after (ops1 (F := F)) V (r main_arg3) = V (r main_arg3) := by after_results_simp
theorem ops1_arg4 (V : Valuation τ sig (Elt F)) : after (ops1 (F := F)) V (r main_arg4) = V (r main_arg4) := by after_results_simp
theorem ops2_arg0 (V : Valuation τ sig (Elt F)) : after (ops2 (F := F)) V (r main_arg0) = V (r main_arg0) := by after_results_simp
theorem ops2_arg1 (V : Valuation τ sig (Elt F)) : after (ops2 (F := F)) V (r main_arg1) = V (r main_arg1) := by after_results_simp
theorem ops2_arg2 (V : Valuation τ sig (Elt F)) : after (ops2 (F := F)) V (r main_arg2) = V (r main_arg2) := by after_results_simp
theorem ops2_arg3 (V : Valuation τ sig (Elt F)) : after (ops2 (F := F)) V (r main_arg3) = V (r main_arg3) := by after_results_simp
theorem ops2_arg4 (V : Valuation τ sig (Elt F)) : after (ops2 (F := F)) V (r main_arg4) = V (r main_arg4) := by after_results_simp
theorem ops3_arg0 (V : Valuation τ sig (Elt F)) : after (ops3 (F := F)) V (r main_arg0) = V (r main_arg0) := by after_results_simp
theorem ops3_arg1 (V : Valuation τ sig (Elt F)) : after (ops3 (F := F)) V (r main_arg1) = V (r main_arg1) := by after_results_simp
theorem ops3_arg2 (V : Valuation τ sig (Elt F)) : after (ops3 (F := F)) V (r main_arg2) = V (r main_arg2) := by after_results_simp
theorem ops3_arg3 (V : Valuation τ sig (Elt F)) : after (ops3 (F := F)) V (r main_arg3) = V (r main_arg3) := by after_results_simp
theorem ops3_arg4 (V : Valuation τ sig (Elt F)) : after (ops3 (F := F)) V (r main_arg4) = V (r main_arg4) := by after_results_simp
theorem ops4_arg0 (V : Valuation τ sig (Elt F)) : after (ops4 (F := F)) V (r main_arg0) = V (r main_arg0) := by after_results_simp
theorem ops4_arg1 (V : Valuation τ sig (Elt F)) : after (ops4 (F := F)) V (r main_arg1) = V (r main_arg1) := by after_results_simp
theorem ops4_arg2 (V : Valuation τ sig (Elt F)) : after (ops4 (F := F)) V (r main_arg2) = V (r main_arg2) := by after_results_simp
theorem ops4_arg3 (V : Valuation τ sig (Elt F)) : after (ops4 (F := F)) V (r main_arg3) = V (r main_arg3) := by after_results_simp
theorem ops4_arg4 (V : Valuation τ sig (Elt F)) : after (ops4 (F := F)) V (r main_arg4) = V (r main_arg4) := by after_results_simp
theorem ops2_v1 (V : Valuation τ sig (Elt F)) : after (ops2 (F := F)) V (r main_v1) = V (r main_v1) := by after_results_simp
theorem ops2_v3 (V : Valuation τ sig (Elt F)) : after (ops2 (F := F)) V (r main_v3) = V (r main_v3) := by after_results_simp
theorem ops2_v7 (V : Valuation τ sig (Elt F)) : after (ops2 (F := F)) V (r main_v7) = V (r main_v7) := by after_results_simp
theorem ops2_v8 (V : Valuation τ sig (Elt F)) : after (ops2 (F := F)) V (r main_v8) = V (r main_v8) := by after_results_simp
theorem ops3_v10 (V : Valuation τ sig (Elt F)) : after (ops3 (F := F)) V (r main_v10) = V (r main_v10) := by after_results_simp

variable (R : RegVals F) (m : (ℓ : Loc nD τ sig) → Buf (Elt F) ℓ) (d : Dev nD)

/-- The first call writes the node scores only. -/
theorem V2_of_ne {b : Ref sig .tc} (h : b ≠ main_v9) : V2 R m d (r b) = V1 m d (r b) := by
  unfold V2; exact Function.update_of_ne (devRef_ne_of_ne h) _ _

/-- The second call writes the four stacks of edge scores only. -/
theorem V4_of_ne {b : Ref sig .tc} (h0 : b ≠ main_v12_0) (h1 : b ≠ main_v12_1) (h2 : b ≠ main_v12_2) (h3 : b ≠ main_v12_3) :
    V4 R m d (r b) = V3 R m d (r b) := by
  unfold V4
  rw [Function.update_of_ne (devRef_ne_of_ne h3), Function.update_of_ne (devRef_ne_of_ne h2),
    Function.update_of_ne (devRef_ne_of_ne h1), Function.update_of_ne (devRef_ne_of_ne h0)]

/-- The kernel on the vector subcores writes its result only. -/
theorem V6_of_ne {b : Ref sig .tc} (h : b ≠ main_v22) : V6 R m d (r b) = V5 R m d (r b) := by
  unfold V6; exact Function.update_of_ne (devRef_ne_of_ne h) _ _

/-! ## The arguments at the end -/

theorem V7_arg0 : V7 R m d (r main_arg0) = m (d, r main_arg0) := by
  unfold V7; rw [ops4_arg0, V6_of_ne R m d (by decide)]
  unfold V5; rw [ops3_arg0, V4_of_ne R m d (by decide) (by decide) (by decide) (by decide)]
  unfold V3; rw [ops2_arg0, V2_of_ne R m d (by decide)]
  unfold V1; rw [ops1_arg0]; rfl
theorem V7_arg1 : V7 R m d (r main_arg1) = m (d, r main_arg1) := by
  unfold V7; rw [ops4_arg1, V6_of_ne R m d (by decide)]
  unfold V5; rw [ops3_arg1, V4_of_ne R m d (by decide) (by decide) (by decide) (by decide)]
  unfold V3; rw [ops2_arg1, V2_of_ne R m d (by decide)]
  unfold V1; rw [ops1_arg1]; rfl
theorem V7_arg2 : V7 R m d (r main_arg2) = m (d, r main_arg2) := by
  unfold V7; rw [ops4_arg2, V6_of_ne R m d (by decide)]
  unfold V5; rw [ops3_arg2, V4_of_ne R m d (by decide) (by decide) (by decide) (by decide)]
  unfold V3; rw [ops2_arg2, V2_of_ne R m d (by decide)]
  unfold V1; rw [ops1_arg2]; rfl
theorem V7_arg3 : V7 R m d (r main_arg3) = m (d, r main_arg3) := by
  unfold V7; rw [ops4_arg3, V6_of_ne R m d (by decide)]
  unfold V5; rw [ops3_arg3, V4_of_ne R m d (by decide) (by decide) (by decide) (by decide)]
  unfold V3; rw [ops2_arg3, V2_of_ne R m d (by decide)]
  unfold V1; rw [ops1_arg3]; rfl
theorem V7_arg4 : V7 R m d (r main_arg4) = m (d, r main_arg4) := by
  unfold V7; rw [ops4_arg4, V6_of_ne R m d (by decide)]
  unfold V5; rw [ops3_arg4, V4_of_ne R m d (by decide) (by decide) (by decide) (by decide)]
  unfold V3; rw [ops2_arg4, V2_of_ne R m d (by decide)]
  unfold V1; rw [ops1_arg4]; rfl

/-! ## The edge list's rows -/

section Rows
variable (V : Valuation τ sig (Elt F))

/-- The first stretch's flattened row 0 of the edge list, -/
theorem ops1_v1 (j : Fin 160000) :
    (after (ops1 (F := F)) V (r main_v1) : IVec S160000 32) (ix1 j) = (V (r main_arg2) : IVec S2x160000 32) (ix2 (0 : Fin 2) j) := by
  after_results_simp
  refine (shapeCast_apply _ _ (ix1 j) (ix2 (0 : Fin 1) j) ?_).trans (slice2_axis0_apply 0 _ _ (0 : Fin 1) j (0 : Fin 2) rfl)
  rw [Shape.rowMajor_val_two, Shape.rowMajor_val_one]
  show 0 * 160000 + j.val = j.val
  omega

/-- and row 1. -/
theorem ops1_v3 (j : Fin 160000) :
    (after (ops1 (F := F)) V (r main_v3) : IVec S160000 32) (ix1 j) = (V (r main_arg2) : IVec S2x160000 32) (ix2 (1 : Fin 2) j) := by
  after_results_simp
  refine (shapeCast_apply _ _ (ix1 j) (ix2 (0 : Fin 1) j) ?_).trans (slice2_axis0_apply 1 _ _ (0 : Fin 1) j (1 : Fin 2) rfl)
  rw [Shape.rowMajor_val_two, Shape.rowMajor_val_one]
  show 0 * 160000 + j.val = j.val
  omega

/-- A flattened row padded with 1280 zero words: the row on the first 160000 entries, -/
theorem pad_lo (a : IVec S160000 32) (z : IVec S1280 32) (j : Fin 161280) (h : j.val < 160000) :
    concatenate S161280 0 [⟨S160000, a⟩, ⟨S1280, z⟩] concatenates_S160000_S1280_S161280_d0 (ix1 j) = a (ix1 ⟨j.val, h⟩) := by
  refine concatenate_pair_apply_left (t := S161280) (s₁ := S160000) (s₂ := S1280) 0 _ _ _ _ rfl (ix1 ⟨j.val, h⟩) fun b => ?_
  match b with
  | ⟨0, _⟩ => rfl

/-- the padding on the rest. -/
theorem pad_hi (a : IVec S160000 32) (z : IVec S1280 32) (j : Fin 161280) (h : ¬ j.val < 160000) :
    concatenate S161280 0 [⟨S160000, a⟩, ⟨S1280, z⟩] concatenates_S160000_S1280_S161280_d0 (ix1 j)
      = z (ix1 ⟨j.val - 160000, by have := j.isLt; omega⟩) := by
  refine concatenate_pair_apply_right (t := S161280) (s₁ := S160000) (s₂ := S1280) 0 _ _ _ _ rfl rfl
    (ix1 ⟨j.val - 160000, by have := j.isLt; omega⟩) (fun b hb => ?_) ?_
  · match b with
    | ⟨0, _⟩ => exact absurd rfl hb
  · show j.val - 160000 + 160000 = j.val
    omega

/-- The third stretch's padded row 0: the flattened row, then zero words. -/
theorem ops3_v20 (j : Fin 161280) :
    (after (ops3 (F := F)) V (r main_v20) : IVec S161280 32) (ix1 j)
      = if h : j.val < 160000 then (V (r main_v1) : IVec S160000 32) (ix1 ⟨j.val, h⟩) else 0#32 := by
  after_results_simp
  split
  · rename_i h; exact pad_lo _ _ j h
  · rename_i h; exact (pad_hi _ _ j h).trans (broadcastInDim_scalar_apply _ _ _)

/-- The padded row 1. -/
theorem ops3_v21 (j : Fin 161280) :
    (after (ops3 (F := F)) V (r main_v21) : IVec S161280 32) (ix1 j)
      = if h : j.val < 160000 then (V (r main_v3) : IVec S160000 32) (ix1 ⟨j.val, h⟩) else 0#32 := by
  after_results_simp
  split
  · rename_i h; exact pad_lo _ _ j h
  · rename_i h; exact (pad_hi _ _ j h).trans (broadcastInDim_scalar_apply _ _ _)

end Rows

/-- Row 0 as the vector subcores see it: the edge list's row 0 on the first 160000 entries, zero words after. -/
theorem row_eq (j : Fin 161280) :
    ((Xof R m).row d (ix1 j) : BitVec 32)
      = if h : j.val < 160000 then (m (d, r main_arg2) : IVec S2x160000 32) (ix2 (0 : Fin 2) ⟨j.val, h⟩) else 0#32 := by
  show (V5 R m d (r main_v20) : IVec S161280 32) (ix1 j) = _
  unfold V5; rw [ops3_v20]
  split
  · rw [V4_of_ne R m d (by decide) (by decide) (by decide) (by decide)]
    unfold V3; rw [ops2_v1, V2_of_ne R m d (by decide)]
    unfold V1; rw [ops1_v1]; rfl
  · rfl

/-- Row 1 likewise. -/
theorem col_eq (j : Fin 161280) :
    ((Xof R m).col d (ix1 j) : BitVec 32)
      = if h : j.val < 160000 then (m (d, r main_arg2) : IVec S2x160000 32) (ix2 (1 : Fin 2) ⟨j.val, h⟩) else 0#32 := by
  show (V5 R m d (r main_v21) : IVec S161280 32) (ix1 j) = _
  unfold V5; rw [ops3_v21]
  split
  · rw [V4_of_ne R m d (by decide) (by decide) (by decide) (by decide)]
    unfold V3; rw [ops2_v3, V2_of_ne R m d (by decide)]
    unfold V1; rw [ops1_v3]; rfl
  · rfl

theorem row_le (h : Cert.Spec.InRange (m (d, r main_arg2))) : ∀ j, ((Xof R m).row d j : BitVec 32).toNat ≤ 9999 := by
  intro j
  obtain ⟨j, rfl⟩ : ∃ j' : Fin 161280, j = ix1 j' := ⟨j 0, eq_ix1 j⟩
  rw [row_eq]
  split
  · exact h _
  · show (0#32 : BitVec 32).toNat ≤ 9999; decide

theorem col_le (h : Cert.Spec.InRange (m (d, r main_arg2))) : ∀ j, ((Xof R m).col d j : BitVec 32).toNat ≤ 9999 := by
  intro j
  obtain ⟨j, rfl⟩ : ∃ j' : Fin 161280, j = ix1 j' := ⟨j 0, eq_ix1 j⟩
  rw [col_eq]
  split
  · exact h _
  · show (0#32 : BitVec 32).toNat ≤ 9999; decide

/-! ## The weights, the bias, the node table, the stacks, read at an entry -/

section Reads
variable (V : Valuation τ sig (Elt F))

/-- The weights' first two runs of 256 side by side: column q is the run starting at 256 q. -/
theorem ops1_v6 (k : Fin 256) (q : Fin 2) :
    (after (ops1 (F := F)) V (r main_v6) : FVec F S256x2 .f32) (ix2 k q)
      = (V (r main_arg3) : FVec F S768x1 .f32) (ix2 (⟨256 * q.val + k.val, by omega⟩ : Fin 768) (0 : Fin 1)) := by
  have e : (after (ops1 (F := F)) V (r main_v6) : FVec F S256x2 .f32)
      = concatenate S256x2 1
          [⟨S256x1, extractStridedSlice S256x1 ![0, 0] (V (r main_arg3) : FVec F S768x1 .f32) slices_S768x1_S256x1_0_0⟩,
           ⟨S256x1, extractStridedSlice S256x1 ![256, 0] (V (r main_arg3) : FVec F S768x1 .f32) slices_S768x1_S256x1_256_0⟩]
          concatenates_S256x1_S256x1_S256x2_d1 := by
    after_results_simp
    rfl
  rw [e]
  match q with
  | ⟨0, _⟩ =>
    refine (concatenate_pair_apply_left (t := S256x2) (s₁ := S256x1) (s₂ := S256x1) 1 _ _ _ _ rfl (ix2 k (0 : Fin 1)) fun b => ?_).trans ?_
    · match b with
      | ⟨0, _⟩ => rfl
      | ⟨1, _⟩ => rfl
    · exact slice2_axis0_apply 0 _ _ k (0 : Fin 1) _ (by show 256 * 0 + k.val = 0 + k.val; omega)
  | ⟨1, _⟩ =>
    refine (concatenate_pair_apply_right (t := S256x2) (s₁ := S256x1) (s₂ := S256x1) 1 _ _ _ _ rfl rfl (ix2 k (0 : Fin 1))
      (fun b hb => ?_) ?_).trans ?_
    · match b with
      | ⟨0, _⟩ => rfl
      | ⟨1, _⟩ => exact absurd rfl hb
    · rfl
    · exact slice2_axis0_apply 256 _ _ k (0 : Fin 1) _ (by show 256 * 1 + k.val = 256 + k.val; omega)

/-- The weights' third run. -/
theorem ops1_v7 (k : Fin 256) :
    (after (ops1 (F := F)) V (r main_v7) : FVec F S256x1 .f32) (ix2 k (0 : Fin 1))
      = (V (r main_arg3) : FVec F S768x1 .f32) (ix2 (⟨512 + k.val, by omega⟩ : Fin 768) (0 : Fin 1)) := by
  after_results_simp
  exact slice2_axis0_apply 512 _ _ k (0 : Fin 1) _ rfl

/-- The bias as a 1 x 1 matrix. -/
theorem ops1_v8 :
    (after (ops1 (F := F)) V (r main_v8) : FVec F S1x1 .f32) (ix2 (0 : Fin 1) (0 : Fin 1))
      = (V (r main_arg4) : FVec F S1 .f32) (ix1 (0 : Fin 1)) := by
  after_results_simp
  refine shapeCast_apply _ _ (ix2 (0 : Fin 1) (0 : Fin 1)) (ix1 (0 : Fin 1)) ?_
  rw [Shape.rowMajor_val_two, Shape.rowMajor_val_one]
  rfl

/-- The node scores flattened: entry 2 p + q is node p's column q. -/
theorem ops2_v10 (p : Fin 10000) (q : Fin 2) :
    (after (ops2 (F := F)) V (r main_v10) : FVec F S20000 .f32) (ix1 (⟨2 * p.val + q.val, by omega⟩ : Fin 20000))
      = (V (r main_v9) : FVec F S10000x2 .f32) (ix2 p q) := by
  after_results_simp
  refine shapeCast_apply _ _ (ix1 (⟨2 * p.val + q.val, by omega⟩ : Fin 20000)) (ix2 p q) ?_
  rw [Shape.rowMajor_val_two, Shape.rowMajor_val_one]
  show p.val * 2 + q.val = 2 * p.val + q.val
  omega

/-- The edge features as four stacks: stack s, row p is edge 40000 s + p. -/
theorem ops2_v11 (s : Fin 4) (p : Fin 40000) (k : Fin 256) :
    (after (ops2 (F := F)) V (r main_v11) : FVec F S4x40000x256 .f32) (ix3 s p k)
      = (V (r main_arg1) : FVec F S160000x256 .f32) (ix2 (⟨40000 * s.val + p.val, by omega⟩ : Fin 160000) k) := by
  after_results_simp
  refine shapeCast_apply _ _ (ix3 s p k) (ix2 (⟨40000 * s.val + p.val, by omega⟩ : Fin 160000) k) ?_
  rw [Shape.rowMajor_val_two, Shape.rowMajor_val_three]
  show (40000 * s.val + p.val) * 256 + k.val = (s.val * 40000 + p.val) * 256 + k.val
  omega

/-- The four stacks of edge scores flattened, laid end to end and padded. -/
theorem ops3_v18_eq :
    (after (ops3 (F := F)) V (r main_v18) : FVec F S161280 .f32)
      = concatenate S161280 0
          [⟨S40000, shapeCast S40000 (V (r main_v12_0) : FVec F S40000x1 .f32) shapeCasts_S40000x1_S40000⟩,
           ⟨S40000, shapeCast S40000 (V (r main_v12_1) : FVec F S40000x1 .f32) shapeCasts_S40000x1_S40000⟩,
           ⟨S40000, shapeCast S40000 (V (r main_v12_2) : FVec F S40000x1 .f32) shapeCasts_S40000x1_S40000⟩,
           ⟨S40000, shapeCast S40000 (V (r main_v12_3) : FVec F S40000x1 .f32) shapeCasts_S40000x1_S40000⟩,
           ⟨S1280, broadcastInDim S1280 ![] bcast_S_S1280 (constant (F := F) S_ .f32 0x00000000#32)⟩]
          concatenates_S40000_S40000_S40000_S40000_S1280_S161280_d0 := by
  after_results_simp
  rfl

/-- A flattened stack at p is the stack's one column at row p. -/
theorem flat_apply (a : FVec F S40000x1 .f32) (p : Fin 40000) :
    shapeCast S40000 a shapeCasts_S40000x1_S40000 (ix1 p) = a (ix2 p (0 : Fin 1)) := by
  refine shapeCast_apply _ _ (ix1 p) (ix2 p (0 : Fin 1)) ?_
  rw [Shape.rowMajor_val_two, Shape.rowMajor_val_one]
  show p.val * 1 + 0 = p.val
  omega

set_option maxRecDepth 4096 in
/-- Entry 40000 s + p of the laid-out edge scores is stack s at row p. -/
theorem ops3_v18 (s : Fin 4) (p : Fin 40000) (a0 a1 a2 a3 : FVec F S40000x1 .f32) (z : FVec F S1280 .f32) :
    concatenate S161280 0
        [⟨S40000, shapeCast S40000 a0 shapeCasts_S40000x1_S40000⟩, ⟨S40000, shapeCast S40000 a1 shapeCasts_S40000x1_S40000⟩,
         ⟨S40000, shapeCast S40000 a2 shapeCasts_S40000x1_S40000⟩, ⟨S40000, shapeCast S40000 a3 shapeCasts_S40000x1_S40000⟩,
         ⟨S1280, z⟩]
        concatenates_S40000_S40000_S40000_S40000_S1280_S161280_d0 (ix1 (⟨40000 * s.val + p.val, by omega⟩ : Fin 161280))
      = (![a0, a1, a2, a3] s) (ix2 p (0 : Fin 1)) := by
  match s with
  | ⟨0, _⟩ =>
    refine (concatenate_apply_piece (t := S161280) 0 _ _ _ 0 (by show (0 : ℕ) < 5; omega) S40000 _ rfl rfl 0 rfl (ix1 p) (fun b hb => ?_) ?_).trans (flat_apply a0 p)
    · match b with
      | ⟨0, _⟩ => exact absurd rfl hb
    · show 0 + p.val = 40000 * 0 + p.val; omega
  | ⟨1, _⟩ =>
    refine (concatenate_apply_piece (t := S161280) 0 _ _ _ 1 (by show (1 : ℕ) < 5; omega) S40000 _ rfl rfl 40000
      (by show (([S40000] : List Shape).map fun s => if h : s.rank = S161280.rank then s.size ((0 : Fin S161280.rank).cast h.symm) else 0).sum = 40000; rfl) (ix1 p) (fun b hb => ?_) ?_).trans (flat_apply a1 p)
    · match b with
      | ⟨0, _⟩ => exact absurd rfl hb
    · show 40000 + p.val = 40000 * 1 + p.val; omega
  | ⟨2, _⟩ =>
    refine (concatenate_apply_piece (t := S161280) 0 _ _ _ 2 (by show (2 : ℕ) < 5; omega) S40000 _ rfl rfl 80000
      (by show (([S40000, S40000] : List Shape).map fun s => if h : s.rank = S161280.rank then s.size ((0 : Fin S161280.rank).cast h.symm) else 0).sum = 80000; rfl) (ix1 p) (fun b hb => ?_) ?_).trans (flat_apply a2 p)
    · match b with
      | ⟨0, _⟩ => exact absurd rfl hb
    · show 80000 + p.val = 40000 * 2 + p.val; omega
  | ⟨3, _⟩ =>
    refine (concatenate_apply_piece (t := S161280) 0 _ _ _ 3 (by show (3 : ℕ) < 5; omega) S40000 _ rfl rfl 120000
      (by show (([S40000, S40000, S40000] : List Shape).map fun s => if h : s.rank = S161280.rank then s.size ((0 : Fin S161280.rank).cast h.symm) else 0).sum = 120000; rfl) (ix1 p) (fun b hb => ?_) ?_).trans (flat_apply a3 p)
    · match b with
      | ⟨0, _⟩ => exact absurd rfl hb
    · show 120000 + p.val = 40000 * 3 + p.val; omega

/-- The last stretch keeps the first 160000 entries. -/
theorem ops4_v23 (j : Fin 160000) :
    (after (ops4 (F := F)) V (r main_v23) : FVec F S160000 .f32) (ix1 j)
      = (V (r main_v22) : FVec F S161280 .f32) (ix1 (⟨j.val, by omega⟩ : Fin 161280)) := by
  after_results_simp
  refine extractStridedSlice_apply _ _ _ (ix1 j) (ix1 (⟨j.val, by omega⟩ : Fin 161280)) fun a => ?_
  match a with
  | ⟨0, _⟩ => show j.val = 0 + j.val; omega

end Reads

/-! ## The kernel's result is the score -/

/-- The second call's four results, by stack. -/
theorem V4_edge (R : RegVals F) (m : (ℓ : Loc nD τ sig) → Buf (Elt F) ℓ) (d : Dev nD) (s : Fin 4) :
    (![(V4 R m d (r main_v12_0) : FVec F S40000x1 .f32), (V4 R m d (r main_v12_1) : FVec F S40000x1 .f32),
       (V4 R m d (r main_v12_2) : FVec F S40000x1 .f32), (V4 R m d (r main_v12_3) : FVec F S40000x1 .f32)] : Fin 4 → FVec F S40000x1 .f32) s
      = R.edge s (V3 R m d (r main_v11)) (V3 R m d (r main_v7)) (V3 R m d (r main_v8)) := by
  match s with
  | ⟨0, _⟩ =>
    show (V4 R m d (r main_v12_0) : FVec F S40000x1 .f32) = _
    unfold V4
    rw [Function.update_of_ne (devRef_ne_of_ne (show main_v12_0 ≠ main_v12_3 by decide)),
      Function.update_of_ne (devRef_ne_of_ne (show main_v12_0 ≠ main_v12_2 by decide)),
      Function.update_of_ne (devRef_ne_of_ne (show main_v12_0 ≠ main_v12_1 by decide)), Function.update_self]
    rfl
  | ⟨1, _⟩ =>
    show (V4 R m d (r main_v12_1) : FVec F S40000x1 .f32) = _
    unfold V4
    rw [Function.update_of_ne (devRef_ne_of_ne (show main_v12_1 ≠ main_v12_3 by decide)),
      Function.update_of_ne (devRef_ne_of_ne (show main_v12_1 ≠ main_v12_2 by decide)), Function.update_self]
    rfl
  | ⟨2, _⟩ =>
    show (V4 R m d (r main_v12_2) : FVec F S40000x1 .f32) = _
    unfold V4
    rw [Function.update_of_ne (devRef_ne_of_ne (show main_v12_2 ≠ main_v12_3 by decide)), Function.update_self]
    rfl
  | ⟨3, _⟩ =>
    show (V4 R m d (r main_v12_3) : FVec F S40000x1 .f32) = _
    unfold V4
    rw [Function.update_self]
    rfl

/-- The five argument arrays of the launch memory, at their array types. -/
abbrev aX (m : (ℓ : Loc nD τ sig) → Buf (Elt F) ℓ) (d : Dev nD) : FVec F S10000x256 .f32 := m (d, r main_arg0)
abbrev aE (m : (ℓ : Loc nD τ sig) → Buf (Elt F) ℓ) (d : Dev nD) : FVec F S160000x256 .f32 := m (d, r main_arg1)
abbrev aI (m : (ℓ : Loc nD τ sig) → Buf (Elt F) ℓ) (d : Dev nD) : IVec S2x160000 32 := m (d, r main_arg2)
abbrev aW (m : (ℓ : Loc nD τ sig) → Buf (Elt F) ℓ) (d : Dev nD) : FVec F S768x1 .f32 := m (d, r main_arg3)
abbrev aB (m : (ℓ : Loc nD τ sig) → Buf (Elt F) ℓ) (d : Dev nD) : FVec F S1 .f32 := m (d, r main_arg4)

section Ideal

variable (R : RegVals Ideal)
  (hnode : ∀ (x : FVec Ideal S10000x256 .f32) (w : FVec Ideal S256x2 .f32) (p : Fin 10000) (q : Fin 2),
      R.node x w (ix2 p q) = ∑ k : Fin 256, x (ix2 p k) * w (ix2 k q))
  (hedge : ∀ (s : Fin 4) (e4 : FVec Ideal S4x40000x256 .f32) (w3 : FVec Ideal S256x1 .f32) (b2 : FVec Ideal S1x1 .f32) (p : Fin 40000),
      R.edge s e4 w3 b2 (ix2 p (0 : Fin 1))
        = (∑ k : Fin 256, e4 (ix3 s p k) * w3 (ix2 k (0 : Fin 1))) + b2 (ix2 (0 : Fin 1) (0 : Fin 1)))
  (m : (ℓ : Loc nD τ sig) → Buf (Elt Ideal) ℓ) (d : Dev nD)

include hnode in
/-- The table the vector subcores read: entry 2 p + q is node p's features against the weights' run starting at 256 q. -/
theorem tab_apply (p : Fin 10000) (q : Fin 2) :
    ((Xof R m).tab d : FVec Ideal S20000 .f32) (ix1 (⟨2 * p.val + q.val, by omega⟩ : Fin 20000))
      = ∑ k : Fin 256, aX m d (ix2 p k) * aW m d (ix2 (⟨256 * q.val + k.val, by omega⟩ : Fin 768) (0 : Fin 1)) := by
  show (V5 R m d (r main_v10) : FVec Ideal S20000 .f32) (ix1 _) = _
  unfold V5; rw [ops3_v10, V4_of_ne R m d (by decide) (by decide) (by decide) (by decide)]
  unfold V3; rw [ops2_v10]
  unfold V2; rw [Function.update_self, hnode]
  change (_ : Ideal .f32) = _
  refine Finset.sum_congr rfl fun k _ => ?_
  unfold V1; rw [ops1_arg0, ops1_v6]; rfl

include hedge in
/-- The edge scores the vector subcores read: entry 40000 s + p is that edge's features against the weights' third run,
    plus the bias. -/
theorem es_apply (s : Fin 4) (p : Fin 40000) :
    ((Xof R m).es d : FVec Ideal S161280 .f32) (ix1 (⟨40000 * s.val + p.val, by omega⟩ : Fin 161280))
      = (∑ k : Fin 256, aE m d (ix2 (⟨40000 * s.val + p.val, by omega⟩ : Fin 160000) k)
          * aW m d (ix2 (⟨512 + k.val, by omega⟩ : Fin 768) (0 : Fin 1)))
        + aB m d (ix1 (0 : Fin 1)) := by
  show (V5 R m d (r main_v18) : FVec Ideal S161280 .f32) (ix1 _) = _
  unfold V5; rw [ops3_v18_eq]
  refine (ops3_v18 (F := Ideal) s p _ _ _ _ _).trans ?_
  rw [V4_edge, hedge]
  change (_ : Ideal .f32) = _
  refine congrArg₂ (· + ·) (Finset.sum_congr rfl fun k _ => ?_) ?_
  · unfold V3; rw [ops2_v11, ops2_v7, V2_of_ne R m d (by decide), V2_of_ne R m d (by decide)]
    unfold V1; rw [ops1_arg1, ops1_v7]; rfl
  · unfold V3; rw [ops2_v8, V2_of_ne R m d (by decide)]
    unfold V1; rw [ops1_v8]; rfl

include hnode hedge in
theorem kernel_eq_scores (h : Cert.Spec.InRange (m (d, r main_arg2))) :
    V7 R m d (r main_v23)
      = Cert.Spec.scores (m (d, r main_arg0)) (m (d, r main_arg1)) (m (d, r main_arg2)) (m (d, r main_arg3)) (m (d, r main_arg4)) := by
  funext i
  obtain ⟨j, rfl⟩ : ∃ j : Fin 160000, i = ix1 j := ⟨i 0, eq_ix1 i⟩
  have hJ : j.val < 161280 := by omega
  have hj : (⟨j.val, hJ⟩ : Fin 161280).val < 160000 := j.isLt
  -- the two index words of edge j
  have hrow : ((Xof R m).row d (ix1 (⟨j.val, hJ⟩ : Fin 161280)) : BitVec 32) = (m (d, r main_arg2) : IVec S2x160000 32) (ix2 (0 : Fin 2) j) := by
    rw [row_eq, dif_pos hj]
  have hcol : ((Xof R m).col d (ix1 (⟨j.val, hJ⟩ : Fin 161280)) : BitVec 32) = (m (d, r main_arg2) : IVec S2x160000 32) (ix2 (1 : Fin 2) j) := by
    rw [col_eq, dif_pos hj]
  have h0 := h (ix2 (0 : Fin 2) j)
  have h1 := h (ix2 (1 : Fin 2) j)
  -- the kept entry is the kernel's value at j
  have e7 : (V7 R m d (r main_v23) : FVec Ideal S160000 .f32) (ix1 j)
      = outVal d ((Xof R m).tab d) ((Xof R m).row d) ((Xof R m).col d) ((Xof R m).es d) (ix1 (⟨j.val, hJ⟩ : Fin 161280)) := by
    unfold V7; rw [ops4_v23]
    unfold V6; rw [Function.update_self]
  refine e7.trans ?_
  rw [outVal_apply_ideal d _ _ _ _ _ (row_le R m d h _) (col_le R m d h _)]
  -- the three entries read
  have et0 : (ix1 (⟨2 * ((Xof R m).row d (ix1 (⟨j.val, hJ⟩ : Fin 161280)) : BitVec 32).toNat, by have := row_le R m d h (ix1 (⟨j.val, hJ⟩ : Fin 161280)); omega⟩ : Fin 20000) : S20000.Idx)
      = ix1 (⟨2 * (Cert.Spec.node ((m (d, r main_arg2) : IVec S2x160000 32) (ix2 (0 : Fin 2) j))).val + (0 : Fin 2).val, by omega⟩ : Fin 20000) :=
    congrArg ix1 (Fin.ext (by
      show 2 * ((Xof R m).row d (ix1 (⟨j.val, hJ⟩ : Fin 161280)) : BitVec 32).toNat = 2 * (Cert.Spec.node _).val + 0
      rw [hrow, Cert.Spec.node_val h0]; rfl))
  have et1 : (ix1 (⟨2 * ((Xof R m).col d (ix1 (⟨j.val, hJ⟩ : Fin 161280)) : BitVec 32).toNat + 1, by have := col_le R m d h (ix1 (⟨j.val, hJ⟩ : Fin 161280)); omega⟩ : Fin 20000) : S20000.Idx)
      = ix1 (⟨2 * (Cert.Spec.node ((m (d, r main_arg2) : IVec S2x160000 32) (ix2 (1 : Fin 2) j))).val + (1 : Fin 2).val, by omega⟩ : Fin 20000) :=
    congrArg ix1 (Fin.ext (by
      show 2 * ((Xof R m).col d (ix1 (⟨j.val, hJ⟩ : Fin 161280)) : BitVec 32).toNat + 1 = 2 * (Cert.Spec.node _).val + 1
      rw [hcol, Cert.Spec.node_val h1]))
  have ee : (ix1 (⟨j.val, hJ⟩ : Fin 161280) : S161280.Idx)
      = ix1 (⟨40000 * (⟨j.val / 40000, by omega⟩ : Fin 4).val + (⟨j.val % 40000, by omega⟩ : Fin 40000).val, by omega⟩ : Fin 161280) :=
    congrArg ix1 (Fin.ext (by show j.val = 40000 * (j.val / 40000) + j.val % 40000; omega))
  have ej : (⟨40000 * (⟨j.val / 40000, by omega⟩ : Fin 4).val + (⟨j.val % 40000, by omega⟩ : Fin 40000).val, by omega⟩ : Fin 160000) = j :=
    Fin.ext (by show 40000 * (j.val / 40000) + j.val % 40000 = j.val; omega)
  rw [et0, et1, tab_apply R hnode m d, tab_apply R hnode m d, ee, es_apply R hedge m d, ej]
  show _ = (Cert.Spec.src _ _ _ j + Cert.Spec.tgt _ _ _ j) + Cert.Spec.own _ _ _ j
  unfold Cert.Spec.src Cert.Spec.tgt Cert.Spec.own Cert.Spec.part
  refine congrArg₂ (· + ·) (congrArg₂ (· + ·) (Finset.sum_congr rfl fun k _ => ?_) (Finset.sum_congr rfl fun k _ => ?_)) rfl
  · exact congrArg (fun t : Fin 768 => aX m d (ix2 (Cert.Spec.node (aI m d (ix2 (0 : Fin 2) j))) k) * aW m d (ix2 t (0 : Fin 1)))
      (Fin.ext (by show 256 * 0 + k.val = 0 + k.val; omega))
  · exact congrArg (fun t : Fin 768 => aX m d (ix2 (Cert.Spec.node (aI m d (ix2 (1 : Fin 2) j))) k) * aW m d (ix2 t (0 : Fin 1)))
      (Fin.ext (by show 256 * 1 + k.val = 256 + k.val; omega))

end Ideal

end Cert.KernelIdeal.Value

end
-- ==== Proof.KernelRunI.lean ====
/-
  The kernel program's run, with nothing left open.

  The two pipelined calls compute the node scores and the four stacks of edge scores; each vector subcore's task leaves
  its piece of the result at the gathered sums; the padded index arrays name nodes because the edge list does. So from
  any memory whose edge list names nodes, every weakly fair execution terminates with the result at the last table of
  contents and the arguments as they were.
-/
import proofs.«207961_g9620726743389_cont_9to1c4b_395_8_alg».proof.Proof.MainI
import proofs.«207961_g9620726743389_cont_9to1c4b_395_8_alg».proof.Proof.Region1I
import proofs.«207961_g9620726743389_cont_9to1c4b_395_8_alg».proof.Proof.TileI
import proofs.«207961_g9620726743389_cont_9to1c4b_395_8_alg».proof.Proof.KernelValueI

noncomputable section

namespace Cert.KernelIdeal.Launch

open Cert.KernelIdeal Cert.KernelIdeal.Gen Cert.KernelIdeal.Common Cert.KernelIdeal.Tile Cert.KernelIdeal.Split
open Cert.KernelIdeal.Vals Cert.KernelIdeal.Host

open Idealize.ShloMosaic Idealize.ShloMosaic.TcCoe
open Idealize.SL.Sem

variable {F : FTy → Type} [FloatOps F]

/-- What the two pipelined calls compute. -/
def Rreal : RegVals F := ⟨Regions.nodeVal, Regions.edgeVal⟩

theorem reg0_real : Region0Spec (Rreal (F := F)) := fun d x w12 O hO _ k Φ => Regions.wp_region0 d x w12 O hO k Φ

theorem reg1_real : Region1Spec (Rreal (F := F)) := fun d e4 w3 b2 O hO _ k Φ => Regions.wp_region1 d e4 w3 b2 O hO k Φ

theorem tile_real (m : (ℓ : Loc nD τ sig) → Buf (Elt F) ℓ) : TileBodySpec (Xof (Rreal (F := F)) m) :=
  fun hF d L outF hrow hcol O W hO => Tile.tile_body (Xof (Rreal (F := F)) m) d L hF outF hrow hcol O W hO

/-- The run. -/
theorem kernel_run [∀ e, Nonempty (Elt F e)] (m : (ℓ : Loc nD τ sig) → Buf (Elt F) ℓ) (ρ : Dev nD → PrngReg)
    (hin : ∀ d : Dev nD, Cert.Spec.InRange (m (d, r main_arg2))) :
    θ_run (Cert.KernelIdeal.defs (F := F)) (Cert.KernelIdeal.threads (F := F)) ⟨m, fun _ => 0, ρ⟩ (QC (Rreal (F := F)) m) :=
  run_kernel (Rreal (F := F)) m ρ (tile_real m)
    (fun d j => Value.row_le (Rreal (F := F)) m d (hin d) j) (fun d j => Value.col_le (Rreal (F := F)) m d (hin d) j)
    (fun d => ⟨Value.V7_arg0 (Rreal (F := F)) m d, Value.V7_arg1 (Rreal (F := F)) m d, Value.V7_arg2 (Rreal (F := F)) m d,
      Value.V7_arg3 (Rreal (F := F)) m d, Value.V7_arg4 (Rreal (F := F)) m d⟩)
    (hmain (Rreal (F := F)) m ρ reg0_real reg1_real)

end Cert.KernelIdeal.Launch

end
-- ==== Proof.CommonB.lean ====
/-
  The program as the launch of its threads sees it, and the ghost state the proof keeps.

  One device; its TensorCore runs the host program, which enters two pipelined matrix products and then starts a
  kernel on the thirty-two vector subcores of the two SparseCores. The ghost state has three independent parts: the
  rounds of the four start / done handshakes between the TensorCore, the sequencers and the vector subcores; the rounds
  of each vector subcore's own five copy-completion counters; and the rounds of the two pipelines' staging counters.
-/
import proofs.«207961_g9620726743389_cont_9to1c4b_395_8_alg».proof.Kernel
import proofs.«207961_g9620726743389_cont_9to1c4b_395_8_alg».proof.Proof.Gen.Kernel
import proofs.«207961_g9620726743389_cont_9to1c4b_395_8_alg».proof.Proof.Gen.Kernel.Skeleton
import proofs.«207961_g9620726743389_cont_9to1c4b_395_8_alg».proof.Proof.Gen.Kernel.Launch
import proofs.«207961_g9620726743389_cont_9to1c4b_395_8_alg».proof.Proof.Gen.Kernel.Points
import Idealize.ShloMosaic.Lib.SparseCore.Launch
import Idealize.ShloMosaic.Lib.SparseCore.Ops
import Idealize.ShloMosaic.Lib.Pipeline.Regions
import Idealize.ShloMosaic.Lib.StableHlo.Run
import Idealize.ShloMosaic.Lib.Tactic

noncomputable section

namespace Cert.Kernel.Common

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The vector subcores' copy-completion counters' rounds. -/
abbrev UK : Type := URounds (GSem nD τ sig) Unit
/-- The pipelines' staging counters' rounds. -/
abbrev UP : Type := URounds (GSem nD τ sig) Unit
abbrev UU : Type := UH × (UK × UP)

abbrev 𝕄 (F : FTy → Type) : Type := MT nD τ sig (HIx 1) (Elt F) ℕ UU ℕ

def EH : Emb UH (𝕄 F) :=
  (Emb.inl : Emb UH UU).trans (uEmb (nD := nD) (sig := sig) (Ix := HIx 1) (Val := Elt F) (Name := ℕ) (U := UU) (Lvl := ℕ)).toEmb
def EK : Emb UK (𝕄 F) :=
  ((Emb.inl : Emb UK (UK × UP)).trans (Emb.inr : Emb (UK × UP) UU)).trans (uEmb (nD := nD) (sig := sig) (Ix := HIx 1) (Val := Elt F) (Name := ℕ) (U := UU) (Lvl := ℕ)).toEmb
def EP : Emb UP (𝕄 F) :=
  ((Emb.inr : Emb UP (UK × UP)).trans (Emb.inr : Emb (UK × UP) UU)).trans (uEmb (nD := nD) (sig := sig) (Ix := HIx 1) (Val := Elt F) (Name := ℕ) (U := UU) (Lvl := ℕ)).toEmb

instance EH_landsIn : (EH : Emb UH (𝕄 F)).LandsIn (upEmb : UEmb _ (𝕄 F)) := by unfold EH; infer_instance
instance EK_landsIn : (EK : Emb UK (𝕄 F)).LandsIn (upEmb : UEmb _ (𝕄 F)) := by unfold EK; infer_instance
instance EP_landsIn : (EP : Emb UP (𝕄 F)).LandsIn (upEmb : UEmb _ (𝕄 F)) := by unfold EP; infer_instance

end Cert.Kernel.Common

end
-- ==== Proof.MainShapeB.lean ====
/-
  The host program cut at its three calls.

  Between the calls the TensorCore runs plain array operations: first the two rows of the edge list are cut out and
  flattened, the weight column is cut into its three runs of 256 (the first two set side by side as a 256 x 2 matrix) and
  the bias is made a 1 x 1 matrix; after the first call its 10000 x 2 result is flattened to 20000 entries and the edge
  features are viewed as four stacks of 40000 rows; after the second call its four 40000 x 1 results are flattened,
  laid end to end and padded with 1280 zeros, and the two flattened edge-list rows are padded with 1280 zero words;
  after the kernel on the vector subcores the first 160000 entries of its result are kept.
-/
import proofs.«207961_g9620726743389_cont_9to1c4b_395_8_alg».proof.Proof.CommonB

noncomputable section

namespace Cert.Kernel.MainShape

open Cert.Kernel Cert.Kernel.Gen Cert.Kernel.Common
open Idealize.ShloMosaic Idealize.ShloMosaic.TcCoe Idealize.SL.Sem Idealize.ShloMosaic.StableHlo

variable {F : FTy → Type} [FloatOps F]

/-- The nine operations before the first call. -/
abbrev ops1 : List (HloOp τ sig (Elt F)) :=
  [
    unary main_arg2 main_v0 ((extractStridedSlice S1x160000 ![0, 0] · slices_S2x160000_S1x160000_0_0) : (⟨S2x160000, .i32⟩ : BufTy).Contents (Elt F) → (⟨S1x160000, .i32⟩ : BufTy).Contents (Elt F)),
    reshape main_v0 main_v1 rfl shapeCasts_S1x160000_S160000,
    unary main_arg2 main_v2 ((extractStridedSlice S1x160000 ![1, 0] · slices_S2x160000_S1x160000_1_0) : (⟨S2x160000, .i32⟩ : BufTy).Contents (Elt F) → (⟨S1x160000, .i32⟩ : BufTy).Contents (Elt F)),
    reshape main_v2 main_v3 rfl shapeCasts_S1x160000_S160000,
    unary main_arg3 main_v4 ((extractStridedSlice S256x1 ![0, 0] · slices_S768x1_S256x1_0_0) : (⟨S768x1, .f32⟩ : BufTy).Contents (Elt F) → (⟨S256x1, .f32⟩ : BufTy).Contents (Elt F)),
    unary main_arg3 main_v5 ((extractStridedSlice S256x1 ![256, 0] · slices_S768x1_S256x1_256_0) : (⟨S768x1, .f32⟩ : BufTy).Contents (Elt F) → (⟨S256x1, .f32⟩ : BufTy).Contents (Elt F)),
    binary main_v4 main_v5 main_v6 ((fun a b => concatenate S256x2 1 [⟨S256x1, a⟩, ⟨S256x1, b⟩] concatenates_S256x1_S256x1_S256x2_d1) : (⟨S256x1, .f32⟩ : BufTy).Contents (Elt F) → (⟨S256x1, .f32⟩ : BufTy).Contents (Elt F) → (⟨S256x2, .f32⟩ : BufTy).Contents (Elt F)),
    unary main_arg3 main_v7 ((extractStridedSlice S256x1 ![512, 0] · slices_S768x1_S256x1_512_0) : (⟨S768x1, .f32⟩ : BufTy).Contents (Elt F) → (⟨S256x1, .f32⟩ : BufTy).Contents (Elt F)),
    reshape main_arg4 main_v8 rfl shapeCasts_S1_S1x1 ]

/-- The two operations between the calls. -/
abbrev ops2 : List (HloOp τ sig (Elt F)) :=
  [
    reshape main_v9 main_v10 rfl shapeCasts_S10000x2_S20000,
    reshape main_arg1 main_v11 rfl shapeCasts_S160000x256_S4x40000x256 ]

/-- The twelve operations between the second call and the kernel on the vector subcores. -/
abbrev ops3 : List (HloOp τ sig (Elt F)) :=
  [
    reshape main_v12_0 main_v13 rfl shapeCasts_S40000x1_S40000,
    reshape main_v12_1 main_v14 rfl shapeCasts_S40000x1_S40000,
    reshape main_v12_2 main_v15 rfl shapeCasts_S40000x1_S40000,
    reshape main_v12_3 main_v16 rfl shapeCasts_S40000x1_S40000,
    nullary main_cst (constant S_ .f32 0x00000000#32),
    unary main_cst main_v17 (broadcastInDim S1280 ![] bcast_S_S1280 : (⟨S_, .f32⟩ : BufTy).Contents (Elt F) → (⟨S1280, .f32⟩ : BufTy).Contents (Elt F)),
    nary ![main_v13, main_v14, main_v15, main_v16, main_v17] main_v18 (fun u => concatenate S161280 0 [⟨S40000, u 0⟩, ⟨S40000, u 1⟩, ⟨S40000, u 2⟩, ⟨S40000, u 3⟩, ⟨S1280, u 4⟩] concatenates_S40000_S40000_S40000_S40000_S1280_S161280_d0),
    nullary main_c (constantI S_ 32 0#32),
    unary main_c main_v19 (broadcastInDim S1280 ![] bcast_S_S1280 : (⟨S_, .i32⟩ : BufTy).Contents (Elt F) → (⟨S1280, .i32⟩ : BufTy).Contents (Elt F)),
    binary main_v1 main_v19 main_v20 ((fun a b => concatenate S161280 0 [⟨S160000, a⟩, ⟨S1280, b⟩] concatenates_S160000_S1280_S161280_d0) : (⟨S160000, .i32⟩ : BufTy).Contents (Elt F) → (⟨S1280, .i32⟩ : BufTy).Contents (Elt F) → (⟨S161280, .i32⟩ : BufTy).Contents (Elt F)),
    binary main_v3 main_v19 main_v21 ((fun a b => concatenate S161280 0 [⟨S160000, a⟩, ⟨S1280, b⟩] concatenates_S160000_S1280_S161280_d0) : (⟨S160000, .i32⟩ : BufTy).Contents (Elt F) → (⟨S1280, .i32⟩ : BufTy).Contents (Elt F) → (⟨S161280, .i32⟩ : BufTy).Contents (Elt F)) ]

/-- The one operation after it. -/
abbrev ops4 : List (HloOp τ sig (Elt F)) :=
  [
    unary main_v22 main_v23 ((extractStridedSlice S160000 ![0] · slices_S161280_S160000_0) : (⟨S161280, .f32⟩ : BufTy).Contents (Elt F) → (⟨S160000, .f32⟩ : BufTy).Contents (Elt F)) ]

/-- The host program is those four stretches with the three calls between them. -/
theorem main_eq (d : Dev nD) :
    main (F := F) d
      = (seq ops1 >>= fun _ => Prog.lift (.customCall (SparseCore.inner (Pipeline.entry 0)) ()) >>= fun _ =>
          seq ops2 >>= fun _ => Prog.lift (.customCall (SparseCore.inner (Pipeline.entry 1)) ()) >>= fun _ =>
          seq ops3 >>= fun _ => (sc (F := F)).run d 0 >>= fun _ => seq ops4) := rfl

end Cert.Kernel.MainShape

end
-- ==== Proof.HostB.lean ====
/-
  The TensorCore's arrays between the calls.

  All the arrays the host program names live in the device's main memory and belong to no call's staging; the proof
  keeps them together, each whole, at a table of contents. A stretch of array operations carries the table to the table
  after the operations; nothing else of the device is touched.
-/
import proofs.«207961_g9620726743389_cont_9to1c4b_395_8_alg».proof.Proof.MainShapeB

noncomputable section

namespace Cert.Kernel.Host

open Cert.Kernel Cert.Kernel.Gen Cert.Kernel.Common Cert.Kernel.MainShape
open Idealize.ShloMosaic Idealize.ShloMosaic.TcCoe Idealize.ShloMosaic.StableHlo
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-- The host program's arrays: the references the TensorCore names that no call stages through. -/
def SU : Finset (DevRef τ sig) :=
  (Finset.univ.filter fun b : Ref sig .tc => ¬ b.isScoped).map ⟨Proc.devRef .tc, Proc.devRef_injective _⟩

theorem mem_SU (r : Ref sig .tc) (h : r.isScoped = false) : (Proc.devRef .tc r : DevRef τ sig) ∈ SU :=
  Finset.mem_map.mpr ⟨r, Finset.mem_filter.mpr ⟨Finset.mem_univ _, by simp [h]⟩, rfl⟩

/-- Held together at a table of contents, they are what the launch deals the TensorCore. -/
theorem unscoped_held (d : Dev nD) (W : Valuation τ sig (Elt F)) :
    (unscopedBufs d (fun b => W (Proc.devRef .tc b)) : sProp (𝕄 F)) = held (T d) SU W := by
  unfold unscopedBufs held SU
  rw [bigSep_map]; rfl

/-- The launch table: every array at what the memory holds. -/
def V0 (m : (ℓ : Loc nD τ sig) → Buf (Elt F) ℓ) (d : Dev nD) : Valuation τ sig (Elt F) := fun b => m (d, b)

variable [FloatOps F]

theorem ops1_sub : ∀ op ∈ (ops1 : List (HloOp τ sig (Elt F))), op.bufs ⊆ SU := by
  intro op hop
  simp only [ops1, List.mem_cons, List.mem_nil_iff, or_false] at hop
  rcases hop with rfl | rfl | rfl | rfl | rfl | rfl | rfl | rfl | rfl <;>
    (intro b hb; simp only [StableHlo.unary, StableHlo.reshape, StableHlo.binary, Finset.mem_insert, Finset.mem_singleton] at hb;
     rcases hb with rfl | rfl | rfl <;> exact mem_SU _ (by decide))

theorem ops2_sub : ∀ op ∈ (ops2 : List (HloOp τ sig (Elt F))), op.bufs ⊆ SU := by
  intro op hop
  simp only [ops2, List.mem_cons, List.mem_nil_iff, or_false] at hop
  rcases hop with rfl | rfl <;>
    (intro b hb; simp only [StableHlo.reshape, Finset.mem_insert, Finset.mem_singleton] at hb;
     rcases hb with rfl | rfl <;> exact mem_SU _ (by decide))

theorem ops3_sub : ∀ op ∈ (ops3 : List (HloOp τ sig (Elt F))), op.bufs ⊆ SU := by
  intro op hop
  simp only [ops3, List.mem_cons, List.mem_nil_iff, or_false] at hop
  rcases hop with rfl | rfl | rfl | rfl | rfl | rfl | rfl | rfl | rfl | rfl | rfl <;>
    (intro b hb
     simp only [StableHlo.unary, StableHlo.reshape, StableHlo.binary, StableHlo.nullary, StableHlo.nary, Finset.mem_insert, Finset.mem_singleton,
       Finset.mem_image, Finset.mem_univ, true_and] at hb
     first
       | (rcases hb with rfl | rfl | rfl <;> exact mem_SU _ (by decide))
       | (rcases hb with rfl | rfl <;> exact mem_SU _ (by decide))
       | (rcases hb with rfl; exact mem_SU _ (by decide))
       | (rcases hb with rfl | ⟨k, rfl⟩
          · exact mem_SU _ (by decide)
          · fin_cases k <;> exact mem_SU _ (by decide)))

theorem ops4_sub : ∀ op ∈ (ops4 : List (HloOp τ sig (Elt F))), op.bufs ⊆ SU := by
  intro op hop
  simp only [ops4, List.mem_cons, List.mem_nil_iff, or_false] at hop
  rcases hop with rfl
  intro b hb; simp only [StableHlo.unary, Finset.mem_insert, Finset.mem_singleton] at hb
  rcases hb with rfl | rfl <;> exact mem_SU _ (by decide)

end Cert.Kernel.Host

end
-- ==== Proof.TileCellsB.lean ====
/-
  One vector subcore's part of the gather kernel: the arrays it is called on, the slice of them it owns, the value it
  leaves there, and the ghost state of its five copy-completion counters.

  Subcore (c, s) copies the whole table and its 5040-entry slices of the row words, the column words and the edge
  scores into its own scratch, computes entry by entry (table at twice the row word + table at twice the column word
  plus one) + edge score, and copies the 5040 results to its slice of the output. Each copy completes on a counter of its
  own, a cell of one round with one duty; what a landing hands back names the contents exactly, so the schedule is
  stated over the arrays' contents when the kernel starts.
-/
import proofs.«207961_g9620726743389_cont_9to1c4b_395_8_alg».proof.Proof.CommonB
import Idealize.ShloMosaic.Lib.ValueIdx

noncomputable section

namespace Cert.Kernel.Tile

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The arrays -/

/-- The table, the row words, the column words, the edge scores and the result, as locations of device d. -/
abbrev tabLoc (d : Dev nD) : Loc nD τ sig := (SparseCore.T d).loc main_v10
abbrev rowLoc (d : Dev nD) : Loc nD τ sig := (SparseCore.T d).loc main_v20
abbrev colLoc (d : Dev nD) : Loc nD τ sig := (SparseCore.T d).loc main_v21
abbrev esLoc (d : Dev nD) : Loc nD τ sig := (SparseCore.T d).loc main_v18
abbrev outLoc (d : Dev nD) : Loc nD τ sig := (SparseCore.T d).loc main_v22

abbrev tabV : Memref sig .scVector .hbm S20000 .f32 := Memref.whole main_v10_scv
abbrev rowV : Memref sig .scVector .hbm S161280 .i32 := Memref.whole main_v20_scv
abbrev colV : Memref sig .scVector .hbm S161280 .i32 := Memref.whole main_v21_scv
abbrev esV : Memref sig .scVector .hbm S161280 .f32 := Memref.whole main_v18_scv
abbrev outV : Memref sig .scVector .hbm S161280 .f32 := Memref.whole main_v22_scv
/-- A subcore's scratch: the table, its row words, its column words, its edge scores, its results. -/
abbrev sTab : Memref sig .scVector .vmem S20000 .f32 := Memref.whole cc2_scratch0
abbrev sRow : Memref sig .scVector .vmem S5040 .i32 := Memref.whole cc2_scratch1
abbrev sCol : Memref sig .scVector .vmem S5040 .i32 := Memref.whole cc2_scratch2
abbrev sEs : Memref sig .scVector .vmem S5040 .f32 := Memref.whole cc2_scratch3
abbrev sOut : Memref sig .scVector .vmem S5040 .f32 := Memref.whole cc2_scratch4

/-! ## The subcore and its slice -/

abbrev cV (L : grid2.Coords) : Fin τ.nSC := (L 0).castLE hcore2
abbrev jV (L : grid2.Coords) : Fin τ.nSub := (L 1).castLE hsub2
/-- The grid point of subcore (c, i). -/
abbrev Lof (c : Fin τ.nSC) (i : Fin τ.nSub) : grid2.Coords :=
  fun | 0 => c | 1 => i | ⟨_ + 2, h⟩ => absurd h (Nat.not_lt.2 (Nat.le_add_left _ _))

theorem Lof_cV_jV (L : grid2.Coords) : Lof (cV L) (jV L) = L := by
  funext a
  match a with
  | 0 => rfl
  | 1 => rfl

/-- The 5040 entries from the subcore's offset: the rectangle every slice of the kernel is cut at. -/
abbrev slR (L : grid2.Coords) : Rect S161280 := Rect.unit (s := S161280) (k2_off1 L) S5040.size (k2_off1_inb L)
/-- The slice of a [161280] array that subcore L owns. -/
abbrev sl (L : grid2.Coords) : Finset S161280.Idx := (slR L).set

abbrev rowSl (L : grid2.Coords) : Memref sig .scVector .hbm S5040 .i32 := (rowV).slice (slR L) (fun _ => rfl)
abbrev colSl (L : grid2.Coords) : Memref sig .scVector .hbm S5040 .i32 := (colV).slice (slR L) (fun _ => rfl)
abbrev esSl (L : grid2.Coords) : Memref sig .scVector .hbm S5040 .f32 := (esV).slice (slR L) (fun _ => rfl)
abbrev outSl (L : grid2.Coords) : Memref sig .scVector .hbm S5040 .f32 := (outV).slice (slR L) (fun _ => rfl)

theorem set_rowSl (L : grid2.Coords) : (rowSl L).view.set = sl L := by
  show ((View.whole (main_v20_scv : Ref sig .scVector)).slice (slR L)).set = _
  rw [View.set_slice]; exact Finset.map_refl
theorem set_colSl (L : grid2.Coords) : (colSl L).view.set = sl L := by
  show ((View.whole (main_v21_scv : Ref sig .scVector)).slice (slR L)).set = _
  rw [View.set_slice]; exact Finset.map_refl
theorem set_esSl (L : grid2.Coords) : (esSl L).view.set = sl L := by
  show ((View.whole (main_v18_scv : Ref sig .scVector)).slice (slR L)).set = _
  rw [View.set_slice]; exact Finset.map_refl
theorem set_outSl (L : grid2.Coords) : (outSl L).view.set = sl L := by
  show ((View.whole (main_v22_scv : Ref sig .scVector)).slice (slR L)).set = _
  rw [View.set_slice]; exact Finset.map_refl

/-! ## The value -/

/-- An index of the table from a number, capped at the last entry. -/
def tIx (n : Nat) : S20000.Idx := ix1 (⟨min n 19999, by omega⟩ : Fin 20000)

variable [FloatOps F]

/-- What the kernel leaves in the result: entry by entry, (the table at twice the row word + the table at twice the
    column word plus one) + the edge score, in the float instance's own addition. -/
def outVal (d : Dev nD) (tabF : Buf (Elt F) (tabLoc d)) (rowF : Buf (Elt F) (rowLoc d)) (colF : Buf (Elt F) (colLoc d))
    (esF : Buf (Elt F) (esLoc d)) : Buf (Elt F) (outLoc d) :=
  fun j => FloatOps.addf (φ := .f32) (FloatOps.addf (φ := .f32) (tabF (tIx (2 * (rowF j : BitVec 32).toNat))) (tabF (tIx (2 * (colF j : BitVec 32).toNat + 1)))) (esF j)

/-- What the kernel is started on, fixed when the program is launched: the share of the table each subcore reads (one per subcore), and
    the contents of the table, the row words, the column words and the edge scores on each device. -/
structure Ins (F : FTy → Type) where
  q : Fin τ.nSC → Fin τ.nSub → PosShare TreeShare
  tab : (d : Dev nD) → Buf (Elt F) (tabLoc d)
  row : (d : Dev nD) → Buf (Elt F) (rowLoc d)
  col : (d : Dev nD) → Buf (Elt F) (colLoc d)
  es : (d : Dev nD) → Buf (Elt F) (esLoc d)

/-! ## The kernel's cells -/

abbrev c0cell (d : Dev nD) (c : Fin τ.nSC) (i : Fin τ.nSub) : GSem nD τ sig := (V d c i, .dma cc2_scoped0.sem)
abbrev c1cell (d : Dev nD) (c : Fin τ.nSC) (i : Fin τ.nSub) : GSem nD τ sig := (V d c i, .dma cc2_scoped1.sem)
abbrev c2cell (d : Dev nD) (c : Fin τ.nSC) (i : Fin τ.nSub) : GSem nD τ sig := (V d c i, .dma cc2_scoped2.sem)
abbrev c3cell (d : Dev nD) (c : Fin τ.nSC) (i : Fin τ.nSub) : GSem nD τ sig := (V d c i, .dma cc2_scoped3.sem)
abbrev c4cell (d : Dev nD) (c : Fin τ.nSC) (i : Fin τ.nSub) : GSem nD τ sig := (V d c i, .dma cc2_scoped4.sem)

abbrev N0 : ℕ := (sTab : Memref sig .scVector .vmem S20000 .f32).view.dmaCredit
abbrev N1 : ℕ := (sRow : Memref sig .scVector .vmem S5040 .i32).view.dmaCredit
abbrev N2 : ℕ := (sCol : Memref sig .scVector .vmem S5040 .i32).view.dmaCredit
abbrev N3 : ℕ := (sEs : Memref sig .scVector .vmem S5040 .f32).view.dmaCredit
abbrev N4 : ℕ := sig.dmaCredit .scVector (Kind.scVector.table .hbm) (main_v22_scv : Ref sig .scVector).idx S5040 .f32
theorem N0_pos : 0 < N0 := View.dmaCredit_pos _ (by decide)
theorem N1_pos : 0 < N1 := View.dmaCredit_pos _ (by decide)
theorem N2_pos : 0 < N2 := View.dmaCredit_pos _ (by decide)
theorem N3_pos : 0 < N3 := View.dmaCredit_pos _ (by decide)
theorem N4_pos : 0 < N4 := sig.dmaCredit_pos _ _ _ _ _ (by decide)

inductive CellKind | k0 | k1 | k2 | k3 | k4
  deriving DecidableEq

def cellKind (g : GSem nD τ sig) : Option CellKind :=
  match g with
  | ((_, .scVector _ _), sm) =>
      if sm = .dma cc2_scoped0.sem then some .k0 else if sm = .dma cc2_scoped1.sem then some .k1
      else if sm = .dma cc2_scoped2.sem then some .k2 else if sm = .dma cc2_scoped3.sem then some .k3
      else if sm = .dma cc2_scoped4.sem then some .k4 else none
  | _ => none

theorem dsem10 : (cc2_scoped1.sem : DmaSem sig) ≠ cc2_scoped0.sem := by decide
theorem dsem20 : (cc2_scoped2.sem : DmaSem sig) ≠ cc2_scoped0.sem := by decide
theorem dsem21 : (cc2_scoped2.sem : DmaSem sig) ≠ cc2_scoped1.sem := by decide
theorem dsem30 : (cc2_scoped3.sem : DmaSem sig) ≠ cc2_scoped0.sem := by decide
theorem dsem31 : (cc2_scoped3.sem : DmaSem sig) ≠ cc2_scoped1.sem := by decide
theorem dsem32 : (cc2_scoped3.sem : DmaSem sig) ≠ cc2_scoped2.sem := by decide
theorem dsem40 : (cc2_scoped4.sem : DmaSem sig) ≠ cc2_scoped0.sem := by decide
theorem dsem41 : (cc2_scoped4.sem : DmaSem sig) ≠ cc2_scoped1.sem := by decide
theorem dsem42 : (cc2_scoped4.sem : DmaSem sig) ≠ cc2_scoped2.sem := by decide
theorem dsem43 : (cc2_scoped4.sem : DmaSem sig) ≠ cc2_scoped3.sem := by decide
theorem sem10 : (SemLoc.dma cc2_scoped1.sem : SemLoc sig) ≠ .dma cc2_scoped0.sem := fun h => dsem10 (SemLoc.dma.inj h)
theorem sem20 : (SemLoc.dma cc2_scoped2.sem : SemLoc sig) ≠ .dma cc2_scoped0.sem := fun h => dsem20 (SemLoc.dma.inj h)
theorem sem21 : (SemLoc.dma cc2_scoped2.sem : SemLoc sig) ≠ .dma cc2_scoped1.sem := fun h => dsem21 (SemLoc.dma.inj h)
theorem sem30 : (SemLoc.dma cc2_scoped3.sem : SemLoc sig) ≠ .dma cc2_scoped0.sem := fun h => dsem30 (SemLoc.dma.inj h)
theorem sem31 : (SemLoc.dma cc2_scoped3.sem : SemLoc sig) ≠ .dma cc2_scoped1.sem := fun h => dsem31 (SemLoc.dma.inj h)
theorem sem32 : (SemLoc.dma cc2_scoped3.sem : SemLoc sig) ≠ .dma cc2_scoped2.sem := fun h => dsem32 (SemLoc.dma.inj h)
theorem sem40 : (SemLoc.dma cc2_scoped4.sem : SemLoc sig) ≠ .dma cc2_scoped0.sem := fun h => dsem40 (SemLoc.dma.inj h)
theorem sem41 : (SemLoc.dma cc2_scoped4.sem : SemLoc sig) ≠ .dma cc2_scoped1.sem := fun h => dsem41 (SemLoc.dma.inj h)
theorem sem42 : (SemLoc.dma cc2_scoped4.sem : SemLoc sig) ≠ .dma cc2_scoped2.sem := fun h => dsem42 (SemLoc.dma.inj h)
theorem sem43 : (SemLoc.dma cc2_scoped4.sem : SemLoc sig) ≠ .dma cc2_scoped3.sem := fun h => dsem43 (SemLoc.dma.inj h)

@[simp] theorem cellKind_c0 (d : Dev nD) (c : Fin τ.nSC) (i : Fin τ.nSub) : cellKind (c0cell d c i) = some .k0 := by simp [cellKind]
@[simp] theorem cellKind_c1 (d : Dev nD) (c : Fin τ.nSC) (i : Fin τ.nSub) : cellKind (c1cell d c i) = some .k1 := by
  simp [cellKind, dsem10]
@[simp] theorem cellKind_c2 (d : Dev nD) (c : Fin τ.nSC) (i : Fin τ.nSub) : cellKind (c2cell d c i) = some .k2 := by
  simp [cellKind, dsem20, dsem21]
@[simp] theorem cellKind_c3 (d : Dev nD) (c : Fin τ.nSC) (i : Fin τ.nSub) : cellKind (c3cell d c i) = some .k3 := by
  simp [cellKind, dsem30, dsem31, dsem32]
@[simp] theorem cellKind_c4 (d : Dev nD) (c : Fin τ.nSC) (i : Fin τ.nSub) : cellKind (c4cell d c i) = some .k4 := by
  simp [cellKind, dsem40, dsem41, dsem42, dsem43]

variable (X : Ins F)

/-- What a landing hands back. The four fetches: the scratch at what the source reads, and the source share back.
    The write-out: the subcore's slice of the result at the value, and the result scratch at some contents. -/
def kPay (g : GSem nD τ sig) : sProp (𝕄 F) :=
  match g with
  | ((d, .scVector c i), sm) =>
      if sm = .dma cc2_scoped0.sem then
        iprop(((V d c i).loc cc2_scratch0 ↦{fullShare} (tabV).view.read (Elt F) (X.tab d)) ∗ tabLoc d ↦{X.q c i} X.tab d)
      else if sm = .dma cc2_scoped1.sem then
        iprop(((V d c i).loc cc2_scratch1 ↦{fullShare} (rowSl (Lof c i)).view.read (Elt F) (X.row d)) ∗ rowLoc d ↦[sl (Lof c i)]{fullShare} X.row d)
      else if sm = .dma cc2_scoped2.sem then
        iprop(((V d c i).loc cc2_scratch2 ↦{fullShare} (colSl (Lof c i)).view.read (Elt F) (X.col d)) ∗ colLoc d ↦[sl (Lof c i)]{fullShare} X.col d)
      else if sm = .dma cc2_scoped3.sem then
        iprop(((V d c i).loc cc2_scratch3 ↦{fullShare} (esSl (Lof c i)).view.read (Elt F) (X.es d)) ∗ esLoc d ↦[sl (Lof c i)]{fullShare} X.es d)
      else iprop((outLoc d ↦[sl (Lof c i)]{fullShare} outVal d (X.tab d) (X.row d) (X.col d) (X.es d)) ∗ ∃ f, (V d c i).loc cc2_scratch4 ↦{fullShare} f)
  | _ => iprop(emp)

def kRd : Rounds.Schedule (GSem nD τ sig) Unit (𝕄 F) where
  duties g r := if (cellKind g).isSome ∧ r = 0 then {()} else ∅
  amount g _ _ := match cellKind g with | some .k0 => N0 | some .k1 => N1 | some .k2 => N2 | some .k3 => N3 | _ => N4
  payload g _ _ := kPay X g
  amount_pos g _ _ _ := by
    rcases cellKind g with _ | ⟨_ | _ | _ | _ | _⟩
    · exact N4_pos
    · exact N0_pos
    · exact N1_pos
    · exact N2_pos
    · exact N3_pos
    · exact N4_pos

instance kRd_payload_storable (g : GSem nD τ sig) (r : ℕ) (u : Unit) : BI.Storable (upEmb : UEmb _ (𝕄 F)) ((kRd X).payload g r u) := by
  show BI.Storable upEmb (kPay X g)
  unfold kPay
  rcases g with ⟨⟨d, _ | c | ⟨c, i⟩⟩, sm⟩ <;> dsimp only <;> (repeat' split) <;> infer_instance

theorem kRd_duties₀ {g : GSem nD τ sig} (h : (cellKind g).isSome) : (kRd X).duties g 0 = {()} := if_pos ⟨h, rfl⟩
theorem kRd_mem₀ {g : GSem nD τ sig} (h : (cellKind g).isSome) : () ∈ (kRd X).duties g 0 := by
  rw [kRd_duties₀ X h]; exact Finset.mem_singleton_self _
theorem kRd_later (g : GSem nD τ sig) : ∀ r, 0 + 1 ≤ r → (kRd X).duties g r = ∅ :=
  fun r hr => if_neg fun ⟨_, h⟩ => by omega
theorem kRd_back {g : GSem nD τ sig} (h : (cellKind g).isSome) :
    bigSep ((kRd X).duties g 0 \ ∅) (fun u => (kRd X).payload g 0 u) ⊢ (kRd X).payload g 0 () := by
  rw [Finset.sdiff_empty, kRd_duties₀ X h, bigSep_singleton]
theorem kRd_expect {g : GSem nD τ sig} (h : (cellKind g).isSome) : (kRd X).expect g 0 = (kRd X).amount g 0 () := by
  unfold Rounds.Schedule.expect; rw [kRd_duties₀ X h]; exact Finset.sum_singleton _ _
theorem kRd_amount_c0 (d : Dev nD) (c : Fin τ.nSC) (i : Fin τ.nSub) : (kRd X).amount (c0cell d c i) 0 () = N0 := by
  show (match cellKind (c0cell d c i) with | some .k0 => N0 | some .k1 => N1 | some .k2 => N2 | some .k3 => N3 | _ => N4) = N0
  rw [cellKind_c0]
theorem kRd_amount_c1 (d : Dev nD) (c : Fin τ.nSC) (i : Fin τ.nSub) : (kRd X).amount (c1cell d c i) 0 () = N1 := by
  show (match cellKind (c1cell d c i) with | some .k0 => N0 | some .k1 => N1 | some .k2 => N2 | some .k3 => N3 | _ => N4) = N1
  rw [cellKind_c1]
theorem kRd_amount_c2 (d : Dev nD) (c : Fin τ.nSC) (i : Fin τ.nSub) : (kRd X).amount (c2cell d c i) 0 () = N2 := by
  show (match cellKind (c2cell d c i) with | some .k0 => N0 | some .k1 => N1 | some .k2 => N2 | some .k3 => N3 | _ => N4) = N2
  rw [cellKind_c2]
theorem kRd_amount_c3 (d : Dev nD) (c : Fin τ.nSC) (i : Fin τ.nSub) : (kRd X).amount (c3cell d c i) 0 () = N3 := by
  show (match cellKind (c3cell d c i) with | some .k0 => N0 | some .k1 => N1 | some .k2 => N2 | some .k3 => N3 | _ => N4) = N3
  rw [cellKind_c3]
theorem kRd_amount_c4 (d : Dev nD) (c : Fin τ.nSC) (i : Fin τ.nSub) : (kRd X).amount (c4cell d c i) 0 () = N4 := by
  show (match cellKind (c4cell d c i) with | some .k0 => N0 | some .k1 => N1 | some .k2 => N2 | some .k3 => N3 | _ => N4) = N4
  rw [cellKind_c4]

theorem kRd_payload_c0 (d : Dev nD) (c : Fin τ.nSC) (i : Fin τ.nSub) :
    (kRd X).payload (c0cell d c i) 0 ()
      = iprop(((V d c i).loc cc2_scratch0 ↦{fullShare} (tabV).view.read (Elt F) (X.tab d)) ∗ tabLoc d ↦{X.q c i} X.tab d) := by
  show kPay X (c0cell d c i) = _; unfold kPay; exact if_pos rfl
theorem kRd_payload_c1 (d : Dev nD) (L : grid2.Coords) :
    (kRd X).payload (c1cell d (cV L) (jV L)) 0 ()
      = iprop(((V d (cV L) (jV L)).loc cc2_scratch1 ↦{fullShare} (rowSl L).view.read (Elt F) (X.row d)) ∗ rowLoc d ↦[sl L]{fullShare} X.row d) := by
  show kPay X (c1cell d (cV L) (jV L)) = _; unfold kPay
  refine ((if_neg sem10).trans (if_pos rfl)).trans ?_
  rw [Lof_cV_jV]
theorem kRd_payload_c2 (d : Dev nD) (L : grid2.Coords) :
    (kRd X).payload (c2cell d (cV L) (jV L)) 0 ()
      = iprop(((V d (cV L) (jV L)).loc cc2_scratch2 ↦{fullShare} (colSl L).view.read (Elt F) (X.col d)) ∗ colLoc d ↦[sl L]{fullShare} X.col d) := by
  show kPay X (c2cell d (cV L) (jV L)) = _; unfold kPay
  refine ((if_neg sem20).trans ((if_neg sem21).trans (if_pos rfl))).trans ?_
  rw [Lof_cV_jV]
theorem kRd_payload_c3 (d : Dev nD) (L : grid2.Coords) :
    (kRd X).payload (c3cell d (cV L) (jV L)) 0 ()
      = iprop(((V d (cV L) (jV L)).loc cc2_scratch3 ↦{fullShare} (esSl L).view.read (Elt F) (X.es d)) ∗ esLoc d ↦[sl L]{fullShare} X.es d) := by
  show kPay X (c3cell d (cV L) (jV L)) = _; unfold kPay
  refine ((if_neg sem30).trans ((if_neg sem31).trans ((if_neg sem32).trans (if_pos rfl)))).trans ?_
  rw [Lof_cV_jV]
theorem kRd_payload_c4 (d : Dev nD) (L : grid2.Coords) :
    (kRd X).payload (c4cell d (cV L) (jV L)) 0 ()
      = iprop((outLoc d ↦[sl L]{fullShare} outVal d (X.tab d) (X.row d) (X.col d) (X.es d)) ∗ ∃ f, (V d (cV L) (jV L)).loc cc2_scratch4 ↦{fullShare} f) := by
  show kPay X (c4cell d (cV L) (jV L)) = _; unfold kPay
  refine ((if_neg sem40).trans ((if_neg sem41).trans ((if_neg sem42).trans (if_neg sem43)))).trans ?_
  rw [Lof_cV_jV]

/-- A cell's kit: its round state, its owner's position before round 0, round 0 reached, and the one duty's token. -/
def kit (g : GSem nD τ sig) : sProp (𝕄 F) :=
  iprop(roundState EK (kRd X) g 0 ∗ atPos EK g 0 ∅ 0 ∗ reached EK g 0 ∗ dutyTok EK g 0 ())

/-- The five kits of vector subcore (c, i) of device d. -/
def kits (d : Dev nD) (c : Fin τ.nSC) (i : Fin τ.nSub) : sProp (𝕄 F) :=
  iprop(kit X (c0cell d c i) ∗ kit X (c1cell d c i) ∗ kit X (c2cell d c i) ∗ kit X (c3cell d c i) ∗ kit X (c4cell d c i))

end Cert.Kernel.Tile

end
-- ==== Proof.SplitB.lean ====
/-
  The padded arrays cut among the thirty-two vector subcores.

  Vector subcore `i` of SparseCore `c` is worker number `2 i + c`; it owns the 5040 entries of each padded array
  from entry `5040 (2 i + c)` on. The thirty-two pieces do not overlap and leave nothing out (32 x 5040 = 161280), so
  an array held whole is the thirty-two pieces held side by side, and back.
-/
import proofs.«207961_g9620726743389_cont_9to1c4b_395_8_alg».proof.Proof.TileCellsB
import Idealize.ShloMosaic.Lib.Transfers

noncomputable section

namespace Cert.Kernel.Split

open Cert.Kernel Cert.Kernel.Gen Cert.Kernel.Common Cert.Kernel.Tile
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Entry `j` is in the piece of worker `2 i + c` when it lies in that worker's run of 5040. -/
theorem mem_sl (c : Fin τ.nSC) (i : Fin τ.nSub) (j : S161280.Idx) :
    j ∈ sl (Lof c i) ↔ 5040 * (2 * i.val + c.val) ≤ (j 0).val ∧ (j 0).val < 5040 * (2 * i.val + c.val) + 5040 := by
  show j ∈ (Rect.unit (s := S161280) (k2_off1 (Lof c i)) S5040.size (k2_off1_inb (Lof c i))).set ↔ _
  rw [Rect.mem_set_unit, k2_off1_eq]
  constructor
  · intro h
    have h0 := h 0
    simp only [Matrix.cons_val_zero] at h0
    have e : (10080 * ((Lof c i) 1).val + 5040 * ((Lof c i) 0).val) = 5040 * (2 * i.val + c.val) := by
      show 10080 * i.val + 5040 * c.val = _; omega
    have hs : S5040.size 0 = 5040 := rfl
    omega
  · intro h a
    obtain rfl : a = 0 := Subsingleton.elim _ _
    simp only [Matrix.cons_val_zero]
    have e : (10080 * ((Lof c i) 1).val + 5040 * ((Lof c i) 0).val) = 5040 * (2 * i.val + c.val) := by
      show 10080 * i.val + 5040 * c.val = _; omega
    have hs : S5040.size 0 = 5040 := rfl
    omega

/-- Different workers' pieces do not overlap. -/
theorem sl_disjoint : ∀ p ∈ (Finset.univ : Finset (Fin τ.nSC × Fin τ.nSub)), ∀ p' ∈ (Finset.univ : Finset (Fin τ.nSC × Fin τ.nSub)),
    p ≠ p' → Disjoint (sl (Lof p.1 p.2)) (sl (Lof p'.1 p'.2)) := by
  rintro ⟨c, i⟩ - ⟨c', i'⟩ - hne
  refine Finset.disjoint_left.mpr fun j h h' => hne ?_
  rw [mem_sl] at h h'
  dsimp only at h h'
  have hc : c.val < 2 := c.isLt
  have hc' : c'.val < 2 := c'.isLt
  have : 2 * i.val + c.val = 2 * i'.val + c'.val := by omega
  exact Prod.ext (Fin.ext (show c.val = c'.val by omega)) (Fin.ext (show i.val = i'.val by omega))

/-- Every entry is in some worker's piece. -/
theorem sl_cover : (Finset.univ : Finset (Fin τ.nSC × Fin τ.nSub)).biUnion (fun p => sl (Lof p.1 p.2)) = Finset.univ := by
  ext j
  simp only [Finset.mem_biUnion, Finset.mem_univ, true_and, iff_true]
  have hj : (j 0).val < 161280 := (j 0).isLt
  have hw : (j 0).val / 5040 < 32 := by omega
  refine ⟨(⟨(j 0).val / 5040 % 2, by show _ < 2; omega⟩, ⟨(j 0).val / 5040 / 2, by show _ < 16; omega⟩), ?_⟩
  rw [mem_sl]
  show 5040 * (2 * ((j 0).val / 5040 / 2) + (j 0).val / 5040 % 2) ≤ _ ∧ _ < 5040 * (2 * ((j 0).val / 5040 / 2) + (j 0).val / 5040 % 2) + 5040
  have e : 2 * ((j 0).val / 5040 / 2) + (j 0).val / 5040 % 2 = (j 0).val / 5040 := by omega
  rw [e]; omega

/-- A padded array held whole is its thirty-two pieces held side by side: the source-node words, -/
theorem rowPts_pieces (d : Dev nD) (f : Buf (Elt F) (rowLoc d)) :
    (rowLoc d ↦{fullShare} f : sProp (𝕄 F))
      = bigSep Finset.univ fun p : Fin τ.nSC × Fin τ.nSub => rowLoc d ↦[sl (Lof p.1 p.2)]{fullShare} f := by
  rw [← pointsTo_biUnion Finset.univ (ℓ := rowLoc d) (fun p : Fin τ.nSC × Fin τ.nSub => sl (Lof p.1 p.2)) sl_disjoint, sl_cover]; try rfl
/-- the target-node words, -/
theorem colPts_pieces (d : Dev nD) (f : Buf (Elt F) (colLoc d)) :
    (colLoc d ↦{fullShare} f : sProp (𝕄 F))
      = bigSep Finset.univ fun p : Fin τ.nSC × Fin τ.nSub => colLoc d ↦[sl (Lof p.1 p.2)]{fullShare} f := by
  rw [← pointsTo_biUnion Finset.univ (ℓ := colLoc d) (fun p : Fin τ.nSC × Fin τ.nSub => sl (Lof p.1 p.2)) sl_disjoint, sl_cover]; try rfl
/-- the edges' own scores, -/
theorem esPts_pieces (d : Dev nD) (f : Buf (Elt F) (esLoc d)) :
    (esLoc d ↦{fullShare} f : sProp (𝕄 F))
      = bigSep Finset.univ fun p : Fin τ.nSC × Fin τ.nSub => esLoc d ↦[sl (Lof p.1 p.2)]{fullShare} f := by
  rw [← pointsTo_biUnion Finset.univ (ℓ := esLoc d) (fun p : Fin τ.nSC × Fin τ.nSub => sl (Lof p.1 p.2)) sl_disjoint, sl_cover]; try rfl
/-- and the result. -/
theorem outPts_pieces (d : Dev nD) (f : Buf (Elt F) (outLoc d)) :
    (outLoc d ↦{fullShare} f : sProp (𝕄 F))
      = bigSep Finset.univ fun p : Fin τ.nSC × Fin τ.nSub => outLoc d ↦[sl (Lof p.1 p.2)]{fullShare} f := by
  rw [← pointsTo_biUnion Finset.univ (ℓ := outLoc d) (fun p : Fin τ.nSC × Fin τ.nSub => sl (Lof p.1 p.2)) sl_disjoint, sl_cover]; try rfl

/-! ## The table: one read share per worker -/

/-- The worker number of vector subcore `i` of SparseCore `c`. -/
def wid (c : Fin τ.nSC) (i : Fin τ.nSub) : Fin 32 := ⟨2 * i.val + c.val, by have hc : c.val < 2 := c.isLt; have hi : i.val < 16 := i.isLt; omega⟩

/-- Subcores and worker numbers correspond one to one. -/
def widEquiv : Fin τ.nSC × Fin τ.nSub ≃ Fin 32 where
  toFun p := wid p.1 p.2
  invFun k := (⟨k.val % 2, by show _ < 2; omega⟩, ⟨k.val / 2, by have := k.isLt; show _ < 16; omega⟩)
  left_inv := by
    rintro ⟨c, i⟩
    have hc : c.val < 2 := c.isLt
    refine Prod.ext (Fin.ext ?_) (Fin.ext ?_)
    · show (2 * i.val + c.val) % 2 = c.val; omega
    · show (2 * i.val + c.val) / 2 = i.val; omega
  right_inv := by
    intro k
    refine Fin.ext ?_
    show 2 * (k.val / 2) + k.val % 2 = k.val; omega

/-- The read share of the table dealt to a subcore: the token of its worker number. -/
def tabShare (c : Fin τ.nSC) (i : Fin τ.nSub) : PosShare TreeShare := Transfers.shareTok fullShare 32 (wid c i)
/-- What is left of the table's share after the thirty-two tokens. -/
def tabRest : PosShare TreeShare := Transfers.shareDrop fullShare 32

omit [FloatOps F] in
theorem toks_reindex (Φ : Fin 32 → sProp (𝕄 F)) :
    bigSep Finset.univ Φ = bigSep Finset.univ fun p : Fin τ.nSC × Fin τ.nSub => Φ (wid p.1 p.2) := by
  rw [← Finset.map_univ_equiv widEquiv, bigSep_map]; rfl

/-- The table held whole is the remainder and one read token per subcore, -/
theorem tabPts_split (d : Dev nD) (f : Buf (Elt F) (tabLoc d)) :
    (tabLoc d ↦{fullShare} f : sProp (𝕄 F))
      ⊢ iprop((tabLoc d ↦{tabRest} f) ∗ bigSep Finset.univ fun p : Fin τ.nSC × Fin τ.nSub => tabLoc d ↦{tabShare p.1 p.2} f) := by
  refine (Transfers.pointsTo_toks_split (ℓ := tabLoc d) (S := Finset.univ) (f := f) fullShare 32).trans ?_
  rw [toks_reindex (F := F) (fun k => tabLoc d ↦{Transfers.shareTok fullShare 32 k} f)]
  exact BI.Entails.refl _
/-- and back. -/
theorem tabPts_join (d : Dev nD) (f : Buf (Elt F) (tabLoc d)) :
    iprop((tabLoc d ↦{tabRest} f) ∗ bigSep Finset.univ fun p : Fin τ.nSC × Fin τ.nSub => tabLoc d ↦{tabShare p.1 p.2} f)
      ⊢ (tabLoc d ↦{fullShare} f : sProp (𝕄 F)) := by
  refine BI.Entails.trans ?_ (Transfers.pointsTo_toks_join (ℓ := tabLoc d) (S := Finset.univ) (f := f) fullShare 32)
  rw [toks_reindex (F := F) (fun k => tabLoc d ↦{Transfers.shareTok fullShare 32 k} f)]
  exact BI.Entails.refl _

end Cert.Kernel.Split

end
-- ==== Proof.PayB.lean ====
/-
  What the start / done handshakes of the kernel on the vector subcores carry.

  When the TensorCore starts the kernel it hands each vector subcore a read share of the gather table and the subcore's
  own 5040-entry pieces of the two index arrays, the edge scores and the result; when the subcore's task is done the same
  come back, the piece of the result now holding, entry by entry, (table at twice the source word + table at twice the
  target word plus one) + edge score. A SparseCore's sequencer passes the sixteen subcores' parts through unchanged.
-/
import proofs.«207961_g9620726743389_cont_9to1c4b_395_8_alg».proof.Proof.SplitB

noncomputable section

namespace Cert.Kernel.Launch

open Cert.Kernel Cert.Kernel.Gen Cert.Kernel.Common Cert.Kernel.Tile Cert.Kernel.Split

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## One subcore's task, as the launch uses it -/

/-- One vector subcore's run of the kernel body: from its table share and its four pieces (the result's at any contents)
    to the same with the result's piece at the value, its own scratch and counters handed through. -/
def TileBodySpec (X : Ins F) : Prop :=
  ∀ (_ : (K (F := F)).Facts) (d : Dev nD) (L : grid2.Coords) (outF : Buf (Elt F) (outLoc d))
    (_ : ∀ j ∈ sl L, (X.row d j : BitVec 32).toNat ≤ 9999) (_ : ∀ j ∈ sl L, (X.col d j : BitVec 32).toNat ≤ 9999)
    (O : CellTallies nD τ sig (HIx 1)) (W : Waits sig (HIx 1)) (_ : ∀ g, O g none = 0),
    iprop(levAts (K (F := F)).L (K (F := F)).lev ∗ kits X d (cV L) (jV L)
        ∗ ((tabLoc d ↦{X.q (cV L) (jV L)} X.tab d) ∗ (rowLoc d ↦[sl L]{fullShare} X.row d) ∗ (colLoc d ↦[sl L]{fullShare} X.col d)
            ∗ (esLoc d ↦[sl L]{fullShare} X.es d) ∗ outLoc d ↦[sl L]{fullShare} outF)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_sc_gather L tabV (Memref.isWhole_whole _) rowV (Memref.isWhole_whole _) colV (Memref.isWhole_whole _) esV (Memref.isWhole_whole _)
            outV (Memref.isWhole_whole _) sTab (Memref.isWhole_whole _) sRow (Memref.isWhole_whole _) sCol (Memref.isWhole_whole _)
            sEs (Memref.isWhole_whole _) sOut (Memref.isWhole_whole _) cc2_scoped0 cc2_scoped1 cc2_scoped2 cc2_scoped3 cc2_scoped4)
          fun _ => iprop(((tabLoc d ↦{X.q (cV L) (jV L)} X.tab d) ∗ (rowLoc d ↦[sl L]{fullShare} X.row d) ∗ (colLoc d ↦[sl L]{fullShare} X.col d)
            ∗ (esLoc d ↦[sl L]{fullShare} X.es d) ∗ outLoc d ↦[sl L]{fullShare} outVal d (X.tab d) (X.row d) (X.col d) (X.es d))
            ∗ scopedBufs (V d (cV L) (jV L)) ∗ scopedSems0 (V d (cV L) (jV L))
            ∗ ∃ W', ⌜∀ p ∈ W', p ∈ W ∨ p.2 = none⌝ ∗ owes (V d (cV L) (jV L)) O W')

/-! ## What the handshakes carry -/

variable (X : Ins F) (out0 : (d : Dev nD) → Buf (Elt F) (outLoc d))

/-- What a subcore is handed at its task's start, -/
def goRes (d : Dev nD) (c : Fin τ.nSC) (i : Fin τ.nSub) : sProp (𝕄 F) :=
  iprop((tabLoc d ↦{X.q c i} X.tab d) ∗ (rowLoc d ↦[sl (Lof c i)]{fullShare} X.row d) ∗ (colLoc d ↦[sl (Lof c i)]{fullShare} X.col d)
    ∗ (esLoc d ↦[sl (Lof c i)]{fullShare} X.es d) ∗ outLoc d ↦[sl (Lof c i)]{fullShare} out0 d)
/-- and what it hands back at its end. -/
def tdRes (d : Dev nD) (c : Fin τ.nSC) (i : Fin τ.nSub) : sProp (𝕄 F) :=
  iprop((tabLoc d ↦{X.q c i} X.tab d) ∗ (rowLoc d ↦[sl (Lof c i)]{fullShare} X.row d) ∗ (colLoc d ↦[sl (Lof c i)]{fullShare} X.col d)
    ∗ (esLoc d ↦[sl (Lof c i)]{fullShare} X.es d) ∗ outLoc d ↦[sl (Lof c i)]{fullShare} outVal d (X.tab d) (X.row d) (X.col d) (X.es d))

/-- The one call: each SparseCore is handed its sixteen subcores' parts and hands them back. -/
def P : (K (F := F)).Pay (nD := nD) (Val := Elt F) (Name := ℕ) (U := UU) where
  st := fun q d c => match q with
    | 0 => bigSep Finset.univ fun i : Fin ((K (F := F)).nSub 0) => goRes X out0 d ((K (F := F)).core 0 c) ((K (F := F)).sub 0 i)
  dn := fun q d c => match q with
    | 0 => bigSep Finset.univ fun i : Fin ((K (F := F)).nSub 0) => tdRes X d ((K (F := F)).core 0 c) ((K (F := F)).sub 0 i)
  go := fun q d c i => match q with | 0 => goRes X out0 d ((K (F := F)).core 0 c) ((K (F := F)).sub 0 i)
  td := fun q d c i => match q with | 0 => tdRes X d ((K (F := F)).core 0 c) ((K (F := F)).sub 0 i)
  x := fun q thr => match q, thr with
    | 0, (d, .scVector c i) => kits X d c i
    | _, _ => iprop(emp)

instance goRes_storable (d : Dev nD) (c : Fin τ.nSC) (i : Fin τ.nSub) : BI.Storable (upEmb : UEmb _ (𝕄 F)) (goRes X out0 d c i) := by
  unfold goRes; infer_instance
instance tdRes_storable (d : Dev nD) (c : Fin τ.nSC) (i : Fin τ.nSub) : BI.Storable (upEmb : UEmb _ (𝕄 F)) (tdRes X d c i) := by
  unfold tdRes; infer_instance

instance P_storable : (P X out0).IsStorable where
  st q d c := match q with
    | 0 => (inferInstance : BI.Storable (upEmb : UEmb _ (𝕄 F))
        (bigSep Finset.univ fun i : Fin ((K (F := F)).nSub 0) => goRes X out0 d ((K (F := F)).core 0 c) ((K (F := F)).sub 0 i)))
  dn q d c := match q with
    | 0 => (inferInstance : BI.Storable (upEmb : UEmb _ (𝕄 F))
        (bigSep Finset.univ fun i : Fin ((K (F := F)).nSub 0) => tdRes X d ((K (F := F)).core 0 c) ((K (F := F)).sub 0 i)))
  go q d c i := match q with
    | 0 => (inferInstance : BI.Storable (upEmb : UEmb _ (𝕄 F)) (goRes X out0 d ((K (F := F)).core 0 c) ((K (F := F)).sub 0 i)))
  td q d c i := match q with
    | 0 => (inferInstance : BI.Storable (upEmb : UEmb _ (𝕄 F)) (tdRes X d ((K (F := F)).core 0 c) ((K (F := F)).sub 0 i)))

/-- A sequencer passes its subcores' parts through. -/
theorem vecSplit : (K (F := F)).VecSplit' (P X out0) 0 := by
  intro d c
  show (bigSep Finset.univ fun i : Fin ((K (F := F)).nSub 0) => goRes X out0 d ((K (F := F)).core 0 c) ((K (F := F)).sub 0 i))
    ⊢ |={Set.univ}=> iprop((bigSep Finset.univ fun i : Fin ((K (F := F)).nSub 0) => goRes X out0 d ((K (F := F)).core 0 c) ((K (F := F)).sub 0 i))
      ∗ ((bigSep Finset.univ fun i : Fin ((K (F := F)).nSub 0) => tdRes X d ((K (F := F)).core 0 c) ((K (F := F)).sub 0 i))
          -∗ bigSep Finset.univ fun i : Fin ((K (F := F)).nSub 0) => tdRes X d ((K (F := F)).core 0 c) ((K (F := F)).sub 0 i)))
  iintro H; imodintro
  isplitl [H]; · iexact H
  iintro H'; iexact H'

/-! ## The task obligation -/

/-- The body table's row for a vector subcore is the kernel function at that subcore's grid point. -/
theorem defs₀_vector (c : Fin τ.nSC) (s : Fin τ.nSub) :
    defs₀ (F := F) (.scVector c s) 2 ()
      = SparseCore.onTile hcore2 hsub2 (fun c s => cc2_sc_gather (fun | 0 => c | 1 => s | ⟨_ + 2, h⟩ => absurd h (Nat.not_lt.2 (Nat.le_add_left _ _)))
          tabV (Memref.isWhole_whole _) rowV (Memref.isWhole_whole _) colV (Memref.isWhole_whole _) esV (Memref.isWhole_whole _)
          outV (Memref.isWhole_whole _) sTab (Memref.isWhole_whole _) sRow (Memref.isWhole_whole _) sCol (Memref.isWhole_whole _)
          sEs (Memref.isWhole_whole _) sOut (Memref.isWhole_whole _) cc2_scoped0 cc2_scoped1 cc2_scoped2 cc2_scoped3 cc2_scoped4) ⟨⟩ c s := rfl

omit [FloatOps F] in
theorem obl_post {thr : Thread nD τ} {A B C : sProp (𝕄 F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task, from one subcore's run of the body at a symbolic grid point. -/
theorem tileObl (hF : (K (F := F)).Facts) (hbody : TileBodySpec X)
    (hrow : ∀ d j, (X.row d j : BitVec 32).toNat ≤ 9999) (hcol : ∀ d j, (X.col d j : BitVec 32).toNat ≤ 9999) :
    (K (F := F)).TileObl (D (F := F)) 𝒱 (P X out0) v₀ 0 := by
  intro d c i O W hO _ _
  simp only [show (P X out0).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  exact (hbody hF d (Lof ⟨_, hc.1⟩ ⟨_, hc.2⟩) (out0 d) (fun j _ => hrow d j) (fun j _ => hcol d j) O W hO).trans
    (wp_mono frame _ _ fun _ => obl_post)

end Cert.Kernel.Launch

end
-- ==== Proof.ValsB.lean ====
/-
  The arrays' contents at each point of the host program, as functions of the memory the program is launched on.

  Each stretch of array operations maps the table of contents to the table after it; each of the three calls replaces its
  result arrays' entries: the first by the node scores (a 10000 x 2 product), the second by the four stacks of edge scores,
  the third by the gathered sums on the padded edges. The table before the third call names what the vector subcores are
  started on.
-/
import proofs.«207961_g9620726743389_cont_9to1c4b_395_8_alg».proof.Proof.HostB
import proofs.«207961_g9620726743389_cont_9to1c4b_395_8_alg».proof.Proof.PayB

noncomputable section

namespace Cert.Kernel.Vals

open Cert.Kernel Cert.Kernel.Gen Cert.Kernel.Common Cert.Kernel.MainShape Cert.Kernel.Host
open Cert.Kernel.Tile Cert.Kernel.Split Cert.Kernel.Launch
open Idealize.ShloMosaic Idealize.ShloMosaic.TcCoe Idealize.ShloMosaic.StableHlo

variable {F : FTy → Type} [FloatOps F]

/-- What the two pipelined calls compute, as functions of their operands: the node scores, and stack `s` of the edge scores. -/
structure RegVals (F : FTy → Type) where
  node : FVec F S10000x256 .f32 → FVec F S256x2 .f32 → FVec F S10000x2 .f32
  edge : Fin 4 → FVec F S4x40000x256 .f32 → FVec F S256x1 .f32 → FVec F S1x1 .f32 → FVec F S40000x1 .f32

variable (R : RegVals F) (m : (ℓ : Loc nD τ sig) → Buf (Elt F) ℓ) (d : Dev nD)

/-- A TensorCore array as a buffer of the device. -/
abbrev r (x : Ref sig .tc) : DevRef τ sig := Proc.devRef .tc x

/-- After the first stretch; -/
def V1 : Valuation τ sig (Elt F) := after ops1 (V0 m d)
/-- after the first call; -/
def V2 : Valuation τ sig (Elt F) := Function.update (V1 m d) (r main_v9) (R.node (V1 m d (r main_arg0)) (V1 m d (r main_v6)))
/-- after the second stretch; -/
def V3 : Valuation τ sig (Elt F) := after ops2 (V2 R m d)
/-- after the second call; -/
def V4 : Valuation τ sig (Elt F) :=
  Function.update (Function.update (Function.update (Function.update (V3 R m d)
    (r main_v12_0) (R.edge 0 (V3 R m d (r main_v11)) (V3 R m d (r main_v7)) (V3 R m d (r main_v8))))
    (r main_v12_1) (R.edge 1 (V3 R m d (r main_v11)) (V3 R m d (r main_v7)) (V3 R m d (r main_v8))))
    (r main_v12_2) (R.edge 2 (V3 R m d (r main_v11)) (V3 R m d (r main_v7)) (V3 R m d (r main_v8))))
    (r main_v12_3) (R.edge 3 (V3 R m d (r main_v11)) (V3 R m d (r main_v7)) (V3 R m d (r main_v8)))
/-- after the third stretch: what the kernel on the vector subcores is started on; -/
def V5 : Valuation τ sig (Elt F) := after ops3 (V4 R m d)

/-- The vector subcores' inputs: each its own read token of the table, and the four arrays as the third stretch leaves them. -/
def Xof : Ins F where
  q := tabShare
  tab := fun d => V5 R m d (r main_v10)
  row := fun d => V5 R m d (r main_v20)
  col := fun d => V5 R m d (r main_v21)
  es := fun d => V5 R m d (r main_v18)

/-- The result array before the kernel writes it. -/
def out0 : (d : Dev nD) → Buf (Elt F) (outLoc d) := fun d => V5 R m d (r main_v22)

/-- After the kernel on the vector subcores; -/
def V6 : Valuation τ sig (Elt F) :=
  Function.update (V5 R m d) (r main_v22) (outVal d ((Xof R m).tab d) ((Xof R m).row d) ((Xof R m).col d) ((Xof R m).es d))
/-- at the end. -/
def V7 : Valuation τ sig (Elt F) := after ops4 (V6 R m d)

end Cert.Kernel.Vals

end
-- ==== Proof.Region0B.lean ====
/-
  The first pipelined matrix product of the host program, as one step of the TensorCore's proof.

  The node features `x : [10000, 256]` are multiplied, 2000 rows at a time over a grid of five points, by the
  `[256, 2]` matrix of the first two runs of weights; block `t` of the `[10000, 2]` result is the product of block `t`
  of `x` with that matrix, added into a zero accumulator. The step is stated around whatever the TensorCore still
  owes its SparseCores: the pipeline's own waits are at the index no handshake uses, below every such debt.
-/
import proofs.«207961_g9620726743389_cont_9to1c4b_395_8_alg».proof.Proof.CommonB
import Idealize.ShloMosaic.Lib.Pipeline.FrameBody
import Idealize.ShloMosaic.Lib.Pipeline.Value
import Idealize.ShloMosaic.Lib.ValueIdx
import proofs.«207961_g9620726743389_cont_9to1c4b_395_8_alg».proof.Proof.LibMatmul2

set_option maxRecDepth 16384

noncomputable section

namespace Cert.Kernel.Regions

open Cert.Kernel Cert.Kernel.Gen Cert.Kernel.Common
open Idealize.ShloMosaic Idealize.ShloMosaic.TcCoe Idealize.ShloMosaic.Tactic Idealize.ShloMosaic.ValueIdx
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The TensorCore of device `c`, as a thread. -/
local notation "𝕥" => SparseCore.T (τ := τ)

/-- No pipeline has a prefetched table: the admissible contents are the empty ones. -/
abbrev adm : (p : Fin 2) → (pcfgs (F := F) p).Adm := fun p => (cfgs p).toPCfg_adm

section Region0

variable (xs : (c : Dev nD) → Buf (Elt F) ((𝕥 c).loc main_arg0)) (ws : (c : Dev nD) → Buf (Elt F) ((𝕥 c).loc main_v6))
  (fs : (c : Dev nD) → Buf (Elt F) ((𝕥 c).loc main_v9)) (O : CellTallies nD τ sig (HIx 1))

/-! ## The blocks -/

/-- Block `t` of the node features: rows `2000 t` to `2000 t + 1999`. -/
def blkX (c : Dev nD) (t : Fin cfg0.N) : ((cfg0.win 0).xblock (cfg0.grid.coords t)).Idx → Elt F (cfg0.win 0).elt :=
  ((cfg0.win 0).blk t).view.read (Elt F) (xs c)

/-- The weight matrix, whole at every point. -/
def blkW (c : Dev nD) (t : Fin cfg0.N) : ((cfg0.win 1).xblock (cfg0.grid.coords t)).Idx → Elt F (cfg0.win 1).elt :=
  ((cfg0.win 1).blk t).view.read (Elt F) (ws c)

abbrev rX : Rect S2000x256 := Rect.unit (s := S2000x256) ![0, 0] S2000x256.size inb_S2000x256_S2000x256_0_0
abbrev rW : Rect S256x2 := Rect.unit (s := S256x2) ![0, 0] S256x2.size inb_S256x2_S256x2_0_0
abbrev rO : Rect S2000x2 := Rect.unit (s := S2000x2) ![0, 0] S2000x2.size inb_S2000x2_S2000x2_0_0

/-- What the body leaves in the result's staging buffer: the product of the two blocks, as its one store. -/
def outBlk (x0 : Vec F S2000x256 .f32) (x1 : Vec F S256x2 .f32) : Vec F S2000x2 .f32 :=
  View.canon [⟨rO, k0_pay1 (View.ld x0 rX) (View.ld x1 rW)⟩]

/-- The one store covers the buffer. -/
theorem coverO (p0 : Vec F S2000x2 .f32) (y : S2000x2.Idx) :
    ∃ pc ∈ ([⟨rO, p0⟩] : List (View.Piece (Elt F) S2000x2 .f32)), y ∈ pc.1.set :=
  View.cover_of_tiled [⟨rO, p0⟩] S2000x2.size (by rfl) y

/-! ## The body's triple -/

set_option maxHeartbeats 1000000 in
/-- The body on whole staging buffers, the two operands' at contents `x0`, `x1` and the result's at anything: the operands'
    stay and the result's holds the product. -/
theorem sound_kernel0 (c : Dev nD) (E : Set ℕ) (i : grid0.Coords)
    (arg1 : Memref sig .tc .vmem S2000x256 .f32) (harg1 : arg1.IsWhole) (arg2 : Memref sig .tc .vmem S256x2 .f32) (harg2 : arg2.IsWhole)
    (arg3 : Memref sig .tc .vmem S2000x2 .f32) (harg3 : arg3.IsWhole)
    (x0 : Vec F S2000x256 .f32) (x1 : Vec F S256x2 .f32) (Kp : PUnit → sProp (𝕄 F)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlk x0 x1)) -∗ Kp ⟨⟩))
      ⊢ wp frame (wpE (defs₀ (F := F)) Variants.none c none) E (cc0__node_scores_body i arg1 harg1 arg2 harg2 arg3 harg3) Kp := by
  simp only [cc0__node_scores_body_eq_skeleton]; unfold cc0__node_scores_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverO _)

/-! ## The proof data -/

/-- Pipeline 0's proof data on core `c`: the arrays as the region finds them; after the body at point `t` each operand's
    buffer at its block and the result's at their product; the invariant the scoped buffers no window stages; full shares;
    throughout, the tallies `O` owed. -/
def dat0 (c : Dev nD) : Dat τ (Elt F) (HIx 1) ℕ UU ℕ cfg0 c where
  A w := match w with
    | ⟨0, _⟩ => xs c
    | ⟨1, _⟩ => ws c
    | ⟨2, _⟩ => fs c
  after w t := match w with
    | ⟨0, _⟩ => blkX xs c t
    | ⟨1, _⟩ => blkW ws c t
    | ⟨2, _⟩ => outBlk (blkX xs c t) (blkW ws c t)
  Φ _ := Pipeline.scopedRest spec0 c
  q _ := fullShare
  owed _ := O
  recorded _ := {p | (K (F := F)).lev (𝕥 c, p.1) p.2 ≤ 0}

theorem A_eq0 (c : Dev nD) : (dat0 xs ws fs O c).A 0 = xs c := by dsimp only [dat0]
theorem A_eq1 (c : Dev nD) : (dat0 xs ws fs O c).A 1 = ws c := by dsimp only [dat0]
theorem A_eq2 (c : Dev nD) : (dat0 xs ws fs O c).A 2 = fs c := by dsimp only [dat0]
theorem after0_0 (c : Dev nD) (t : Fin cfg0.N) : (dat0 xs ws fs O c).after 0 t = blkX xs c t := by dsimp only [dat0]
theorem after0_1 (c : Dev nD) (t : Fin cfg0.N) : (dat0 xs ws fs O c).after 1 t = blkW ws c t := by dsimp only [dat0]
theorem after0_2 (c : Dev nD) (t : Fin cfg0.N) : (dat0 xs ws fs O c).after 2 t = outBlk (blkX xs c t) (blkW ws c t) := by dsimp only [dat0]

/-- An operand's current staging buffer holds its block at every point, fetched there or not. -/
theorem before0_0 (c : Dev nD) (t : Fin cfg0.N) (d) : (dat0 xs ws fs O c).before 0 t d = blkX xs c t :=
  ((dat0 xs ws fs O c).before_in_eq_fetched 0 rfl (fun _ => rfl) (fun _ _ _ => rfl)
    (fun t => by rw [after0_0]; unfold Dat.blockOf blkX; rw [A_eq0]; try rfl) t d).trans
    (by unfold Dat.fetched Dat.blockOf blkX; rw [A_eq0]; try rfl)
theorem before0_1 (c : Dev nD) (t : Fin cfg0.N) (d) : (dat0 xs ws fs O c).before 1 t d = blkW ws c t :=
  ((dat0 xs ws fs O c).before_in_eq_fetched 1 rfl (fun _ => rfl) (fun _ _ _ => rfl)
    (fun t => by rw [after0_1]; unfold Dat.blockOf blkW; rw [A_eq1]; try rfl) t d).trans
    (by unfold Dat.fetched Dat.blockOf blkW; rw [A_eq1]; try rfl)

/-! ## The body obligation -/

def bodyPre0 (c : Dev nD) (t : Fin cfg0.N) : sProp (𝕄 F) :=
  iprop((dat0 xs ws fs O c).Φ t.castSucc ∗ (dat0 xs ws fs O c).owesAt none t.castSucc
    ∗ (∃ d, owns (c : Thread nD τ) (st0_0 t) fullShare ((dat0 xs ws fs O c).before 0 t d))
    ∗ (∃ d, owns (c : Thread nD τ) (st0_1 t) fullShare ((dat0 xs ws fs O c).before 1 t d))
    ∗ (∃ d, owns (c : Thread nD τ) (st0_2 t) fullShare ((dat0 xs ws fs O c).before 2 t d)))

def bodyPost0 (c : Dev nD) (t : Fin cfg0.N) : sProp (𝕄 F) :=
  iprop((dat0 xs ws fs O c).Φ t.succ ∗ (dat0 xs ws fs O c).owesAt none t.succ
    ∗ owns (c : Thread nD τ) (st0_0 t) fullShare ((dat0 xs ws fs O c).after 0 t)
    ∗ owns (c : Thread nD τ) (st0_1 t) fullShare ((dat0 xs ws fs O c).after 1 t)
    ∗ owns (c : Thread nD τ) (st0_2 t) fullShare ((dat0 xs ws fs O c).after 2 t))

theorem sound_body0 (c : Dev nD) (t : Fin cfg0.N) :
    bodyPre0 xs ws fs O c t ⊢ wp frame (wpE (defs₀ (F := F)) Variants.none c none) Set.univ (bodyAt0 t) (fun _ => bodyPost0 xs ws fs O c t) := by
  unfold bodyPre0 bodyPost0 bodyAt0
  simp only [before0_0, before0_1]
  rw [show (dat0 xs ws fs O c).Φ t.succ = (dat0 xs ws fs O c).Φ t.castSucc from rfl,
    show (dat0 xs ws fs O c).owesAt none t.succ = (dat0 xs ws fs O c).owesAt none t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (blkX xs c t) (blkW ws c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) xs ws fs O c) (defs₀ (F := F)) Variants.none (none : HIx 1) Set.univ := fun t => by
  rw [bigSep_W0, bigSep_W0]
  exact sound_body0 xs ws fs O c t

/-! ## The operand arrays are never written -/

theorem arrAt_x (c : Dev nD) : (dat0 xs ws fs O c).arrAt 0 cfg0.N = xs c :=
  funext fun i => ((dat0 xs ws fs O c).arrAt_apply_of_forall_not_mem 0 cfg0.N i fun t _ hf _ => by
    rw [show (cfg0.win 0).flush t = false from rfl] at hf; exact absurd hf Bool.false_ne_true).trans (congrFun (A_eq0 xs ws fs O c) i)

theorem arrAt_w (c : Dev nD) : (dat0 xs ws fs O c).arrAt 1 cfg0.N = ws c :=
  funext fun i => ((dat0 xs ws fs O c).arrAt_apply_of_forall_not_mem 1 cfg0.N i fun t _ hf _ => by
    rw [show (cfg0.win 1).flush t = false from rfl] at hf; exact absurd hf Bool.false_ne_true).trans (congrFun (A_eq1 xs ws fs O c) i)

/-! ## The result array as one function of the two operands -/

theorem off_zero2 : (![0, 0] : Fin 2 → Nat) = fun _ => 0 := funext fun a => by fin_cases a <;> rfl

/-- The 2000 rows of block `q` of the features. -/
def rowsOf (x : FVec F S10000x256 .f32) (q : ℕ) : FVec F S2000x256 .f32 :=
  fun y => x (ix2 (⟨min (2000 * q + (y 0).val) 9999, by omega⟩ : Fin 10000) (⟨(y 1).val, (y 1).isLt⟩ : Fin 256))

/-- The product `x · w12` as the call computes it: row `r` lies in block `r / 2000`, and is row `r % 2000` of that block's
    product with `w12` into a zero accumulator. -/
def nodeVal (x : FVec F S10000x256 .f32) (w12 : FVec F S256x2 .f32) : FVec F S10000x2 .f32 :=
  fun i => k0_pay1 (rowsOf x ((i 0).val / 2000)) w12
    (ix2 (⟨(i 0).val % 2000, Nat.mod_lt _ (by decide)⟩ : Fin 2000) (⟨(i 1).val, (i 1).isLt⟩ : Fin 2))

/-- The printed index maps over the grid: the features' and the result's blocks move with the point, the weights' stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 5 :=
  (by decide +kernel : ∀ t : Fin grid0.N, _)

/-- What point `t` writes back is block `t` of `nodeVal` of the operands as the region finds them. -/
theorem flushed0_eq (c : Dev nD) (t : Fin cfg0.N) :
    (dat0 xs ws fs O c).flushed 2 t = ((cfg0.win 2).blk t).view.read (Elt F) (nodeVal (xs c) (ws c)) := by
  show (cfg0.win 2).cut (grid0.coords t) ((dat0 xs ws fs O c).after 2 t) = _
  rw [after0_2]
  unfold outBlk
  rw [View.canon_unit_zero off_zero2]
  simp only [View.ld_unit_zero (S := S2000x256) off_zero2, View.ld_unit_zero (S := S256x2) off_zero2]
  obtain ⟨e0, e1, e2, e3, e4, e5, e6⟩ := idx_facts0 t
  funext j
  have hj0 : (j 0).val < 2000 := (j 0).isLt
  have hj1 : (j 1).val < 2 := (j 1).isLt
  have hi0 : ((((cfg0.win 2).blk t).view.emb j) 0).val = t.val * 2000 + (j 0).val := by
    show win0_2.index t (0 : Fin 2) * 2000 + 1 * (j 0).val = _; rw [e4]; omega
  have hi1 : ((((cfg0.win 2).blk t).view.emb j) 1).val = (j 1).val := by
    show win0_2.index t (1 : Fin 2) * 2 + 1 * (j 1).val = _; rw [e5]; omega
  show k0_pay1 (blkX xs c t) (blkW ws c t) j = nodeVal (xs c) (ws c) (((cfg0.win 2).blk t).view.emb j)
  unfold nodeVal
  have hX : blkX xs c t = rowsOf (xs c) (((((cfg0.win 2).blk t).view.emb j) 0).val / 2000) := by
    funext y
    have hy0 : (y 0).val < 2000 := (y 0).isLt
    have hy1 : (y 1).val < 256 := (y 1).isLt
    show xs c (((cfg0.win 0).blk t).view.emb y) = xs c (ix2 _ _)
    congr 1
    funext a; apply Fin.ext
    match a with
    | ⟨0, _⟩ =>
      show win0_0.index t (0 : Fin 2) * 2000 + 1 * (y 0).val = min (2000 * (((((cfg0.win 2).blk t).view.emb j) 0).val / 2000) + (y 0).val) 9999
      rw [hi0, e0]; omega
    | ⟨1, _⟩ => show win0_0.index t (1 : Fin 2) * 256 + 1 * (y 1).val = (y 1).val; rw [e1]; omega
  have hW : blkW ws c t = ws c := by
    funext y
    show ws c (((cfg0.win 1).blk t).view.emb y) = ws c y
    congr 1
    funext a; apply Fin.ext
    match a with
    | ⟨0, _⟩ => show win0_1.index t (0 : Fin 2) * 256 + 1 * (y 0).val = (y 0).val; rw [e2]; omega
    | ⟨1, _⟩ => show win0_1.index t (1 : Fin 2) * 2 + 1 * (y 1).val = (y 1).val; rw [e3]; omega
  rw [hX, hW]
  congr 1
  funext a; apply Fin.ext
  match a with
  | ⟨0, _⟩ => show (j 0).val = ((((cfg0.win 2).blk t).view.emb j) 0).val % 2000; rw [hi0]; omega
  | ⟨1, _⟩ => show (j 1).val = ((((cfg0.win 2).blk t).view.emb j) 1).val; rw [hi1]

/-- An index of the result is in point `t`'s block iff each coordinate is in the block's range on its axis. -/
theorem mem_blk0 (t : Fin cfg0.N) (i : S10000x2.Idx) :
    i ∈ ((cfg0.win 2).blk t).view.set ↔ ∀ a : Fin 2, win0_2.index t a * S2000x2.size a ≤ (i a).val ∧ (i a).val < win0_2.index t a * S2000x2.size a + S2000x2.size a := by
  show i ∈ ((View.whole main_v9).slice (win0_2.rect t)).set ↔ _
  rw [View.set_slice_whole, Rect.mem_set_unit]
  exact Iff.rfl

/-- Row `r` of the result is written back by point `r / 2000`. -/
theorem cover0 (i : S10000x2.Idx) : ∃ t : Fin cfg0.N, (cfg0.win 2).flush t = true ∧ i ∈ ((cfg0.win 2).blk t).view.set := by
  have hi0 : (i 0).val < 10000 := (i 0).isLt
  have hi1 : (i 1).val < 2 := (i 1).isLt
  refine ⟨⟨(i 0).val / 2000, by rw [show cfg0.N = 5 from N_0]; omega⟩, flush0_2 _, ?_⟩
  obtain ⟨e0, e1, e2, e3, e4, e5, e6⟩ := idx_facts0 ⟨(i 0).val / 2000, by rw [show cfg0.N = 5 from N_0]; omega⟩
  rw [mem_blk0]
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 2 ≤ (i 1).val ∧ (i 1).val < win0_2.index _ (1 : Fin 2) * 2 + 2
    rw [e5]; omega

/-- THE RESULT after the last write-back: `nodeVal` of the operands. -/
theorem final0 (c : Dev nD) : (dat0 xs ws fs O c).arrAt 2 cfg0.N = nodeVal (xs c) (ws c) :=
  (dat0 xs ws fs O c).arrAt_eq_of_cover 2 (nodeVal (xs c) (ws c)) (fun t _ => flushed0_eq xs ws fs O c t) cover0

/-! ## The region -/

/-- The other pipeline's entry of the proof data family: never read while pipeline 0 runs. -/
def datIdle (p : Fin 2) (c : Dev nD) : Dat τ (Elt F) (HIx 1) ℕ UU ℕ (Pipeline.pin (pcfgs (F := F)) adm p) c where
  A w := Classical.arbitrary _
  after w t := Classical.arbitrary _
  Φ _ := BI.emp
  q _ := fullShare
  owed _ := 0

/-- The proof data family as the region's theorem takes it: pipeline 0's entry is `dat0`. -/
def pdats0 : (p : Fin 2) → (c : Dev nD) → Dat τ (Elt F) (HIx 1) ℕ UU ℕ (Pipeline.pin (pcfgs (F := F)) adm p) c
  | ⟨0, _⟩ => fun c => dat0 xs ws fs O c
  | ⟨1, _⟩ => fun c => datIdle 1 c

/-- What the TensorCore holds of the call's three arrays, and its debts, when it enters the call, -/
def pre0 (c : Dev nD) : sProp (𝕄 F) :=
  iprop(((𝕥 c).loc main_arg0 ↦{fullShare} xs c) ∗ ((𝕥 c).loc main_v6 ↦{fullShare} ws c) ∗ ((𝕥 c).loc main_v9 ↦{fullShare} fs c)
    ∗ ∃ W, ⌜(K (F := F)).WBelow (𝕥 c) W 0⌝ ∗ owes (𝕥 c) O W)

/-- and when it leaves it: each array after every write-back. -/
def post0 (c : Dev nD) : sProp (𝕄 F) :=
  iprop(((𝕥 c).loc main_arg0 ↦{fullShare} (dat0 xs ws fs O c).arrAt 0 cfg0.N) ∗ ((𝕥 c).loc main_v6 ↦{fullShare} (dat0 xs ws fs O c).arrAt 1 cfg0.N)
    ∗ ((𝕥 c).loc main_v9 ↦{fullShare} (dat0 xs ws fs O c).arrAt 2 cfg0.N) ∗ ∃ W, ⌜(K (F := F)).WBelow (𝕥 c) W 0⌝ ∗ owes (𝕥 c) O W)

/-- The operands are as they were. -/
theorem post0_eq (c : Dev nD) : post0 xs ws fs O c =
    iprop(((𝕥 c).loc main_arg0 ↦{fullShare} xs c) ∗ ((𝕥 c).loc main_v6 ↦{fullShare} ws c)
      ∗ ((𝕥 c).loc main_v9 ↦{fullShare} (dat0 xs ws fs O c).arrAt 2 cfg0.N) ∗ ∃ W, ⌜(K (F := F)).WBelow (𝕥 c) W 0⌝ ∗ owes (𝕥 c) O W) := by
  unfold post0; rw [arrAt_x, arrAt_w]

set_option backward.isDefEq.respectTransparency.types false in
/-- The call as a region of the host program: its arrays enter the pipeline's invariant and come back after the last
    write-back; the scoped buffers no window stages are the invariant; the TensorCore's debts ride through unchanged,
    every wait of the pipeline sitting below them. -/
def reg0 (hO : ∀ g, O g none = 0) :
    Pipeline.RegionSeg (pcfgs (F := F)) adm (pdats0 xs ws fs O) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 xs ws fs O c).loose
  hwaits c := Pipeline.cellsWaits_intro (Pipeline.pin (pcfgs (F := F)) adm) (pdats0 xs ws fs O) (none : HIx 1) 0 c
    fun w s t => (K (F := F)).mayWait_none _ hO
  pre := pre0 xs ws fs O
  post := post0 xs ws fs O
  X _ := BI.emp
  Y _ := BI.emp
  Z _ := BI.emp
  hentry c := by
    rw [Pipeline.ownSems0_none, Pipeline.arrays_eq (Pipeline.pin (pcfgs (F := F)) adm) (pdats0 xs ws fs O) 0 c launch0.arr_whole
      (fun w => Pipeline.Dat.share_full _ (fun _ => rfl) w), bigSep_W0]
    unfold pre0
    iintro ⟨⟨Hx, Hw, Hf, HO⟩, -, -⟩
    imodintro
    isplitl [Hx Hw Hf]
    · isplitl [Hx]; · iexact Hx
      isplitl [Hw]; · iexact Hw
      iexact Hf
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats0 xs ws fs O 0 c).Φ 0 = Pipeline.scopedRest spec0 c from rfl]
    iintro ⟨-, -, Hr⟩; iexact Hr
  hout c := by
    rw [Pipeline.ownSems0_none, show (pdats0 xs ws fs O 0 c).Φ (Fin.last _) = Pipeline.scopedRest spec0 c from rfl]
    iintro Hr
    isplitr; · iempintro
    isplitr; · iempintro
    iexact Hr
  hexit c := by
    rw [Pipeline.arrays_eq (Pipeline.pin (pcfgs (F := F)) adm) (pdats0 xs ws fs O) 0 c launch0.arr_whole
      (fun w => Pipeline.Dat.share_full _ (fun _ => rfl) w), bigSep_W0]
    unfold post0
    iintro ⟨⟨Hx, Hw, Hf⟩, HO, -, -⟩
    imodintro
    isplitl [Hx]; · iexact Hx
    isplitl [Hw]; · iexact Hw
    isplitl [Hf]; · iexact Hf
    unfold Pipeline.Dat.owesAt Pipeline.owesWithin
    icases HO with ⟨%W, %hW, HO⟩; iexists W
    isplitr
    · ipureintro
      intro p hp
      rcases hW hp with h | ⟨w, s, rfl⟩
      · exact h
      · exact le_rfl
    iexact HO

set_option backward.isDefEq.respectTransparency.types false in
/-- THE STEP, over contents named on every device: from the level facts, the boundary, pipeline 0's ghost cells and
    duty tokens and the region's entry state, the call runs to the boundary and the exit state for the continuation. -/
theorem wp_region0_fam (hO : ∀ g, O g none = 0) (d : Dev nD) {α : Type}
    (k : PUnit → Prog (TpuEff nD τ sig (Elt F) (SparseCore.Sig (ΛP (F := F)) 1) .tc) α) (Φ : α → sProp (𝕄 F)) :
    iprop(levAts (K (F := F)).L (K (F := F)).lev ∗ boundary (𝕥 d)
        ∗ Pipeline.cellsGhost (Pipeline.pin (pcfgs (F := F)) adm) EP 0 d ∗ Pipeline.toksInit (Pipeline.pin (pcfgs (F := F)) adm) EP 0 d
        ∗ pre0 xs ws fs O d
        ∗ (iprop(boundary (𝕥 d) ∗ post0 xs ws fs O d) -∗ wp frame (wpE ((K (F := F)).defs D) 𝒱 (𝕥 d) none) Set.univ (k ⟨⟩) Φ))
      ⊢ wp frame (wpE ((K (F := F)).defs D) 𝒱 (𝕥 d) none) Set.univ (.op (.customCall (SparseCore.inner (Pipeline.entry 0)) ()) k) Φ := by
  have hR := Pipeline.RegionSeg.wp (pcfgs (F := F)) adm (pdats0 xs ws fs O) (none : HIx 1) cellOf_inj EP defs₀ 𝒱₀ (K (F := F)).L (K (F := F)).lev
    (reg0 xs ws fs O hO) d none (fun u hu => by cases hu) (fun r => .ret r)
    (fun r => wp frame (wpE ((K (F := F)).defs D) 𝒱 (𝕥 d) none) Set.univ (k r) Φ)
  simp only [wp_ret] at hR
  rw [show (reg0 xs ws fs O hO).pre d = pre0 xs ws fs O d from rfl, show (reg0 xs ws fs O hO).post d = post0 xs ws fs O d from rfl] at hR
  have hL := (K (F := F)).wp_liftProg D 𝒱 (𝕥 d) (Set.univ : Set ℕ) none
    (.op (.customCall (Pipeline.entry 0) ()) fun r => .ret r) (fun r => wp frame (wpE ((K (F := F)).defs D) 𝒱 (𝕥 d) none) Set.univ (k r) Φ)
  rw [show (Prog.op (TpuEff.customCall (SparseCore.inner (Pipeline.entry 0)) ()) k : Prog (TpuEff nD τ sig (Elt F) (SparseCore.Sig (ΛP (F := F)) 1) .tc) α)
      = (SparseCore.liftProg (Q := 1) (Prog.op (TpuEff.customCall (Pipeline.entry 0) ()) fun r => Prog.ret r) >>= k) from rfl, wp_bind]
  refine BIBase.Entails.trans ?_ hL
  refine BIBase.Entails.trans ?_ hR
  iintro ⟨HL, Hb, Hg, Ht, Hpre, Hk⟩
  isplitl [Hk]
  · iintro Hbp; imodintro; iapply Hk; iexact Hbp
  isplitl [Hb]; · iexact Hb
  isplitl [Hpre]; · iexact Hpre
  isplitl [HL]; · iexact HL
  isplitl [Hg]; · iexact Hg
  iexact Ht

end Region0

/-! ## The result at the ideal values -/

/-- At the ideal values the result at (r, q) is the inner product of row `r` of the features with column `q` of the weights. -/
theorem nodeVal_apply_ideal (x : FVec Ideal S10000x256 .f32) (w12 : FVec Ideal S256x2 .f32) (r : Fin 10000) (q : Fin 2) :
    nodeVal (F := Ideal) x w12 (ix2 r q) = ∑ k : Fin 256, x (ix2 r k) * w12 (ix2 k q) := by
  unfold nodeVal k0_pay1
  rw [shapeCast_self]
  refine (Cert.Lib.matmul2_zero_apply dot_S2000x256_S256x2_S2000x2_1_0_0_1_n_n_wf (rowsOf x (r.val / 2000)) w12
    (⟨r.val % 2000, Nat.mod_lt _ (by decide)⟩ : Fin 2000) q).trans ?_
  refine Finset.sum_congr rfl fun k _ => ?_
  have hr : r.val < 10000 := r.isLt
  have hx : rowsOf x (r.val / 2000) (ix2 (⟨r.val % 2000, Nat.mod_lt _ (by decide)⟩ : Fin 2000) k) = x (ix2 r k) := by
    show x (ix2 _ _) = x (ix2 r k)
    congr 1
    funext a; apply Fin.ext
    match a with
    | ⟨0, _⟩ => show min (2000 * (r.val / 2000) + r.val % 2000) 9999 = r.val; omega
    | ⟨1, _⟩ => rfl
  rw [hx]

/-! ## The step at one device -/

/-- Contents named at one device, on every device: there is one. -/
def onAll {β : Dev nD → Type} (d : Dev nD) (x : β d) : (c : Dev nD) → β c := fun c => (Subsingleton.elim d c) ▸ x
theorem onAll_self {β : Dev nD → Type} (d : Dev nD) (x : β d) : onAll d x d = x := rfl

/-- THE STEP. On device `d`'s TensorCore, holding the node features at `x`, the two-column weight matrix at `w12`, the result
    array at anything, and owing its SparseCores tallies `O` none of which is at the index the pipeline waits at: the first
    pipelined call runs to the same holdings with the result array at `nodeVal x w12`. -/
theorem wp_region0 (d : Dev nD) (x : Buf (Elt F) ((𝕥 d).loc main_arg0)) (w12 : Buf (Elt F) ((𝕥 d).loc main_v6))
    (O : CellTallies nD τ sig (HIx 1)) (hO : ∀ g, O g none = 0) {α : Type}
    (k : PUnit → Prog (TpuEff nD τ sig (Elt F) (SparseCore.Sig (ΛP (F := F)) 1) .tc) α) (Φ : α → sProp (𝕄 F)) :
    iprop(levAts (K (F := F)).L (K (F := F)).lev ∗ boundary (𝕥 d)
        ∗ Pipeline.cellsGhost (Pipeline.pin (pcfgs (F := F)) adm) EP 0 d ∗ Pipeline.toksInit (Pipeline.pin (pcfgs (F := F)) adm) EP 0 d
        ∗ ((𝕥 d).loc main_arg0 ↦{fullShare} x) ∗ ((𝕥 d).loc main_v6 ↦{fullShare} w12) ∗ (∃ f, ((𝕥 d).loc main_v9 ↦{fullShare} f))
        ∗ (∃ W, ⌜(K (F := F)).WBelow (𝕥 d) W 0⌝ ∗ owes (𝕥 d) O W)
        ∗ (iprop(boundary (𝕥 d) ∗ ((𝕥 d).loc main_arg0 ↦{fullShare} x) ∗ ((𝕥 d).loc main_v6 ↦{fullShare} w12)
              ∗ ((𝕥 d).loc main_v9 ↦{fullShare} nodeVal x w12) ∗ (∃ W, ⌜(K (F := F)).WBelow (𝕥 d) W 0⌝ ∗ owes (𝕥 d) O W))
            -∗ wp frame (wpE ((K (F := F)).defs D) 𝒱 (𝕥 d) none) Set.univ (k ⟨⟩) Φ))
      ⊢ wp frame (wpE ((K (F := F)).defs D) 𝒱 (𝕥 d) none) Set.univ (.op (.customCall (SparseCore.inner (Pipeline.entry 0)) ()) k) Φ := by
  iintro ⟨HL, Hb, Hg, Ht, Hx, Hw, ⟨%f, Hf⟩, HO, Hk⟩
  have h := wp_region0_fam (onAll d x) (onAll d w12) (onAll d f) O hO d k Φ
  rw [post0_eq, final0] at h
  unfold pre0 at h
  simp only [onAll_self] at h
  iapply h
  isplitl [HL]; · iexact HL
  isplitl [Hb]; · iexact Hb
  isplitl [Hg]; · iexact Hg
  isplitl [Ht]; · iexact Ht
  isplitl [Hx Hw Hf HO]
  · isplitl [Hx]; · iexact Hx
    isplitl [Hw]; · iexact Hw
    isplitl [Hf]; · iexact Hf
    iexact HO
  iexact Hk

end Cert.Kernel.Regions

end
-- ==== Proof.HuB.lean ====
/-
  The ghost state the program is launched with, dealt to the threads.

  Three parts: the start / done handshakes' rounds; for every vector subcore the kits of its five copy-completion
  counters (one round, one duty each); and the two pipelines' staging counters' rounds with their duty tokens, which the
  TensorCore takes into the two pipelined calls.
-/
import proofs.«207961_g9620726743389_cont_9to1c4b_395_8_alg».proof.Proof.ValsB
import proofs.«207961_g9620726743389_cont_9to1c4b_395_8_alg».proof.Proof.Region0B

noncomputable section

namespace Cert.Kernel.Launch

open Cert.Kernel Cert.Kernel.Gen Cert.Kernel.Common Cert.Kernel.Tile Cert.Kernel.Split
open Cert.Kernel.Regions (adm)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (X : Ins F) (out0 : (d : Dev nD) → Buf (Elt F) (outLoc d))

/-! ## The cells -/

/-- One semaphore of every vector subcore. -/
def fam (sm : SemLoc sig) : Finset (GSem nD τ sig) :=
  Finset.univ.image fun dci : Dev nD × Fin τ.nSC × Fin τ.nSub => ((V dci.1 dci.2.1 dci.2.2, sm) : GSem nD τ sig)

theorem fam_disjoint {sm sm' : SemLoc sig} (h : sm ≠ sm') : Disjoint (fam sm) (fam sm') := by
  refine Finset.disjoint_left.mpr fun g h1 h2 => ?_
  obtain ⟨a, -, rfl⟩ := Finset.mem_image.mp h1
  obtain ⟨b, -, e⟩ := Finset.mem_image.mp h2
  exact h (Prod.mk.inj e).2.symm

theorem inj3 (sm : SemLoc sig) :
    Set.InjOn (fun dci : Dev nD × Fin τ.nSC × Fin τ.nSub => ((V dci.1 dci.2.1 dci.2.2, sm) : GSem nD τ sig)) ((Finset.univ : Finset (Dev nD × Fin τ.nSC × Fin τ.nSub)) : Set _) := by
  intro a _ b _ e
  obtain ⟨h1, h2⟩ := Prod.mk.inj (Prod.mk.inj e).1; obtain ⟨h3, h4⟩ := Proc.scVector.inj h2
  exact Prod.ext h1 (Prod.ext h3 h4)

/-- The vector subcores' copy-completion counters, all of them, -/
def kCells : Finset (GSem nD τ sig) :=
  (((fam (.dma cc2_scoped0.sem) ∪ fam (.dma cc2_scoped1.sem)) ∪ fam (.dma cc2_scoped2.sem)) ∪ fam (.dma cc2_scoped3.sem)) ∪ fam (.dma cc2_scoped4.sem)
/-- each with its one duty at round 0. -/
def kToks : Finset (GSem nD τ sig × ℕ × Unit) := kCells.map ⟨fun g => (g, 0, ()), fun _ _ e => (Prod.mk.inj e).1⟩

/-- The pipelines' staging counters and their launch tokens. -/
abbrev pCells : Finset (GSem nD τ sig) := Pipeline.cells (nD := nD) (τ := τ) (Pipeline.pin (pcfgs (F := F)) adm) cellOf_inj
abbrev pToks : Finset (GSem nD τ sig × ℕ × Unit) := Pipeline.launchToks (nD := nD) (τ := τ) (Pipeline.pin (pcfgs (F := F)) adm) cellOf_inj

/-- The launch element. -/
def u₀ : UU := (initOf (K (F := F)).hsCells (K (F := F)).hsToks, (initOf kCells kToks, initOf (pCells (F := F)) (pToks (F := F))))

omit [FloatOps F] in
theorem ownU_split (a : UH) (b : UK) (c : UP) :
    (ownU (a, (b, c)) : sProp (𝕄 F)) ⊢ iprop(BI.own (EH a) ∗ BI.own (EK b) ∗ BI.own (EP c)) := by
  have h1 : (ownU (a, (b, c)) : sProp (𝕄 F))
      ⊢ iprop(BI.own (EH a) ∗ BI.own ((uEmb (nD := nD) (sig := sig) (Ix := HIx 1) (Val := Elt F) (Name := ℕ) (U := UU) (Lvl := ℕ)).toEmb ((1 : UH), (b, c)))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, c))))
  have h2 : (BI.own ((uEmb (nD := nD) (sig := sig) (Ix := HIx 1) (Val := Elt F) (Name := ℕ) (U := UU) (Lvl := ℕ)).toEmb ((1 : UH), (b, c))) : sProp (𝕄 F))
      ⊢ iprop(BI.own (EK b) ∗ BI.own (EP c)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op c))))
  iintro H
  ihave H' := (h1) $$ H
  icases H' with ⟨HA, HB⟩
  ihave H'' := (h2) $$ HB
  icases H'' with ⟨HB, HC⟩
  isplitl [HA]; · iexact HA
  isplitl [HB]; · iexact HB
  iexact HC

/-! ## The vector subcores' kits -/

omit [FloatOps F] in
theorem toks_eq : (bigSep kToks fun x => (dutyTok EK x.1 x.2.1 x.2.2 : sProp (𝕄 F))) = bigSep kCells fun g => dutyTok EK g 0 () := by
  unfold kToks; rw [bigSep_map]; rfl

theorem kits_intro : (BI.own (EK (initOf kCells kToks)) : sProp (𝕄 F)) ⊢ iprop(|==> bigSep kCells (kit X)) := by
  iintro H
  imod (Rounds.fund EK (kRd X) kCells kToks) $$ H with ⟨Hst, Hr, Hat, Htok⟩
  ihave Htok' := (Entails.of_eq (toks_eq (F := F))) $$ Htok
  imodintro
  unfold kit
  rw [bigSep_sep', bigSep_sep', bigSep_sep']
  isplitl [Hst]; · iexact Hst
  isplitl [Hat]; · iexact Hat
  isplitl [Hr]; · iexact Hr
  iexact Htok'

omit [FloatOps F] in
theorem bigSep_emp' {I : Type} (s : Finset I) : (bigSep s fun _ => iprop(emp)) = (iprop(emp) : sProp (𝕄 F)) := bigSep_emp_const s

theorem Px_T (d : Dev nD) : (bigSep Finset.univ fun q : Fin 1 => (P X out0).x q (SparseCore.T d)) = iprop(emp) :=
  bigSep_univ_of_subsingleton (0 : Fin 1)
theorem Px_S (d : Dev nD) (c : Fin τ.nSC) : (bigSep Finset.univ fun q : Fin 1 => (P X out0).x q (S d c)) = iprop(emp) :=
  bigSep_univ_of_subsingleton (0 : Fin 1)
theorem Px_V (d : Dev nD) (c : Fin τ.nSC) (i : Fin τ.nSub) :
    (bigSep Finset.univ fun q : Fin 1 => (P X out0).x q (V d c i))
      = iprop(kit X (c0cell d c i) ∗ kit X (c1cell d c i) ∗ kit X (c2cell d c i) ∗ kit X (c3cell d c i) ∗ kit X (c4cell d c i)) :=
  bigSep_univ_of_subsingleton (0 : Fin 1)

theorem kits_deal : (bigSep kCells (kit (F := F) X) : sProp (𝕄 F))
    ⊢ bigSep Finset.univ fun thr : Thread nD τ => bigSep Finset.univ fun q : Fin 1 => (P X out0).x q thr := by
  rw [SparseCore.Cfg.bigSep_threads (fun thr : Thread nD τ => bigSep Finset.univ fun q : Fin 1 => (P X out0).x q thr)]
  simp only [Px_T, Px_S, Px_V, bigSep_emp']
  unfold kCells
  rw [SparseCore.bigSep_union' (Finset.disjoint_union_left.mpr ⟨Finset.disjoint_union_left.mpr ⟨Finset.disjoint_union_left.mpr
        ⟨fam_disjoint sem40.symm, fam_disjoint sem41.symm⟩, fam_disjoint sem42.symm⟩, fam_disjoint sem43.symm⟩),
    SparseCore.bigSep_union' (Finset.disjoint_union_left.mpr ⟨Finset.disjoint_union_left.mpr
        ⟨fam_disjoint sem30.symm, fam_disjoint sem31.symm⟩, fam_disjoint sem32.symm⟩),
    SparseCore.bigSep_union' (Finset.disjoint_union_left.mpr ⟨fam_disjoint sem20.symm, fam_disjoint sem21.symm⟩),
    SparseCore.bigSep_union' (fam_disjoint sem10.symm)]
  unfold fam
  rw [SparseCore.bigSep_image_of_injOn (inj3 _) (kit X), SparseCore.bigSep_image_of_injOn (inj3 _) (kit X),
    SparseCore.bigSep_image_of_injOn (inj3 _) (kit X), SparseCore.bigSep_image_of_injOn (inj3 _) (kit X),
    SparseCore.bigSep_image_of_injOn (inj3 _) (kit X)]
  rw [bigSep_sep' (Finset.univ : Finset (Dev nD × Fin τ.nSC × Fin τ.nSub)), bigSep_sep' (Finset.univ : Finset (Dev nD × Fin τ.nSC × Fin τ.nSub)),
    bigSep_sep' (Finset.univ : Finset (Dev nD × Fin τ.nSC × Fin τ.nSub)), bigSep_sep' (Finset.univ : Finset (Dev nD × Fin τ.nSC × Fin τ.nSub))]
  iintro ⟨⟨⟨⟨H0, H1⟩, H2⟩, H3⟩, H4⟩
  isplitr; · iempintro
  isplitr; · iempintro
  isplitl [H0]; · iexact H0
  isplitl [H1]; · iexact H1
  isplitl [H2]; · iexact H2
  isplitl [H3]; · iexact H3
  iexact H4

/-! ## The pipelines' ghost state, and the launch element dealt -/

/-- What the TensorCore of `d` starts from besides its arrays: the two pipelines' cells' ghost state and duty tokens. -/
def G (d : Dev nD) : sProp (𝕄 F) :=
  iprop((bigSep Finset.univ fun p : Fin 2 => Pipeline.cellsGhost (nD := nD) (τ := τ) (Pipeline.pin (pcfgs (F := F)) adm) EP p d)
    ∗ bigSep Finset.univ fun p : Fin 2 => (Pipeline.toksInit (nD := nD) (τ := τ) (Pipeline.pin (pcfgs (F := F)) adm) EP p d : sProp (𝕄 F)))

theorem hu₀ : (ownU (u₀ (F := F)) : sProp (𝕄 F))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P X out0).x q thr) := by
  unfold u₀
  iintro Hu
  ihave H := (ownU_split _ _ _) $$ Hu
  icases H with ⟨HH, HK, HP⟩
  imod (kits_intro X) $$ HK with Hkits
  imod (Pipeline.fund_ghost (nD := nD) (τ := τ) (Pipeline.pin (pcfgs (F := F)) adm) EP cellOf_inj) $$ HP with ⟨Hcg, Htk⟩
  imodintro
  isplitl [HH]; · iexact HH
  isplitl [Hcg Htk]
  · unfold G; rw [bigSep_sep']
    isplitl [Hcg]; · iexact Hcg
    iexact Htk
  iapply (kits_deal X out0); iexact Hkits

end Cert.Kernel.Launch

end
-- ==== Proof.HeldB.lean ====
/-
  Buffers held together: one taken out, put back changed, and all of them read off a final memory.
-/
import proofs.«207961_g9620726743389_cont_9to1c4b_395_8_alg».proof.Proof.HostB

noncomputable section

namespace Cert.Kernel.Held

open Cert.Kernel Cert.Kernel.Common
open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem

variable {F : FTy → Type}

/-- One buffer of a held set, and the rest. -/
theorem held_take (c : Thread nD τ) {S : Finset (DevRef τ sig)} {b : DevRef τ sig} (hb : b ∈ S) (V : Valuation τ sig (Elt F)) :
    (held c S V : sProp (𝕄 F)) = iprop((((c.1, b) : Loc nD τ sig) ↦{fullShare} V b) ∗ held c (S.erase b) V) := by
  unfold held; exact bigSep_erase hb

/-- The rest does not see the buffer's contents. -/
theorem held_erase_update (c : Thread nD τ) (S : Finset (DevRef τ sig)) (b : DevRef τ sig) (V : Valuation τ sig (Elt F)) (v : b.ty.Contents (Elt F)) :
    (held c (S.erase b) (Function.update V b v) : sProp (𝕄 F)) = held c (S.erase b) V :=
  held_congr c fun b' hb' => Function.update_of_ne (Finset.ne_of_mem_erase hb') _ _

/-- A buffer put back at new contents: the set held at the table with that entry replaced. -/
theorem held_put (c : Thread nD τ) {S : Finset (DevRef τ sig)} {b : DevRef τ sig} (hb : b ∈ S) (V : Valuation τ sig (Elt F)) (v : b.ty.Contents (Elt F)) :
    (iprop((((c.1, b) : Loc nD τ sig) ↦{fullShare} v) ∗ held c (S.erase b) V) : sProp (𝕄 F)) = held c S (Function.update V b v) := by
  rw [held_take c hb (Function.update V b v), held_erase_update, Function.update_self]

/-- Held buffers agree with the memory of any state they are held beside. -/
theorem held_agree (c : Thread nD τ) (V : Valuation τ sig (Elt F)) (s' : Phys nD τ sig (Elt F)) :
    ∀ (S : Finset (DevRef τ sig)), iprop((held c S V : sProp (𝕄 F)) ∗ SI s') ⊢ (⌜∀ b ∈ S, s'.mem.mem ((c.1, b) : Loc nD τ sig) = V b⌝ : sProp (𝕄 F)) := by
  intro S
  induction S using Finset.induction_on with
  | empty => iintro -; ipureintro; intro b hb; exact absurd hb (Finset.notMem_empty b)
  | insert b S hb ih =>
    have e : (held c (insert b S) V : sProp (𝕄 F)) = iprop((((c.1, b) : Loc nD τ sig) ↦{fullShare} V b) ∗ held c S V) := by
      unfold held; exact bigSep_insert hb
    rw [e]
    iintro ⟨⟨Hb, HS⟩, HSI⟩
    ihave H := (persistent_entails_right (SI_pointsTo_agree (st := s') (ℓ := ((c.1, b) : Loc nD τ sig)) (I := Finset.univ) (q := fullShare) (f := V b))) $$ [HSI Hb]
    · isplitl [HSI] <;> iassumption
    icases H with ⟨%h1, HSI, -⟩
    ihave H2 := ih $$ [HS HSI]
    · isplitl [HS] <;> iassumption
    icases H2 with %h2
    ipureintro
    intro b' hb'
    rcases Finset.mem_insert.mp hb' with rfl | hb'
    · exact funext fun i => h1 i (Finset.mem_univ i)
    · exact h2 b' hb'

end Cert.Kernel.Held

end
-- ==== Proof.RunB.lean ====
/-
  The kernel program's run, from its parts.

  Every weakly fair execution of the device's thirty-five threads from a memory with all counters at zero terminates,
  nothing faulting, with every array of the host program at the table of contents computed from the launch memory: in
  particular the result at its last entry of that table, and the five arguments as they were. What is used: each vector
  subcore's task (from one run of the body), the sequencers' pass-through, the launch's ghost state dealt, and the
  TensorCore's walk through the host program.
-/
import proofs.«207961_g9620726743389_cont_9to1c4b_395_8_alg».proof.Proof.HuB
import proofs.«207961_g9620726743389_cont_9to1c4b_395_8_alg».proof.Proof.HeldB

noncomputable section

namespace Cert.Kernel.Launch

open Cert.Kernel Cert.Kernel.Gen Cert.Kernel.Common Cert.Kernel.Tile Cert.Kernel.Split
open Cert.Kernel.Vals Cert.Kernel.Host Cert.Kernel.Held

open Idealize.ShloMosaic Idealize.ShloMosaic.TcCoe
open Idealize.ShloMosaic.StableHlo (held)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (R : RegVals F) (m : (ℓ : Loc nD τ sig) → Buf (Elt F) ℓ) (ρ : Dev nD → PrngReg)

/-- What the TensorCore ends with: the host program's arrays at the last table of contents. -/
abbrev FIN (d : Dev nD) : sProp (𝕄 F) := held (SparseCore.T (τ := τ) d) SU (V7 R m d)

/-- What that says of a final memory. -/
def fq (d : Dev nD) (s' : Phys nD τ sig (Elt F)) : Prop := ∀ b ∈ SU, s'.mem.mem ((d, b) : Loc nD τ sig) = V7 R m d b

theorem hfin (d : Dev nD) (s' : Phys nD τ sig (Elt F)) : iprop(FIN R m d ∗ SI s') ⊢ (⌜fq R m d s'⌝ : sProp (𝕄 F)) :=
  held_agree (SparseCore.T (τ := τ) d) (V7 R m d) s' SU

/-- The TensorCore's walk through the host program: from what the launch deals it and the pipelines' ghost state, through
    the four stretches of array operations, the two pipelined calls and the kernel on the vector subcores, to every
    array at the last table of contents. -/
def HmainSpec : Prop := ∀ (κ : GSem nD τ sig → ℕ) (d : Dev nD),
    iprop((K (F := F)).ctx EH (P (Xof R m) (out0 R m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN R m d)

/-- The result at its entry of the last table, the five arguments as launched. -/
def QC : PUnit × MemSt nD τ sig (Elt F) → Prop := fun q => ∀ c : Dev nD,
  q.2.mem ((c.tc : Thread nD τ).loc main_v23) = V7 R m c (r main_v23)
    ∧ q.2.mem ((c.tc : Thread nD τ).loc main_arg0) = m ((c.tc : Thread nD τ).loc main_arg0)
    ∧ q.2.mem ((c.tc : Thread nD τ).loc main_arg1) = m ((c.tc : Thread nD τ).loc main_arg1)
    ∧ q.2.mem ((c.tc : Thread nD τ).loc main_arg2) = m ((c.tc : Thread nD τ).loc main_arg2)
    ∧ q.2.mem ((c.tc : Thread nD τ).loc main_arg3) = m ((c.tc : Thread nD τ).loc main_arg3)
    ∧ q.2.mem ((c.tc : Thread nD τ).loc main_arg4) = m ((c.tc : Thread nD τ).loc main_arg4)

/-- No operation and no call writes an argument. -/
def ArgsKept : Prop := ∀ d : Dev nD,
  V7 R m d (r main_arg0) = m (d, r main_arg0) ∧ V7 R m d (r main_arg1) = m (d, r main_arg1) ∧ V7 R m d (r main_arg2) = m (d, r main_arg2)
    ∧ V7 R m d (r main_arg3) = m (d, r main_arg3) ∧ V7 R m d (r main_arg4) = m (d, r main_arg4)

theorem run_kernel [∀ e, Nonempty (Elt F e)] (hbody : TileBodySpec (Xof R m))
    (hrow : ∀ d j, ((Xof R m).row d j : BitVec 32).toNat ≤ 9999) (hcol : ∀ d j, ((Xof R m).col d j : BitVec 32).toNat ≤ 9999)
    (hargs : ArgsKept R m) (hmain : HmainSpec R m ρ) :
    θ_run (Cert.Kernel.defs (F := F)) (Cert.Kernel.threads (F := F)) ⟨m, fun _ => 0, ρ⟩ (QC R m) :=
  SparseCore.Cfg.θ_run_sc (K := K (F := F)) (D := D (F := F)) (𝒱 := 𝒱) (EH := EH) (P := P (Xof R m) (out0 R m)) facts v₀
    (fun q hq => match q with | 0 => nomatch hq)
    (fun q _ => match q with | 0 => tileObl (Xof R m) (out0 R m) facts hbody hrow hcol)
    (fun q _ => match q with | 0 => SparseCore.Cfg.VecSplit.of_plain (vecSplit (Xof R m) (out0 R m)))
    m ρ main (fun d => G (F := F) d) (FIN R m) (u₀ (F := F)) (sep_elim_left.trans (hu₀ (Xof R m) (out0 R m))) hmain (fq R m) (hfin R m) (QC R m)
    (fun s' h c =>
      ⟨h c (r main_v23) (mem_SU main_v23 (by decide)),
       (h c (r main_arg0) (mem_SU main_arg0 (by decide))).trans (hargs c).1,
       (h c (r main_arg1) (mem_SU main_arg1 (by decide))).trans (hargs c).2.1,
       (h c (r main_arg2) (mem_SU main_arg2 (by decide))).trans (hargs c).2.2.1,
       (h c (r main_arg3) (mem_SU main_arg3 (by decide))).trans (hargs c).2.2.2.1,
       (h c (r main_arg4) (mem_SU main_arg4 (by decide))).trans (hargs c).2.2.2.2⟩)

end Cert.Kernel.Launch

end
-- ==== Proof.MainB.lean ====
/-
  The TensorCore's walk through the host program, step by step.

  Each of the two pipelined calls is met holding all the host program's arrays together: the call's operand and result
  arrays are taken out, the call runs on them, and they are put back with the result arrays at what the call computes.
-/
import proofs.«207961_g9620726743389_cont_9to1c4b_395_8_alg».proof.Proof.RunB

noncomputable section

namespace Cert.Kernel.Launch

open Cert.Kernel Cert.Kernel.Gen Cert.Kernel.Common Cert.Kernel.Tile Cert.Kernel.Split
open Cert.Kernel.Vals Cert.Kernel.Host Cert.Kernel.Held Cert.Kernel.MainShape
open Cert.Kernel.Regions (adm)

open Idealize.ShloMosaic Idealize.ShloMosaic.TcCoe
open Idealize.ShloMosaic.StableHlo (held held_sub_split held_congr)
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕥" => SparseCore.T (τ := τ)

omit [FloatOps F] in
theorem r_ne {x y : Ref sig .tc} (h : x ≠ y) : (r x : DevRef τ sig) ≠ r y := fun e => h (Proc.devRef_injective _ e)

/-- The TensorCore owes its SparseCores nothing at the index no handshake uses. -/
theorem Otc_none (d : Dev nD) (n : ℕ) (g : GSem nD τ sig) : (K (F := F)).Otc d n g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c _ => ?_
    rw [tallyAt_apply]; simp
  · rfl

/-! ## The first call -/

/-- The first pipelined call, as a step: from its two operands and its result array at any contents, the TensorCore's
    debts handed through, to the result array at the node scores. -/
def Region0Spec (R : RegVals F) : Prop :=
  ∀ (d : Dev nD) (x : Buf (Elt F) ((𝕥 d).loc main_arg0)) (w12 : Buf (Elt F) ((𝕥 d).loc main_v6))
    (O : CellTallies nD τ sig (HIx 1)) (_ : ∀ g, O g none = 0) {α : Type}
    (k : PUnit → Prog (TpuEff nD τ sig (Elt F) (SparseCore.Sig (ΛP (F := F)) 1) .tc) α) (Φ : α → sProp (𝕄 F)),
    iprop(levAts (K (F := F)).L (K (F := F)).lev ∗ boundary (𝕥 d)
        ∗ Pipeline.cellsGhost (Pipeline.pin (pcfgs (F := F)) adm) EP 0 d ∗ Pipeline.toksInit (Pipeline.pin (pcfgs (F := F)) adm) EP 0 d
        ∗ ((𝕥 d).loc main_arg0 ↦{fullShare} x) ∗ ((𝕥 d).loc main_v6 ↦{fullShare} w12) ∗ (∃ f, ((𝕥 d).loc main_v9 ↦{fullShare} f))
        ∗ (∃ W, ⌜(K (F := F)).WBelow (𝕥 d) W 0⌝ ∗ owes (𝕥 d) O W)
        ∗ (iprop(boundary (𝕥 d) ∗ ((𝕥 d).loc main_arg0 ↦{fullShare} x) ∗ ((𝕥 d).loc main_v6 ↦{fullShare} w12)
              ∗ ((𝕥 d).loc main_v9 ↦{fullShare} R.node x w12) ∗ (∃ W, ⌜(K (F := F)).WBelow (𝕥 d) W 0⌝ ∗ owes (𝕥 d) O W))
            -∗ wp frame (wpE ((K (F := F)).defs D) 𝒱 (𝕥 d) none) Set.univ (k ⟨⟩) Φ))
      ⊢ wp frame (wpE ((K (F := F)).defs D) 𝒱 (𝕥 d) none) Set.univ (.op (.customCall (SparseCore.inner (Pipeline.entry 0)) ()) k) Φ

variable (R : RegVals F) (m : (ℓ : Loc nD τ sig) → Buf (Elt F) ℓ)

/-- The first call's three arrays. -/
def T0 : Finset (DevRef τ sig) := {r main_arg0, r main_v6, r main_v9}

omit [FloatOps F] in
theorem T0_sub : T0 ⊆ SU := by
  intro b hb; simp only [T0, Finset.mem_insert, Finset.mem_singleton] at hb
  rcases hb with rfl | rfl | rfl <;> exact mem_SU _ (by decide)

omit [FloatOps F] in
theorem held_T0 (c : Thread nD τ) (W : Valuation τ sig (Elt F)) :
    (held c T0 W : sProp (𝕄 F))
      = iprop((((c.1, r main_arg0) : Loc nD τ sig) ↦{fullShare} W (r main_arg0)) ∗ (((c.1, r main_v6) : Loc nD τ sig) ↦{fullShare} W (r main_v6))
          ∗ (((c.1, r main_v9) : Loc nD τ sig) ↦{fullShare} W (r main_v9))) := by
  unfold held T0
  rw [bigSep_insert (by decide), bigSep_insert (by decide), bigSep_singleton]; rfl

theorem V2_arg0 (d : Dev nD) : V2 R m d (r main_arg0) = V1 m d (r main_arg0) := Function.update_of_ne (r_ne (by decide)) _ _
theorem V2_v6 (d : Dev nD) : V2 R m d (r main_v6) = V1 m d (r main_v6) := Function.update_of_ne (r_ne (by decide)) _ _
theorem V2_v9 (d : Dev nD) : V2 R m d (r main_v9) = R.node (V1 m d (r main_arg0)) (V1 m d (r main_v6)) := Function.update_self _ _ _
theorem held_rest0 (c : Thread nD τ) (d : Dev nD) : (held c (SU \ T0) (V2 R m d) : sProp (𝕄 F)) = held c (SU \ T0) (V1 m d) :=
  held_congr c fun b hb => Function.update_of_ne (fun e => (Finset.mem_sdiff.mp hb).2 (by rw [e]; simp [T0])) _ _

/-- The first call, holding all the host program's arrays: the table of contents moves on by the node scores. -/
theorem step_reg0 (hreg0 : Region0Spec R) (d : Dev nD) (O : CellTallies nD τ sig (HIx 1)) (hO : ∀ g, O g none = 0) {α : Type}
    (k : PUnit → Prog (TpuEff nD τ sig (Elt F) (SparseCore.Sig (ΛP (F := F)) 1) .tc) α) (Φ : α → sProp (𝕄 F)) :
    iprop(levAts (K (F := F)).L (K (F := F)).lev ∗ boundary (𝕥 d)
        ∗ Pipeline.cellsGhost (Pipeline.pin (pcfgs (F := F)) adm) EP 0 d ∗ Pipeline.toksInit (Pipeline.pin (pcfgs (F := F)) adm) EP 0 d
        ∗ held (𝕥 d) SU (V1 m d) ∗ (∃ W, ⌜(K (F := F)).WBelow (𝕥 d) W 0⌝ ∗ owes (𝕥 d) O W)
        ∗ (iprop(boundary (𝕥 d) ∗ held (𝕥 d) SU (V2 R m d) ∗ (∃ W, ⌜(K (F := F)).WBelow (𝕥 d) W 0⌝ ∗ owes (𝕥 d) O W))
            -∗ wp frame (wpE ((K (F := F)).defs D) 𝒱 (𝕥 d) none) Set.univ (k ⟨⟩) Φ))
      ⊢ wp frame (wpE ((K (F := F)).defs D) 𝒱 (𝕥 d) none) Set.univ (.op (.customCall (SparseCore.inner (Pipeline.entry 0)) ()) k) Φ := by
  rw [held_sub_split (𝕥 d) T0_sub (V1 m d), held_T0]
  iintro ⟨Hlev, Hb, Hcg, Htk, ⟨⟨Hx, Hw, Hf⟩, Hrest⟩, HO, Hk⟩
  iapply (hreg0 d (V1 m d (r main_arg0)) (V1 m d (r main_v6)) O hO k Φ)
  isplitl [Hlev]; · iexact Hlev
  isplitl [Hb]; · iexact Hb
  isplitl [Hcg]; · iexact Hcg
  isplitl [Htk]; · iexact Htk
  isplitl [Hx]; · iexact Hx
  isplitl [Hw]; · iexact Hw
  isplitl [Hf]; · iexists _; iexact Hf
  isplitl [HO]; · iexact HO
  iintro ⟨Hb, Hx, Hw, Hf, HO⟩
  iapply Hk
  isplitl [Hb]; · iexact Hb
  isplitr [HO]
  · rw [held_sub_split (𝕥 d) T0_sub (V2 R m d), held_T0, V2_arg0, V2_v6, V2_v9, held_rest0]
    isplitl [Hx Hw Hf]
    · isplitl [Hx]; · iexact Hx
      isplitl [Hw]; · iexact Hw
      iexact Hf
    iexact Hrest
  iexact HO

/-! ## The kernel on the vector subcores -/

variable (X : Ins F) (out0 : (d : Dev nD) → Buf (Elt F) (outLoc d))

/-- What the two SparseCores are handed at the call is the thirty-two subcores' parts, -/
theorem st_eq (d : Dev nD) : (bigSep Finset.univ fun c : Fin ((K (F := F)).nCore 0) => (P X out0).st 0 d c)
    = bigSep Finset.univ fun p : Fin τ.nSC × Fin τ.nSub => goRes X out0 d p.1 p.2 := by
  rw [bigSep_univ_prod]; rfl
/-- and what they hand back. -/
theorem dn_eq (d : Dev nD) : (bigSep Finset.univ fun c : Fin ((K (F := F)).nCore 0) => (P X out0).dn 0 d c)
    = bigSep Finset.univ fun p : Fin τ.nSC × Fin τ.nSub => tdRes X d p.1 p.2 := by
  rw [bigSep_univ_prod]; rfl

/-- The five arrays held whole are the remainder of the table's share and every subcore's part, -/
theorem go_all (hq : ∀ c i, X.q c i = tabShare c i) (d : Dev nD) :
    iprop((tabLoc d ↦{fullShare} X.tab d) ∗ (rowLoc d ↦{fullShare} X.row d) ∗ (colLoc d ↦{fullShare} X.col d) ∗ (esLoc d ↦{fullShare} X.es d)
        ∗ (outLoc d ↦{fullShare} out0 d))
      ⊢ iprop((tabLoc d ↦{tabRest} X.tab d) ∗ bigSep Finset.univ fun p : Fin τ.nSC × Fin τ.nSub => goRes X out0 d p.1 p.2) := by
  unfold goRes
  simp only [hq]
  rw [bigSep_sep', bigSep_sep', bigSep_sep', bigSep_sep', rowPts_pieces, colPts_pieces, esPts_pieces, outPts_pieces]
  iintro ⟨Ht, Hr, Hc, He, Ho⟩
  ihave Ht' := (tabPts_split (F := F) d (X.tab d)) $$ Ht
  icases Ht' with ⟨Hrest, Htoks⟩
  isplitl [Hrest]; · iexact Hrest
  isplitl [Htoks]; · iexact Htoks
  isplitl [Hr]; · iexact Hr
  isplitl [Hc]; · iexact Hc
  isplitl [He]; · iexact He
  iexact Ho
/-- and the parts handed back, with the remainder, are the five arrays whole, the result at the value. -/
theorem td_all (hq : ∀ c i, X.q c i = tabShare c i) (d : Dev nD) :
    iprop((tabLoc d ↦{tabRest} X.tab d) ∗ bigSep Finset.univ fun p : Fin τ.nSC × Fin τ.nSub => tdRes X d p.1 p.2)
      ⊢ iprop((tabLoc d ↦{fullShare} X.tab d) ∗ (rowLoc d ↦{fullShare} X.row d) ∗ (colLoc d ↦{fullShare} X.col d) ∗ (esLoc d ↦{fullShare} X.es d)
        ∗ (outLoc d ↦{fullShare} outVal d (X.tab d) (X.row d) (X.col d) (X.es d))) := by
  unfold tdRes
  simp only [hq]
  rw [bigSep_sep', bigSep_sep', bigSep_sep', bigSep_sep', rowPts_pieces, colPts_pieces, esPts_pieces, outPts_pieces]
  iintro ⟨Hrest, Htoks, Hr, Hc, He, Ho⟩
  isplitl [Hrest Htoks]
  · iapply (tabPts_join (F := F) d (X.tab d))
    isplitl [Hrest]; · iexact Hrest
    iexact Htoks
  isplitl [Hr]; · iexact Hr
  isplitl [Hc]; · iexact Hc
  isplitl [He]; · iexact He
  iexact Ho

/-- The kernel's five arrays. -/
def T5 : Finset (DevRef τ sig) := {r main_v10, r main_v20, r main_v21, r main_v18, r main_v22}

omit [FloatOps F] in
theorem T5_sub : T5 ⊆ SU := by
  intro b hb; simp only [T5, Finset.mem_insert, Finset.mem_singleton] at hb
  rcases hb with rfl | rfl | rfl | rfl | rfl <;> exact mem_SU _ (by decide)

omit [FloatOps F] in
theorem held_T5 (c : Thread nD τ) (W : Valuation τ sig (Elt F)) :
    (held c T5 W : sProp (𝕄 F))
      = iprop((((c.1, r main_v10) : Loc nD τ sig) ↦{fullShare} W (r main_v10)) ∗ (((c.1, r main_v20) : Loc nD τ sig) ↦{fullShare} W (r main_v20))
          ∗ (((c.1, r main_v21) : Loc nD τ sig) ↦{fullShare} W (r main_v21)) ∗ (((c.1, r main_v18) : Loc nD τ sig) ↦{fullShare} W (r main_v18))
          ∗ (((c.1, r main_v22) : Loc nD τ sig) ↦{fullShare} W (r main_v22))) := by
  unfold held T5
  rw [bigSep_insert (by decide), bigSep_insert (by decide), bigSep_insert (by decide), bigSep_insert (by decide), bigSep_singleton]; rfl

theorem V6_v10 (d : Dev nD) : V6 R m d (r main_v10) = V5 R m d (r main_v10) := Function.update_of_ne (r_ne (by decide)) _ _
theorem V6_v20 (d : Dev nD) : V6 R m d (r main_v20) = V5 R m d (r main_v20) := Function.update_of_ne (r_ne (by decide)) _ _
theorem V6_v21 (d : Dev nD) : V6 R m d (r main_v21) = V5 R m d (r main_v21) := Function.update_of_ne (r_ne (by decide)) _ _
theorem V6_v18 (d : Dev nD) : V6 R m d (r main_v18) = V5 R m d (r main_v18) := Function.update_of_ne (r_ne (by decide)) _ _
theorem V6_v22 (d : Dev nD) : V6 R m d (r main_v22) = outVal d ((Xof R m).tab d) ((Xof R m).row d) ((Xof R m).col d) ((Xof R m).es d) :=
  Function.update_self _ _ _
theorem held_rest5 (c : Thread nD τ) (d : Dev nD) : (held c (SU \ T5) (V6 R m d) : sProp (𝕄 F)) = held c (SU \ T5) (V5 R m d) :=
  held_congr c fun b hb => Function.update_of_ne (fun e => (Finset.mem_sdiff.mp hb).2 (by rw [e]; simp [T5])) _ _

/-- The call of the kernel on the vector subcores, holding all the host program's arrays: the table of contents moves on
    by the gathered sums. -/
theorem step_sc (κ : GSem nD τ sig → ℕ) (d : Dev nD) {Φ : PUnit → sProp (𝕄 F)} :
    iprop((K (F := F)).ctx EH (P (Xof R m) (Vals.out0 R m)) κ ∗ (K (F := F)).tcSt EH d 0 ∗ held (𝕥 d) SU (V5 R m d)
        ∗ (iprop((K (F := F)).tcSt EH d 1 ∗ held (𝕥 d) SU (V6 R m d)) -∗ Φ ⟨⟩))
      ⊢ wp frame (wpE ((K (F := F)).defs (D (F := F))) 𝒱 (𝕥 d) none) Set.univ ((K (F := F)).run d 0) Φ := by
  rw [held_sub_split (𝕥 d) T5_sub (V5 R m d), held_T5]
  iintro ⟨#Hctx, Hst, ⟨⟨Ht, Hr, Hc, He, Ho⟩, Hrest⟩, Hk⟩
  ihave Hgo := (go_all (Xof R m) (Vals.out0 R m) (fun _ _ => rfl) d) $$ [Ht Hr Hc He Ho]
  · isplitl [Ht]; · iexact Ht
    isplitl [Hr]; · iexact Hr
    isplitl [Hc]; · iexact Hc
    isplitl [He]; · iexact He
    iexact Ho
  icases Hgo with ⟨Htr, Hgo⟩
  iapply ((K (F := F)).wp_run (D (F := F)) 𝒱 (EH := EH) (P := P (Xof R m) (Vals.out0 R m)) κ d 0) $$ [Hst Hgo Htr Hrest Hk]
  isplitr; · iexact Hctx
  isplitl [Hst]; · iexact Hst
  isplitl [Hgo]
  · rw [st_eq]; iexact Hgo
  iintro ⟨Hst, Hdn⟩
  ihave Hdn' := (Entails.of_eq (dn_eq (Xof R m) (Vals.out0 R m) d)) $$ Hdn
  ihave Hall := (td_all (Xof R m) (fun _ _ => rfl) d) $$ [Htr Hdn']
  · isplitl [Htr]; · iexact Htr
    iexact Hdn'
  icases Hall with ⟨Ht, Hr, Hc, He, Ho⟩
  iapply Hk
  isplitl [Hst]; · iexact Hst
  rw [held_sub_split (𝕥 d) T5_sub (V6 R m d), held_T5, V6_v10, V6_v20, V6_v21, V6_v18, V6_v22, held_rest5]
  isplitl [Ht Hr Hc He Ho]
  · isplitl [Ht]; · iexact Ht
    isplitl [Hr]; · iexact Hr
    isplitl [Hc]; · iexact Hc
    isplitl [He]; · iexact He
    iexact Ho
  iexact Hrest

/-! ## The second call -/

/-- The second pipelined call, as a step: from the stacked edge features, the third run of weights and the bias, to the
    four stacks of edge scores. -/
def Region1Spec (R : RegVals F) : Prop :=
  ∀ (d : Dev nD) (e4 : Buf (Elt F) ((𝕥 d).loc main_v11)) (w3 : Buf (Elt F) ((𝕥 d).loc main_v7)) (b2 : Buf (Elt F) ((𝕥 d).loc main_v8))
    (O : CellTallies nD τ sig (HIx 1)) (_ : ∀ g, O g none = 0) {α : Type}
    (k : PUnit → Prog (TpuEff nD τ sig (Elt F) (SparseCore.Sig (ΛP (F := F)) 1) .tc) α) (Φ : α → sProp (𝕄 F)),
    iprop(levAts (K (F := F)).L (K (F := F)).lev ∗ boundary (𝕥 d)
        ∗ Pipeline.cellsGhost (Pipeline.pin (pcfgs (F := F)) adm) EP 1 d ∗ Pipeline.toksInit (Pipeline.pin (pcfgs (F := F)) adm) EP 1 d
        ∗ ((𝕥 d).loc main_v11 ↦{fullShare} e4) ∗ ((𝕥 d).loc main_v7 ↦{fullShare} w3) ∗ ((𝕥 d).loc main_v8 ↦{fullShare} b2)
        ∗ (∃ f, ((𝕥 d).loc main_v12_0 ↦{fullShare} f)) ∗ (∃ f, ((𝕥 d).loc main_v12_1 ↦{fullShare} f))
        ∗ (∃ f, ((𝕥 d).loc main_v12_2 ↦{fullShare} f)) ∗ (∃ f, ((𝕥 d).loc main_v12_3 ↦{fullShare} f))
        ∗ (∃ W, ⌜(K (F := F)).WBelow (𝕥 d) W 0⌝ ∗ owes (𝕥 d) O W)
        ∗ (iprop(boundary (𝕥 d) ∗ ((𝕥 d).loc main_v11 ↦{fullShare} e4) ∗ ((𝕥 d).loc main_v7 ↦{fullShare} w3) ∗ ((𝕥 d).loc main_v8 ↦{fullShare} b2)
              ∗ ((𝕥 d).loc main_v12_0 ↦{fullShare} R.edge 0 e4 w3 b2) ∗ ((𝕥 d).loc main_v12_1 ↦{fullShare} R.edge 1 e4 w3 b2)
              ∗ ((𝕥 d).loc main_v12_2 ↦{fullShare} R.edge 2 e4 w3 b2) ∗ ((𝕥 d).loc main_v12_3 ↦{fullShare} R.edge 3 e4 w3 b2)
              ∗ (∃ W, ⌜(K (F := F)).WBelow (𝕥 d) W 0⌝ ∗ owes (𝕥 d) O W))
            -∗ wp frame (wpE ((K (F := F)).defs D) 𝒱 (𝕥 d) none) Set.univ (k ⟨⟩) Φ))
      ⊢ wp frame (wpE ((K (F := F)).defs D) 𝒱 (𝕥 d) none) Set.univ (.op (.customCall (SparseCore.inner (Pipeline.entry 1)) ()) k) Φ

/-- The second call's seven arrays. -/
def T1 : Finset (DevRef τ sig) := {r main_v11, r main_v7, r main_v8, r main_v12_0, r main_v12_1, r main_v12_2, r main_v12_3}

omit [FloatOps F] in
theorem T1_sub : T1 ⊆ SU := by
  intro b hb; simp only [T1, Finset.mem_insert, Finset.mem_singleton] at hb
  rcases hb with rfl | rfl | rfl | rfl | rfl | rfl | rfl <;> exact mem_SU _ (by decide)

omit [FloatOps F] in
theorem held_T1 (c : Thread nD τ) (W : Valuation τ sig (Elt F)) :
    (held c T1 W : sProp (𝕄 F))
      = iprop((((c.1, r main_v11) : Loc nD τ sig) ↦{fullShare} W (r main_v11)) ∗ (((c.1, r main_v7) : Loc nD τ sig) ↦{fullShare} W (r main_v7))
          ∗ (((c.1, r main_v8) : Loc nD τ sig) ↦{fullShare} W (r main_v8)) ∗ (((c.1, r main_v12_0) : Loc nD τ sig) ↦{fullShare} W (r main_v12_0))
          ∗ (((c.1, r main_v12_1) : Loc nD τ sig) ↦{fullShare} W (r main_v12_1)) ∗ (((c.1, r main_v12_2) : Loc nD τ sig) ↦{fullShare} W (r main_v12_2))
          ∗ (((c.1, r main_v12_3) : Loc nD τ sig) ↦{fullShare} W (r main_v12_3))) := by
  unfold held T1
  rw [bigSep_insert (by decide), bigSep_insert (by decide), bigSep_insert (by decide), bigSep_insert (by decide), bigSep_insert (by decide),
    bigSep_insert (by decide), bigSep_singleton]; rfl

theorem V4_off (d : Dev nD) {b : DevRef τ sig} (h0 : b ≠ r main_v12_0) (h1 : b ≠ r main_v12_1) (h2 : b ≠ r main_v12_2) (h3 : b ≠ r main_v12_3) :
    V4 R m d b = V3 R m d b := by
  unfold V4
  rw [Function.update_of_ne h3, Function.update_of_ne h2, Function.update_of_ne h1, Function.update_of_ne h0]
theorem V4_v11 (d : Dev nD) : V4 R m d (r main_v11) = V3 R m d (r main_v11) :=
  V4_off R m d (r_ne (by decide)) (r_ne (by decide)) (r_ne (by decide)) (r_ne (by decide))
theorem V4_v7 (d : Dev nD) : V4 R m d (r main_v7) = V3 R m d (r main_v7) :=
  V4_off R m d (r_ne (by decide)) (r_ne (by decide)) (r_ne (by decide)) (r_ne (by decide))
theorem V4_v8 (d : Dev nD) : V4 R m d (r main_v8) = V3 R m d (r main_v8) :=
  V4_off R m d (r_ne (by decide)) (r_ne (by decide)) (r_ne (by decide)) (r_ne (by decide))
theorem V4_e0 (d : Dev nD) : V4 R m d (r main_v12_0) = R.edge 0 (V3 R m d (r main_v11)) (V3 R m d (r main_v7)) (V3 R m d (r main_v8)) := by
  unfold V4
  rw [Function.update_of_ne (r_ne (by decide)), Function.update_of_ne (r_ne (by decide)), Function.update_of_ne (r_ne (by decide)), Function.update_self]
theorem V4_e1 (d : Dev nD) : V4 R m d (r main_v12_1) = R.edge 1 (V3 R m d (r main_v11)) (V3 R m d (r main_v7)) (V3 R m d (r main_v8)) := by
  unfold V4
  rw [Function.update_of_ne (r_ne (by decide)), Function.update_of_ne (r_ne (by decide)), Function.update_self]
theorem V4_e2 (d : Dev nD) : V4 R m d (r main_v12_2) = R.edge 2 (V3 R m d (r main_v11)) (V3 R m d (r main_v7)) (V3 R m d (r main_v8)) := by
  unfold V4
  rw [Function.update_of_ne (r_ne (by decide)), Function.update_self]
theorem V4_e3 (d : Dev nD) : V4 R m d (r main_v12_3) = R.edge 3 (V3 R m d (r main_v11)) (V3 R m d (r main_v7)) (V3 R m d (r main_v8)) := by
  unfold V4
  rw [Function.update_self]
theorem held_rest1 (c : Thread nD τ) (d : Dev nD) : (held c (SU \ T1) (V4 R m d) : sProp (𝕄 F)) = held c (SU \ T1) (V3 R m d) :=
  held_congr c fun b hb => V4_off R m d
    (fun e => (Finset.mem_sdiff.mp hb).2 (by rw [e]; simp [T1])) (fun e => (Finset.mem_sdiff.mp hb).2 (by rw [e]; simp [T1]))
    (fun e => (Finset.mem_sdiff.mp hb).2 (by rw [e]; simp [T1])) (fun e => (Finset.mem_sdiff.mp hb).2 (by rw [e]; simp [T1]))

/-- The second call, holding all the host program's arrays: the table of contents moves on by the four stacks of edge scores. -/
theorem step_reg1 (hreg1 : Region1Spec R) (d : Dev nD) (O : CellTallies nD τ sig (HIx 1)) (hO : ∀ g, O g none = 0) {α : Type}
    (k : PUnit → Prog (TpuEff nD τ sig (Elt F) (SparseCore.Sig (ΛP (F := F)) 1) .tc) α) (Φ : α → sProp (𝕄 F)) :
    iprop(levAts (K (F := F)).L (K (F := F)).lev ∗ boundary (𝕥 d)
        ∗ Pipeline.cellsGhost (Pipeline.pin (pcfgs (F := F)) adm) EP 1 d ∗ Pipeline.toksInit (Pipeline.pin (pcfgs (F := F)) adm) EP 1 d
        ∗ held (𝕥 d) SU (V3 R m d) ∗ (∃ W, ⌜(K (F := F)).WBelow (𝕥 d) W 0⌝ ∗ owes (𝕥 d) O W)
        ∗ (iprop(boundary (𝕥 d) ∗ held (𝕥 d) SU (V4 R m d) ∗ (∃ W, ⌜(K (F := F)).WBelow (𝕥 d) W 0⌝ ∗ owes (𝕥 d) O W))
            -∗ wp frame (wpE ((K (F := F)).defs D) 𝒱 (𝕥 d) none) Set.univ (k ⟨⟩) Φ))
      ⊢ wp frame (wpE ((K (F := F)).defs D) 𝒱 (𝕥 d) none) Set.univ (.op (.customCall (SparseCore.inner (Pipeline.entry 1)) ()) k) Φ := by
  rw [held_sub_split (𝕥 d) T1_sub (V3 R m d), held_T1]
  iintro ⟨Hlev, Hb, Hcg, Htk, ⟨⟨He, Hw, Hbb, H0, H1, H2, H3⟩, Hrest⟩, HO, Hk⟩
  iapply (hreg1 d (V3 R m d (r main_v11)) (V3 R m d (r main_v7)) (V3 R m d (r main_v8)) O hO k Φ)
  isplitl [Hlev]; · iexact Hlev
  isplitl [Hb]; · iexact Hb
  isplitl [Hcg]; · iexact Hcg
  isplitl [Htk]; · iexact Htk
  isplitl [He]; · iexact He
  isplitl [Hw]; · iexact Hw
  isplitl [Hbb]; · iexact Hbb
  isplitl [H0]; · iexists _; iexact H0
  isplitl [H1]; · iexists _; iexact H1
  isplitl [H2]; · iexists _; iexact H2
  isplitl [H3]; · iexists _; iexact H3
  isplitl [HO]; · iexact HO
  iintro ⟨Hb, He, Hw, Hbb, H0, H1, H2, H3, HO⟩
  iapply Hk
  isplitl [Hb]; · iexact Hb
  isplitr [HO]
  · rw [held_sub_split (𝕥 d) T1_sub (V4 R m d), held_T1, V4_v11, V4_v7, V4_v8, V4_e0, V4_e1, V4_e2, V4_e3, held_rest1]
    isplitl [He Hw Hbb H0 H1 H2 H3]
    · isplitl [He]; · iexact He
      isplitl [Hw]; · iexact Hw
      isplitl [Hbb]; · iexact Hbb
      isplitl [H0]; · iexact H0
      isplitl [H1]; · iexact H1
      isplitl [H2]; · iexact H2
      iexact H3
    iexact Hrest
  iexact HO

/-! ## The whole walk -/

omit [FloatOps F] in
theorem bigSep_fin2 (Φ : Fin 2 → sProp (𝕄 F)) : bigSep Finset.univ Φ = iprop(Φ (0 : Fin 2) ∗ Φ (1 : Fin 2)) :=
  bigSep_univ_eq_bigSepL [(0 : Fin 2), (1 : Fin 2)] (by decide) (by decide) Φ

theorem ops1_fresh : ∀ op ∈ (ops1 : List (HloOp τ sig (Elt F))), op.fresh = ∅ := by
  intro op hop
  simp only [ops1, List.mem_cons, List.mem_nil_iff, or_false] at hop
  rcases hop with rfl | rfl | rfl | rfl | rfl | rfl | rfl | rfl | rfl <;> rfl
theorem ops2_fresh : ∀ op ∈ (ops2 : List (HloOp τ sig (Elt F))), op.fresh = ∅ := by
  intro op hop
  simp only [ops2, List.mem_cons, List.mem_nil_iff, or_false] at hop
  rcases hop with rfl | rfl <;> rfl
theorem ops3_fresh : ∀ op ∈ (ops3 : List (HloOp τ sig (Elt F))), op.fresh = ∅ := by
  intro op hop
  simp only [ops3, List.mem_cons, List.mem_nil_iff, or_false] at hop
  rcases hop with rfl | rfl | rfl | rfl | rfl | rfl | rfl | rfl | rfl | rfl | rfl <;> rfl
theorem ops4_fresh : ∀ op ∈ (ops4 : List (HloOp τ sig (Elt F))), op.fresh = ∅ := by
  intro op hop
  simp only [ops4, List.mem_cons, List.mem_nil_iff, or_false] at hop
  rcases hop with rfl; rfl

/-- The host program with every call in head position and the last stretch continued by the return. -/
theorem main_norm (d : Dev nD) :
    main (F := F) d
      = (StableHlo.seq ops1 >>= fun _ => (Prog.op (.customCall (SparseCore.inner (Pipeline.entry 0)) ()) fun _ =>
          StableHlo.seq ops2 >>= fun _ => (Prog.op (.customCall (SparseCore.inner (Pipeline.entry 1)) ()) fun _ =>
          StableHlo.seq ops3 >>= fun _ => ((sc (F := F)).run d 0 >>= fun _ => (StableHlo.seq ops4 >>= fun _ => Prog.ret PUnit.unit))))) := rfl

/-- The rest of the TensorCore's handshake state before call `n`, its debts apart. -/
def tcTail (d : Dev nD) (n : ℕ) : sProp (𝕄 F) :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt EH d n : sProp (𝕄 F))
      = iprop((∃ W, ⌜(K (F := F)).WBelow (𝕥 d) W (8 * n)⌝ ∗ owes (𝕥 d) ((K (F := F)).Otc d n) W) ∗ tcTail (F := F) d n) := rfl

variable (ρ : Dev nD → PrngReg)

theorem hmain (hreg0 : Region0Spec R) (hreg1 : Region1Spec R) : HmainSpec R m ρ := by
  intro κ d
  unfold SparseCore.Cfg.tcRes
  rw [show (unscopedBufs d (fun b => m ((𝕥 d).loc b)) : sProp (𝕄 F)) = held (𝕥 d) SU (V0 m d) from unscoped_held d (V0 m d),
    main_norm, tcSt_eq d 0]
  unfold G
  rw [bigSep_fin2, bigSep_fin2]
  iintro ⟨#Hctx, ⟨HO, Htail⟩, ⟨Hb, Hheld, -, -⟩, ⟨⟨Hcg0, Hcg1⟩, ⟨Htk0, Htk1⟩⟩⟩
  ihave #Hlev := ((K (F := F)).ctx_levAts (EH := EH) (P := P (Xof R m) (Vals.out0 R m)) κ) $$ Hctx
  -- the first stretch
  iapply (StableHlo.wp_seq 𝒱 none Set.univ d SU _ ops1 ops1_sub ops1_fresh (V0 m d)) $$ [Hb Hheld]
  · isplitl [Hb] <;> iassumption
  iintro ⟨Hb, Hheld⟩
  -- the first call
  iapply (step_reg0 R m hreg0 d ((K (F := F)).Otc d 0) (Otc_none d 0) _ _)
  isplitr; · iexact Hlev
  isplitl [Hb]; · iexact Hb
  isplitl [Hcg0]; · iexact Hcg0
  isplitl [Htk0]; · iexact Htk0
  isplitl [Hheld]; · iexact Hheld
  isplitl [HO]; · iexact HO
  iintro ⟨Hb, Hheld, HO⟩
  -- the second stretch
  iapply (StableHlo.wp_seq 𝒱 none Set.univ d SU _ ops2 ops2_sub ops2_fresh (V2 R m d)) $$ [Hb Hheld]
  · isplitl [Hb] <;> iassumption
  iintro ⟨Hb, Hheld⟩
  -- the second call
  iapply (step_reg1 R m hreg1 d ((K (F := F)).Otc d 0) (Otc_none d 0) _ _)
  isplitr; · iexact Hlev
  isplitl [Hb]; · iexact Hb
  isplitl [Hcg1]; · iexact Hcg1
  isplitl [Htk1]; · iexact Htk1
  isplitl [Hheld]; · iexact Hheld
  isplitl [HO]; · iexact HO
  iintro ⟨Hb, Hheld, HO⟩
  -- the third stretch
  iapply (StableHlo.wp_seq 𝒱 none Set.univ d SU _ ops3 ops3_sub ops3_fresh (V4 R m d)) $$ [Hb Hheld]
  · isplitl [Hb] <;> iassumption
  iintro ⟨Hb, Hheld⟩
  -- the kernel on the vector subcores
  rw [wp_bind]
  iapply (step_sc R m κ d)
  isplitr; · iexact Hctx
  isplitl [HO Htail]
  · rw [tcSt_eq d 0]
    isplitl [HO]; · iexact HO
    iexact Htail
  isplitl [Hheld]; · iexact Hheld
  iintro ⟨Hst, Hheld⟩
  -- the last stretch
  iapply (StableHlo.wp_seq 𝒱 none Set.univ d SU _ ops4 ops4_sub ops4_fresh (V6 R m d)) $$ [Hb Hheld]
  · isplitl [Hb] <;> iassumption
  iintro ⟨Hb, Hheld⟩
  rw [wp_ret]; imodintro
  isplitl [Hst]; · iexact Hst
  iexact Hheld

end Cert.Kernel.Launch

end
-- ==== Proof.Region1B.lean ====
/-
  The second pipelined matrix product of the host program, as one step of the TensorCore's proof.

  The edge features, seen as four slabs of 40000 rows, are multiplied 2000 rows at a time over a grid of twenty points by
  the last run of 256 weights, and the bias is added: at point `t` four windows over the one array hold block `t` of
  each slab, and four results of 40000 rows each receive block `t` of their slab's product. The four windows over one
  array each hold a quarter of it. The step is stated around whatever the TensorCore still owes its SparseCores.
-/
import proofs.«207961_g9620726743389_cont_9to1c4b_395_8_alg».proof.Proof.Region0B

set_option maxRecDepth 16384

noncomputable section

namespace Cert.Kernel.Regions

open Cert.Kernel Cert.Kernel.Gen Cert.Kernel.Common
open Idealize.ShloMosaic Idealize.ShloMosaic.TcCoe Idealize.ShloMosaic.Tactic Idealize.ShloMosaic.ValueIdx
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕥" => SparseCore.T (τ := τ)

section Region1

variable (es : (c : Dev nD) → Buf (Elt F) ((𝕥 c).loc main_v11)) (w7s : (c : Dev nD) → Buf (Elt F) ((𝕥 c).loc main_v7))
  (b8s : (c : Dev nD) → Buf (Elt F) ((𝕥 c).loc main_v8))
  (f0s : (c : Dev nD) → Buf (Elt F) ((𝕥 c).loc main_v12_0)) (f1s : (c : Dev nD) → Buf (Elt F) ((𝕥 c).loc main_v12_1))
  (f2s : (c : Dev nD) → Buf (Elt F) ((𝕥 c).loc main_v12_2)) (f3s : (c : Dev nD) → Buf (Elt F) ((𝕥 c).loc main_v12_3))
  (O : CellTallies nD τ sig (HIx 1))

/-! ## The blocks -/

/-- Block `t` of slab 0 of the edge features. -/
def blkE0 (c : Dev nD) (t : Fin cfg1.N) : ((cfg1.win 0).xblock (cfg1.grid.coords t)).Idx → Elt F (cfg1.win 0).elt :=
  ((cfg1.win 0).blk t).view.read (Elt F) (es c)

/-- Block `t` of slab 1 of the edge features. -/
def blkE1 (c : Dev nD) (t : Fin cfg1.N) : ((cfg1.win 1).xblock (cfg1.grid.coords t)).Idx → Elt F (cfg1.win 1).elt :=
  ((cfg1.win 1).blk t).view.read (Elt F) (es c)

/-- Block `t` of slab 2 of the edge features. -/
def blkE2 (c : Dev nD) (t : Fin cfg1.N) : ((cfg1.win 2).xblock (cfg1.grid.coords t)).Idx → Elt F (cfg1.win 2).elt :=
  ((cfg1.win 2).blk t).view.read (Elt F) (es c)

/-- Block `t` of slab 3 of the edge features. -/
def blkE3 (c : Dev nD) (t : Fin cfg1.N) : ((cfg1.win 3).xblock (cfg1.grid.coords t)).Idx → Elt F (cfg1.win 3).elt :=
  ((cfg1.win 3).blk t).view.read (Elt F) (es c)

/-- The weights, whole at every point. -/
def blkW7 (c : Dev nD) (t : Fin cfg1.N) : ((cfg1.win 4).xblock (cfg1.grid.coords t)).Idx → Elt F (cfg1.win 4).elt :=
  ((cfg1.win 4).blk t).view.read (Elt F) (w7s c)

/-- The bias, whole at every point. -/
def blkB (c : Dev nD) (t : Fin cfg1.N) : ((cfg1.win 5).xblock (cfg1.grid.coords t)).Idx → Elt F (cfg1.win 5).elt :=
  ((cfg1.win 5).blk t).view.read (Elt F) (b8s c)

abbrev rE : Rect S1x2000x256 := Rect.unit (s := S1x2000x256) ![0, 0, 0] S1x2000x256.size inb_S1x2000x256_S1x2000x256_0_0_0
abbrev rW7 : Rect S256x1 := Rect.unit (s := S256x1) ![0, 0] S256x1.size inb_S256x1_S256x1_0_0
abbrev rB : Rect S1x1 := Rect.unit (s := S1x1) ![0, 0] S1x1.size inb_S1x1_S1x1_0_0
abbrev rO1 : Rect S2000x1 := Rect.unit (s := S2000x1) ![0, 0] S2000x1.size inb_S2000x1_S2000x1_0_0

/-- What the body leaves in result 0's staging buffer: its slab's block times the weights, plus the bias. -/
def outBlk6 (x4 : Vec F S256x1 .f32) (x5 : Vec F S1x1 .f32) (x : Vec F S1x2000x256 .f32) : Vec F S2000x1 .f32 :=
  View.canon [⟨rO1, k1_pay3 (View.ld x4 rW7) (View.ld x5 rB) (View.ld x rE)⟩]

/-- What the body leaves in result 1's staging buffer: its slab's block times the weights, plus the bias. -/
def outBlk7 (x4 : Vec F S256x1 .f32) (x5 : Vec F S1x1 .f32) (x : Vec F S1x2000x256 .f32) : Vec F S2000x1 .f32 :=
  View.canon [⟨rO1, k1_pay4 (View.ld x4 rW7) (View.ld x5 rB) (View.ld x rE)⟩]

/-- What the body leaves in result 2's staging buffer: its slab's block times the weights, plus the bias. -/
def outBlk8 (x4 : Vec F S256x1 .f32) (x5 : Vec F S1x1 .f32) (x : Vec F S1x2000x256 .f32) : Vec F S2000x1 .f32 :=
  View.canon [⟨rO1, k1_pay5 (View.ld x4 rW7) (View.ld x5 rB) (View.ld x rE)⟩]

/-- What the body leaves in result 3's staging buffer: its slab's block times the weights, plus the bias. -/
def outBlk9 (x4 : Vec F S256x1 .f32) (x5 : Vec F S1x1 .f32) (x : Vec F S1x2000x256 .f32) : Vec F S2000x1 .f32 :=
  View.canon [⟨rO1, k1_pay6 (View.ld x4 rW7) (View.ld x5 rB) (View.ld x rE)⟩]

/-- The one store covers the buffer. -/
theorem coverO1 (p0 : Vec F S2000x1 .f32) (y : S2000x1.Idx) :
    ∃ pc ∈ ([⟨rO1, p0⟩] : List (View.Piece (Elt F) S2000x1 .f32)), y ∈ pc.1.set :=
  View.cover_of_tiled [⟨rO1, p0⟩] S2000x1.size (by rfl) y

/-! ## The body's triple -/

set_option maxHeartbeats 4000000 in
/-- The body on whole staging buffers, the six operands' at contents `x0 … x5` and the four results' at anything: the operands'
    stay and each result's holds its slab's product plus the bias. -/
theorem sound_kernel1 (c : Dev nD) (E : Set ℕ) (i : grid1.Coords)
    (arg1 : Memref sig .tc .vmem S1x2000x256 .f32) (harg1 : arg1.IsWhole)
    (arg2 : Memref sig .tc .vmem S1x2000x256 .f32) (harg2 : arg2.IsWhole)
    (arg3 : Memref sig .tc .vmem S1x2000x256 .f32) (harg3 : arg3.IsWhole)
    (arg4 : Memref sig .tc .vmem S1x2000x256 .f32) (harg4 : arg4.IsWhole)
    (arg5 : Memref sig .tc .vmem S256x1 .f32) (harg5 : arg5.IsWhole)
    (arg6 : Memref sig .tc .vmem S1x1 .f32) (harg6 : arg6.IsWhole)
    (arg7 : Memref sig .tc .vmem S2000x1 .f32) (harg7 : arg7.IsWhole)
    (arg8 : Memref sig .tc .vmem S2000x1 .f32) (harg8 : arg8.IsWhole)
    (arg9 : Memref sig .tc .vmem S2000x1 .f32) (harg9 : arg9.IsWhole)
    (arg10 : Memref sig .tc .vmem S2000x1 .f32) (harg10 : arg10.IsWhole)
    (x0 x1 x2 x3 : Vec F S1x2000x256 .f32) (x4 : Vec F S256x1 .f32) (x5 : Vec F S1x1 .f32) (Kp : PUnit → sProp (𝕄 F)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (outBlk6 x4 x5 x0) ∗ owns (c : Thread nD τ) arg8 fullShare (outBlk7 x4 x5 x1) ∗ owns (c : Thread nD τ) arg9 fullShare (outBlk8 x4 x5 x2) ∗ owns (c : Thread nD τ) arg10 fullShare (outBlk9 x4 x5 x3)) -∗ Kp ⟨⟩))
      ⊢ wp frame (wpE (defs₀ (F := F)) Variants.none c none) E (cc1__edge_scores_body i arg1 harg1 arg2 harg2 arg3 harg3 arg4 harg4 arg5 harg5 arg6 harg6 arg7 harg7 arg8 harg8 arg9 harg9 arg10 harg10) Kp := by
  simp only [cc1__edge_scores_body_eq_skeleton]; unfold cc1__edge_scores_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverO1 _)
  isplitl [H7]
  · iexists _; isplitr
    swap; · iexact H7
    ipureintro
    exact View.read_writes_eq_canon _ _ _ (coverO1 _)
  isplitl [H8]
  · iexists _; isplitr
    swap; · iexact H8
    ipureintro
    exact View.read_writes_eq_canon _ _ _ (coverO1 _)
  iexists _; isplitr
  swap; · iexact H9
  ipureintro
  exact View.read_writes_eq_canon _ _ _ (coverO1 _)

/-! ## The proof data -/

/-- Pipeline 1's proof data on core `c`: the arrays as the region finds them, the four windows over the edge features each at a
    quarter of the array; after the body at point `t` each operand's buffer at its block and each result's at its product; the
    invariant the scoped buffers no window stages; throughout, the tallies `O` owed, the recorded waits all at the lowest level. -/
def dat1 (c : Dev nD) : Dat τ (Elt F) (HIx 1) ℕ UU ℕ cfg1 c where
  A w := match w with
    | ⟨0, _⟩ => es c
    | ⟨1, _⟩ => es c
    | ⟨2, _⟩ => es c
    | ⟨3, _⟩ => es c
    | ⟨4, _⟩ => w7s c
    | ⟨5, _⟩ => b8s c
    | ⟨6, _⟩ => f0s c
    | ⟨7, _⟩ => f1s c
    | ⟨8, _⟩ => f2s c
    | ⟨9, _⟩ => f3s c
  after w t := match w with
    | ⟨0, _⟩ => blkE0 es c t
    | ⟨1, _⟩ => blkE1 es c t
    | ⟨2, _⟩ => blkE2 es c t
    | ⟨3, _⟩ => blkE3 es c t
    | ⟨4, _⟩ => blkW7 w7s c t
    | ⟨5, _⟩ => blkB b8s c t
    | ⟨6, _⟩ => outBlk6 (blkW7 w7s c t) (blkB b8s c t) (blkE0 es c t)
    | ⟨7, _⟩ => outBlk7 (blkW7 w7s c t) (blkB b8s c t) (blkE1 es c t)
    | ⟨8, _⟩ => outBlk8 (blkW7 w7s c t) (blkB b8s c t) (blkE2 es c t)
    | ⟨9, _⟩ => outBlk9 (blkW7 w7s c t) (blkB b8s c t) (blkE3 es c t)
  Φ _ := Pipeline.scopedRest spec1 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
    | ⟨7, _⟩ => fullShare
    | ⟨8, _⟩ => fullShare
    | ⟨9, _⟩ => fullShare
  owed _ := O
  recorded _ := {p | (K (F := F)).lev (𝕥 c, p.1) p.2 ≤ 0}

theorem A1_eq0 (c : Dev nD) : (dat1 es w7s b8s f0s f1s f2s f3s O c).A 0 = es c := by dsimp only [dat1]
theorem A1_eq1 (c : Dev nD) : (dat1 es w7s b8s f0s f1s f2s f3s O c).A 1 = es c := by dsimp only [dat1]
theorem A1_eq2 (c : Dev nD) : (dat1 es w7s b8s f0s f1s f2s f3s O c).A 2 = es c := by dsimp only [dat1]
theorem A1_eq3 (c : Dev nD) : (dat1 es w7s b8s f0s f1s f2s f3s O c).A 3 = es c := by dsimp only [dat1]
theorem A1_eq4 (c : Dev nD) : (dat1 es w7s b8s f0s f1s f2s f3s O c).A 4 = w7s c := by dsimp only [dat1]
theorem A1_eq5 (c : Dev nD) : (dat1 es w7s b8s f0s f1s f2s f3s O c).A 5 = b8s c := by dsimp only [dat1]
theorem A1_eq6 (c : Dev nD) : (dat1 es w7s b8s f0s f1s f2s f3s O c).A 6 = f0s c := by dsimp only [dat1]
theorem A1_eq7 (c : Dev nD) : (dat1 es w7s b8s f0s f1s f2s f3s O c).A 7 = f1s c := by dsimp only [dat1]
theorem A1_eq8 (c : Dev nD) : (dat1 es w7s b8s f0s f1s f2s f3s O c).A 8 = f2s c := by dsimp only [dat1]
theorem A1_eq9 (c : Dev nD) : (dat1 es w7s b8s f0s f1s f2s f3s O c).A 9 = f3s c := by dsimp only [dat1]
theorem after1_0 (c : Dev nD) (t : Fin cfg1.N) : (dat1 es w7s b8s f0s f1s f2s f3s O c).after 0 t = blkE0 es c t := by dsimp only [dat1]
theorem after1_1 (c : Dev nD) (t : Fin cfg1.N) : (dat1 es w7s b8s f0s f1s f2s f3s O c).after 1 t = blkE1 es c t := by dsimp only [dat1]
theorem after1_2 (c : Dev nD) (t : Fin cfg1.N) : (dat1 es w7s b8s f0s f1s f2s f3s O c).after 2 t = blkE2 es c t := by dsimp only [dat1]
theorem after1_3 (c : Dev nD) (t : Fin cfg1.N) : (dat1 es w7s b8s f0s f1s f2s f3s O c).after 3 t = blkE3 es c t := by dsimp only [dat1]
theorem after1_4 (c : Dev nD) (t : Fin cfg1.N) : (dat1 es w7s b8s f0s f1s f2s f3s O c).after 4 t = blkW7 w7s c t := by dsimp only [dat1]
theorem after1_5 (c : Dev nD) (t : Fin cfg1.N) : (dat1 es w7s b8s f0s f1s f2s f3s O c).after 5 t = blkB b8s c t := by dsimp only [dat1]
theorem after1_6 (c : Dev nD) (t : Fin cfg1.N) : (dat1 es w7s b8s f0s f1s f2s f3s O c).after 6 t = outBlk6 (blkW7 w7s c t) (blkB b8s c t) (blkE0 es c t) := by dsimp only [dat1]
theorem after1_7 (c : Dev nD) (t : Fin cfg1.N) : (dat1 es w7s b8s f0s f1s f2s f3s O c).after 7 t = outBlk7 (blkW7 w7s c t) (blkB b8s c t) (blkE1 es c t) := by dsimp only [dat1]
theorem after1_8 (c : Dev nD) (t : Fin cfg1.N) : (dat1 es w7s b8s f0s f1s f2s f3s O c).after 8 t = outBlk8 (blkW7 w7s c t) (blkB b8s c t) (blkE2 es c t) := by dsimp only [dat1]
theorem after1_9 (c : Dev nD) (t : Fin cfg1.N) : (dat1 es w7s b8s f0s f1s f2s f3s O c).after 9 t = outBlk9 (blkW7 w7s c t) (blkB b8s c t) (blkE3 es c t) := by dsimp only [dat1]

/-- An operand's current staging buffer holds its block at every point, fetched there or not. -/
theorem before1_0 (c : Dev nD) (t : Fin cfg1.N) (d) : (dat1 es w7s b8s f0s f1s f2s f3s O c).before 0 t d = blkE0 es c t :=
  ((dat1 es w7s b8s f0s f1s f2s f3s O c).before_in_eq_fetched 0 rfl (fun _ => rfl) (fun _ _ _ => rfl)
    (fun t => by rw [after1_0]; unfold Dat.blockOf blkE0; rw [A1_eq0]; try rfl) t d).trans
    (by unfold Dat.fetched Dat.blockOf blkE0; rw [A1_eq0]; try rfl)
theorem before1_1 (c : Dev nD) (t : Fin cfg1.N) (d) : (dat1 es w7s b8s f0s f1s f2s f3s O c).before 1 t d = blkE1 es c t :=
  ((dat1 es w7s b8s f0s f1s f2s f3s O c).before_in_eq_fetched 1 rfl (fun _ => rfl) (fun _ _ _ => rfl)
    (fun t => by rw [after1_1]; unfold Dat.blockOf blkE1; rw [A1_eq1]; try rfl) t d).trans
    (by unfold Dat.fetched Dat.blockOf blkE1; rw [A1_eq1]; try rfl)
theorem before1_2 (c : Dev nD) (t : Fin cfg1.N) (d) : (dat1 es w7s b8s f0s f1s f2s f3s O c).before 2 t d = blkE2 es c t :=
  ((dat1 es w7s b8s f0s f1s f2s f3s O c).before_in_eq_fetched 2 rfl (fun _ => rfl) (fun _ _ _ => rfl)
    (fun t => by rw [after1_2]; unfold Dat.blockOf blkE2; rw [A1_eq2]; try rfl) t d).trans
    (by unfold Dat.fetched Dat.blockOf blkE2; rw [A1_eq2]; try rfl)
theorem before1_3 (c : Dev nD) (t : Fin cfg1.N) (d) : (dat1 es w7s b8s f0s f1s f2s f3s O c).before 3 t d = blkE3 es c t :=
  ((dat1 es w7s b8s f0s f1s f2s f3s O c).before_in_eq_fetched 3 rfl (fun _ => rfl) (fun _ _ _ => rfl)
    (fun t => by rw [after1_3]; unfold Dat.blockOf blkE3; rw [A1_eq3]; try rfl) t d).trans
    (by unfold Dat.fetched Dat.blockOf blkE3; rw [A1_eq3]; try rfl)
theorem before1_4 (c : Dev nD) (t : Fin cfg1.N) (d) : (dat1 es w7s b8s f0s f1s f2s f3s O c).before 4 t d = blkW7 w7s c t :=
  ((dat1 es w7s b8s f0s f1s f2s f3s O c).before_in_eq_fetched 4 rfl (fun _ => rfl) (fun _ _ _ => rfl)
    (fun t => by rw [after1_4]; unfold Dat.blockOf blkW7; rw [A1_eq4]; try rfl) t d).trans
    (by unfold Dat.fetched Dat.blockOf blkW7; rw [A1_eq4]; try rfl)
theorem before1_5 (c : Dev nD) (t : Fin cfg1.N) (d) : (dat1 es w7s b8s f0s f1s f2s f3s O c).before 5 t d = blkB b8s c t :=
  ((dat1 es w7s b8s f0s f1s f2s f3s O c).before_in_eq_fetched 5 rfl (fun _ => rfl) (fun _ _ _ => rfl)
    (fun t => by rw [after1_5]; unfold Dat.blockOf blkB; rw [A1_eq5]; try rfl) t d).trans
    (by unfold Dat.fetched Dat.blockOf blkB; rw [A1_eq5]; try rfl)

/-! ## The body obligation -/

def bodyPre1 (c : Dev nD) (t : Fin cfg1.N) : sProp (𝕄 F) :=
  iprop((dat1 es w7s b8s f0s f1s f2s f3s O c).Φ t.castSucc ∗ (dat1 es w7s b8s f0s f1s f2s f3s O c).owesAt none t.castSucc
    ∗ (∃ d, owns (c : Thread nD τ) (st1_0 t) fullShare ((dat1 es w7s b8s f0s f1s f2s f3s O c).before 0 t d))
    ∗ (∃ d, owns (c : Thread nD τ) (st1_1 t) fullShare ((dat1 es w7s b8s f0s f1s f2s f3s O c).before 1 t d))
    ∗ (∃ d, owns (c : Thread nD τ) (st1_2 t) fullShare ((dat1 es w7s b8s f0s f1s f2s f3s O c).before 2 t d))
    ∗ (∃ d, owns (c : Thread nD τ) (st1_3 t) fullShare ((dat1 es w7s b8s f0s f1s f2s f3s O c).before 3 t d))
    ∗ (∃ d, owns (c : Thread nD τ) (st1_4 t) fullShare ((dat1 es w7s b8s f0s f1s f2s f3s O c).before 4 t d))
    ∗ (∃ d, owns (c : Thread nD τ) (st1_5 t) fullShare ((dat1 es w7s b8s f0s f1s f2s f3s O c).before 5 t d))
    ∗ (∃ d, owns (c : Thread nD τ) (st1_6 t) fullShare ((dat1 es w7s b8s f0s f1s f2s f3s O c).before 6 t d))
    ∗ (∃ d, owns (c : Thread nD τ) (st1_7 t) fullShare ((dat1 es w7s b8s f0s f1s f2s f3s O c).before 7 t d))
    ∗ (∃ d, owns (c : Thread nD τ) (st1_8 t) fullShare ((dat1 es w7s b8s f0s f1s f2s f3s O c).before 8 t d))
    ∗ (∃ d, owns (c : Thread nD τ) (st1_9 t) fullShare ((dat1 es w7s b8s f0s f1s f2s f3s O c).before 9 t d)))

def bodyPost1 (c : Dev nD) (t : Fin cfg1.N) : sProp (𝕄 F) :=
  iprop((dat1 es w7s b8s f0s f1s f2s f3s O c).Φ t.succ ∗ (dat1 es w7s b8s f0s f1s f2s f3s O c).owesAt none t.succ
    ∗ owns (c : Thread nD τ) (st1_0 t) fullShare ((dat1 es w7s b8s f0s f1s f2s f3s O c).after 0 t)
    ∗ owns (c : Thread nD τ) (st1_1 t) fullShare ((dat1 es w7s b8s f0s f1s f2s f3s O c).after 1 t)
    ∗ owns (c : Thread nD τ) (st1_2 t) fullShare ((dat1 es w7s b8s f0s f1s f2s f3s O c).after 2 t)
    ∗ owns (c : Thread nD τ) (st1_3 t) fullShare ((dat1 es w7s b8s f0s f1s f2s f3s O c).after 3 t)
    ∗ owns (c : Thread nD τ) (st1_4 t) fullShare ((dat1 es w7s b8s f0s f1s f2s f3s O c).after 4 t)
    ∗ owns (c : Thread nD τ) (st1_5 t) fullShare ((dat1 es w7s b8s f0s f1s f2s f3s O c).after 5 t)
    ∗ owns (c : Thread nD τ) (st1_6 t) fullShare ((dat1 es w7s b8s f0s f1s f2s f3s O c).after 6 t)
    ∗ owns (c : Thread nD τ) (st1_7 t) fullShare ((dat1 es w7s b8s f0s f1s f2s f3s O c).after 7 t)
    ∗ owns (c : Thread nD τ) (st1_8 t) fullShare ((dat1 es w7s b8s f0s f1s f2s f3s O c).after 8 t)
    ∗ owns (c : Thread nD τ) (st1_9 t) fullShare ((dat1 es w7s b8s f0s f1s f2s f3s O c).after 9 t))

theorem sound_body1 (c : Dev nD) (t : Fin cfg1.N) :
    bodyPre1 es w7s b8s f0s f1s f2s f3s O c t ⊢ wp frame (wpE (defs₀ (F := F)) Variants.none c none) Set.univ (bodyAt1 t) (fun _ => bodyPost1 es w7s b8s f0s f1s f2s f3s O c t) := by
  unfold bodyPre1 bodyPost1 bodyAt1
  simp only [before1_0, before1_1, before1_2, before1_3, before1_4, before1_5]
  rw [show (dat1 es w7s b8s f0s f1s f2s f3s O c).Φ t.succ = (dat1 es w7s b8s f0s f1s f2s f3s O c).Φ t.castSucc from rfl,
    show (dat1 es w7s b8s f0s f1s f2s f3s O c).owesAt none t.succ = (dat1 es w7s b8s f0s f1s f2s f3s O c).owesAt none t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (blkE0 es c t) (blkE1 es c t) (blkE2 es c t) (blkE3 es c t) (blkW7 w7s c t) (blkB b8s c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation1 (c : Dev nD) : BodyObligation (dat1 (F := F) es w7s b8s f0s f1s f2s f3s O c) (defs₀ (F := F)) Variants.none (none : HIx 1) Set.univ := fun t => by
  rw [bigSep_W1, bigSep_W1]
  exact sound_body1 es w7s b8s f0s f1s f2s f3s O c t

/-! ## The operand arrays are never written -/

theorem arrAt1_in0 (c : Dev nD) : (dat1 es w7s b8s f0s f1s f2s f3s O c).arrAt 0 cfg1.N = es c :=
  funext fun i => ((dat1 es w7s b8s f0s f1s f2s f3s O c).arrAt_apply_of_forall_not_mem 0 cfg1.N i fun t _ hf _ => by
    rw [show (cfg1.win 0).flush t = false from rfl] at hf; exact absurd hf Bool.false_ne_true).trans (congrFun (A1_eq0 es w7s b8s f0s f1s f2s f3s O c) i)
theorem arrAt1_in1 (c : Dev nD) : (dat1 es w7s b8s f0s f1s f2s f3s O c).arrAt 1 cfg1.N = es c :=
  funext fun i => ((dat1 es w7s b8s f0s f1s f2s f3s O c).arrAt_apply_of_forall_not_mem 1 cfg1.N i fun t _ hf _ => by
    rw [show (cfg1.win 1).flush t = false from rfl] at hf; exact absurd hf Bool.false_ne_true).trans (congrFun (A1_eq1 es w7s b8s f0s f1s f2s f3s O c) i)
theorem arrAt1_in2 (c : Dev nD) : (dat1 es w7s b8s f0s f1s f2s f3s O c).arrAt 2 cfg1.N = es c :=
  funext fun i => ((dat1 es w7s b8s f0s f1s f2s f3s O c).arrAt_apply_of_forall_not_mem 2 cfg1.N i fun t _ hf _ => by
    rw [show (cfg1.win 2).flush t = false from rfl] at hf; exact absurd hf Bool.false_ne_true).trans (congrFun (A1_eq2 es w7s b8s f0s f1s f2s f3s O c) i)
theorem arrAt1_in3 (c : Dev nD) : (dat1 es w7s b8s f0s f1s f2s f3s O c).arrAt 3 cfg1.N = es c :=
  funext fun i => ((dat1 es w7s b8s f0s f1s f2s f3s O c).arrAt_apply_of_forall_not_mem 3 cfg1.N i fun t _ hf _ => by
    rw [show (cfg1.win 3).flush t = false from rfl] at hf; exact absurd hf Bool.false_ne_true).trans (congrFun (A1_eq3 es w7s b8s f0s f1s f2s f3s O c) i)
theorem arrAt1_in4 (c : Dev nD) : (dat1 es w7s b8s f0s f1s f2s f3s O c).arrAt 4 cfg1.N = w7s c :=
  funext fun i => ((dat1 es w7s b8s f0s f1s f2s f3s O c).arrAt_apply_of_forall_not_mem 4 cfg1.N i fun t _ hf _ => by
    rw [show (cfg1.win 4).flush t = false from rfl] at hf; exact absurd hf Bool.false_ne_true).trans (congrFun (A1_eq4 es w7s b8s f0s f1s f2s f3s O c) i)
theorem arrAt1_in5 (c : Dev nD) : (dat1 es w7s b8s f0s f1s f2s f3s O c).arrAt 5 cfg1.N = b8s c :=
  funext fun i => ((dat1 es w7s b8s f0s f1s f2s f3s O c).arrAt_apply_of_forall_not_mem 5 cfg1.N i fun t _ hf _ => by
    rw [show (cfg1.win 5).flush t = false from rfl] at hf; exact absurd hf Bool.false_ne_true).trans (congrFun (A1_eq5 es w7s b8s f0s f1s f2s f3s O c) i)

/-! ## A whole array as four quarters -/

theorem quarters_split {ℓ : Loc nD τ sig} (f : Buf (Elt F) ℓ) :
    (ℓ ↦{fullShare} f : sProp (𝕄 F)) ⊢ iprop((ℓ ↦{fullShare.left.left} f) ∗ (ℓ ↦{fullShare.left.right} f) ∗ (ℓ ↦{fullShare.right.left} f) ∗ (ℓ ↦{fullShare.right.right} f)) := by
  refine ((pointsTo_share (PosShare.mem_left_op_right fullShare)).1.trans
    (BIClass.sep_mono (pointsTo_share (PosShare.mem_left_op_right fullShare.left)).1 (pointsTo_share (PosShare.mem_left_op_right fullShare.right)).1)).trans ?_
  iintro ⟨⟨Hll, Hlr⟩, Hrl, Hrr⟩
  isplitl [Hll]; · iexact Hll
  isplitl [Hlr]; · iexact Hlr
  isplitl [Hrl]; · iexact Hrl
  iexact Hrr

theorem quarters_join {ℓ : Loc nD τ sig} (f : Buf (Elt F) ℓ) :
    iprop((ℓ ↦{fullShare.left.left} f) ∗ (ℓ ↦{fullShare.left.right} f) ∗ (ℓ ↦{fullShare.right.left} f) ∗ (ℓ ↦{fullShare.right.right} f)) ⊢ (ℓ ↦{fullShare} f : sProp (𝕄 F)) := by
  refine BIBase.Entails.trans ?_ ((BIClass.sep_mono (pointsTo_share (PosShare.mem_left_op_right fullShare.left)).2 (pointsTo_share (PosShare.mem_left_op_right fullShare.right)).2).trans
    (pointsTo_share (PosShare.mem_left_op_right fullShare)).2)
  iintro ⟨Hll, Hlr, Hrl, Hrr⟩
  isplitl [Hll Hlr]
  · isplitl [Hll]; · iexact Hll
    iexact Hlr
  isplitl [Hrl]; · iexact Hrl
  iexact Hrr

/-! ## The result arrays, each as one function of the operands -/

theorem off_zero3 : (![0, 0, 0] : Fin 3 → Nat) = fun _ => 0 := funext fun a => by fin_cases a <;> rfl

/-- The 2000 rows of block `q` of slab `s` of the edge features, as a block of one slab. -/
def slabRows (e4 : FVec F S4x40000x256 .f32) (s : Fin 4) (q : ℕ) : FVec F S1x2000x256 .f32 :=
  fun y => e4 (ix3 s (⟨min (2000 * q + (y 1).val) 39999, by omega⟩ : Fin 40000) (⟨(y 2).val, (y 2).isLt⟩ : Fin 256))

/-- Result `s`: row `r` is row `r % 2000` of the product of block `r / 2000` of slab `s` with the weights, plus the bias. -/
def edgeVal (s : Fin 4) (e4 : FVec F S4x40000x256 .f32) (w7 : FVec F S256x1 .f32) (b : FVec F S1x1 .f32) : FVec F S40000x1 .f32 :=
  fun i => k1_pay3 w7 b (slabRows e4 s ((i 0).val / 2000))
    (ix2 (⟨(i 0).val % 2000, Nat.mod_lt _ (by decide)⟩ : Fin 2000) (⟨(i 1).val, (i 1).isLt⟩ : Fin 1))

/-- The printed index maps over the grid. -/
theorem idxE0 : ∀ t : Fin cfg1.N, win1_0.index t (0 : Fin 3) = 0 ∧ win1_0.index t (1 : Fin 3) = t.val ∧ win1_0.index t (2 : Fin 3) = 0 :=
  (by decide +kernel : ∀ t : Fin grid1.N, _)
theorem idxE1 : ∀ t : Fin cfg1.N, win1_1.index t (0 : Fin 3) = 1 ∧ win1_1.index t (1 : Fin 3) = t.val ∧ win1_1.index t (2 : Fin 3) = 0 :=
  (by decide +kernel : ∀ t : Fin grid1.N, _)
theorem idxE2 : ∀ t : Fin cfg1.N, win1_2.index t (0 : Fin 3) = 2 ∧ win1_2.index t (1 : Fin 3) = t.val ∧ win1_2.index t (2 : Fin 3) = 0 :=
  (by decide +kernel : ∀ t : Fin grid1.N, _)
theorem idxE3 : ∀ t : Fin cfg1.N, win1_3.index t (0 : Fin 3) = 3 ∧ win1_3.index t (1 : Fin 3) = t.val ∧ win1_3.index t (2 : Fin 3) = 0 :=
  (by decide +kernel : ∀ t : Fin grid1.N, _)
theorem idxW7 : ∀ t : Fin cfg1.N, win1_4.index t (0 : Fin 2) = 0 ∧ win1_4.index t (1 : Fin 2) = 0 := (by decide +kernel : ∀ t : Fin grid1.N, _)
theorem idxB : ∀ t : Fin cfg1.N, win1_5.index t (0 : Fin 2) = 0 ∧ win1_5.index t (1 : Fin 2) = 0 := (by decide +kernel : ∀ t : Fin grid1.N, _)
theorem idxO6 : ∀ t : Fin cfg1.N, win1_6.index t (0 : Fin 2) = t.val ∧ win1_6.index t (1 : Fin 2) = 0 ∧ t.val < 20 := (by decide +kernel : ∀ t : Fin grid1.N, _)
theorem idxO7 : ∀ t : Fin cfg1.N, win1_7.index t (0 : Fin 2) = t.val ∧ win1_7.index t (1 : Fin 2) = 0 ∧ t.val < 20 := (by decide +kernel : ∀ t : Fin grid1.N, _)
theorem idxO8 : ∀ t : Fin cfg1.N, win1_8.index t (0 : Fin 2) = t.val ∧ win1_8.index t (1 : Fin 2) = 0 ∧ t.val < 20 := (by decide +kernel : ∀ t : Fin grid1.N, _)
theorem idxO9 : ∀ t : Fin cfg1.N, win1_9.index t (0 : Fin 2) = t.val ∧ win1_9.index t (1 : Fin 2) = 0 ∧ t.val < 20 := (by decide +kernel : ∀ t : Fin grid1.N, _)

/-- The weights' and the bias' windows hold the whole arrays. -/
theorem blkW7_eq (c : Dev nD) (t : Fin cfg1.N) : blkW7 w7s c t = w7s c := by
  obtain ⟨a0, a1⟩ := idxW7 t
  funext y
  have hy0 : (y 0).val < 256 := (y 0).isLt
  have hy1 : (y 1).val < 1 := (y 1).isLt
  show w7s c (((cfg1.win 4).blk t).view.emb y) = w7s c y
  congr 1
  funext a; apply Fin.ext
  match a with
  | ⟨0, _⟩ => show win1_4.index t (0 : Fin 2) * 256 + 1 * (y 0).val = (y 0).val; rw [a0]; omega
  | ⟨1, _⟩ => show win1_4.index t (1 : Fin 2) * 1 + 1 * (y 1).val = (y 1).val; rw [a1]; omega
theorem blkB_eq (c : Dev nD) (t : Fin cfg1.N) : blkB b8s c t = b8s c := by
  obtain ⟨a0, a1⟩ := idxB t
  funext y
  have hy0 : (y 0).val < 1 := (y 0).isLt
  have hy1 : (y 1).val < 1 := (y 1).isLt
  show b8s c (((cfg1.win 5).blk t).view.emb y) = b8s c y
  congr 1
  funext a; apply Fin.ext
  match a with
  | ⟨0, _⟩ => show win1_5.index t (0 : Fin 2) * 1 + 1 * (y 0).val = (y 0).val; rw [a0]; omega
  | ⟨1, _⟩ => show win1_5.index t (1 : Fin 2) * 1 + 1 * (y 1).val = (y 1).val; rw [a1]; omega

/-- What point `t` writes back to result 0 is block `t` of `edgeVal 0` of the operands as the region finds them. -/
theorem flushed1_6_eq (c : Dev nD) (t : Fin cfg1.N) :
    (dat1 es w7s b8s f0s f1s f2s f3s O c).flushed 6 t = ((cfg1.win 6).blk t).view.read (Elt F) (edgeVal 0 (es c) (w7s c) (b8s c)) := by
  show (cfg1.win 6).cut (grid1.coords t) ((dat1 es w7s b8s f0s f1s f2s f3s O c).after 6 t) = _
  rw [after1_6]
  unfold outBlk6
  rw [View.canon_unit_zero off_zero2]
  simp only [View.ld_unit_zero (S := S256x1) off_zero2, View.ld_unit_zero (S := S1x1) off_zero2, View.ld_unit_zero (S := S1x2000x256) off_zero3]
  obtain ⟨e0, e1, e2⟩ := idxE0 t
  obtain ⟨o0, o1, o2⟩ := idxO6 t
  funext j
  have hj0 : (j 0).val < 2000 := (j 0).isLt
  have hj1 : (j 1).val < 1 := (j 1).isLt
  have hi0 : ((((cfg1.win 6).blk t).view.emb j) 0).val = t.val * 2000 + (j 0).val := by
    show win1_6.index t (0 : Fin 2) * 2000 + 1 * (j 0).val = _; rw [o0]; omega
  have hi1 : ((((cfg1.win 6).blk t).view.emb j) 1).val = (j 1).val := by
    show win1_6.index t (1 : Fin 2) * 1 + 1 * (j 1).val = _; rw [o1]; omega
  show k1_pay3 (blkW7 w7s c t) (blkB b8s c t) (blkE0 es c t) j = edgeVal 0 (es c) (w7s c) (b8s c) (((cfg1.win 6).blk t).view.emb j)
  unfold edgeVal
  have hE : blkE0 es c t = slabRows (es c) 0 (((((cfg1.win 6).blk t).view.emb j) 0).val / 2000) := by
    funext y
    have hy0 : (y 0).val < 1 := (y 0).isLt
    have hy1 : (y 1).val < 2000 := (y 1).isLt
    have hy2 : (y 2).val < 256 := (y 2).isLt
    show es c (((cfg1.win 0).blk t).view.emb y) = es c (ix3 _ _ _)
    congr 1
    funext a; apply Fin.ext
    match a with
    | ⟨0, _⟩ => show win1_0.index t (0 : Fin 3) * 1 + 1 * (y 0).val = 0; rw [e0]; omega
    | ⟨1, _⟩ =>
      show win1_0.index t (1 : Fin 3) * 2000 + 1 * (y 1).val = min (2000 * (((((cfg1.win 6).blk t).view.emb j) 0).val / 2000) + (y 1).val) 39999
      rw [hi0, e1]; omega
    | ⟨2, _⟩ => show win1_0.index t (2 : Fin 3) * 256 + 1 * (y 2).val = (y 2).val; rw [e2]; omega
  rw [hE, blkW7_eq, blkB_eq]
  congr 1
  funext a; apply Fin.ext
  match a with
  | ⟨0, _⟩ => show (j 0).val = ((((cfg1.win 6).blk t).view.emb j) 0).val % 2000; rw [hi0]; omega
  | ⟨1, _⟩ => show (j 1).val = ((((cfg1.win 6).blk t).view.emb j) 1).val; rw [hi1]

theorem mem_blk1_6 (t : Fin cfg1.N) (i : S40000x1.Idx) :
    i ∈ ((cfg1.win 6).blk t).view.set ↔ ∀ a : Fin 2, win1_6.index t a * S2000x1.size a ≤ (i a).val ∧ (i a).val < win1_6.index t a * S2000x1.size a + S2000x1.size a := by
  show i ∈ ((View.whole main_v12_0).slice (win1_6.rect t)).set ↔ _
  rw [View.set_slice_whole, Rect.mem_set_unit]
  exact Iff.rfl

theorem cover1_6 (i : S40000x1.Idx) : ∃ t : Fin cfg1.N, (cfg1.win 6).flush t = true ∧ i ∈ ((cfg1.win 6).blk t).view.set := by
  have hi0 : (i 0).val < 40000 := (i 0).isLt
  have hi1 : (i 1).val < 1 := (i 1).isLt
  refine ⟨⟨(i 0).val / 2000, by rw [show cfg1.N = 20 from N_1]; omega⟩, flush1_6 _, ?_⟩
  obtain ⟨o0, o1, o2⟩ := idxO6 ⟨(i 0).val / 2000, by rw [show cfg1.N = 20 from N_1]; omega⟩
  rw [mem_blk1_6]
  intro a
  match a with
  | ⟨0, _⟩ =>
    show win1_6.index _ (0 : Fin 2) * 2000 ≤ (i 0).val ∧ (i 0).val < win1_6.index _ (0 : Fin 2) * 2000 + 2000
    rw [o0]; show (i 0).val / 2000 * 2000 ≤ (i 0).val ∧ (i 0).val < (i 0).val / 2000 * 2000 + 2000; omega
  | ⟨1, _⟩ =>
    show win1_6.index _ (1 : Fin 2) * 1 ≤ (i 1).val ∧ (i 1).val < win1_6.index _ (1 : Fin 2) * 1 + 1
    rw [o1]; omega

/-- RESULT 0 after the last write-back. -/
theorem final1_6 (c : Dev nD) : (dat1 es w7s b8s f0s f1s f2s f3s O c).arrAt 6 cfg1.N = edgeVal 0 (es c) (w7s c) (b8s c) :=
  (dat1 es w7s b8s f0s f1s f2s f3s O c).arrAt_eq_of_cover 6 (edgeVal 0 (es c) (w7s c) (b8s c)) (fun t _ => flushed1_6_eq es w7s b8s f0s f1s f2s f3s O c t) cover1_6

/-- What point `t` writes back to result 1 is block `t` of `edgeVal 1` of the operands as the region finds them. -/
theorem flushed1_7_eq (c : Dev nD) (t : Fin cfg1.N) :
    (dat1 es w7s b8s f0s f1s f2s f3s O c).flushed 7 t = ((cfg1.win 7).blk t).view.read (Elt F) (edgeVal 1 (es c) (w7s c) (b8s c)) := by
  show (cfg1.win 7).cut (grid1.coords t) ((dat1 es w7s b8s f0s f1s f2s f3s O c).after 7 t) = _
  rw [after1_7]
  unfold outBlk7
  rw [View.canon_unit_zero off_zero2]
  simp only [View.ld_unit_zero (S := S256x1) off_zero2, View.ld_unit_zero (S := S1x1) off_zero2, View.ld_unit_zero (S := S1x2000x256) off_zero3]
  obtain ⟨e0, e1, e2⟩ := idxE1 t
  obtain ⟨o0, o1, o2⟩ := idxO7 t
  funext j
  have hj0 : (j 0).val < 2000 := (j 0).isLt
  have hj1 : (j 1).val < 1 := (j 1).isLt
  have hi0 : ((((cfg1.win 7).blk t).view.emb j) 0).val = t.val * 2000 + (j 0).val := by
    show win1_7.index t (0 : Fin 2) * 2000 + 1 * (j 0).val = _; rw [o0]; omega
  have hi1 : ((((cfg1.win 7).blk t).view.emb j) 1).val = (j 1).val := by
    show win1_7.index t (1 : Fin 2) * 1 + 1 * (j 1).val = _; rw [o1]; omega
  show k1_pay3 (blkW7 w7s c t) (blkB b8s c t) (blkE1 es c t) j = edgeVal 1 (es c) (w7s c) (b8s c) (((cfg1.win 7).blk t).view.emb j)
  unfold edgeVal
  have hE : blkE1 es c t = slabRows (es c) 1 (((((cfg1.win 7).blk t).view.emb j) 0).val / 2000) := by
    funext y
    have hy0 : (y 0).val < 1 := (y 0).isLt
    have hy1 : (y 1).val < 2000 := (y 1).isLt
    have hy2 : (y 2).val < 256 := (y 2).isLt
    show es c (((cfg1.win 1).blk t).view.emb y) = es c (ix3 _ _ _)
    congr 1
    funext a; apply Fin.ext
    match a with
    | ⟨0, _⟩ => show win1_1.index t (0 : Fin 3) * 1 + 1 * (y 0).val = 1; rw [e0]; omega
    | ⟨1, _⟩ =>
      show win1_1.index t (1 : Fin 3) * 2000 + 1 * (y 1).val = min (2000 * (((((cfg1.win 7).blk t).view.emb j) 0).val / 2000) + (y 1).val) 39999
      rw [hi0, e1]; omega
    | ⟨2, _⟩ => show win1_1.index t (2 : Fin 3) * 256 + 1 * (y 2).val = (y 2).val; rw [e2]; omega
  rw [hE, blkW7_eq, blkB_eq]
  congr 1
  funext a; apply Fin.ext
  match a with
  | ⟨0, _⟩ => show (j 0).val = ((((cfg1.win 7).blk t).view.emb j) 0).val % 2000; rw [hi0]; omega
  | ⟨1, _⟩ => show (j 1).val = ((((cfg1.win 7).blk t).view.emb j) 1).val; rw [hi1]

theorem mem_blk1_7 (t : Fin cfg1.N) (i : S40000x1.Idx) :
    i ∈ ((cfg1.win 7).blk t).view.set ↔ ∀ a : Fin 2, win1_7.index t a * S2000x1.size a ≤ (i a).val ∧ (i a).val < win1_7.index t a * S2000x1.size a + S2000x1.size a := by
  show i ∈ ((View.whole main_v12_1).slice (win1_7.rect t)).set ↔ _
  rw [View.set_slice_whole, Rect.mem_set_unit]
  exact Iff.rfl

theorem cover1_7 (i : S40000x1.Idx) : ∃ t : Fin cfg1.N, (cfg1.win 7).flush t = true ∧ i ∈ ((cfg1.win 7).blk t).view.set := by
  have hi0 : (i 0).val < 40000 := (i 0).isLt
  have hi1 : (i 1).val < 1 := (i 1).isLt
  refine ⟨⟨(i 0).val / 2000, by rw [show cfg1.N = 20 from N_1]; omega⟩, flush1_7 _, ?_⟩
  obtain ⟨o0, o1, o2⟩ := idxO7 ⟨(i 0).val / 2000, by rw [show cfg1.N = 20 from N_1]; omega⟩
  rw [mem_blk1_7]
  intro a
  match a with
  | ⟨0, _⟩ =>
    show win1_7.index _ (0 : Fin 2) * 2000 ≤ (i 0).val ∧ (i 0).val < win1_7.index _ (0 : Fin 2) * 2000 + 2000
    rw [o0]; show (i 0).val / 2000 * 2000 ≤ (i 0).val ∧ (i 0).val < (i 0).val / 2000 * 2000 + 2000; omega
  | ⟨1, _⟩ =>
    show win1_7.index _ (1 : Fin 2) * 1 ≤ (i 1).val ∧ (i 1).val < win1_7.index _ (1 : Fin 2) * 1 + 1
    rw [o1]; omega

/-- RESULT 1 after the last write-back. -/
theorem final1_7 (c : Dev nD) : (dat1 es w7s b8s f0s f1s f2s f3s O c).arrAt 7 cfg1.N = edgeVal 1 (es c) (w7s c) (b8s c) :=
  (dat1 es w7s b8s f0s f1s f2s f3s O c).arrAt_eq_of_cover 7 (edgeVal 1 (es c) (w7s c) (b8s c)) (fun t _ => flushed1_7_eq es w7s b8s f0s f1s f2s f3s O c t) cover1_7

/-- What point `t` writes back to result 2 is block `t` of `edgeVal 2` of the operands as the region finds them. -/
theorem flushed1_8_eq (c : Dev nD) (t : Fin cfg1.N) :
    (dat1 es w7s b8s f0s f1s f2s f3s O c).flushed 8 t = ((cfg1.win 8).blk t).view.read (Elt F) (edgeVal 2 (es c) (w7s c) (b8s c)) := by
  show (cfg1.win 8).cut (grid1.coords t) ((dat1 es w7s b8s f0s f1s f2s f3s O c).after 8 t) = _
  rw [after1_8]
  unfold outBlk8
  rw [View.canon_unit_zero off_zero2]
  simp only [View.ld_unit_zero (S := S256x1) off_zero2, View.ld_unit_zero (S := S1x1) off_zero2, View.ld_unit_zero (S := S1x2000x256) off_zero3]
  obtain ⟨e0, e1, e2⟩ := idxE2 t
  obtain ⟨o0, o1, o2⟩ := idxO8 t
  funext j
  have hj0 : (j 0).val < 2000 := (j 0).isLt
  have hj1 : (j 1).val < 1 := (j 1).isLt
  have hi0 : ((((cfg1.win 8).blk t).view.emb j) 0).val = t.val * 2000 + (j 0).val := by
    show win1_8.index t (0 : Fin 2) * 2000 + 1 * (j 0).val = _; rw [o0]; omega
  have hi1 : ((((cfg1.win 8).blk t).view.emb j) 1).val = (j 1).val := by
    show win1_8.index t (1 : Fin 2) * 1 + 1 * (j 1).val = _; rw [o1]; omega
  show k1_pay3 (blkW7 w7s c t) (blkB b8s c t) (blkE2 es c t) j = edgeVal 2 (es c) (w7s c) (b8s c) (((cfg1.win 8).blk t).view.emb j)
  unfold edgeVal
  have hE : blkE2 es c t = slabRows (es c) 2 (((((cfg1.win 8).blk t).view.emb j) 0).val / 2000) := by
    funext y
    have hy0 : (y 0).val < 1 := (y 0).isLt
    have hy1 : (y 1).val < 2000 := (y 1).isLt
    have hy2 : (y 2).val < 256 := (y 2).isLt
    show es c (((cfg1.win 2).blk t).view.emb y) = es c (ix3 _ _ _)
    congr 1
    funext a; apply Fin.ext
    match a with
    | ⟨0, _⟩ => show win1_2.index t (0 : Fin 3) * 1 + 1 * (y 0).val = 2; rw [e0]; omega
    | ⟨1, _⟩ =>
      show win1_2.index t (1 : Fin 3) * 2000 + 1 * (y 1).val = min (2000 * (((((cfg1.win 8).blk t).view.emb j) 0).val / 2000) + (y 1).val) 39999
      rw [hi0, e1]; omega
    | ⟨2, _⟩ => show win1_2.index t (2 : Fin 3) * 256 + 1 * (y 2).val = (y 2).val; rw [e2]; omega
  rw [hE, blkW7_eq, blkB_eq]
  congr 1
  funext a; apply Fin.ext
  match a with
  | ⟨0, _⟩ => show (j 0).val = ((((cfg1.win 8).blk t).view.emb j) 0).val % 2000; rw [hi0]; omega
  | ⟨1, _⟩ => show (j 1).val = ((((cfg1.win 8).blk t).view.emb j) 1).val; rw [hi1]

theorem mem_blk1_8 (t : Fin cfg1.N) (i : S40000x1.Idx) :
    i ∈ ((cfg1.win 8).blk t).view.set ↔ ∀ a : Fin 2, win1_8.index t a * S2000x1.size a ≤ (i a).val ∧ (i a).val < win1_8.index t a * S2000x1.size a + S2000x1.size a := by
  show i ∈ ((View.whole main_v12_2).slice (win1_8.rect t)).set ↔ _
  rw [View.set_slice_whole, Rect.mem_set_unit]
  exact Iff.rfl

theorem cover1_8 (i : S40000x1.Idx) : ∃ t : Fin cfg1.N, (cfg1.win 8).flush t = true ∧ i ∈ ((cfg1.win 8).blk t).view.set := by
  have hi0 : (i 0).val < 40000 := (i 0).isLt
  have hi1 : (i 1).val < 1 := (i 1).isLt
  refine ⟨⟨(i 0).val / 2000, by rw [show cfg1.N = 20 from N_1]; omega⟩, flush1_8 _, ?_⟩
  obtain ⟨o0, o1, o2⟩ := idxO8 ⟨(i 0).val / 2000, by rw [show cfg1.N = 20 from N_1]; omega⟩
  rw [mem_blk1_8]
  intro a
  match a with
  | ⟨0, _⟩ =>
    show win1_8.index _ (0 : Fin 2) * 2000 ≤ (i 0).val ∧ (i 0).val < win1_8.index _ (0 : Fin 2) * 2000 + 2000
    rw [o0]; show (i 0).val / 2000 * 2000 ≤ (i 0).val ∧ (i 0).val < (i 0).val / 2000 * 2000 + 2000; omega
  | ⟨1, _⟩ =>
    show win1_8.index _ (1 : Fin 2) * 1 ≤ (i 1).val ∧ (i 1).val < win1_8.index _ (1 : Fin 2) * 1 + 1
    rw [o1]; omega

/-- RESULT 2 after the last write-back. -/
theorem final1_8 (c : Dev nD) : (dat1 es w7s b8s f0s f1s f2s f3s O c).arrAt 8 cfg1.N = edgeVal 2 (es c) (w7s c) (b8s c) :=
  (dat1 es w7s b8s f0s f1s f2s f3s O c).arrAt_eq_of_cover 8 (edgeVal 2 (es c) (w7s c) (b8s c)) (fun t _ => flushed1_8_eq es w7s b8s f0s f1s f2s f3s O c t) cover1_8

/-- What point `t` writes back to result 3 is block `t` of `edgeVal 3` of the operands as the region finds them. -/
theorem flushed1_9_eq (c : Dev nD) (t : Fin cfg1.N) :
    (dat1 es w7s b8s f0s f1s f2s f3s O c).flushed 9 t = ((cfg1.win 9).blk t).view.read (Elt F) (edgeVal 3 (es c) (w7s c) (b8s c)) := by
  show (cfg1.win 9).cut (grid1.coords t) ((dat1 es w7s b8s f0s f1s f2s f3s O c).after 9 t) = _
  rw [after1_9]
  unfold outBlk9
  rw [View.canon_unit_zero off_zero2]
  simp only [View.ld_unit_zero (S := S256x1) off_zero2, View.ld_unit_zero (S := S1x1) off_zero2, View.ld_unit_zero (S := S1x2000x256) off_zero3]
  obtain ⟨e0, e1, e2⟩ := idxE3 t
  obtain ⟨o0, o1, o2⟩ := idxO9 t
  funext j
  have hj0 : (j 0).val < 2000 := (j 0).isLt
  have hj1 : (j 1).val < 1 := (j 1).isLt
  have hi0 : ((((cfg1.win 9).blk t).view.emb j) 0).val = t.val * 2000 + (j 0).val := by
    show win1_9.index t (0 : Fin 2) * 2000 + 1 * (j 0).val = _; rw [o0]; omega
  have hi1 : ((((cfg1.win 9).blk t).view.emb j) 1).val = (j 1).val := by
    show win1_9.index t (1 : Fin 2) * 1 + 1 * (j 1).val = _; rw [o1]; omega
  show k1_pay3 (blkW7 w7s c t) (blkB b8s c t) (blkE3 es c t) j = edgeVal 3 (es c) (w7s c) (b8s c) (((cfg1.win 9).blk t).view.emb j)
  unfold edgeVal
  have hE : blkE3 es c t = slabRows (es c) 3 (((((cfg1.win 9).blk t).view.emb j) 0).val / 2000) := by
    funext y
    have hy0 : (y 0).val < 1 := (y 0).isLt
    have hy1 : (y 1).val < 2000 := (y 1).isLt
    have hy2 : (y 2).val < 256 := (y 2).isLt
    show es c (((cfg1.win 3).blk t).view.emb y) = es c (ix3 _ _ _)
    congr 1
    funext a; apply Fin.ext
    match a with
    | ⟨0, _⟩ => show win1_3.index t (0 : Fin 3) * 1 + 1 * (y 0).val = 3; rw [e0]; omega
    | ⟨1, _⟩ =>
      show win1_3.index t (1 : Fin 3) * 2000 + 1 * (y 1).val = min (2000 * (((((cfg1.win 9).blk t).view.emb j) 0).val / 2000) + (y 1).val) 39999
      rw [hi0, e1]; omega
    | ⟨2, _⟩ => show win1_3.index t (2 : Fin 3) * 256 + 1 * (y 2).val = (y 2).val; rw [e2]; omega
  rw [hE, blkW7_eq, blkB_eq]
  congr 1
  funext a; apply Fin.ext
  match a with
  | ⟨0, _⟩ => show (j 0).val = ((((cfg1.win 9).blk t).view.emb j) 0).val % 2000; rw [hi0]; omega
  | ⟨1, _⟩ => show (j 1).val = ((((cfg1.win 9).blk t).view.emb j) 1).val; rw [hi1]

theorem mem_blk1_9 (t : Fin cfg1.N) (i : S40000x1.Idx) :
    i ∈ ((cfg1.win 9).blk t).view.set ↔ ∀ a : Fin 2, win1_9.index t a * S2000x1.size a ≤ (i a).val ∧ (i a).val < win1_9.index t a * S2000x1.size a + S2000x1.size a := by
  show i ∈ ((View.whole main_v12_3).slice (win1_9.rect t)).set ↔ _
  rw [View.set_slice_whole, Rect.mem_set_unit]
  exact Iff.rfl

theorem cover1_9 (i : S40000x1.Idx) : ∃ t : Fin cfg1.N, (cfg1.win 9).flush t = true ∧ i ∈ ((cfg1.win 9).blk t).view.set := by
  have hi0 : (i 0).val < 40000 := (i 0).isLt
  have hi1 : (i 1).val < 1 := (i 1).isLt
  refine ⟨⟨(i 0).val / 2000, by rw [show cfg1.N = 20 from N_1]; omega⟩, flush1_9 _, ?_⟩
  obtain ⟨o0, o1, o2⟩ := idxO9 ⟨(i 0).val / 2000, by rw [show cfg1.N = 20 from N_1]; omega⟩
  rw [mem_blk1_9]
  intro a
  match a with
  | ⟨0, _⟩ =>
    show win1_9.index _ (0 : Fin 2) * 2000 ≤ (i 0).val ∧ (i 0).val < win1_9.index _ (0 : Fin 2) * 2000 + 2000
    rw [o0]; show (i 0).val / 2000 * 2000 ≤ (i 0).val ∧ (i 0).val < (i 0).val / 2000 * 2000 + 2000; omega
  | ⟨1, _⟩ =>
    show win1_9.index _ (1 : Fin 2) * 1 ≤ (i 1).val ∧ (i 1).val < win1_9.index _ (1 : Fin 2) * 1 + 1
    rw [o1]; omega

/-- RESULT 3 after the last write-back. -/
theorem final1_9 (c : Dev nD) : (dat1 es w7s b8s f0s f1s f2s f3s O c).arrAt 9 cfg1.N = edgeVal 3 (es c) (w7s c) (b8s c) :=
  (dat1 es w7s b8s f0s f1s f2s f3s O c).arrAt_eq_of_cover 9 (edgeVal 3 (es c) (w7s c) (b8s c)) (fun t _ => flushed1_9_eq es w7s b8s f0s f1s f2s f3s O c t) cover1_9

/-! ## The region -/

/-- The proof data family as the region's theorem takes it: pipeline 1's entry is `dat1`. -/
def pdats1 : (p : Fin 2) → (c : Dev nD) → Dat τ (Elt F) (HIx 1) ℕ UU ℕ (Pipeline.pin (pcfgs (F := F)) adm p) c
  | ⟨0, _⟩ => fun c => datIdle 0 c
  | ⟨1, _⟩ => fun c => dat1 es w7s b8s f0s f1s f2s f3s O c

/-- What the TensorCore holds of the call's arrays, the edge features in four quarters, and its debts, when it enters the call, -/
def pre1 (c : Dev nD) : sProp (𝕄 F) :=
  iprop(((𝕥 c).loc main_v11 ↦{fullShare.left.left} es c)
    ∗ ((𝕥 c).loc main_v11 ↦{fullShare.left.right} es c)
    ∗ ((𝕥 c).loc main_v11 ↦{fullShare.right.left} es c)
    ∗ ((𝕥 c).loc main_v11 ↦{fullShare.right.right} es c)
    ∗ ((𝕥 c).loc main_v7 ↦{fullShare} w7s c)
    ∗ ((𝕥 c).loc main_v8 ↦{fullShare} b8s c)
    ∗ ((𝕥 c).loc main_v12_0 ↦{fullShare} f0s c)
    ∗ ((𝕥 c).loc main_v12_1 ↦{fullShare} f1s c)
    ∗ ((𝕥 c).loc main_v12_2 ↦{fullShare} f2s c)
    ∗ ((𝕥 c).loc main_v12_3 ↦{fullShare} f3s c)
    ∗ (∃ W, ⌜(K (F := F)).WBelow (𝕥 c) W 0⌝ ∗ owes (𝕥 c) O W))

/-- and when it leaves it: each array after every write-back. -/
def post1 (c : Dev nD) : sProp (𝕄 F) :=
  iprop(((𝕥 c).loc main_v11 ↦{fullShare.left.left} (dat1 es w7s b8s f0s f1s f2s f3s O c).arrAt 0 cfg1.N)
    ∗ ((𝕥 c).loc main_v11 ↦{fullShare.left.right} (dat1 es w7s b8s f0s f1s f2s f3s O c).arrAt 1 cfg1.N)
    ∗ ((𝕥 c).loc main_v11 ↦{fullShare.right.left} (dat1 es w7s b8s f0s f1s f2s f3s O c).arrAt 2 cfg1.N)
    ∗ ((𝕥 c).loc main_v11 ↦{fullShare.right.right} (dat1 es w7s b8s f0s f1s f2s f3s O c).arrAt 3 cfg1.N)
    ∗ ((𝕥 c).loc main_v7 ↦{fullShare} (dat1 es w7s b8s f0s f1s f2s f3s O c).arrAt 4 cfg1.N)
    ∗ ((𝕥 c).loc main_v8 ↦{fullShare} (dat1 es w7s b8s f0s f1s f2s f3s O c).arrAt 5 cfg1.N)
    ∗ ((𝕥 c).loc main_v12_0 ↦{fullShare} (dat1 es w7s b8s f0s f1s f2s f3s O c).arrAt 6 cfg1.N)
    ∗ ((𝕥 c).loc main_v12_1 ↦{fullShare} (dat1 es w7s b8s f0s f1s f2s f3s O c).arrAt 7 cfg1.N)
    ∗ ((𝕥 c).loc main_v12_2 ↦{fullShare} (dat1 es w7s b8s f0s f1s f2s f3s O c).arrAt 8 cfg1.N)
    ∗ ((𝕥 c).loc main_v12_3 ↦{fullShare} (dat1 es w7s b8s f0s f1s f2s f3s O c).arrAt 9 cfg1.N)
    ∗ (∃ W, ⌜(K (F := F)).WBelow (𝕥 c) W 0⌝ ∗ owes (𝕥 c) O W))

/-- The pipeline's arrays, each a whole buffer at its window's share. -/
theorem arrays1_eq (c : Dev nD) (Fn : (w : Fin (Pipeline.pin (pcfgs (F := F)) adm 1).W) → Buf (Elt F) (((Pipeline.pin (pcfgs (F := F)) adm 1).spec w).arr.view.loc (c.tc : Thread nD τ))) :
    (pdats1 es w7s b8s f0s f1s f2s f3s O 1 c).arrays Fn
      = bigSep Finset.univ fun w => (((c.tc : Thread nD τ).loc (Pipeline.arrRef (Pipeline.pin (pcfgs (F := F)) adm 1).spec w)) ↦{(pdats1 es w7s b8s f0s f1s f2s f3s O 1 c).share w} Fn w : sProp (𝕄 F)) := by
  unfold Dat.arrays
  exact bigSep_congr fun w _ => by
    have h : ((Pipeline.pin (pcfgs (F := F)) adm 1).win w).arr.IsWhole := arr_whole1 w
    rw [h.set_eq_univ]

set_option backward.isDefEq.respectTransparency.types false in
/-- The call as a region of the host program. -/
def reg1 (hO : ∀ g, O g none = 0) :
    Pipeline.RegionSeg (pcfgs (F := F)) adm (pdats1 es w7s b8s f0s f1s f2s f3s O) (none : HIx 1) defs₀ 𝒱₀ (K (F := F)).L (K (F := F)).lev 1 where
  win := winFacts₀1
  block_pos := block_pos1
  stage_whole := stage_whole1
  K := PEmpty
  osem k := k.elim
  ho := Pipeline.OwnSemFacts.none _
  hbody c := (body_obligation1 es w7s b8s f0s f1s f2s f3s O c).loose
  hwaits c := Pipeline.cellsWaits_intro (Pipeline.pin (pcfgs (F := F)) adm) (pdats1 es w7s b8s f0s f1s f2s f3s O) (none : HIx 1) 1 c
    fun w s t => (K (F := F)).mayWait_none _ hO
  pre := pre1 es w7s b8s f0s f1s f2s f3s O
  post := post1 es w7s b8s f0s f1s f2s f3s O
  X _ := BI.emp
  Y _ := BI.emp
  Z _ := BI.emp
  hentry c := by
    rw [Pipeline.ownSems0_none, arrays1_eq es w7s b8s f0s f1s f2s f3s O c, bigSep_W1]
    unfold pre1
    iintro ⟨⟨He0, He1, He2, He3, Hw7, Hb8, Hf0, Hf1, Hf2, Hf3, HO⟩, -, -⟩
    imodintro
    isplitl [He0 He1 He2 He3 Hw7 Hb8 Hf0 Hf1 Hf2 Hf3]
    · isplitl [He0]; · iexact He0
      isplitl [He1]; · iexact He1
      isplitl [He2]; · iexact He2
      isplitl [He3]; · iexact He3
      isplitl [Hw7]; · iexact Hw7
      isplitl [Hb8]; · iexact Hb8
      isplitl [Hf0]; · iexact Hf0
      isplitl [Hf1]; · iexact Hf1
      isplitl [Hf2]; · iexact Hf2
      iexact Hf3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats1 es w7s b8s f0s f1s f2s f3s O 1 c).Φ 0 = Pipeline.scopedRest spec1 c from rfl]
    iintro ⟨-, -, Hr⟩; iexact Hr
  hout c := by
    rw [Pipeline.ownSems0_none, show (pdats1 es w7s b8s f0s f1s f2s f3s O 1 c).Φ (Fin.last _) = Pipeline.scopedRest spec1 c from rfl]
    iintro Hr
    isplitr; · iempintro
    isplitr; · iempintro
    iexact Hr
  hexit c := by
    rw [arrays1_eq es w7s b8s f0s f1s f2s f3s O c, bigSep_W1]
    unfold post1
    iintro ⟨⟨He0, He1, He2, He3, Hw7, Hb8, Hf0, Hf1, Hf2, Hf3⟩, HO, -, -⟩
    imodintro
    isplitl [He0]; · iexact He0
    isplitl [He1]; · iexact He1
    isplitl [He2]; · iexact He2
    isplitl [He3]; · iexact He3
    isplitl [Hw7]; · iexact Hw7
    isplitl [Hb8]; · iexact Hb8
    isplitl [Hf0]; · iexact Hf0
    isplitl [Hf1]; · iexact Hf1
    isplitl [Hf2]; · iexact Hf2
    isplitl [Hf3]; · iexact Hf3
    unfold Pipeline.Dat.owesAt Pipeline.owesWithin
    icases HO with ⟨%W, %hW, HO⟩; iexists W
    isplitr
    · ipureintro
      intro p hp
      rcases hW hp with h | ⟨w, s, rfl⟩
      · exact h
      · exact le_rfl
    iexact HO

set_option backward.isDefEq.respectTransparency.types false in
/-- THE STEP, over contents named on every device. -/
theorem wp_region1_fam (hO : ∀ g, O g none = 0) (d : Dev nD) {α : Type}
    (k : PUnit → Prog (TpuEff nD τ sig (Elt F) (SparseCore.Sig (ΛP (F := F)) 1) .tc) α) (Φ : α → sProp (𝕄 F)) :
    iprop(levAts (K (F := F)).L (K (F := F)).lev ∗ boundary (𝕥 d)
        ∗ Pipeline.cellsGhost (Pipeline.pin (pcfgs (F := F)) adm) EP 1 d ∗ Pipeline.toksInit (Pipeline.pin (pcfgs (F := F)) adm) EP 1 d
        ∗ pre1 es w7s b8s f0s f1s f2s f3s O d
        ∗ (iprop(boundary (𝕥 d) ∗ post1 es w7s b8s f0s f1s f2s f3s O d) -∗ wp frame (wpE ((K (F := F)).defs D) 𝒱 (𝕥 d) none) Set.univ (k ⟨⟩) Φ))
      ⊢ wp frame (wpE ((K (F := F)).defs D) 𝒱 (𝕥 d) none) Set.univ (.op (.customCall (SparseCore.inner (Pipeline.entry 1)) ()) k) Φ := by
  have hR := Pipeline.RegionSeg.wp (pcfgs (F := F)) adm (pdats1 es w7s b8s f0s f1s f2s f3s O) (none : HIx 1) cellOf_inj EP defs₀ 𝒱₀ (K (F := F)).L (K (F := F)).lev
    (reg1 es w7s b8s f0s f1s f2s f3s O hO) d none (fun u hu => by cases hu) (fun r => .ret r)
    (fun r => wp frame (wpE ((K (F := F)).defs D) 𝒱 (𝕥 d) none) Set.univ (k r) Φ)
  simp only [wp_ret] at hR
  rw [show (reg1 es w7s b8s f0s f1s f2s f3s O hO).pre d = pre1 es w7s b8s f0s f1s f2s f3s O d from rfl, show (reg1 es w7s b8s f0s f1s f2s f3s O hO).post d = post1 es w7s b8s f0s f1s f2s f3s O d from rfl] at hR
  have hL := (K (F := F)).wp_liftProg D 𝒱 (𝕥 d) (Set.univ : Set ℕ) none
    (.op (.customCall (Pipeline.entry 1) ()) fun r => .ret r) (fun r => wp frame (wpE ((K (F := F)).defs D) 𝒱 (𝕥 d) none) Set.univ (k r) Φ)
  rw [show (Prog.op (TpuEff.customCall (SparseCore.inner (Pipeline.entry 1)) ()) k : Prog (TpuEff nD τ sig (Elt F) (SparseCore.Sig (ΛP (F := F)) 1) .tc) α)
      = (SparseCore.liftProg (Q := 1) (Prog.op (TpuEff.customCall (Pipeline.entry 1) ()) fun r => Prog.ret r) >>= k) from rfl, wp_bind]
  refine BIBase.Entails.trans ?_ hL
  refine BIBase.Entails.trans ?_ hR
  iintro ⟨HL, Hb, Hg, Ht, Hpre, Hk⟩
  isplitl [Hk]
  · iintro Hbp; imodintro; iapply Hk; iexact Hbp
  isplitl [Hb]; · iexact Hb
  isplitl [Hpre]; · iexact Hpre
  isplitl [HL]; · iexact HL
  isplitl [Hg]; · iexact Hg
  iexact Ht

/-! ## The step at one device -/

/-- The region's entry state from the edge features held whole. -/
theorem pre1_intro (c : Dev nD) :
    iprop(((𝕥 c).loc main_v11 ↦{fullShare} es c)
      ∗ ((𝕥 c).loc main_v7 ↦{fullShare} w7s c)
      ∗ ((𝕥 c).loc main_v8 ↦{fullShare} b8s c)
      ∗ ((𝕥 c).loc main_v12_0 ↦{fullShare} f0s c)
      ∗ ((𝕥 c).loc main_v12_1 ↦{fullShare} f1s c)
      ∗ ((𝕥 c).loc main_v12_2 ↦{fullShare} f2s c)
      ∗ ((𝕥 c).loc main_v12_3 ↦{fullShare} f3s c)
      ∗ (∃ W, ⌜(K (F := F)).WBelow (𝕥 c) W 0⌝ ∗ owes (𝕥 c) O W)) ⊢ pre1 es w7s b8s f0s f1s f2s f3s O c := by
  unfold pre1
  iintro ⟨He, Hw7, Hb8, Hf0, Hf1, Hf2, Hf3, HO⟩
  have hq := quarters_split (F := F) (es c)
  ihave He := hq $$ He
  icases He with ⟨He0, He1, He2, He3⟩
  isplitl [He0]; · iexact He0
  isplitl [He1]; · iexact He1
  isplitl [He2]; · iexact He2
  isplitl [He3]; · iexact He3
  isplitl [Hw7]; · iexact Hw7
  isplitl [Hb8]; · iexact Hb8
  isplitl [Hf0]; · iexact Hf0
  isplitl [Hf1]; · iexact Hf1
  isplitl [Hf2]; · iexact Hf2
  isplitl [Hf3]; · iexact Hf3
  iexact HO

/-- The region's exit state: the operands as they were, the edge features whole again, each result at its function of them. -/
theorem post1_elim (c : Dev nD) : post1 es w7s b8s f0s f1s f2s f3s O c ⊢
    iprop(((𝕥 c).loc main_v11 ↦{fullShare} es c)
      ∗ ((𝕥 c).loc main_v7 ↦{fullShare} w7s c)
      ∗ ((𝕥 c).loc main_v8 ↦{fullShare} b8s c)
      ∗ ((𝕥 c).loc main_v12_0 ↦{fullShare} edgeVal 0 (es c) (w7s c) (b8s c))
      ∗ ((𝕥 c).loc main_v12_1 ↦{fullShare} edgeVal 1 (es c) (w7s c) (b8s c))
      ∗ ((𝕥 c).loc main_v12_2 ↦{fullShare} edgeVal 2 (es c) (w7s c) (b8s c))
      ∗ ((𝕥 c).loc main_v12_3 ↦{fullShare} edgeVal 3 (es c) (w7s c) (b8s c))
      ∗ (∃ W, ⌜(K (F := F)).WBelow (𝕥 c) W 0⌝ ∗ owes (𝕥 c) O W)) := by
  unfold post1
  rw [arrAt1_in0, arrAt1_in1, arrAt1_in2, arrAt1_in3, arrAt1_in4, arrAt1_in5, final1_6, final1_7, final1_8, final1_9]
  iintro ⟨He0, He1, He2, He3, Hw7, Hb8, Hf0, Hf1, Hf2, Hf3, HO⟩
  isplitl [He0 He1 He2 He3]
  · iapply (quarters_join (F := F) (es c))
    isplitl [He0]; · iexact He0
    isplitl [He1]; · iexact He1
    isplitl [He2]; · iexact He2
    iexact He3
  isplitl [Hw7]; · iexact Hw7
  isplitl [Hb8]; · iexact Hb8
  isplitl [Hf0]; · iexact Hf0
  isplitl [Hf1]; · iexact Hf1
  isplitl [Hf2]; · iexact Hf2
  isplitl [Hf3]; · iexact Hf3
  iexact HO

end Region1

/-! ## The results at the ideal values -/

/-- At the ideal values result `s` at row `r` is the inner product of row `r` of slab `s` with the weights, plus the bias. -/
theorem edgeVal_apply_ideal (s : Fin 4) (e4 : FVec Ideal S4x40000x256 .f32) (w7 : FVec Ideal S256x1 .f32) (b : FVec Ideal S1x1 .f32) (r : Fin 40000) :
    edgeVal (F := Ideal) s e4 w7 b (ix2 r (0 : Fin 1))
      = (∑ k : Fin 256, e4 (ix3 s r k) * w7 (ix2 k (0 : Fin 1))) + b (ix2 (0 : Fin 1) (0 : Fin 1)) := by
  have hr : r.val < 40000 := r.isLt
  unfold edgeVal k1_pay3 k1_pay1 k1_pay2
  rw [shapeCast_self, shapeCast_self, addf_apply]
  congr 1
  · refine (Cert.Lib.matmul2_zero_apply dot_S2000x256_S256x1_S2000x1_1_0_0_1_n_n_wf
      (shapeCast S2000x256 (slabRows e4 s (r.val / 2000)) shapeCasts_S1x2000x256_S2000x256) w7
      (⟨r.val % 2000, Nat.mod_lt _ (by decide)⟩ : Fin 2000) (0 : Fin 1)).trans ?_
    refine Finset.sum_congr rfl fun k _ => ?_
    have hx : shapeCast S2000x256 (slabRows e4 s (r.val / 2000)) shapeCasts_S1x2000x256_S2000x256
        (ix2 (⟨r.val % 2000, Nat.mod_lt _ (by decide)⟩ : Fin 2000) k) = e4 (ix3 s r k) := by
      rw [shapeCast_dropUnit_apply]
      show e4 (ix3 _ _ _) = e4 (ix3 s r k)
      congr 1
      funext a; apply Fin.ext
      match a with
      | ⟨0, _⟩ => rfl
      | ⟨1, _⟩ => show min (2000 * (r.val / 2000) + r.val % 2000) 39999 = r.val; omega
      | ⟨2, _⟩ => rfl
    rw [hx]
  · exact broadcastTo_apply b broadcasts_S1x1_S2000x1 _ (ix2 (0 : Fin 1) (0 : Fin 1)) fun a => by
      match a with
      | ⟨0, _⟩ => rfl
      | ⟨1, _⟩ => rfl

/-- THE STEP. On device `d`'s TensorCore, holding the edge features (as four slabs) at `e`, the last run of weights at `w7`, the bias
    at `b8`, the four result arrays at anything, and owing its SparseCores tallies `O` none of which is at the index the pipeline
    waits at: the second pipelined call runs to the same holdings with result `s` at `edgeVal e w7 b8 s`. -/
theorem wp_region1 (d : Dev nD) (e : Buf (Elt F) ((𝕥 d).loc main_v11)) (w7 : Buf (Elt F) ((𝕥 d).loc main_v7)) (b8 : Buf (Elt F) ((𝕥 d).loc main_v8))
    (O : CellTallies nD τ sig (HIx 1)) (hO : ∀ g, O g none = 0) {α : Type}
    (k : PUnit → Prog (TpuEff nD τ sig (Elt F) (SparseCore.Sig (ΛP (F := F)) 1) .tc) α) (Φ : α → sProp (𝕄 F)) :
    iprop(levAts (K (F := F)).L (K (F := F)).lev ∗ boundary (𝕥 d)
        ∗ Pipeline.cellsGhost (Pipeline.pin (pcfgs (F := F)) adm) EP 1 d ∗ Pipeline.toksInit (Pipeline.pin (pcfgs (F := F)) adm) EP 1 d
        ∗ ((𝕥 d).loc main_v11 ↦{fullShare} e) ∗ ((𝕥 d).loc main_v7 ↦{fullShare} w7) ∗ ((𝕥 d).loc main_v8 ↦{fullShare} b8)
        ∗ (∃ f, ((𝕥 d).loc main_v12_0 ↦{fullShare} f)) ∗ (∃ f, ((𝕥 d).loc main_v12_1 ↦{fullShare} f))
        ∗ (∃ f, ((𝕥 d).loc main_v12_2 ↦{fullShare} f)) ∗ (∃ f, ((𝕥 d).loc main_v12_3 ↦{fullShare} f))
        ∗ (∃ W, ⌜(K (F := F)).WBelow (𝕥 d) W 0⌝ ∗ owes (𝕥 d) O W)
        ∗ (iprop(boundary (𝕥 d) ∗ ((𝕥 d).loc main_v11 ↦{fullShare} e) ∗ ((𝕥 d).loc main_v7 ↦{fullShare} w7) ∗ ((𝕥 d).loc main_v8 ↦{fullShare} b8)
              ∗ ((𝕥 d).loc main_v12_0 ↦{fullShare} edgeVal 0 e w7 b8) ∗ ((𝕥 d).loc main_v12_1 ↦{fullShare} edgeVal 1 e w7 b8)
              ∗ ((𝕥 d).loc main_v12_2 ↦{fullShare} edgeVal 2 e w7 b8) ∗ ((𝕥 d).loc main_v12_3 ↦{fullShare} edgeVal 3 e w7 b8)
              ∗ (∃ W, ⌜(K (F := F)).WBelow (𝕥 d) W 0⌝ ∗ owes (𝕥 d) O W))
            -∗ wp frame (wpE ((K (F := F)).defs D) 𝒱 (𝕥 d) none) Set.univ (k ⟨⟩) Φ))
      ⊢ wp frame (wpE ((K (F := F)).defs D) 𝒱 (𝕥 d) none) Set.univ (.op (.customCall (SparseCore.inner (Pipeline.entry 1)) ()) k) Φ := by
  iintro ⟨HL, Hb, Hg, Ht, He, Hw7, Hb8, ⟨%g0, Hf0⟩, ⟨%g1, Hf1⟩, ⟨%g2, Hf2⟩, ⟨%g3, Hf3⟩, HO, Hk⟩
  have h := wp_region1_fam (onAll d e) (onAll d w7) (onAll d b8) (onAll d g0) (onAll d g1) (onAll d g2) (onAll d g3) O hO d k Φ
  have hpre := pre1_intro (onAll d e) (onAll d w7) (onAll d b8) (onAll d g0) (onAll d g1) (onAll d g2) (onAll d g3) O d
  have hpost := post1_elim (onAll d e) (onAll d w7) (onAll d b8) (onAll d g0) (onAll d g1) (onAll d g2) (onAll d g3) O d
  simp only [onAll_self] at hpre hpost
  iapply h
  isplitl [HL]; · iexact HL
  isplitl [Hb]; · iexact Hb
  isplitl [Hg]; · iexact Hg
  isplitl [Ht]; · iexact Ht
  isplitl [He Hw7 Hb8 Hf0 Hf1 Hf2 Hf3 HO]
  · iapply hpre
    isplitl [He]; · iexact He
    isplitl [Hw7]; · iexact Hw7
    isplitl [Hb8]; · iexact Hb8
    isplitl [Hf0]; · iexact Hf0
    isplitl [Hf1]; · iexact Hf1
    isplitl [Hf2]; · iexact Hf2
    isplitl [Hf3]; · iexact Hf3
    iexact HO
  iintro ⟨Hb, Hpost⟩
  iapply Hk
  isplitl [Hb]; · iexact Hb
  iapply hpost; iexact Hpost

end Cert.Kernel.Regions

end
-- ==== Proof.TileViewsB.lean ====
/-
  How one vector subcore's resources are spelt: the slices and scratches as the kernel's memrefs address them are the
  arrays' slices and the subcore's own buffers; its five copy-completion counters and five scratch buffers are among
  the semaphores and buffers it owns.
-/
import proofs.«207961_g9620726743389_cont_9to1c4b_395_8_alg».proof.Proof.TileCellsB

noncomputable section

namespace Cert.Kernel.Tile

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

section Views

variable (d : Dev nD) (c : Fin τ.nSC) (i : Fin τ.nSub) (L : grid2.Coords)

/-! ## The arrays' slices, as the subcore's memrefs address them -/

theorem pts_tabV (q : PosShare TreeShare) (f : Buf (Elt F) (tabLoc d)) :
    ((tabV).view.loc (V d c i) ↦[(tabV).view.set]{q} f : sProp (𝕄 F)) = tabLoc d ↦{q} f := by
  simp only [Memref.view_whole, View.set_whole]
theorem pts_rowSl (f : Buf (Elt F) (rowLoc d)) :
    ((rowSl L).view.loc (V d c i) ↦[(rowSl L).view.set]{fullShare} f : sProp (𝕄 F)) = rowLoc d ↦[sl L]{fullShare} f := by
  rw [set_rowSl]
theorem pts_colSl (f : Buf (Elt F) (colLoc d)) :
    ((colSl L).view.loc (V d c i) ↦[(colSl L).view.set]{fullShare} f : sProp (𝕄 F)) = colLoc d ↦[sl L]{fullShare} f := by
  rw [set_colSl]
theorem pts_esSl (f : Buf (Elt F) (esLoc d)) :
    ((esSl L).view.loc (V d c i) ↦[(esSl L).view.set]{fullShare} f : sProp (𝕄 F)) = esLoc d ↦[sl L]{fullShare} f := by
  rw [set_esSl]
theorem pts_outSl (f : Buf (Elt F) (outLoc d)) :
    ((outSl L).view.loc (V d c i) ↦[(outSl L).view.set]{fullShare} f : sProp (𝕄 F)) = outLoc d ↦[sl L]{fullShare} f := by
  rw [set_outSl]

/-! ## The scratches -/

theorem pts_sTab (f : Buf (Elt F) ((V d c i).loc cc2_scratch0)) :
    ((sTab).view.loc (V d c i) ↦[(sTab).view.set]{fullShare} f : sProp (𝕄 F)) = (V d c i).loc cc2_scratch0 ↦{fullShare} f := by
  simp only [Memref.view_whole, View.set_whole]
theorem pts_sRow (f : Buf (Elt F) ((V d c i).loc cc2_scratch1)) :
    ((sRow).view.loc (V d c i) ↦[(sRow).view.set]{fullShare} f : sProp (𝕄 F)) = (V d c i).loc cc2_scratch1 ↦{fullShare} f := by
  simp only [Memref.view_whole, View.set_whole]
theorem pts_sCol (f : Buf (Elt F) ((V d c i).loc cc2_scratch2)) :
    ((sCol).view.loc (V d c i) ↦[(sCol).view.set]{fullShare} f : sProp (𝕄 F)) = (V d c i).loc cc2_scratch2 ↦{fullShare} f := by
  simp only [Memref.view_whole, View.set_whole]
theorem pts_sEs (f : Buf (Elt F) ((V d c i).loc cc2_scratch3)) :
    ((sEs).view.loc (V d c i) ↦[(sEs).view.set]{fullShare} f : sProp (𝕄 F)) = (V d c i).loc cc2_scratch3 ↦{fullShare} f := by
  simp only [Memref.view_whole, View.set_whole]
theorem pts_sOut (f : Buf (Elt F) ((V d c i).loc cc2_scratch4)) :
    ((sOut).view.loc (V d c i) ↦[(sOut).view.set]{fullShare} f : sProp (𝕄 F)) = (V d c i).loc cc2_scratch4 ↦{fullShare} f := by
  simp only [Memref.view_whole, View.set_whole]

theorem pts_sTab_access (f : Buf (Elt F) ((V d c i).loc cc2_scratch0)) :
    ((((sTab).access (.whole S20000)).loc (V d c i)) ↦{fullShare} f : sProp (𝕄 F)) = (V d c i).loc cc2_scratch0 ↦{fullShare} f := rfl
theorem pts_sRow_univ (f : Buf (Elt F) ((V d c i).loc cc2_scratch1)) :
    ((sRow).view.loc (V d c i) ↦{fullShare} f : sProp (𝕄 F)) = (V d c i).loc cc2_scratch1 ↦{fullShare} f := rfl
theorem pts_sCol_univ (f : Buf (Elt F) ((V d c i).loc cc2_scratch2)) :
    ((sCol).view.loc (V d c i) ↦{fullShare} f : sProp (𝕄 F)) = (V d c i).loc cc2_scratch2 ↦{fullShare} f := rfl
theorem pts_sEs_univ (f : Buf (Elt F) ((V d c i).loc cc2_scratch3)) :
    ((sEs).view.loc (V d c i) ↦{fullShare} f : sProp (𝕄 F)) = (V d c i).loc cc2_scratch3 ↦{fullShare} f := rfl
theorem pts_sOut_univ (f : Buf (Elt F) ((V d c i).loc cc2_scratch4)) :
    ((sOut).view.loc (V d c i) ↦{fullShare} f : sProp (𝕄 F)) = (V d c i).loc cc2_scratch4 ↦{fullShare} f := rfl
theorem pts_sOut_access (r : Rect S5040) (f : Buf (Elt F) ((V d c i).loc cc2_scratch4)) :
    ((((sOut).access r).loc (V d c i)) ↦{fullShare} f : sProp (𝕄 F)) = (V d c i).loc cc2_scratch4 ↦{fullShare} f := rfl

/-! ## The subcore's own semaphores and buffers -/

theorem ownSems0_V :
    (ownSems0 (V d c i) : sProp (𝕄 F))
      = iprop(semVal (c0cell d c i) 0 ∗ semVal (c1cell d c i) 0 ∗ semVal (c2cell d c i) 0 ∗ semVal (c3cell d c i) 0 ∗ semVal (c4cell d c i) 0
          ∗ bigSep ((((((ownCells (V d c i)).erase (c0cell d c i)).erase (c1cell d c i)).erase (c2cell d c i)).erase (c3cell d c i)).erase (c4cell d c i))
              fun g => semVal g 0) := by
  have m0 : c0cell d c i ∈ ownCells (V d c i) := (mem_ownCells (g := c0cell d c i)).mpr ⟨rfl, by
    show (SemLoc.dma cc2_scoped0.sem : SemLoc sig).isScoped .scVector = true; decide⟩
  have m1 : c1cell d c i ∈ ownCells (V d c i) := (mem_ownCells (g := c1cell d c i)).mpr ⟨rfl, by
    show (SemLoc.dma cc2_scoped1.sem : SemLoc sig).isScoped .scVector = true; decide⟩
  have m2 : c2cell d c i ∈ ownCells (V d c i) := (mem_ownCells (g := c2cell d c i)).mpr ⟨rfl, by
    show (SemLoc.dma cc2_scoped2.sem : SemLoc sig).isScoped .scVector = true; decide⟩
  have m3 : c3cell d c i ∈ ownCells (V d c i) := (mem_ownCells (g := c3cell d c i)).mpr ⟨rfl, by
    show (SemLoc.dma cc2_scoped3.sem : SemLoc sig).isScoped .scVector = true; decide⟩
  have m4 : c4cell d c i ∈ ownCells (V d c i) := (mem_ownCells (g := c4cell d c i)).mpr ⟨rfl, by
    show (SemLoc.dma cc2_scoped4.sem : SemLoc sig).isScoped .scVector = true; decide⟩
  have n10 : c1cell d c i ≠ c0cell d c i := fun e => sem10 (Prod.mk.inj e).2
  have n20 : c2cell d c i ≠ c0cell d c i := fun e => sem20 (Prod.mk.inj e).2
  have n21 : c2cell d c i ≠ c1cell d c i := fun e => sem21 (Prod.mk.inj e).2
  have n30 : c3cell d c i ≠ c0cell d c i := fun e => sem30 (Prod.mk.inj e).2
  have n31 : c3cell d c i ≠ c1cell d c i := fun e => sem31 (Prod.mk.inj e).2
  have n32 : c3cell d c i ≠ c2cell d c i := fun e => sem32 (Prod.mk.inj e).2
  have n40 : c4cell d c i ≠ c0cell d c i := fun e => sem40 (Prod.mk.inj e).2
  have n41 : c4cell d c i ≠ c1cell d c i := fun e => sem41 (Prod.mk.inj e).2
  have n42 : c4cell d c i ≠ c2cell d c i := fun e => sem42 (Prod.mk.inj e).2
  have n43 : c4cell d c i ≠ c3cell d c i := fun e => sem43 (Prod.mk.inj e).2
  unfold SparseCore.Cfg.ownSems0
  rw [SparseCore.bigSep_erase' m0,
    SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩),
    SparseCore.bigSep_erase' (Finset.mem_erase.mpr ⟨n43, Finset.mem_erase.mpr ⟨n42, Finset.mem_erase.mpr ⟨n41, Finset.mem_erase.mpr ⟨n40, m4⟩⟩⟩⟩)]

/-- The buffers the subcore owns besides its five scratches. -/
abbrev restRefs : Finset (DevRef τ sig) :=
  (((((ownRefs (τ := τ) (.scVector c i)).erase ((Proc.scVector c i).devRef cc2_scratch0)).erase ((Proc.scVector c i).devRef cc2_scratch1)).erase
    ((Proc.scVector c i).devRef cc2_scratch2)).erase ((Proc.scVector c i).devRef cc2_scratch3)).erase ((Proc.scVector c i).devRef cc2_scratch4)

theorem ownBufs_V :
    (ownBufs (V d c i) : sProp (𝕄 F))
      = iprop((∃ f, (V d c i).loc cc2_scratch0 ↦{fullShare} f) ∗ (∃ f, (V d c i).loc cc2_scratch1 ↦{fullShare} f)
          ∗ (∃ f, (V d c i).loc cc2_scratch2 ↦{fullShare} f) ∗ (∃ f, (V d c i).loc cc2_scratch3 ↦{fullShare} f)
          ∗ (∃ f, (V d c i).loc cc2_scratch4 ↦{fullShare} f)
          ∗ bigSep (restRefs c i) fun b => iprop(∃ f, ((d, b) : Loc nD τ sig) ↦{fullShare} f)) := by
  have m0 : (Proc.scVector c i).devRef cc2_scratch0 ∈ ownRefs (τ := τ) (.scVector c i) :=
    SparseCore.Cfg.mem_ownRefs_of_owner (p := Proc.scVector c i) (b := (Proc.scVector c i).devRef cc2_scratch0) rfl
  have m1 : (Proc.scVector c i).devRef cc2_scratch1 ∈ ownRefs (τ := τ) (.scVector c i) :=
    SparseCore.Cfg.mem_ownRefs_of_owner (p := Proc.scVector c i) (b := (Proc.scVector c i).devRef cc2_scratch1) rfl
  have m2 : (Proc.scVector c i).devRef cc2_scratch2 ∈ ownRefs (τ := τ) (.scVector c i) :=
    SparseCore.Cfg.mem_ownRefs_of_owner (p := Proc.scVector c i) (b := (Proc.scVector c i).devRef cc2_scratch2) rfl
  have m3 : (Proc.scVector c i).devRef cc2_scratch3 ∈ ownRefs (τ := τ) (.scVector c i) :=
    SparseCore.Cfg.mem_ownRefs_of_owner (p := Proc.scVector c i) (b := (Proc.scVector c i).devRef cc2_scratch3) rfl
  have m4 : (Proc.scVector c i).devRef cc2_scratch4 ∈ ownRefs (τ := τ) (.scVector c i) :=
    SparseCore.Cfg.mem_ownRefs_of_owner (p := Proc.scVector c i) (b := (Proc.scVector c i).devRef cc2_scratch4) rfl
  have ne {r r' : Ref sig .scVector} (h : r ≠ r') : (Proc.scVector c i).devRef r ≠ (Proc.scVector c i).devRef r' :=
    fun e => h (Proc.devRef_injective _ e)
  have h10 : (cc2_scratch1 : Ref sig .scVector) ≠ cc2_scratch0 := by decide
  have h20 : (cc2_scratch2 : Ref sig .scVector) ≠ cc2_scratch0 := by decide
  have h21 : (cc2_scratch2 : Ref sig .scVector) ≠ cc2_scratch1 := by decide
  have h30 : (cc2_scratch3 : Ref sig .scVector) ≠ cc2_scratch0 := by decide
  have h31 : (cc2_scratch3 : Ref sig .scVector) ≠ cc2_scratch1 := by decide
  have h32 : (cc2_scratch3 : Ref sig .scVector) ≠ cc2_scratch2 := by decide
  have h40 : (cc2_scratch4 : Ref sig .scVector) ≠ cc2_scratch0 := by decide
  have h41 : (cc2_scratch4 : Ref sig .scVector) ≠ cc2_scratch1 := by decide
  have h42 : (cc2_scratch4 : Ref sig .scVector) ≠ cc2_scratch2 := by decide
  have h43 : (cc2_scratch4 : Ref sig .scVector) ≠ cc2_scratch3 := by decide
  unfold SparseCore.Cfg.ownBufs restRefs
  refine (SparseCore.bigSep_erase' m0).trans ?_
  rw [SparseCore.bigSep_erase' (Finset.mem_erase.mpr ⟨ne h10, m1⟩),
    SparseCore.bigSep_erase' (Finset.mem_erase.mpr ⟨ne h21, Finset.mem_erase.mpr ⟨ne h20, m2⟩⟩),
    SparseCore.bigSep_erase' (Finset.mem_erase.mpr ⟨ne h32, Finset.mem_erase.mpr ⟨ne h31, Finset.mem_erase.mpr ⟨ne h30, m3⟩⟩⟩),
    SparseCore.bigSep_erase' (Finset.mem_erase.mpr ⟨ne h43, Finset.mem_erase.mpr ⟨ne h42, Finset.mem_erase.mpr ⟨ne h41, Finset.mem_erase.mpr ⟨ne h40, m4⟩⟩⟩⟩)]

end Views

end Cert.Kernel.Tile

end
-- ==== Proof.TileValB.lean ====
/-
  The pure facts of one vector subcore's loop: what the sixteen lanes of a trip compute, that a trip's store extends the
  part of the result scratch already holding the value by sixteen entries, and that the scratch written out through the
  subcore's slice is the value stated on the arrays.

  A row word w ≤ 9999 doubled as a 32-bit word is the number 2 w (no wrap), and doubled plus one is 2 w + 1, both below
  20000: the two range checks of the indexed loads hold, and the entries they name are the table's entries 2 w and 2 w + 1.
-/
import proofs.«207961_g9620726743389_cont_9to1c4b_395_8_alg».proof.Proof.TileCellsB
import Idealize.ShloMosaic.PureOps.Ideal

noncomputable section

namespace Cert.Kernel.Tile

open Cert.Kernel Cert.Kernel.Gen Cert.Kernel.Common

open Idealize.ShloMosaic
open Idealize.ShloMosaic.SparseCore (S V T)
open Idealize.ShloMosaic.ValueIdx

variable {F : FTy → Type}

/-! ## The trip's rectangles -/

theorem unit_congr {s : Shape} {off off' size : Fin s.rank → Nat} {inb : ∀ a, off a + size a ≤ s.size a}
    {inb' : ∀ a, off' a + size a ≤ s.size a} (h : off = off') : Rect.unit (s := s) off size inb = Rect.unit off' size inb' := by
  subst h; rfl

/-- The sixteen entries a trip loads of the row and column words, and those it loads and stores of the scores and results. -/
abbrev r2 (k : Fin k2_t1_loop.trips) : Rect S5040 := Rect.unit (s := S5040) (k2_off2 k) S16.size (k2_off2_inb k)
abbrev r3 (k : Fin k2_t1_loop.trips) : Rect S5040 := Rect.unit (s := S5040) (k2_off3 k) S16.size (k2_off3_inb k)
theorem r2_eq_r3 (k : Fin k2_t1_loop.trips) : r2 k = r3 k := unit_congr ((k2_off2_eq k).trans (k2_off3_eq k).symm)

theorem trips_eq : k2_t1_loop.trips = 315 := by decide

/-- Lane x of trip k is entry 16 k + x of the scratch. -/
theorem r3_emb_val (k : Fin k2_t1_loop.trips) (x : S16.Idx) : (((r3 k).emb x) 0).val = 16 * k.val + (x 0).val := by
  rw [Rect.emb_apply]
  simp only [Rect.off_unit, Rect.stride_unit, k2_off3_eq]
  simp

theorem r2_idx_val (k : Fin k2_t1_loop.trips) (x : S16.Idx) : (((r2 k).toLoadRect.idx x) 0).val = 16 * k.val + (x 0).val := by
  rw [LoadRect.idx_apply]
  simp only [Rect.off_unit, Rect.stride_unit, k2_off2_eq]
  simp
theorem r2_idx_eq (k : Fin k2_t1_loop.trips) (x : S16.Idx) : (r2 k).toLoadRect.idx x = (r3 k).emb x := by
  funext a
  have ha : a = 0 := Fin.eq_zero a
  subst ha
  apply Fin.ext
  rw [r2_idx_val, r3_emb_val]

/-! ## Words in range -/

theorem toNat_dbl {w : BitVec 32} (h : w.toNat ≤ 9999) : (w * 2#32).toNat = 2 * w.toNat := by
  rw [BitVec.toNat_mul]
  show (w.toNat * 2) % 2 ^ 32 = 2 * w.toNat
  omega
theorem toNat_dbl1 {w : BitVec 32} (h : w.toNat ≤ 9999) : (w * 2#32 + 1#32).toNat = 2 * w.toNat + 1 := by
  rw [BitVec.toNat_add, toNat_dbl h]
  show (2 * w.toNat + 1) % 2 ^ 32 = 2 * w.toNat + 1
  omega

variable [FloatOps F]

theorem pay1_apply (v6 : Vec F S16 .i32) (x : S16.Idx) : k2_pay1 v6 x = (v6 x : BitVec 32) * 2#32 := rfl
theorem pay2_apply (v8 : Vec F S16 .i32) (x : S16.Idx) : k2_pay2 v8 x = (v8 x : BitVec 32) * 2#32 + 1#32 := rfl

/-- The first range check: every doubled row word is below 20000. -/
theorem chk1_of (v6 : Vec F S16 .i32) (h : ∀ x, (v6 x : BitVec 32).toNat ≤ 9999) : k2_chk1 (k2_pay1 v6) := by
  intro a x
  obtain rfl : a = 0 := Subsingleton.elim _ _
  show (k2_pay1 v6 x).toNat < 20000
  rw [pay1_apply, toNat_dbl (h x)]; have := h x; omega
/-- The second: every doubled column word plus one is below 20000. -/
theorem chk2_of (v8 : Vec F S16 .i32) (h : ∀ x, (v8 x : BitVec 32).toNat ≤ 9999) : k2_chk2 (k2_pay2 v8) := by
  intro a x
  obtain rfl : a = 0 := Subsingleton.elim _ _
  show (k2_pay2 v8 x).toNat < 20000
  rw [pay2_apply, toNat_dbl1 (h x)]; have := h x; omega

theorem tIx_of_lt {n : Nat} (hn : n < 20000) : tIx n = ix1 (⟨n, hn⟩ : Fin 20000) := by
  unfold tIx; congr 1; apply Fin.ext; exact Nat.min_eq_left (by omega)

/-! ## The value, from the scratches' contents -/

/-- Entry j of the result from the four scratches' contents. -/
def valS (tabS : S20000.Idx → F .f32) (rowS colS : S5040.Idx → BitVec 32) (esS : S5040.Idx → F .f32) : S5040.Idx → F .f32 :=
  fun j => FloatOps.addf (FloatOps.addf (tabS (tIx (2 * (rowS j).toNat))) (tabS (tIx (2 * (colS j).toNat + 1)))) (esS j)

/-- The result scratch before trip n: the value on its first 16 n entries, what it held on the rest. -/
def acc (f0 v : S5040.Idx → F .f32) (n : Nat) : S5040.Idx → F .f32 := fun j => if (j 0).val < 16 * n then v j else f0 j

theorem acc_zero (f0 v : S5040.Idx → F .f32) : acc f0 v 0 = f0 := by
  funext j; unfold acc; rw [if_neg (by omega)]
theorem acc_last (f0 v : S5040.Idx → F .f32) : acc f0 v 315 = v := by
  funext j; unfold acc
  have : (j 0).val < 5040 := (j 0).isLt
  rw [if_pos (by omega)]

/-- What the sixteen lanes of trip k compute is the value at the trip's sixteen entries. -/
theorem lane_val (k : Fin k2_t1_loop.trips) (tabS : S20000.Idx → F .f32) (rowS colS : S5040.Idx → BitVec 32) (esS : S5040.Idx → F .f32)
    (hr : ∀ y, (rowS y).toNat ≤ 9999) (hc : ∀ y, (colS y).toNat ≤ 9999)
    (h1 : ∀ a x, ((![k2_pay1 (F := F) fun x => rowS ((r2 k).toLoadRect.idx x)] : Fin 1 → IVec S16 32) a x).toNat < S20000.size a)
    (h2 : ∀ a x, ((![k2_pay2 (F := F) fun x => colS ((r2 k).toLoadRect.idx x)] : Fin 1 → IVec S16 32) a x).toNat < S20000.size a)
    (x : S16.Idx) :
    k2_pay3 (F := F) (loadIdx (F := F) (e := .f32) tabS ![k2_pay1 (F := F) fun x => rowS ((r2 k).toLoadRect.idx x)] h1)
        (loadIdx (F := F) (e := .f32) tabS ![k2_pay2 (F := F) fun x => colS ((r2 k).toLoadRect.idx x)] h2)
        (fun x => esS ((r3 k).toLoadRect.idx x)) x
      = valS tabS rowS colS esS ((r3 k).emb x) := by
  have e23 : (r2 k).toLoadRect.idx x = (r3 k).emb x := r2_idx_eq k x
  have i1 : idxAt ![k2_pay1 (F := F) fun x => rowS ((r2 k).toLoadRect.idx x)] h1 x = tIx (2 * (rowS ((r3 k).emb x)).toNat) := by
    rw [tIx_of_lt (by have := hr ((r3 k).emb x); omega)]
    funext a
    obtain rfl : a = 0 := Subsingleton.elim _ _
    apply Fin.ext
    show (k2_pay1 (F := F) (fun x => rowS ((r2 k).toLoadRect.idx x)) x).toNat = 2 * (rowS ((r3 k).emb x)).toNat
    rw [pay1_apply, e23, toNat_dbl (hr _)]
  have i2 : idxAt ![k2_pay2 (F := F) fun x => colS ((r2 k).toLoadRect.idx x)] h2 x = tIx (2 * (colS ((r3 k).emb x)).toNat + 1) := by
    rw [tIx_of_lt (by have := hc ((r3 k).emb x); omega)]
    funext a
    obtain rfl : a = 0 := Subsingleton.elim _ _
    apply Fin.ext
    show (k2_pay2 (F := F) (fun x => colS ((r2 k).toLoadRect.idx x)) x).toNat = 2 * (colS ((r3 k).emb x)).toNat + 1
    rw [pay2_apply, e23, toNat_dbl1 (hc _)]
  show FloatOps.addf (FloatOps.addf (tabS (idxAt _ h1 x)) (tabS (idxAt _ h2 x))) (esS ((r3 k).toLoadRect.idx x)) = _
  rw [i1, i2]; rfl

/-- A trip's store: the value on sixteen more entries. -/
theorem acc_step (k : Fin k2_t1_loop.trips) (f0 v : S5040.Idx → F .f32) (w : S16.Idx → F .f32)
    (hw : ∀ x, w x = v ((r3 k).emb x)) :
    ((sOut).access (r3 k)).write (Elt F) (acc f0 v k.val) w Finset.univ = acc f0 v (k.val + 1) := by
  funext i
  by_cases hi : 16 * k.val ≤ (i 0).val ∧ (i 0).val < 16 * k.val + 16
  · have hx0 : (i 0).val - 16 * k.val < 16 := by omega
    let x : S16.Idx := ix1 (⟨(i 0).val - 16 * k.val, hx0⟩ : Fin 16)
    have hx : (r3 k).emb x = i := by
      funext a
      have ha : a = 0 := Fin.eq_zero a
      subst ha
      apply Fin.ext
      rw [r3_emb_val]; show 16 * k.val + ((i 0).val - 16 * k.val) = (i 0).val; omega
    have hwr : ((sOut).access (r3 k)).write (Elt F) (acc f0 v k.val) w Finset.univ ((r3 k).emb x) = w x :=
      (View.write_emb_of_mem (v := (sOut).access (r3 k)) (Val := Elt F) (acc f0 v k.val) w (Finset.mem_univ x)).trans (cast_eq _ _)
    rw [← hx, hwr, hw]
    unfold acc
    rw [if_pos (by rw [r3_emb_val]; show 16 * k.val + ((i 0).val - 16 * k.val) < 16 * (k.val + 1); omega)]
  · have hn : i ∉ ((sOut).access (r3 k)).setOn Finset.univ := by
      intro hmem
      obtain ⟨x, -, hx⟩ := Finset.mem_map.mp hmem
      have h0 : (((r3 k).emb x) 0).val = (i 0).val := congrArg (fun j : S5040.Idx => (j 0).val) hx
      rw [r3_emb_val] at h0
      have : (x 0).val < 16 := (x 0).isLt
      omega
    rw [View.write_of_not_mem _ _ _ hn]
    unfold acc
    by_cases h1 : (i 0).val < 16 * k.val
    · rw [if_pos h1, if_pos (by omega)]
    · rw [if_neg h1, if_neg (by omega)]

/-! ## The slice written out -/

/-- The scratches' contents after the four fetches, from the arrays'. -/
abbrev tabS (d : Dev nD) (tabF : Buf (Elt F) (tabLoc d)) : S20000.Idx → F .f32 := (tabV).view.read (Elt F) tabF
abbrev rowS (d : Dev nD) (L : grid2.Coords) (rowF : Buf (Elt F) (rowLoc d)) : S5040.Idx → BitVec 32 := (rowSl L).view.read (Elt F) rowF
abbrev colS (d : Dev nD) (L : grid2.Coords) (colF : Buf (Elt F) (colLoc d)) : S5040.Idx → BitVec 32 := (colSl L).view.read (Elt F) colF
abbrev esS (d : Dev nD) (L : grid2.Coords) (esF : Buf (Elt F) (esLoc d)) : S5040.Idx → F .f32 := (esSl L).view.read (Elt F) esF

theorem rowS_apply (d : Dev nD) (L : grid2.Coords) (rowF : Buf (Elt F) (rowLoc d)) (y : S5040.Idx) : rowS d L rowF y = rowF ((slR L).emb y) :=
  (View.read_apply _ _).trans (cast_eq _ _)
theorem colS_apply (d : Dev nD) (L : grid2.Coords) (colF : Buf (Elt F) (colLoc d)) (y : S5040.Idx) : colS d L colF y = colF ((slR L).emb y) :=
  (View.read_apply _ _).trans (cast_eq _ _)
theorem esS_apply (d : Dev nD) (L : grid2.Coords) (esF : Buf (Elt F) (esLoc d)) (y : S5040.Idx) : esS d L esF y = esF ((slR L).emb y) :=
  (View.read_apply _ _).trans (cast_eq _ _)

theorem emb_mem_sl (L : grid2.Coords) (y : S5040.Idx) : (slR L).emb y ∈ sl L := by
  show (slR L).emb y ∈ (slR L).set
  rw [← Rect.map_emb_univ]; exact Finset.mem_map_of_mem _ (Finset.mem_univ y)

/-- The range hypotheses, on the scratches. -/
theorem rowS_le (d : Dev nD) (L : grid2.Coords) (rowF : Buf (Elt F) (rowLoc d)) (h : ∀ j ∈ sl L, (rowF j : BitVec 32).toNat ≤ 9999) (y : S5040.Idx) :
    (rowS d L rowF y).toNat ≤ 9999 := by rw [rowS_apply]; exact h _ (emb_mem_sl L y)
theorem colS_le (d : Dev nD) (L : grid2.Coords) (colF : Buf (Elt F) (colLoc d)) (h : ∀ j ∈ sl L, (colF j : BitVec 32).toNat ≤ 9999) (y : S5040.Idx) :
    (colS d L colF y).toNat ≤ 9999 := by rw [colS_apply]; exact h _ (emb_mem_sl L y)

/-- The result scratch, holding the value everywhere, written through the subcore's slice of the result: on the slice, the value stated on the arrays. -/
theorem out_final (d : Dev nD) (L : grid2.Coords) (tabF : Buf (Elt F) (tabLoc d)) (rowF : Buf (Elt F) (rowLoc d)) (colF : Buf (Elt F) (colLoc d))
    (esF : Buf (Elt F) (esLoc d)) (outF : Buf (Elt F) (outLoc d)) :
    ∀ i ∈ sl L, (outSl L).view.write (Elt F) outF ((sOut).view.read (Elt F) (valS (tabS d tabF) (rowS d L rowF) (colS d L colF) (esS d L esF))) Finset.univ i
      = outVal d tabF rowF colF esF i := by
  intro i hi
  have hi' : i ∈ (slR L).set := hi
  rw [← Rect.map_emb_univ] at hi'
  obtain ⟨y, -, rfl⟩ := Finset.mem_map.mp hi'
  have hwr : (outSl L).view.write (Elt F) outF ((sOut).view.read (Elt F) (valS (tabS d tabF) (rowS d L rowF) (colS d L colF) (esS d L esF))) Finset.univ ((slR L).emb y)
      = valS (tabS d tabF) (rowS d L rowF) (colS d L colF) (esS d L esF) y :=
    (View.write_emb_of_mem (v := (outSl L).view) (Val := Elt F) outF _ (Finset.mem_univ y)).trans (cast_eq _ _)
  rw [hwr]
  unfold valS outVal
  rw [rowS_apply, colS_apply, esS_apply]; rfl

/-! ## The value at the ideal instance -/

theorem outVal_apply_ideal (d : Dev nD) (tabF : Buf (Elt Ideal) (tabLoc d)) (rowF : Buf (Elt Ideal) (rowLoc d)) (colF : Buf (Elt Ideal) (colLoc d))
    (esF : Buf (Elt Ideal) (esLoc d)) (j : (outLoc d).ty.Idx) (hr : (rowF j : BitVec 32).toNat ≤ 9999) (hc : (colF j : BitVec 32).toNat ≤ 9999) :
    outVal d tabF rowF colF esF j
      = @HAdd.hAdd (Ideal .f32) (Ideal .f32) (Ideal .f32) instHAdd
          (@HAdd.hAdd (Ideal .f32) (Ideal .f32) (Ideal .f32) instHAdd (tabF (ix1 (⟨2 * (rowF j : BitVec 32).toNat, by omega⟩ : Fin 20000)))
            (tabF (ix1 (⟨2 * (colF j : BitVec 32).toNat + 1, by omega⟩ : Fin 20000))))
          (esF j) := by
  unfold outVal
  rw [tIx_of_lt (by omega), tIx_of_lt (by omega)]
  rfl

end Cert.Kernel.Tile

end
-- ==== Proof.TileB.lean ====
/-
  One vector subcore's run of the gather kernel, with the value it leaves.

  The subcore fetches the whole table and its slices of the row words, the column words and the edge scores into its
  scratch, one copy at a time, each on a counter of its own and waited for before the next; then 315 times it takes
  sixteen row words and sixteen column words, checks twice the row word and twice the column word plus one against
  the table's extent, reads the table there, adds the two entries and the edge score, and stores the sixteen sums; at
  last it copies the 5040 sums to its slice of the result. The loop's invariant: the four fetched scratches as
  fetched, the result scratch holding the value on its first 16 k entries. The arrays come back as they were, the
  subcore's slice of the result at the value.
-/
import proofs.«207961_g9620726743389_cont_9to1c4b_395_8_alg».proof.Proof.TileViewsB
import proofs.«207961_g9620726743389_cont_9to1c4b_395_8_alg».proof.Proof.TileValB

noncomputable section

namespace Cert.Kernel.Tile

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section Tile

variable (X : Ins F) (d : Dev nD) (L : grid2.Coords)

/-- What a whole scratch holds after a fetch written over it: what was fetched. -/
theorem lands_sTab (fd w : Buf (Elt F) ((V d (cV L) (jV L)).loc cc2_scratch0)) : (sTab).view.write (Elt F) fd w Finset.univ = w := View.write_whole_univ _ _ _
theorem lands_sRow (fd w : Buf (Elt F) ((V d (cV L) (jV L)).loc cc2_scratch1)) : (sRow).view.write (Elt F) fd w Finset.univ = w := View.write_whole_univ _ _ _
theorem lands_sCol (fd w : Buf (Elt F) ((V d (cV L) (jV L)).loc cc2_scratch2)) : (sCol).view.write (Elt F) fd w Finset.univ = w := View.write_whole_univ _ _ _
theorem lands_sEs (fd w : Buf (Elt F) ((V d (cV L) (jV L)).loc cc2_scratch3)) : (sEs).view.write (Elt F) fd w Finset.univ = w := View.write_whole_univ _ _ _

/-- The table scratch read through its whole rectangle is its contents. -/
theorem tab_read_whole (f : Buf (Elt F) ((V d (cV L) (jV L)).loc cc2_scratch0)) : ((sTab).access (Rect.whole S20000)).read (Elt F) f = f :=
  Memref.read_access_whole (Elt F) cc2_scratch0 f

/-- The value on the subcore's scratches. -/
abbrev valL : S5040.Idx → F .f32 := valS (tabS d (X.tab d)) (rowS d L (X.row d)) (colS d L (X.col d)) (esS d L (X.es d))

/-- Before trip n: the four fetched scratches as fetched, the result scratch at the value on its first 16 n entries. -/
def loopInv (f4 : Buf (Elt F) ((V d (cV L) (jV L)).loc cc2_scratch4)) (n : Nat) (_ : Unit) : sProp (𝕄 F) :=
  iprop(((V d (cV L) (jV L)).loc cc2_scratch0 ↦{fullShare} tabS d (X.tab d))
    ∗ ((V d (cV L) (jV L)).loc cc2_scratch1 ↦{fullShare} rowS d L (X.row d))
    ∗ ((V d (cV L) (jV L)).loc cc2_scratch2 ↦{fullShare} colS d L (X.col d))
    ∗ ((V d (cV L) (jV L)).loc cc2_scratch3 ↦{fullShare} esS d L (X.es d))
    ∗ ((V d (cV L) (jV L)).loc cc2_scratch4 ↦{fullShare} acc f4 (valL X d L) n))

/-- A trip's store, on the result scratch. -/
theorem store_step (k : Fin k2_t1_loop.trips) (f0 v : S5040.Idx → F .f32) (w : S16.Idx → F .f32) (hw : ∀ x, w x = v ((r3 k).emb x)) :
    ((((sOut).access (r3 k)).loc (V d (cV L) (jV L))) ↦{fullShare} ((sOut).access (r3 k)).write (Elt F) (acc f0 v k.val) w Finset.univ : sProp (𝕄 F))
      = (V d (cV L) (jV L)).loc cc2_scratch4 ↦{fullShare} acc f0 v (k.val + 1) := by
  rw [acc_step k f0 v w hw]

theorem loop_end (f0 v : S5040.Idx → F .f32) :
    ((V d (cV L) (jV L)).loc cc2_scratch4 ↦{fullShare} acc f0 v k2_t1_loop.trips : sProp (𝕄 F)) = (V d (cV L) (jV L)).loc cc2_scratch4 ↦{fullShare} v := by
  rw [trips_eq, acc_last]

set_option maxHeartbeats 4000000 in
/-- Vector subcore (L 0, L 1) of device d runs the kernel: four fetches, the loop, the write-out. -/
theorem tile_body (hF : (K (F := F)).Facts) (outF : Buf (Elt F) (outLoc d))
    (hrow : ∀ j ∈ sl L, (X.row d j : BitVec 32).toNat ≤ 9999) (hcol : ∀ j ∈ sl L, (X.col d j : BitVec 32).toNat ≤ 9999)
    (O : CellTallies nD τ sig (HIx 1)) (W : Waits sig (HIx 1)) (hO : ∀ g, O g none = 0) :
    iprop(levAts (K (F := F)).L (K (F := F)).lev ∗ kits X d (cV L) (jV L)
        ∗ ((tabLoc d ↦{X.q (cV L) (jV L)} X.tab d) ∗ (rowLoc d ↦[sl L]{fullShare} X.row d) ∗ (colLoc d ↦[sl L]{fullShare} X.col d)
            ∗ (esLoc d ↦[sl L]{fullShare} X.es d) ∗ (outLoc d ↦[sl L]{fullShare} outF))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_sc_gather L tabV (Memref.isWhole_whole _) rowV (Memref.isWhole_whole _) colV (Memref.isWhole_whole _) esV (Memref.isWhole_whole _)
            outV (Memref.isWhole_whole _) sTab (Memref.isWhole_whole _) sRow (Memref.isWhole_whole _) sCol (Memref.isWhole_whole _)
            sEs (Memref.isWhole_whole _) sOut (Memref.isWhole_whole _) cc2_scoped0 cc2_scoped1 cc2_scoped2 cc2_scoped3 cc2_scoped4)
          fun _ => iprop(((tabLoc d ↦{X.q (cV L) (jV L)} X.tab d) ∗ (rowLoc d ↦[sl L]{fullShare} X.row d) ∗ (colLoc d ↦[sl L]{fullShare} X.col d)
              ∗ (esLoc d ↦[sl L]{fullShare} X.es d) ∗ (outLoc d ↦[sl L]{fullShare} outVal d (X.tab d) (X.row d) (X.col d) (X.es d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hr : ∀ y, (rowS d L (X.row d) y).toNat ≤ 9999 := rowS_le d L (X.row d) hrow
  have hc : ∀ y, (colS d L (X.col d) y).toNat ≤ 9999 := colS_le d L (X.col d) hcol
  simp only [cc2_sc_gather_eq_skeleton]; unfold cc2_sc_gather_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  unfold kits kit
  iintro ⟨#Hlv, ⟨⟨Hst0, Hat0, #Hr0, Htok0⟩, ⟨Hst1, Hat1, #Hr1, Htok1⟩, ⟨Hst2, Hat2, #Hr2, Htok2⟩, ⟨Hst3, Hat3, #Hr3, Htok3⟩, ⟨Hst4, Hat4, #Hr4, Htok4⟩⟩,
    ⟨Htab, Hrow, Hcol, Hes, Hout⟩, ⟨⟨%f0, Hs0⟩, ⟨%f1, Hs1⟩, ⟨%f2, Hs2⟩, ⟨%f3, Hs3⟩, ⟨%f4, Hs4⟩, Hbufs⟩, ⟨Hsem0, Hsem1, Hsem2, Hsem3, Hsem4, Hsems⟩, HO⟩
  imod ((Rounds.body_intro EK (kRd X) (c0cell d (cV L) (jV L))).trans inv_alloc) $$ [Hsem0 Hst0] with ⟨%κ0, #Hinv0⟩
  · isplitl [Hsem0] <;> iassumption
  imod ((Rounds.body_intro EK (kRd X) (c1cell d (cV L) (jV L))).trans inv_alloc) $$ [Hsem1 Hst1] with ⟨%κ1, #Hinv1⟩
  · isplitl [Hsem1] <;> iassumption
  imod ((Rounds.body_intro EK (kRd X) (c2cell d (cV L) (jV L))).trans inv_alloc) $$ [Hsem2 Hst2] with ⟨%κ2, #Hinv2⟩
  · isplitl [Hsem2] <;> iassumption
  imod ((Rounds.body_intro EK (kRd X) (c3cell d (cV L) (jV L))).trans inv_alloc) $$ [Hsem3 Hst3] with ⟨%κ3, #Hinv3⟩
  · isplitl [Hsem3] <;> iassumption
  imod ((Rounds.body_intro EK (kRd X) (c4cell d (cV L) (jV L))).trans inv_alloc) $$ [Hsem4 Hst4] with ⟨%κ4, #Hinv4⟩
  · isplitl [Hsem4] <;> iassumption
  -- the table fetched whole

  ihave Htab' := (Entails.of_eq (pts_tabV (F := F) d (cV L) (jV L) _ _).symm) $$ Htab
  ihave Hs0' := (Entails.of_eq (pts_sTab (F := F) d (cV L) (jV L) _).symm) $$ Hs0
  iapply (Rounds.wp_copy_pointsTo 𝒱₀ EK (kRd X) (V d (cV L) (jV L)) none (q := X.q (cV L) (jV L)) (fs := X.tab d) (fd := f0) (κ := κ0)
      (kRd_mem₀ X (by rw [cellKind_c0]; rfl)) none N0 rfl (kRd_amount_c0 X d _ _) ?hpay0) $$ [Htab' Hs0' Htok0]
  case hpay0 =>
    rw [kRd_payload_c0 X d (cV L) (jV L), pts_tabV (F := F) d (cV L) (jV L), pts_sTab (F := F) d (cV L) (jV L), lands_sTab d L]
  · isplitr; · iexact Hinv0
    isplitl [Htab']; · iexact Htab'
    isplitl [Hs0']; · iexact Hs0'
    isplitl [Htok0]; · iexact Htok0
    iexact Hr0
  iintro Hcred0
  iapply (Rounds.wp_wait_rest_token 𝒱₀ EK (kRd X) (V d (cV L) (jV L)) none (κ := κ0)
      (wpE_waitDma2_eq 𝒱₀ (V d (cV L) (jV L)) none Set.univ) (Set.mem_univ κ0) none (O := O) (W := W) (R := 0) (m := 0) (T := ∅)
      (by rw [Nat.zero_add, kRd_expect X (by rw [cellKind_c0]; rfl), kRd_amount_c0])) $$ [Hcred0 HO Hat0]
  · isplitr; · iexact Hinv0
    isplitl [Hcred0]; · iexact Hcred0
    isplitl [HO]; · iexact HO
    isplitr; · iapply ((K (F := F)).mayWait_none (SemLoc.dma cc2_scoped0.sem) hO); iexact Hlv
    iexact Hat0
  iintro ⟨HO, Hat0, -, Hpay⟩
  ihave Hp := ((kRd_back X (g := c0cell d (cV L) (jV L)) (by rw [cellKind_c0]; rfl)).trans (Entails.of_eq (kRd_payload_c0 X d _ _))) $$ Hpay
  icases Hp with ⟨Hs0, Htab⟩
  imod (Rounds.cell_close EK (kRd X) (Set.mem_univ κ0) (fun h => h) (R := 0 + 1) (kRd_later X (c0cell d _ _))) $$ [Hat0] with Hsem0
  · isplitr; · iexact Hinv0
    iexact Hat0
  -- the subcore's row words

  ihave Hrow' := (Entails.of_eq (pts_rowSl (F := F) d (cV L) (jV L) L _).symm) $$ Hrow
  ihave Hs1' := (Entails.of_eq (pts_sRow (F := F) d (cV L) (jV L) _).symm) $$ Hs1
  iapply (Rounds.wp_copy_pointsTo 𝒱₀ EK (kRd X) (V d (cV L) (jV L)) none (q := fullShare) (fs := X.row d) (fd := f1) (κ := κ1)
      (kRd_mem₀ X (by rw [cellKind_c1]; rfl)) none N1 rfl (kRd_amount_c1 X d _ _) ?hpay1) $$ [Hrow' Hs1' Htok1]
  case hpay1 =>
    rw [kRd_payload_c1 X d L, pts_rowSl (F := F) d (cV L) (jV L) L, pts_sRow (F := F) d (cV L) (jV L), lands_sRow d L]
  · isplitr; · iexact Hinv1
    isplitl [Hrow']; · iexact Hrow'
    isplitl [Hs1']; · iexact Hs1'
    isplitl [Htok1]; · iexact Htok1
    iexact Hr1
  iintro Hcred1
  iapply (Rounds.wp_wait_rest_token 𝒱₀ EK (kRd X) (V d (cV L) (jV L)) none (κ := κ1)
      (wpE_waitDma2_eq 𝒱₀ (V d (cV L) (jV L)) none Set.univ) (Set.mem_univ κ1) none (O := O) (W := insert (SemLoc.dma cc2_scoped0.sem, none) W) (R := 0) (m := 0) (T := ∅)
      (by rw [Nat.zero_add, kRd_expect X (by rw [cellKind_c1]; rfl), kRd_amount_c1])) $$ [Hcred1 HO Hat1]
  · isplitr; · iexact Hinv1
    isplitl [Hcred1]; · iexact Hcred1
    isplitl [HO]; · iexact HO
    isplitr; · iapply ((K (F := F)).mayWait_none (SemLoc.dma cc2_scoped1.sem) hO); iexact Hlv
    iexact Hat1
  iintro ⟨HO, Hat1, -, Hpay⟩
  ihave Hp := ((kRd_back X (g := c1cell d (cV L) (jV L)) (by rw [cellKind_c1]; rfl)).trans (Entails.of_eq (kRd_payload_c1 X d L))) $$ Hpay
  icases Hp with ⟨Hs1, Hrow⟩
  imod (Rounds.cell_close EK (kRd X) (Set.mem_univ κ1) (fun h => h) (R := 0 + 1) (kRd_later X (c1cell d _ _))) $$ [Hat1] with Hsem1
  · isplitr; · iexact Hinv1
    iexact Hat1
  -- its column words

  ihave Hcol' := (Entails.of_eq (pts_colSl (F := F) d (cV L) (jV L) L _).symm) $$ Hcol
  ihave Hs2' := (Entails.of_eq (pts_sCol (F := F) d (cV L) (jV L) _).symm) $$ Hs2
  iapply (Rounds.wp_copy_pointsTo 𝒱₀ EK (kRd X) (V d (cV L) (jV L)) none (q := fullShare) (fs := X.col d) (fd := f2) (κ := κ2)
      (kRd_mem₀ X (by rw [cellKind_c2]; rfl)) none N2 rfl (kRd_amount_c2 X d _ _) ?hpay2) $$ [Hcol' Hs2' Htok2]
  case hpay2 =>
    rw [kRd_payload_c2 X d L, pts_colSl (F := F) d (cV L) (jV L) L, pts_sCol (F := F) d (cV L) (jV L), lands_sCol d L]
  · isplitr; · iexact Hinv2
    isplitl [Hcol']; · iexact Hcol'
    isplitl [Hs2']; · iexact Hs2'
    isplitl [Htok2]; · iexact Htok2
    iexact Hr2
  iintro Hcred2
  iapply (Rounds.wp_wait_rest_token 𝒱₀ EK (kRd X) (V d (cV L) (jV L)) none (κ := κ2)
      (wpE_waitDma2_eq 𝒱₀ (V d (cV L) (jV L)) none Set.univ) (Set.mem_univ κ2) none (O := O) (W := insert (SemLoc.dma cc2_scoped1.sem, none) (insert (SemLoc.dma cc2_scoped0.sem, none) W)) (R := 0) (m := 0) (T := ∅)
      (by rw [Nat.zero_add, kRd_expect X (by rw [cellKind_c2]; rfl), kRd_amount_c2])) $$ [Hcred2 HO Hat2]
  · isplitr; · iexact Hinv2
    isplitl [Hcred2]; · iexact Hcred2
    isplitl [HO]; · iexact HO
    isplitr; · iapply ((K (F := F)).mayWait_none (SemLoc.dma cc2_scoped2.sem) hO); iexact Hlv
    iexact Hat2
  iintro ⟨HO, Hat2, -, Hpay⟩
  ihave Hp := ((kRd_back X (g := c2cell d (cV L) (jV L)) (by rw [cellKind_c2]; rfl)).trans (Entails.of_eq (kRd_payload_c2 X d L))) $$ Hpay
  icases Hp with ⟨Hs2, Hcol⟩
  imod (Rounds.cell_close EK (kRd X) (Set.mem_univ κ2) (fun h => h) (R := 0 + 1) (kRd_later X (c2cell d _ _))) $$ [Hat2] with Hsem2
  · isplitr; · iexact Hinv2
    iexact Hat2
  -- its edge scores

  ihave Hes' := (Entails.of_eq (pts_esSl (F := F) d (cV L) (jV L) L _).symm) $$ Hes
  ihave Hs3' := (Entails.of_eq (pts_sEs (F := F) d (cV L) (jV L) _).symm) $$ Hs3
  iapply (Rounds.wp_copy_pointsTo 𝒱₀ EK (kRd X) (V d (cV L) (jV L)) none (q := fullShare) (fs := X.es d) (fd := f3) (κ := κ3)
      (kRd_mem₀ X (by rw [cellKind_c3]; rfl)) none N3 rfl (kRd_amount_c3 X d _ _) ?hpay3) $$ [Hes' Hs3' Htok3]
  case hpay3 =>
    rw [kRd_payload_c3 X d L, pts_esSl (F := F) d (cV L) (jV L) L, pts_sEs (F := F) d (cV L) (jV L), lands_sEs d L]
  · isplitr; · iexact Hinv3
    isplitl [Hes']; · iexact Hes'
    isplitl [Hs3']; · iexact Hs3'
    isplitl [Htok3]; · iexact Htok3
    iexact Hr3
  iintro Hcred3
  iapply (Rounds.wp_wait_rest_token 𝒱₀ EK (kRd X) (V d (cV L) (jV L)) none (κ := κ3)
      (wpE_waitDma2_eq 𝒱₀ (V d (cV L) (jV L)) none Set.univ) (Set.mem_univ κ3) none (O := O) (W := insert (SemLoc.dma cc2_scoped2.sem, none) (insert (SemLoc.dma cc2_scoped1.sem, none) (insert (SemLoc.dma cc2_scoped0.sem, none) W))) (R := 0) (m := 0) (T := ∅)
      (by rw [Nat.zero_add, kRd_expect X (by rw [cellKind_c3]; rfl), kRd_amount_c3])) $$ [Hcred3 HO Hat3]
  · isplitr; · iexact Hinv3
    isplitl [Hcred3]; · iexact Hcred3
    isplitl [HO]; · iexact HO
    isplitr; · iapply ((K (F := F)).mayWait_none (SemLoc.dma cc2_scoped3.sem) hO); iexact Hlv
    iexact Hat3
  iintro ⟨HO, Hat3, -, Hpay⟩
  ihave Hp := ((kRd_back X (g := c3cell d (cV L) (jV L)) (by rw [cellKind_c3]; rfl)).trans (Entails.of_eq (kRd_payload_c3 X d L))) $$ Hpay
  icases Hp with ⟨Hs3, Hes⟩
  imod (Rounds.cell_close EK (kRd X) (Set.mem_univ κ3) (fun h => h) (R := 0 + 1) (kRd_later X (c3cell d _ _))) $$ [Hat3] with Hsem3
  · isplitr; · iexact Hinv3
    iexact Hat3
  -- the loop
  ihave Hs4 := (Entails.of_eq (congrArg (fun f => ((V d (cV L) (jV L)).loc cc2_scratch4 ↦{fullShare} f : sProp (𝕄 F))) (acc_zero f4 (valL X d L)).symm)) $$ Hs4
  sl_for (loopInv X d L f4) $$ [Hs0 Hs1 Hs2 Hs3 Hs4]
  case region =>
    intro k _
    unfold loopInv
    iintro ⟨Hs0, Hs1, Hs2, Hs3, Hs4⟩
    simp only [k2_t1_body, Prog.lift, Prog.bind_op, Prog.bind_ret, Prog.pure_eq_ret, Prog.bind_assoc]
    have hv6 : ∀ x, ((sRow).view.readAt (Elt F) (r2 k).toLoadRect (rowS d L (X.row d)) x : BitVec 32).toNat ≤ 9999 := by
      intro x; simp only [View.readAt_apply, Memref.view_whole, View.read_whole]; exact hr _
    have hv8 : ∀ x, ((sCol).view.readAt (Elt F) (r2 k).toLoadRect (colS d L (X.col d)) x : BitVec 32).toNat ≤ 9999 := by
      intro x; simp only [View.readAt_apply, Memref.view_whole, View.read_whole]; exact hc _
    -- sixteen row words, sixteen column words
    ihave Hs1' := (Entails.of_eq (pts_sRow_univ (F := F) d (cV L) (jV L) _).symm) $$ Hs1
    iapply (wp_load 𝒱₀ (V d (cV L) (jV L)) none Set.univ (m := (sRow)) (S := Finset.univ) (Finset.subset_univ _)) $$ Hs1'; iintro Hs1'
    try simp only [Prog.lift, Prog.bind_op, Prog.bind_ret, Prog.pure_eq_ret]
    ihave Hs2' := (Entails.of_eq (pts_sCol_univ (F := F) d (cV L) (jV L) _).symm) $$ Hs2
    iapply (wp_load 𝒱₀ (V d (cV L) (jV L)) none Set.univ (m := (sCol)) (S := Finset.univ) (Finset.subset_univ _)) $$ Hs2'; iintro Hs2'
    try simp only [Prog.lift, Prog.bind_op, Prog.bind_ret, Prog.pure_eq_ret]
    -- twice the row word is inside the table: the table read there
    rw [wp_assume_of _ _ _ _ (chk1_of (F := F) _ hv6)]
    try simp only [Prog.lift, Prog.bind_op, Prog.bind_ret, Prog.pure_eq_ret]
    ihave Hs0' := (Entails.of_eq (pts_sTab_access (F := F) d (cV L) (jV L) _).symm) $$ Hs0
    iapply (SparseCore.wp_vectorLoadIdx 𝒱₀ (V d (cV L) (jV L)) none Set.univ (base := (sTab)) (S := Finset.univ) (q := fullShare) (Finset.subset_univ _)) $$ Hs0'; iintro Hs0'
    try simp only [Memref.read_access_whole, Prog.lift, Prog.bind_op, Prog.bind_ret, Prog.pure_eq_ret]
    -- twice the column word plus one likewise
    rw [wp_assume_of _ _ _ _ (chk2_of (F := F) _ hv8)]
    try simp only [Prog.lift, Prog.bind_op, Prog.bind_ret, Prog.pure_eq_ret]
    iapply (SparseCore.wp_vectorLoadIdx 𝒱₀ (V d (cV L) (jV L)) none Set.univ (base := (sTab)) (S := Finset.univ) (q := fullShare) (Finset.subset_univ _)) $$ Hs0'; iintro Hs0'
    try simp only [Memref.read_access_whole, Prog.lift, Prog.bind_op, Prog.bind_ret, Prog.pure_eq_ret]
    -- the edge scores, the old results, the store of the sums
    ihave Hs3' := (Entails.of_eq (pts_sEs_univ (F := F) d (cV L) (jV L) _).symm) $$ Hs3
    iapply (wp_load 𝒱₀ (V d (cV L) (jV L)) none Set.univ (m := (sEs)) (S := Finset.univ) (Finset.subset_univ _)) $$ Hs3'; iintro Hs3'
    try simp only [Prog.lift, Prog.bind_op, Prog.bind_ret, Prog.pure_eq_ret]
    ihave Hs4' := (Entails.of_eq (pts_sOut_univ (F := F) d (cV L) (jV L) _).symm) $$ Hs4
    iapply (wp_load 𝒱₀ (V d (cV L) (jV L)) none Set.univ (m := (sOut)) (S := Finset.univ) (Finset.subset_univ _)) $$ Hs4'; iintro Hs4'
    try simp only [Prog.lift, Prog.bind_op, Prog.bind_ret, Prog.pure_eq_ret]
    simp only [tab_read_whole (F := F) d L]
    ihave Hs4a := (Entails.of_eq ((pts_sOut_univ (F := F) d (cV L) (jV L) _).trans (pts_sOut_access (F := F) d (cV L) (jV L) (r3 k) _).symm)) $$ Hs4'
    iapply (wp_store 𝒱₀ (V d (cV L) (jV L)) none Set.univ (m := (sOut)) (r := r3 k) (Mk := Finset.univ) (S := Finset.univ) (Finset.subset_univ _)) $$ Hs4a; iintro Hs4a
    try simp only [Prog.lift, Prog.bind_op, Prog.bind_ret, Prog.pure_eq_ret]
    ihave Hs0 := (Entails.of_eq (pts_sTab_access (F := F) d (cV L) (jV L) _)) $$ Hs0'
    ihave Hs1 := (Entails.of_eq (pts_sRow_univ (F := F) d (cV L) (jV L) _)) $$ Hs1'
    ihave Hs2 := (Entails.of_eq (pts_sCol_univ (F := F) d (cV L) (jV L) _)) $$ Hs2'
    ihave Hs3 := (Entails.of_eq (pts_sEs_univ (F := F) d (cV L) (jV L) _)) $$ Hs3'
    rw [wp_ret]; imodintro
    isplitl [Hs0]; · iexact Hs0
    isplitl [Hs1]; · iexact Hs1
    isplitl [Hs2]; · iexact Hs2
    isplitl [Hs3]; · iexact Hs3
    iapply (Entails.of_eq (store_step (F := F) d L k f4 (valL X d L) _ ?hw)) $$ Hs4a
    case hw =>
      exact fun x => lane_val k (tabS d (X.tab d)) (rowS d L (X.row d)) (colS d L (X.col d)) (esS d L (X.es d)) hr hc _ _ x
  · unfold loopInv
    isplitl [Hs0]; · iexact Hs0
    isplitl [Hs1]; · iexact Hs1
    isplitl [Hs2]; · iexact Hs2
    isplitl [Hs3]; · iexact Hs3
    iexact Hs4
  iintro %_ HI
  unfold loopInv
  icases HI with ⟨Hs0, Hs1, Hs2, Hs3, Hs4⟩
  ihave Hs4 := (Entails.of_eq (loop_end (F := F) d L f4 (valL X d L))) $$ Hs4
  -- the write-out: the result scratch read, the subcore's slice of the result written

  ihave Hs4' := (Entails.of_eq (pts_sOut (F := F) d (cV L) (jV L) _).symm) $$ Hs4
  ihave Hout' := (Entails.of_eq (pts_outSl (F := F) d (cV L) (jV L) L _).symm) $$ Hout
  iapply (Rounds.wp_copy_pointsTo 𝒱₀ EK (kRd X) (V d (cV L) (jV L)) none (q := fullShare) (fs := valL X d L) (fd := outF) (κ := κ4)
      (kRd_mem₀ X (by rw [cellKind_c4]; rfl)) none N4 rfl (kRd_amount_c4 X d _ _) ?hpay4) $$ [Hs4' Hout' Htok4]
  case hpay4 =>
    rw [kRd_payload_c4 X d L, pts_sOut (F := F) d (cV L) (jV L), pts_outSl (F := F) d (cV L) (jV L) L,
      pointsTo_congr (out_final d L (X.tab d) (X.row d) (X.col d) (X.es d) outF)]
    iintro ⟨Ho, Hc⟩
    isplitl [Ho]; · iexact Ho
    iexists _; iexact Hc
  · isplitr; · iexact Hinv4
    isplitl [Hs4']; · iexact Hs4'
    isplitl [Hout']; · iexact Hout'
    isplitl [Htok4]; · iexact Htok4
    iexact Hr4
  iintro Hcred4
  iapply (Rounds.wp_wait_rest_token 𝒱₀ EK (kRd X) (V d (cV L) (jV L)) none (κ := κ4)
      (wpE_waitDma2_eq 𝒱₀ (V d (cV L) (jV L)) none Set.univ) (Set.mem_univ κ4) none (O := O) (W := insert (SemLoc.dma cc2_scoped3.sem, none) (insert (SemLoc.dma cc2_scoped2.sem, none) (insert (SemLoc.dma cc2_scoped1.sem, none) (insert (SemLoc.dma cc2_scoped0.sem, none) W)))) (R := 0) (m := 0) (T := ∅)
      (by rw [Nat.zero_add, kRd_expect X (by rw [cellKind_c4]; rfl), kRd_amount_c4])) $$ [Hcred4 HO Hat4]
  · isplitr; · iexact Hinv4
    isplitl [Hcred4]; · iexact Hcred4
    isplitl [HO]; · iexact HO
    isplitr; · iapply ((K (F := F)).mayWait_none (SemLoc.dma cc2_scoped4.sem) hO); iexact Hlv
    iexact Hat4
  iintro ⟨HO, Hat4, -, Hpay⟩
  ihave Hp := ((kRd_back X (g := c4cell d (cV L) (jV L)) (by rw [cellKind_c4]; rfl)).trans (Entails.of_eq (kRd_payload_c4 X d L))) $$ Hpay
  icases Hp with ⟨Hout, ⟨%f4', Hs4⟩⟩
  imod (Rounds.cell_close EK (kRd X) (Set.mem_univ κ4) (fun h => h) (R := 0 + 1) (kRd_later X (c4cell d _ _))) $$ [Hat4] with Hsem4
  · isplitr; · iexact Hinv4
    iexact Hat4
  rw [wp_ret]; imodintro
  isplitl [Htab Hrow Hcol Hes Hout]
  · isplitl [Htab]; · iexact Htab
    isplitl [Hrow]; · iexact Hrow
    isplitl [Hcol]; · iexact Hcol
    isplitl [Hes]; · iexact Hes
    iexact Hout
  isplitl [Hs0 Hs1 Hs2 Hs3 Hs4 Hbufs]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    iexact Hbufs
  isplitl [Hsem0 Hsem1 Hsem2 Hsem3 Hsem4 Hsems]
  · isplitl [Hsem0]; · iexact Hsem0
    isplitl [Hsem1]; · iexact Hsem1
    isplitl [Hsem2]; · iexact Hsem2
    isplitl [Hsem3]; · iexact Hsem3
    isplitl [Hsem4]; · iexact Hsem4
    iexact Hsems
  iexists (insert (SemLoc.dma cc2_scoped4.sem, none) (insert (SemLoc.dma cc2_scoped3.sem, none) (insert (SemLoc.dma cc2_scoped2.sem, none) (insert (SemLoc.dma cc2_scoped1.sem, none) (insert (SemLoc.dma cc2_scoped0.sem, none) W))))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

end Cert.Kernel.Tile

end
-- ==== Proof.KernelValueB.lean ====
/-
  The kernel's host program, read entry by entry.

  The TensorCore's arrays go through four stretches of plain operations with three calls between them. Read at an
  entry, each stretch is a re-indexing: the edge list's two rows flattened, the weight column cut into three runs of
  256 (the first two side by side), the node scores flattened two to a node, the edge features viewed as four stacks,
  the four stacks of edge scores laid end to end and padded, the two rows padded with zero words, and at the end the
  first 160000 entries of the result kept. No operation and no call writes an argument array. With the two products
  stated as sums, the kept entry j is (node score of the source, first column + node score of the target, second
  column) + (edge score of j), which is the score of edge j.
-/
import proofs.«207961_g9620726743389_cont_9to1c4b_395_8_alg».proof.Proof.ValsB
import proofs.«207961_g9620726743389_cont_9to1c4b_395_8_alg».proof.Proof.TileValB
import proofs.«207961_g9620726743389_cont_9to1c4b_395_8_alg».proof.Proof.Spec
import Idealize.ShloMosaic.Lib.Pipeline.Value
import Idealize.ShloMosaic.Lib.ValueLayout
import Idealize.ShloMosaic.Lib.IdealHost

noncomputable section

open scoped BigOperators

namespace Cert.Kernel.Value

open Cert.Kernel Cert.Kernel.Gen Cert.Kernel.Common Cert.Kernel.MainShape Cert.Kernel.Host
open Cert.Kernel.Vals Cert.Kernel.Tile
open Idealize.ShloMosaic Idealize.ShloMosaic.TcCoe Idealize.ShloMosaic.StableHlo Idealize.ShloMosaic.ValueIdx

variable {F : FTy → Type} [FloatOps F]

/-! ## What each stretch leaves alone -/

theorem ops1_arg0 (V : Valuation τ sig (Elt F)) : after (ops1 (F := F)) V (r main_arg0) = V (r main_arg0) := by after_results_simp
theorem ops1_arg1 (V : Valuation τ sig (Elt F)) : after (ops1 (F := F)) V (r main_arg1) = V (r main_arg1) := by after_results_simp
theorem ops1_arg2 (V : Valuation τ sig (Elt F)) : after (ops1 (F := F)) V (r main_arg2) = V (r main_arg2) := by after_results_simp
theorem ops1_arg3 (V : Valuation τ sig (Elt F)) : after (ops1 (F := F)) V (r main_arg3) = V (r main_arg3) := by after_results_simp
theorem ops1_arg4 (V : Valuation τ sig (Elt F)) : after (ops1 (F := F)) V (r main_arg4) = V (r main_arg4) := by after_results_simp
theorem ops2_arg0 (V : Valuation τ sig (Elt F)) : after (ops2 (F := F)) V (r main_arg0) = V (r main_arg0) := by after_results_simp
theorem ops2_arg1 (V : Valuation τ sig (Elt F)) : after (ops2 (F := F)) V (r main_arg1) = V (r main_arg1) := by after_results_simp
theorem ops2_arg2 (V : Valuation τ sig (Elt F)) : after (ops2 (F := F)) V (r main_arg2) = V (r main_arg2) := by after_results_simp
theorem ops2_arg3 (V : Valuation τ sig (Elt F)) : after (ops2 (F := F)) V (r main_arg3) = V (r main_arg3) := by after_results_simp
theorem ops2_arg4 (V : Valuation τ sig (Elt F)) : after (ops2 (F := F)) V (r main_arg4) = V (r main_arg4) := by after_results_simp
theorem ops3_arg0 (V : Valuation τ sig (Elt F)) : after (ops3 (F := F)) V (r main_arg0) = V (r main_arg0) := by after_results_simp
theorem ops3_arg1 (V : Valuation τ sig (Elt F)) : after (ops3 (F := F)) V (r main_arg1) = V (r main_arg1) := by after_results_simp
theorem ops3_arg2 (V : Valuation τ sig (Elt F)) : after (ops3 (F := F)) V (r main_arg2) = V (r main_arg2) := by after_results_simp
theorem ops3_arg3 (V : Valuation τ sig (Elt F)) : after (ops3 (F := F)) V (r main_arg3) = V (r main_arg3) := by after_results_simp
theorem ops3_arg4 (V : Valuation τ sig (Elt F)) : after (ops3 (F := F)) V (r main_arg4) = V (r main_arg4) := by after_results_simp
theorem ops4_arg0 (V : Valuation τ sig (Elt F)) : after (ops4 (F := F)) V (r main_arg0) = V (r main_arg0) := by after_results_simp
theorem ops4_arg1 (V : Valuation τ sig (Elt F)) : after (ops4 (F := F)) V (r main_arg1) = V (r main_arg1) := by after_results_simp
theorem ops4_arg2 (V : Valuation τ sig (Elt F)) : after (ops4 (F := F)) V (r main_arg2) = V (r main_arg2) := by after_results_simp
theorem ops4_arg3 (V : Valuation τ sig (Elt F)) : after (ops4 (F := F)) V (r main_arg3) = V (r main_arg3) := by after_results_simp
theorem ops4_arg4 (V : Valuation τ sig (Elt F)) : after (ops4 (F := F)) V (r main_arg4) = V (r main_arg4) := by after_results_simp
theorem ops2_v1 (V : Valuation τ sig (Elt F)) : after (ops2 (F := F)) V (r main_v1) = V (r main_v1) := by after_results_simp
theorem ops2_v3 (V : Valuation τ sig (Elt F)) : after (ops2 (F := F)) V (r main_v3) = V (r main_v3) := by after_results_simp
theorem ops2_v7 (V : Valuation τ sig (Elt F)) : after (ops2 (F := F)) V (r main_v7) = V (r main_v7) := by after_results_simp
theorem ops2_v8 (V : Valuation τ sig (Elt F)) : after (ops2 (F := F)) V (r main_v8) = V (r main_v8) := by after_results_simp
theorem ops3_v10 (V : Valuation τ sig (Elt F)) : after (ops3 (F := F)) V (r main_v10) = V (r main_v10) := by after_results_simp

variable (R : RegVals F) (m : (ℓ : Loc nD τ sig) → Buf (Elt F) ℓ) (d : Dev nD)

/-- The first call writes the node scores only. -/
theorem V2_of_ne {b : Ref sig .tc} (h : b ≠ main_v9) : V2 R m d (r b) = V1 m d (r b) := by
  unfold V2; exact Function.update_of_ne (devRef_ne_of_ne h) _ _

/-- The second call writes the four stacks of edge scores only. -/
theorem V4_of_ne {b : Ref sig .tc} (h0 : b ≠ main_v12_0) (h1 : b ≠ main_v12_1) (h2 : b ≠ main_v12_2) (h3 : b ≠ main_v12_3) :
    V4 R m d (r b) = V3 R m d (r b) := by
  unfold V4
  rw [Function.update_of_ne (devRef_ne_of_ne h3), Function.update_of_ne (devRef_ne_of_ne h2),
    Function.update_of_ne (devRef_ne_of_ne h1), Function.update_of_ne (devRef_ne_of_ne h0)]

/-- The kernel on the vector subcores writes its result only. -/
theorem V6_of_ne {b : Ref sig .tc} (h : b ≠ main_v22) : V6 R m d (r b) = V5 R m d (r b) := by
  unfold V6; exact Function.update_of_ne (devRef_ne_of_ne h) _ _

/-! ## The arguments at the end -/

theorem V7_arg0 : V7 R m d (r main_arg0) = m (d, r main_arg0) := by
  unfold V7; rw [ops4_arg0, V6_of_ne R m d (by decide)]
  unfold V5; rw [ops3_arg0, V4_of_ne R m d (by decide) (by decide) (by decide) (by decide)]
  unfold V3; rw [ops2_arg0, V2_of_ne R m d (by decide)]
  unfold V1; rw [ops1_arg0]; rfl
theorem V7_arg1 : V7 R m d (r main_arg1) = m (d, r main_arg1) := by
  unfold V7; rw [ops4_arg1, V6_of_ne R m d (by decide)]
  unfold V5; rw [ops3_arg1, V4_of_ne R m d (by decide) (by decide) (by decide) (by decide)]
  unfold V3; rw [ops2_arg1, V2_of_ne R m d (by decide)]
  unfold V1; rw [ops1_arg1]; rfl
theorem V7_arg2 : V7 R m d (r main_arg2) = m (d, r main_arg2) := by
  unfold V7; rw [ops4_arg2, V6_of_ne R m d (by decide)]
  unfold V5; rw [ops3_arg2, V4_of_ne R m d (by decide) (by decide) (by decide) (by decide)]
  unfold V3; rw [ops2_arg2, V2_of_ne R m d (by decide)]
  unfold V1; rw [ops1_arg2]; rfl
theorem V7_arg3 : V7 R m d (r main_arg3) = m (d, r main_arg3) := by
  unfold V7; rw [ops4_arg3, V6_of_ne R m d (by decide)]
  unfold V5; rw [ops3_arg3, V4_of_ne R m d (by decide) (by decide) (by decide) (by decide)]
  unfold V3; rw [ops2_arg3, V2_of_ne R m d (by decide)]
  unfold V1; rw [ops1_arg3]; rfl
theorem V7_arg4 : V7 R m d (r main_arg4) = m (d, r main_arg4) := by
  unfold V7; rw [ops4_arg4, V6_of_ne R m d (by decide)]
  unfold V5; rw [ops3_arg4, V4_of_ne R m d (by decide) (by decide) (by decide) (by decide)]
  unfold V3; rw [ops2_arg4, V2_of_ne R m d (by decide)]
  unfold V1; rw [ops1_arg4]; rfl

/-! ## The edge list's rows -/

section Rows
variable (V : Valuation τ sig (Elt F))

/-- The first stretch's flattened row 0 of the edge list, -/
theorem ops1_v1 (j : Fin 160000) :
    (after (ops1 (F := F)) V (r main_v1) : IVec S160000 32) (ix1 j) = (V (r main_arg2) : IVec S2x160000 32) (ix2 (0 : Fin 2) j) := by
  after_results_simp
  refine (shapeCast_apply _ _ (ix1 j) (ix2 (0 : Fin 1) j) ?_).trans (slice2_axis0_apply 0 _ _ (0 : Fin 1) j (0 : Fin 2) rfl)
  rw [Shape.rowMajor_val_two, Shape.rowMajor_val_one]
  show 0 * 160000 + j.val = j.val
  omega

/-- and row 1. -/
theorem ops1_v3 (j : Fin 160000) :
    (after (ops1 (F := F)) V (r main_v3) : IVec S160000 32) (ix1 j) = (V (r main_arg2) : IVec S2x160000 32) (ix2 (1 : Fin 2) j) := by
  after_results_simp
  refine (shapeCast_apply _ _ (ix1 j) (ix2 (0 : Fin 1) j) ?_).trans (slice2_axis0_apply 1 _ _ (0 : Fin 1) j (1 : Fin 2) rfl)
  rw [Shape.rowMajor_val_two, Shape.rowMajor_val_one]
  show 0 * 160000 + j.val = j.val
  omega

/-- A flattened row padded with 1280 zero words: the row on the first 160000 entries, -/
theorem pad_lo (a : IVec S160000 32) (z : IVec S1280 32) (j : Fin 161280) (h : j.val < 160000) :
    concatenate S161280 0 [⟨S160000, a⟩, ⟨S1280, z⟩] concatenates_S160000_S1280_S161280_d0 (ix1 j) = a (ix1 ⟨j.val, h⟩) := by
  refine concatenate_pair_apply_left (t := S161280) (s₁ := S160000) (s₂ := S1280) 0 _ _ _ _ rfl (ix1 ⟨j.val, h⟩) fun b => ?_
  match b with
  | ⟨0, _⟩ => rfl

/-- the padding on the rest. -/
theorem pad_hi (a : IVec S160000 32) (z : IVec S1280 32) (j : Fin 161280) (h : ¬ j.val < 160000) :
    concatenate S161280 0 [⟨S160000, a⟩, ⟨S1280, z⟩] concatenates_S160000_S1280_S161280_d0 (ix1 j)
      = z (ix1 ⟨j.val - 160000, by have := j.isLt; omega⟩) := by
  refine concatenate_pair_apply_right (t := S161280) (s₁ := S160000) (s₂ := S1280) 0 _ _ _ _ rfl rfl
    (ix1 ⟨j.val - 160000, by have := j.isLt; omega⟩) (fun b hb => ?_) ?_
  · match b with
    | ⟨0, _⟩ => exact absurd rfl hb
  · show j.val - 160000 + 160000 = j.val
    omega

/-- The third stretch's padded row 0: the flattened row, then zero words. -/
theorem ops3_v20 (j : Fin 161280) :
    (after (ops3 (F := F)) V (r main_v20) : IVec S161280 32) (ix1 j)
      = if h : j.val < 160000 then (V (r main_v1) : IVec S160000 32) (ix1 ⟨j.val, h⟩) else 0#32 := by
  after_results_simp
  split
  · rename_i h; exact pad_lo _ _ j h
  · rename_i h; exact (pad_hi _ _ j h).trans (broadcastInDim_scalar_apply _ _ _)

/-- The padded row 1. -/
theorem ops3_v21 (j : Fin 161280) :
    (after (ops3 (F := F)) V (r main_v21) : IVec S161280 32) (ix1 j)
      = if h : j.val < 160000 then (V (r main_v3) : IVec S160000 32) (ix1 ⟨j.val, h⟩) else 0#32 := by
  after_results_simp
  split
  · rename_i h; exact pad_lo _ _ j h
  · rename_i h; exact (pad_hi _ _ j h).trans (broadcastInDim_scalar_apply _ _ _)

end Rows

/-- Row 0 as the vector subcores see it: the edge list's row 0 on the first 160000 entries, zero words after. -/
theorem row_eq (j : Fin 161280) :
    ((Xof R m).row d (ix1 j) : BitVec 32)
      = if h : j.val < 160000 then (m (d, r main_arg2) : IVec S2x160000 32) (ix2 (0 : Fin 2) ⟨j.val, h⟩) else 0#32 := by
  show (V5 R m d (r main_v20) : IVec S161280 32) (ix1 j) = _
  unfold V5; rw [ops3_v20]
  split
  · rw [V4_of_ne R m d (by decide) (by decide) (by decide) (by decide)]
    unfold V3; rw [ops2_v1, V2_of_ne R m d (by decide)]
    unfold V1; rw [ops1_v1]; rfl
  · rfl

/-- Row 1 likewise. -/
theorem col_eq (j : Fin 161280) :
    ((Xof R m).col d (ix1 j) : BitVec 32)
      = if h : j.val < 160000 then (m (d, r main_arg2) : IVec S2x160000 32) (ix2 (1 : Fin 2) ⟨j.val, h⟩) else 0#32 := by
  show (V5 R m d (r main_v21) : IVec S161280 32) (ix1 j) = _
  unfold V5; rw [ops3_v21]
  split
  · rw [V4_of_ne R m d (by decide) (by decide) (by decide) (by decide)]
    unfold V3; rw [ops2_v3, V2_of_ne R m d (by decide)]
    unfold V1; rw [ops1_v3]; rfl
  · rfl

theorem row_le (h : Cert.Spec.InRange (m (d, r main_arg2))) : ∀ j, ((Xof R m).row d j : BitVec 32).toNat ≤ 9999 := by
  intro j
  obtain ⟨j, rfl⟩ : ∃ j' : Fin 161280, j = ix1 j' := ⟨j 0, eq_ix1 j⟩
  rw [row_eq]
  split
  · exact h _
  · show (0#32 : BitVec 32).toNat ≤ 9999; decide

theorem col_le (h : Cert.Spec.InRange (m (d, r main_arg2))) : ∀ j, ((Xof R m).col d j : BitVec 32).toNat ≤ 9999 := by
  intro j
  obtain ⟨j, rfl⟩ : ∃ j' : Fin 161280, j = ix1 j' := ⟨j 0, eq_ix1 j⟩
  rw [col_eq]
  split
  · exact h _
  · show (0#32 : BitVec 32).toNat ≤ 9999; decide

/-! ## The weights, the bias, the node table, the stacks, read at an entry -/

section Reads
variable (V : Valuation τ sig (Elt F))

/-- The weights' first two runs of 256 side by side: column q is the run starting at 256 q. -/
theorem ops1_v6 (k : Fin 256) (q : Fin 2) :
    (after (ops1 (F := F)) V (r main_v6) : FVec F S256x2 .f32) (ix2 k q)
      = (V (r main_arg3) : FVec F S768x1 .f32) (ix2 (⟨256 * q.val + k.val, by omega⟩ : Fin 768) (0 : Fin 1)) := by
  have e : (after (ops1 (F := F)) V (r main_v6) : FVec F S256x2 .f32)
      = concatenate S256x2 1
          [⟨S256x1, extractStridedSlice S256x1 ![0, 0] (V (r main_arg3) : FVec F S768x1 .f32) slices_S768x1_S256x1_0_0⟩,
           ⟨S256x1, extractStridedSlice S256x1 ![256, 0] (V (r main_arg3) : FVec F S768x1 .f32) slices_S768x1_S256x1_256_0⟩]
          concatenates_S256x1_S256x1_S256x2_d1 := by
    after_results_simp
    rfl
  rw [e]
  match q with
  | ⟨0, _⟩ =>
    refine (concatenate_pair_apply_left (t := S256x2) (s₁ := S256x1) (s₂ := S256x1) 1 _ _ _ _ rfl (ix2 k (0 : Fin 1)) fun b => ?_).trans ?_
    · match b with
      | ⟨0, _⟩ => rfl
      | ⟨1, _⟩ => rfl
    · exact slice2_axis0_apply 0 _ _ k (0 : Fin 1) _ (by show 256 * 0 + k.val = 0 + k.val; omega)
  | ⟨1, _⟩ =>
    refine (concatenate_pair_apply_right (t := S256x2) (s₁ := S256x1) (s₂ := S256x1) 1 _ _ _ _ rfl rfl (ix2 k (0 : Fin 1))
      (fun b hb => ?_) ?_).trans ?_
    · match b with
      | ⟨0, _⟩ => rfl
      | ⟨1, _⟩ => exact absurd rfl hb
    · rfl
    · exact slice2_axis0_apply 256 _ _ k (0 : Fin 1) _ (by show 256 * 1 + k.val = 256 + k.val; omega)

/-- The weights' third run. -/
theorem ops1_v7 (k : Fin 256) :
    (after (ops1 (F := F)) V (r main_v7) : FVec F S256x1 .f32) (ix2 k (0 : Fin 1))
      = (V (r main_arg3) : FVec F S768x1 .f32) (ix2 (⟨512 + k.val, by omega⟩ : Fin 768) (0 : Fin 1)) := by
  after_results_simp
  exact slice2_axis0_apply 512 _ _ k (0 : Fin 1) _ rfl

/-- The bias as a 1 x 1 matrix. -/
theorem ops1_v8 :
    (after (ops1 (F := F)) V (r main_v8) : FVec F S1x1 .f32) (ix2 (0 : Fin 1) (0 : Fin 1))
      = (V (r main_arg4) : FVec F S1 .f32) (ix1 (0 : Fin 1)) := by
  after_results_simp
  refine shapeCast_apply _ _ (ix2 (0 : Fin 1) (0 : Fin 1)) (ix1 (0 : Fin 1)) ?_
  rw [Shape.rowMajor_val_two, Shape.rowMajor_val_one]
  rfl

/-- The node scores flattened: entry 2 p + q is node p's column q. -/
theorem ops2_v10 (p : Fin 10000) (q : Fin 2) :
    (after (ops2 (F := F)) V (r main_v10) : FVec F S20000 .f32) (ix1 (⟨2 * p.val + q.val, by omega⟩ : Fin 20000))
      = (V (r main_v9) : FVec F S10000x2 .f32) (ix2 p q) := by
  after_results_simp
  refine shapeCast_apply _ _ (ix1 (⟨2 * p.val + q.val, by omega⟩ : Fin 20000)) (ix2 p q) ?_
  rw [Shape.rowMajor_val_two, Shape.rowMajor_val_one]
  show p.val * 2 + q.val = 2 * p.val + q.val
  omega

/-- The edge features as four stacks: stack s, row p is edge 40000 s + p. -/
theorem ops2_v11 (s : Fin 4) (p : Fin 40000) (k : Fin 256) :
    (after (ops2 (F := F)) V (r main_v11) : FVec F S4x40000x256 .f32) (ix3 s p k)
      = (V (r main_arg1) : FVec F S160000x256 .f32) (ix2 (⟨40000 * s.val + p.val, by omega⟩ : Fin 160000) k) := by
  after_results_simp
  refine shapeCast_apply _ _ (ix3 s p k) (ix2 (⟨40000 * s.val + p.val, by omega⟩ : Fin 160000) k) ?_
  rw [Shape.rowMajor_val_two, Shape.rowMajor_val_three]
  show (40000 * s.val + p.val) * 256 + k.val = (s.val * 40000 + p.val) * 256 + k.val
  omega

/-- The four stacks of edge scores flattened, laid end to end and padded. -/
theorem ops3_v18_eq :
    (after (ops3 (F := F)) V (r main_v18) : FVec F S161280 .f32)
      = concatenate S161280 0
          [⟨S40000, shapeCast S40000 (V (r main_v12_0) : FVec F S40000x1 .f32) shapeCasts_S40000x1_S40000⟩,
           ⟨S40000, shapeCast S40000 (V (r main_v12_1) : FVec F S40000x1 .f32) shapeCasts_S40000x1_S40000⟩,
           ⟨S40000, shapeCast S40000 (V (r main_v12_2) : FVec F S40000x1 .f32) shapeCasts_S40000x1_S40000⟩,
           ⟨S40000, shapeCast S40000 (V (r main_v12_3) : FVec F S40000x1 .f32) shapeCasts_S40000x1_S40000⟩,
           ⟨S1280, broadcastInDim S1280 ![] bcast_S_S1280 (constant (F := F) S_ .f32 0x00000000#32)⟩]
          concatenates_S40000_S40000_S40000_S40000_S1280_S161280_d0 := by
  after_results_simp
  rfl

/-- A flattened stack at p is the stack's one column at row p. -/
theorem flat_apply (a : FVec F S40000x1 .f32) (p : Fin 40000) :
    shapeCast S40000 a shapeCasts_S40000x1_S40000 (ix1 p) = a (ix2 p (0 : Fin 1)) := by
  refine shapeCast_apply _ _ (ix1 p) (ix2 p (0 : Fin 1)) ?_
  rw [Shape.rowMajor_val_two, Shape.rowMajor_val_one]
  show p.val * 1 + 0 = p.val
  omega

set_option maxRecDepth 4096 in
/-- Entry 40000 s + p of the laid-out edge scores is stack s at row p. -/
theorem ops3_v18 (s : Fin 4) (p : Fin 40000) (a0 a1 a2 a3 : FVec F S40000x1 .f32) (z : FVec F S1280 .f32) :
    concatenate S161280 0
        [⟨S40000, shapeCast S40000 a0 shapeCasts_S40000x1_S40000⟩, ⟨S40000, shapeCast S40000 a1 shapeCasts_S40000x1_S40000⟩,
         ⟨S40000, shapeCast S40000 a2 shapeCasts_S40000x1_S40000⟩, ⟨S40000, shapeCast S40000 a3 shapeCasts_S40000x1_S40000⟩,
         ⟨S1280, z⟩]
        concatenates_S40000_S40000_S40000_S40000_S1280_S161280_d0 (ix1 (⟨40000 * s.val + p.val, by omega⟩ : Fin 161280))
      = (![a0, a1, a2, a3] s) (ix2 p (0 : Fin 1)) := by
  match s with
  | ⟨0, _⟩ =>
    refine (concatenate_apply_piece (t := S161280) 0 _ _ _ 0 (by show (0 : ℕ) < 5; omega) S40000 _ rfl rfl 0 rfl (ix1 p) (fun b hb => ?_) ?_).trans (flat_apply a0 p)
    · match b with
      | ⟨0, _⟩ => exact absurd rfl hb
    · show 0 + p.val = 40000 * 0 + p.val; omega
  | ⟨1, _⟩ =>
    refine (concatenate_apply_piece (t := S161280) 0 _ _ _ 1 (by show (1 : ℕ) < 5; omega) S40000 _ rfl rfl 40000
      (by show (([S40000] : List Shape).map fun s => if h : s.rank = S161280.rank then s.size ((0 : Fin S161280.rank).cast h.symm) else 0).sum = 40000; rfl) (ix1 p) (fun b hb => ?_) ?_).trans (flat_apply a1 p)
    · match b with
      | ⟨0, _⟩ => exact absurd rfl hb
    · show 40000 + p.val = 40000 * 1 + p.val; omega
  | ⟨2, _⟩ =>
    refine (concatenate_apply_piece (t := S161280) 0 _ _ _ 2 (by show (2 : ℕ) < 5; omega) S40000 _ rfl rfl 80000
      (by show (([S40000, S40000] : List Shape).map fun s => if h : s.rank = S161280.rank then s.size ((0 : Fin S161280.rank).cast h.symm) else 0).sum = 80000; rfl) (ix1 p) (fun b hb => ?_) ?_).trans (flat_apply a2 p)
    · match b with
      | ⟨0, _⟩ => exact absurd rfl hb
    · show 80000 + p.val = 40000 * 2 + p.val; omega
  | ⟨3, _⟩ =>
    refine (concatenate_apply_piece (t := S161280) 0 _ _ _ 3 (by show (3 : ℕ) < 5; omega) S40000 _ rfl rfl 120000
      (by show (([S40000, S40000, S40000] : List Shape).map fun s => if h : s.rank = S161280.rank then s.size ((0 : Fin S161280.rank).cast h.symm) else 0).sum = 120000; rfl) (ix1 p) (fun b hb => ?_) ?_).trans (flat_apply a3 p)
    · match b with
      | ⟨0, _⟩ => exact absurd rfl hb
    · show 120000 + p.val = 40000 * 3 + p.val; omega

/-- The last stretch keeps the first 160000 entries. -/
theorem ops4_v23 (j : Fin 160000) :
    (after (ops4 (F := F)) V (r main_v23) : FVec F S160000 .f32) (ix1 j)
      = (V (r main_v22) : FVec F S161280 .f32) (ix1 (⟨j.val, by omega⟩ : Fin 161280)) := by
  after_results_simp
  refine extractStridedSlice_apply _ _ _ (ix1 j) (ix1 (⟨j.val, by omega⟩ : Fin 161280)) fun a => ?_
  match a with
  | ⟨0, _⟩ => show j.val = 0 + j.val; omega

end Reads

/-! ## The kernel's result is the score -/

/-- The second call's four results, by stack. -/
theorem V4_edge (R : RegVals F) (m : (ℓ : Loc nD τ sig) → Buf (Elt F) ℓ) (d : Dev nD) (s : Fin 4) :
    (![(V4 R m d (r main_v12_0) : FVec F S40000x1 .f32), (V4 R m d (r main_v12_1) : FVec F S40000x1 .f32),
       (V4 R m d (r main_v12_2) : FVec F S40000x1 .f32), (V4 R m d (r main_v12_3) : FVec F S40000x1 .f32)] : Fin 4 → FVec F S40000x1 .f32) s
      = R.edge s (V3 R m d (r main_v11)) (V3 R m d (r main_v7)) (V3 R m d (r main_v8)) := by
  match s with
  | ⟨0, _⟩ =>
    show (V4 R m d (r main_v12_0) : FVec F S40000x1 .f32) = _
    unfold V4
    rw [Function.update_of_ne (devRef_ne_of_ne (show main_v12_0 ≠ main_v12_3 by decide)),
      Function.update_of_ne (devRef_ne_of_ne (show main_v12_0 ≠ main_v12_2 by decide)),
      Function.update_of_ne (devRef_ne_of_ne (show main_v12_0 ≠ main_v12_1 by decide)), Function.update_self]
    rfl
  | ⟨1, _⟩ =>
    show (V4 R m d (r main_v12_1) : FVec F S40000x1 .f32) = _
    unfold V4
    rw [Function.update_of_ne (devRef_ne_of_ne (show main_v12_1 ≠ main_v12_3 by decide)),
      Function.update_of_ne (devRef_ne_of_ne (show main_v12_1 ≠ main_v12_2 by decide)), Function.update_self]
    rfl
  | ⟨2, _⟩ =>
    show (V4 R m d (r main_v12_2) : FVec F S40000x1 .f32) = _
    unfold V4
    rw [Function.update_of_ne (devRef_ne_of_ne (show main_v12_2 ≠ main_v12_3 by decide)), Function.update_self]
    rfl
  | ⟨3, _⟩ =>
    show (V4 R m d (r main_v12_3) : FVec F S40000x1 .f32) = _
    unfold V4
    rw [Function.update_self]
    rfl

/-- The five argument arrays of the launch memory, at their array types. -/
abbrev aX (m : (ℓ : Loc nD τ sig) → Buf (Elt F) ℓ) (d : Dev nD) : FVec F S10000x256 .f32 := m (d, r main_arg0)
abbrev aE (m : (ℓ : Loc nD τ sig) → Buf (Elt F) ℓ) (d : Dev nD) : FVec F S160000x256 .f32 := m (d, r main_arg1)
abbrev aI (m : (ℓ : Loc nD τ sig) → Buf (Elt F) ℓ) (d : Dev nD) : IVec S2x160000 32 := m (d, r main_arg2)
abbrev aW (m : (ℓ : Loc nD τ sig) → Buf (Elt F) ℓ) (d : Dev nD) : FVec F S768x1 .f32 := m (d, r main_arg3)
abbrev aB (m : (ℓ : Loc nD τ sig) → Buf (Elt F) ℓ) (d : Dev nD) : FVec F S1 .f32 := m (d, r main_arg4)

section Ideal

variable (R : RegVals Ideal)
  (hnode : ∀ (x : FVec Ideal S10000x256 .f32) (w : FVec Ideal S256x2 .f32) (p : Fin 10000) (q : Fin 2),
      R.node x w (ix2 p q) = ∑ k : Fin 256, x (ix2 p k) * w (ix2 k q))
  (hedge : ∀ (s : Fin 4) (e4 : FVec Ideal S4x40000x256 .f32) (w3 : FVec Ideal S256x1 .f32) (b2 : FVec Ideal S1x1 .f32) (p : Fin 40000),
      R.edge s e4 w3 b2 (ix2 p (0 : Fin 1))
        = (∑ k : Fin 256, e4 (ix3 s p k) * w3 (ix2 k (0 : Fin 1))) + b2 (ix2 (0 : Fin 1) (0 : Fin 1)))
  (m : (ℓ : Loc nD τ sig) → Buf (Elt Ideal) ℓ) (d : Dev nD)

include hnode in
/-- The table the vector subcores read: entry 2 p + q is node p's features against the weights' run starting at 256 q. -/
theorem tab_apply (p : Fin 10000) (q : Fin 2) :
    ((Xof R m).tab d : FVec Ideal S20000 .f32) (ix1 (⟨2 * p.val + q.val, by omega⟩ : Fin 20000))
      = ∑ k : Fin 256, aX m d (ix2 p k) * aW m d (ix2 (⟨256 * q.val + k.val, by omega⟩ : Fin 768) (0 : Fin 1)) := by
  show (V5 R m d (r main_v10) : FVec Ideal S20000 .f32) (ix1 _) = _
  unfold V5; rw [ops3_v10, V4_of_ne R m d (by decide) (by decide) (by decide) (by decide)]
  unfold V3; rw [ops2_v10]
  unfold V2; rw [Function.update_self, hnode]
  change (_ : Ideal .f32) = _
  refine Finset.sum_congr rfl fun k _ => ?_
  unfold V1; rw [ops1_arg0, ops1_v6]; rfl

include hedge in
/-- The edge scores the vector subcores read: entry 40000 s + p is that edge's features against the weights' third run,
    plus the bias. -/
theorem es_apply (s : Fin 4) (p : Fin 40000) :
    ((Xof R m).es d : FVec Ideal S161280 .f32) (ix1 (⟨40000 * s.val + p.val, by omega⟩ : Fin 161280))
      = (∑ k : Fin 256, aE m d (ix2 (⟨40000 * s.val + p.val, by omega⟩ : Fin 160000) k)
          * aW m d (ix2 (⟨512 + k.val, by omega⟩ : Fin 768) (0 : Fin 1)))
        + aB m d (ix1 (0 : Fin 1)) := by
  show (V5 R m d (r main_v18) : FVec Ideal S161280 .f32) (ix1 _) = _
  unfold V5; rw [ops3_v18_eq]
  refine (ops3_v18 (F := Ideal) s p _ _ _ _ _).trans ?_
  rw [V4_edge, hedge]
  change (_ : Ideal .f32) = _
  refine congrArg₂ (· + ·) (Finset.sum_congr rfl fun k _ => ?_) ?_
  · unfold V3; rw [ops2_v11, ops2_v7, V2_of_ne R m d (by decide), V2_of_ne R m d (by decide)]
    unfold V1; rw [ops1_arg1, ops1_v7]; rfl
  · unfold V3; rw [ops2_v8, V2_of_ne R m d (by decide)]
    unfold V1; rw [ops1_v8]; rfl

include hnode hedge in
theorem kernel_eq_scores (h : Cert.Spec.InRange (m (d, r main_arg2))) :
    V7 R m d (r main_v23)
      = Cert.Spec.scores (m (d, r main_arg0)) (m (d, r main_arg1)) (m (d, r main_arg2)) (m (d, r main_arg3)) (m (d, r main_arg4)) := by
  funext i
  obtain ⟨j, rfl⟩ : ∃ j : Fin 160000, i = ix1 j := ⟨i 0, eq_ix1 i⟩
  have hJ : j.val < 161280 := by omega
  have hj : (⟨j.val, hJ⟩ : Fin 161280).val < 160000 := j.isLt
  -- the two index words of edge j
  have hrow : ((Xof R m).row d (ix1 (⟨j.val, hJ⟩ : Fin 161280)) : BitVec 32) = (m (d, r main_arg2) : IVec S2x160000 32) (ix2 (0 : Fin 2) j) := by
    rw [row_eq, dif_pos hj]
  have hcol : ((Xof R m).col d (ix1 (⟨j.val, hJ⟩ : Fin 161280)) : BitVec 32) = (m (d, r main_arg2) : IVec S2x160000 32) (ix2 (1 : Fin 2) j) := by
    rw [col_eq, dif_pos hj]
  have h0 := h (ix2 (0 : Fin 2) j)
  have h1 := h (ix2 (1 : Fin 2) j)
  -- the kept entry is the kernel's value at j
  have e7 : (V7 R m d (r main_v23) : FVec Ideal S160000 .f32) (ix1 j)
      = outVal d ((Xof R m).tab d) ((Xof R m).row d) ((Xof R m).col d) ((Xof R m).es d) (ix1 (⟨j.val, hJ⟩ : Fin 161280)) := by
    unfold V7; rw [ops4_v23]
    unfold V6; rw [Function.update_self]
  refine e7.trans ?_
  rw [outVal_apply_ideal d _ _ _ _ _ (row_le R m d h _) (col_le R m d h _)]
  -- the three entries read
  have et0 : (ix1 (⟨2 * ((Xof R m).row d (ix1 (⟨j.val, hJ⟩ : Fin 161280)) : BitVec 32).toNat, by have := row_le R m d h (ix1 (⟨j.val, hJ⟩ : Fin 161280)); omega⟩ : Fin 20000) : S20000.Idx)
      = ix1 (⟨2 * (Cert.Spec.node ((m (d, r main_arg2) : IVec S2x160000 32) (ix2 (0 : Fin 2) j))).val + (0 : Fin 2).val, by omega⟩ : Fin 20000) :=
    congrArg ix1 (Fin.ext (by
      show 2 * ((Xof R m).row d (ix1 (⟨j.val, hJ⟩ : Fin 161280)) : BitVec 32).toNat = 2 * (Cert.Spec.node _).val + 0
      rw [hrow, Cert.Spec.node_val h0]; rfl))
  have et1 : (ix1 (⟨2 * ((Xof R m).col d (ix1 (⟨j.val, hJ⟩ : Fin 161280)) : BitVec 32).toNat + 1, by have := col_le R m d h (ix1 (⟨j.val, hJ⟩ : Fin 161280)); omega⟩ : Fin 20000) : S20000.Idx)
      = ix1 (⟨2 * (Cert.Spec.node ((m (d, r main_arg2) : IVec S2x160000 32) (ix2 (1 : Fin 2) j))).val + (1 : Fin 2).val, by omega⟩ : Fin 20000) :=
    congrArg ix1 (Fin.ext (by
      show 2 * ((Xof R m).col d (ix1 (⟨j.val, hJ⟩ : Fin 161280)) : BitVec 32).toNat + 1 = 2 * (Cert.Spec.node _).val + 1
      rw [hcol, Cert.Spec.node_val h1]))
  have ee : (ix1 (⟨j.val, hJ⟩ : Fin 161280) : S161280.Idx)
      = ix1 (⟨40000 * (⟨j.val / 40000, by omega⟩ : Fin 4).val + (⟨j.val % 40000, by omega⟩ : Fin 40000).val, by omega⟩ : Fin 161280) :=
    congrArg ix1 (Fin.ext (by show j.val = 40000 * (j.val / 40000) + j.val % 40000; omega))
  have ej : (⟨40000 * (⟨j.val / 40000, by omega⟩ : Fin 4).val + (⟨j.val % 40000, by omega⟩ : Fin 40000).val, by omega⟩ : Fin 160000) = j :=
    Fin.ext (by show 40000 * (j.val / 40000) + j.val % 40000 = j.val; omega)
  rw [et0, et1, tab_apply R hnode m d, tab_apply R hnode m d, ee, es_apply R hedge m d, ej]
  show _ = (Cert.Spec.src _ _ _ j + Cert.Spec.tgt _ _ _ j) + Cert.Spec.own _ _ _ j
  unfold Cert.Spec.src Cert.Spec.tgt Cert.Spec.own Cert.Spec.part
  refine congrArg₂ (· + ·) (congrArg₂ (· + ·) (Finset.sum_congr rfl fun k _ => ?_) (Finset.sum_congr rfl fun k _ => ?_)) rfl
  · exact congrArg (fun t : Fin 768 => aX m d (ix2 (Cert.Spec.node (aI m d (ix2 (0 : Fin 2) j))) k) * aW m d (ix2 t (0 : Fin 1)))
      (Fin.ext (by show 256 * 0 + k.val = 0 + k.val; omega))
  · exact congrArg (fun t : Fin 768 => aX m d (ix2 (Cert.Spec.node (aI m d (ix2 (1 : Fin 2) j))) k) * aW m d (ix2 t (0 : Fin 1)))
      (Fin.ext (by show 256 * 1 + k.val = 256 + k.val; omega))

end Ideal

end Cert.Kernel.Value

end
-- ==== Proof.KernelRunB.lean ====
/-
  The kernel program's run, with nothing left open.

  The two pipelined calls compute the node scores and the four stacks of edge scores; each vector subcore's task leaves
  its piece of the result at the gathered sums; the padded index arrays name nodes because the edge list does. So from
  any memory whose edge list names nodes, every weakly fair execution terminates with the result at the last table of
  contents and the arguments as they were.
-/
import proofs.«207961_g9620726743389_cont_9to1c4b_395_8_alg».proof.Proof.MainB
import proofs.«207961_g9620726743389_cont_9to1c4b_395_8_alg».proof.Proof.Region1B
import proofs.«207961_g9620726743389_cont_9to1c4b_395_8_alg».proof.Proof.TileB
import proofs.«207961_g9620726743389_cont_9to1c4b_395_8_alg».proof.Proof.KernelValueB

noncomputable section

namespace Cert.Kernel.Launch

open Cert.Kernel Cert.Kernel.Gen Cert.Kernel.Common Cert.Kernel.Tile Cert.Kernel.Split
open Cert.Kernel.Vals Cert.Kernel.Host

open Idealize.ShloMosaic Idealize.ShloMosaic.TcCoe
open Idealize.SL.Sem

variable {F : FTy → Type} [FloatOps F]

/-- What the two pipelined calls compute. -/
def Rreal : RegVals F := ⟨Regions.nodeVal, Regions.edgeVal⟩

theorem reg0_real : Region0Spec (Rreal (F := F)) := fun d x w12 O hO _ k Φ => Regions.wp_region0 d x w12 O hO k Φ

theorem reg1_real : Region1Spec (Rreal (F := F)) := fun d e4 w3 b2 O hO _ k Φ => Regions.wp_region1 d e4 w3 b2 O hO k Φ

theorem tile_real (m : (ℓ : Loc nD τ sig) → Buf (Elt F) ℓ) : TileBodySpec (Xof (Rreal (F := F)) m) :=
  fun hF d L outF hrow hcol O W hO => Tile.tile_body (Xof (Rreal (F := F)) m) d L hF outF hrow hcol O W hO

/-- The run. -/
theorem kernel_run [∀ e, Nonempty (Elt F e)] (m : (ℓ : Loc nD τ sig) → Buf (Elt F) ℓ) (ρ : Dev nD → PrngReg)
    (hin : ∀ d : Dev nD, Cert.Spec.InRange (m (d, r main_arg2))) :
    θ_run (Cert.Kernel.defs (F := F)) (Cert.Kernel.threads (F := F)) ⟨m, fun _ => 0, ρ⟩ (QC (Rreal (F := F)) m) :=
  run_kernel (Rreal (F := F)) m ρ (tile_real m)
    (fun d j => Value.row_le (Rreal (F := F)) m d (hin d) j) (fun d j => Value.col_le (Rreal (F := F)) m d (hin d) j)
    (fun d => ⟨Value.V7_arg0 (Rreal (F := F)) m d, Value.V7_arg1 (Rreal (F := F)) m d, Value.V7_arg2 (Rreal (F := F)) m d,
      Value.V7_arg3 (Rreal (F := F)) m d, Value.V7_arg4 (Rreal (F := F)) m d⟩)
    (hmain (Rreal (F := F)) m ρ reg0_real reg1_real)

end Cert.Kernel.Launch

end
-- ==== Proof.LibTypedRefs.lean ====
/-
  A typed reference's two transports cancel.

  A tensor value of a module-local function is held in a buffer whose type equals the value's; contents move between the
  two types by transport along that equation, there and back.  Back after there is the identity.
-/
import Idealize.ShloMosaic.Lib.StableHlo

namespace Cert.Lib

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  obtain ⟨r, h, h2, h3⟩ := x
  subst h
  rfl

end Cert.Lib
-- ==== Proof.RefRun.lean ====
/-
  The reference's run, read back.

  The reference is a straight line of host operations: the edge list's two rows are sliced out and flattened; each
  row indexes the node features (an index counted from the end when negative, the range test 0 ≤ i ≤ 9999, the row
  gather, and a select against a filler where the test fails); the two gathered arrays and the edge features are
  laid side by side into 768 columns; one product with the 768 weights; the bias added; the one column flattened.
  Listed in order, with the two row look-ups written out at their call sites, the program is that list run in
  sequence, so every execution ends with each buffer at the list's fold over the launch contents: the result at
  `out` of the five arguments, the arguments untouched.

  The shape relations the operations take are used here as the proved ones; the program takes them as an instance of
  its class of stated facts. The two are propositions' proofs, so any instance gives the same program.
-/
import proofs.«207961_g9620726743389_cont_9to1c4b_395_8_alg».proof.Proof.Gen.ReferenceIdeal
import proofs.«207961_g9620726743389_cont_9to1c4b_395_8_alg».proof.Proof.LibTypedRefs
import Idealize.ShloMosaic.Lib.StableHlo.Run
import Idealize.ShloMosaic.PureOps.Ideal

noncomputable section

namespace Cert.RefSide

open Cert.ReferenceIdeal Cert.ReferenceIdeal.Gen Idealize.ShloMosaic Idealize.ShloMosaic.TcCoe Idealize.SL.Sem Idealize.ShloMosaic.StableHlo

/-! ## The value, as a term of the arguments -/

section Term
variable {F : FTy → Type} [FloatOps F]

/-- Row `r` of the edge list as a vector of 160000 index words. -/
def edgeRow (r : Nat) (ei : IVec S2x160000 32) (hs : S2x160000.Slices ![r, 0] S1x160000) : IVec S160000 32 :=
  shapeCast S160000 (extractStridedSlice S1x160000 ![r, 0] ei hs) shapeCasts_S1x160000_S160000

/-- An index vector with every negative entry counted from the end of the 10000 rows. -/
def wrapIdx (idx : IVec S160000 32) : IVec S160000 32 :=
  select (cmpi .slt idx (broadcastInDim S160000 ![] bcast_S_S160000 (constantI S_ 32 0#32)))
    (addi idx (broadcastInDim S160000 ![] bcast_S_S160000 (constantI S_ 32 10000#32))) idx

/-- The wrapped index vector as a column. -/
def idxCol (idx : IVec S160000 32) : IVec S160000x1 32 :=
  broadcastInDim S160000x1 ![0] bcast_S160000_S160000x1_0 (wrapIdx idx)

/-- Per row: is the wrapped index between 0 and 9999 (signed)? -/
def inb (idx : IVec S160000 32) : IVec S160000 1 :=
  Host.reduce IntOp.andi
    (andi (cmpi .sge (idxCol idx) (broadcastInDim S160000x1 ![] bcast_S_S160000x1 (constantI S_ 32 0#32)))
      (cmpi .sle (idxCol idx) (broadcastInDim S160000x1 ![0, 1] bcast_S1x1_S160000x1_0_1
        (broadcastInDim S1x1 ![1] bcast_S1_S1x1_1 (constantI S1 32 9999#32)))))
    (constantI S_ 1 1#1) reducesTo_S160000x1_S160000_d1 h_S_

/-- The rows of `x` an index vector names: gathered where the index is in range, a filler elsewhere. -/
def take (x : FVec F S10000x256 .f32) (idx : IVec S160000 32) : FVec F S160000x256 .f32 :=
  select (broadcastInDim S160000x256 ![0] bcast_S160000_S160000x256_0 (inb idx))
    (Host.gather gather_S10000x256_S160000x1_S160000x256_1_0_n_n_0_1_1256 x (idxCol idx))
    (broadcastInDim S160000x256 ![] bcast_S_S160000x256 (constant S_ .f32 0x7FC00000#32))

/-- Two arrays of 256 columns side by side: 512 columns. -/
abbrev cat512 (a b : FVec F S160000x256 .f32) : FVec F S160000x512 .f32 :=
  concatenate S160000x512 1 [⟨S160000x256, a⟩, ⟨S160000x256, b⟩] concatenates_S160000x256_S160000x256_S160000x512_d1

/-- An array of 512 columns and one of 256 side by side: 768 columns. -/
abbrev cat768 (a : FVec F S160000x512 .f32) (b : FVec F S160000x256 .f32) : FVec F S160000x768 .f32 :=
  concatenate S160000x768 1 [⟨S160000x512, a⟩, ⟨S160000x256, b⟩] concatenates_S160000x512_S160000x256_S160000x768_d1

/-- Source rows, target rows and edge rows side by side: 768 columns. -/
def cat (x : FVec F S10000x256 .f32) (ee : FVec F S160000x256 .f32) (ei : IVec S2x160000 32) : FVec F S160000x768 .f32 :=
  cat768 (cat512 (take x (edgeRow 0 ei slices_S2x160000_S1x160000_0_0)) (take x (edgeRow 1 ei slices_S2x160000_S1x160000_1_0))) ee

/-- The bias as a column of 160000 equal entries. -/
def biasCol (b : FVec F S1 .f32) : FVec F S160000x1 .f32 :=
  broadcastInDim S160000x1 ![0, 1] bcast_S1x1_S160000x1_0_1 (broadcastInDim S1x1 ![1] bcast_S1_S1x1_1 b)

/-- The reference's result as one term of the five argument arrays, at any float instance. -/
def outF (x : FVec F S10000x256 .f32) (ee : FVec F S160000x256 .f32) (ei : IVec S2x160000 32)
    (W : FVec F S768x1 .f32) (b : FVec F S1 .f32) : FVec F S160000 .f32 :=
  shapeCast S160000
    (addf (Host.dotGeneral dot_S160000x768_S768x1_S160000x1_1_0_0_1_n_n none (cat x ee ei) W) (biasCol b))
    shapeCasts_S160000x1_S160000

end Term

/-- the reference's result as ONE pure term of the five argument arrays, at Ideal -/
def out (x : FVec Ideal Cert.ReferenceIdeal.S10000x256 .f32) (ee : FVec Ideal Cert.ReferenceIdeal.S160000x256 .f32) (ei : IVec Cert.ReferenceIdeal.S2x160000 32)
    (W : FVec Ideal Cert.ReferenceIdeal.S768x1 .f32) (b : FVec Ideal Cert.ReferenceIdeal.S1 .f32) : FVec Ideal Cert.ReferenceIdeal.S160000 .f32 :=
  outF (F := Ideal) x ee ei W b

/-! ## The program as a list of operations -/

section Ops
variable {F : FTy → Type} [FloatOps F]

/-- @main's 57 operations in order: the four that cut the edge list's rows out, each row look-up's 23 written out over
    its call's buffers, the seven from the first concatenation to the flattened result. -/
abbrev ops : List (HloOp τ sig (Elt F)) :=
  [ unary main_arg2 main_v0 ((extractStridedSlice S1x160000 ![0, 0] · slices_S2x160000_S1x160000_0_0) : (⟨S2x160000, .i32⟩ : BufTy).Contents (Elt F) → (⟨S1x160000, .i32⟩ : BufTy).Contents (Elt F)),
    reshape main_v0 main_v1 rfl shapeCasts_S1x160000_S160000,
    unary main_arg2 main_v2 ((extractStridedSlice S1x160000 ![1, 0] · slices_S2x160000_S1x160000_1_0) : (⟨S2x160000, .i32⟩ : BufTy).Contents (Elt F) → (⟨S1x160000, .i32⟩ : BufTy).Contents (Elt F)),
    reshape main_v2 main_v3 rfl shapeCasts_S1x160000_S160000,
    TRef.nullary main_call0.c (constantI S_ 32 0#32),
    TRef.unary main_call0.c main_call0.v0 (broadcastInDim S160000 ![] bcast_S_S160000),
    TRef.binary (.of main_v1) main_call0.v0 main_call0.v1 (cmpi .slt),
    TRef.nullary main_call0.c_0 (constantI S_ 32 10000#32),
    TRef.unary main_call0.c_0 main_call0.v2 (broadcastInDim S160000 ![] bcast_S_S160000),
    TRef.binary (.of main_v1) main_call0.v2 main_call0.v3 addi,
    TRef.ternary main_call0.v1 main_call0.v3 (.of main_v1) main_call0.call0.v0 select,
    TRef.unary main_call0.call0.v0 main_call0.v5 (broadcastInDim S160000x1 ![0] bcast_S160000_S160000x1_0),
    TRef.nullary main_call0.c_1 (constantI S1 32 9999#32),
    TRef.nullary main_call0.c_2 (constantI S_ 32 0#32),
    TRef.unary main_call0.c_2 main_call0.v6 (broadcastInDim S160000x1 ![] bcast_S_S160000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S160000x1 ![0, 1] bcast_S1x1_S160000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S160000x1_S160000_d1 h_S_),
    TRef.binary (.of main_arg0) main_call0.v5 main_call0.v13 (fun x i => Host.gather gather_S10000x256_S160000x1_S160000x256_1_0_n_n_0_1_1256 x i),
    TRef.unary main_call0.v12 main_call0.v14 (broadcastInDim S160000x256 ![0] bcast_S160000_S160000x256_0),
    TRef.nullary main_call0.cst (constant S_ .f32 0x7FC00000#32),
    TRef.unary main_call0.cst main_call0.v15 (broadcastInDim S160000x256 ![] bcast_S_S160000x256),
    TRef.ternary main_call0.v14 main_call0.v13 main_call0.v15 main_call0.v16 select,
    TRef.nullary main_call1.c (constantI S_ 32 0#32),
    TRef.unary main_call1.c main_call1.v0 (broadcastInDim S160000 ![] bcast_S_S160000),
    TRef.binary (.of main_v3) main_call1.v0 main_call1.v1 (cmpi .slt),
    TRef.nullary main_call1.c_0 (constantI S_ 32 10000#32),
    TRef.unary main_call1.c_0 main_call1.v2 (broadcastInDim S160000 ![] bcast_S_S160000),
    TRef.binary (.of main_v3) main_call1.v2 main_call1.v3 addi,
    TRef.ternary main_call1.v1 main_call1.v3 (.of main_v3) main_call1.call0.v0 select,
    TRef.unary main_call1.call0.v0 main_call1.v5 (broadcastInDim S160000x1 ![0] bcast_S160000_S160000x1_0),
    TRef.nullary main_call1.c_1 (constantI S1 32 9999#32),
    TRef.nullary main_call1.c_2 (constantI S_ 32 0#32),
    TRef.unary main_call1.c_2 main_call1.v6 (broadcastInDim S160000x1 ![] bcast_S_S160000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S160000x1 ![0, 1] bcast_S1x1_S160000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S160000x1_S160000_d1 h_S_),
    TRef.binary (.of main_arg0) main_call1.v5 main_call1.v13 (fun x i => Host.gather gather_S10000x256_S160000x1_S160000x256_1_0_n_n_0_1_1256 x i),
    TRef.unary main_call1.v12 main_call1.v14 (broadcastInDim S160000x256 ![0] bcast_S160000_S160000x256_0),
    TRef.nullary main_call1.cst (constant S_ .f32 0x7FC00000#32),
    TRef.unary main_call1.cst main_call1.v15 (broadcastInDim S160000x256 ![] bcast_S_S160000x256),
    TRef.ternary main_call1.v14 main_call1.v13 main_call1.v15 main_call1.v16 select,
    binary main_v4 main_v5 main_v6 (cat512 : (⟨S160000x256, .f32⟩ : BufTy).Contents (Elt F) → (⟨S160000x256, .f32⟩ : BufTy).Contents (Elt F) → (⟨S160000x512, .f32⟩ : BufTy).Contents (Elt F)),
    binary main_v6 main_arg1 main_v7 (cat768 : (⟨S160000x512, .f32⟩ : BufTy).Contents (Elt F) → (⟨S160000x256, .f32⟩ : BufTy).Contents (Elt F) → (⟨S160000x768, .f32⟩ : BufTy).Contents (Elt F)),
    binary main_v7 main_arg3 main_v8 ((fun l r => Host.dotGeneral dot_S160000x768_S768x1_S160000x1_1_0_0_1_n_n none l r) : (⟨S160000x768, .f32⟩ : BufTy).Contents (Elt F) → (⟨S768x1, .f32⟩ : BufTy).Contents (Elt F) → (⟨S160000x1, .f32⟩ : BufTy).Contents (Elt F)),
    unary main_arg4 main_v9 (broadcastInDim S1x1 ![1] bcast_S1_S1x1_1 : (⟨S1, .f32⟩ : BufTy).Contents (Elt F) → (⟨S1x1, .f32⟩ : BufTy).Contents (Elt F)),
    unary main_v9 main_v10 (broadcastInDim S160000x1 ![0, 1] bcast_S1x1_S160000x1_0_1 : (⟨S1x1, .f32⟩ : BufTy).Contents (Elt F) → (⟨S160000x1, .f32⟩ : BufTy).Contents (Elt F)),
    binary main_v8 main_v10 main_v11 (addf : (⟨S160000x1, .f32⟩ : BufTy).Contents (Elt F) → (⟨S160000x1, .f32⟩ : BufTy).Contents (Elt F) → (⟨S160000x1, .f32⟩ : BufTy).Contents (Elt F)),
    reshape main_v11 main_v12 rfl shapeCasts_S160000x1_S160000 ]

-- fifty-seven sequenced steps: re-association recurses once per step
set_option maxRecDepth 2048 in
/-- @main is that straight line: the two functions' definitions unfolded at their calls, both sides are one chain of
    steps once sequencing is re-associated (the two concatenations are named here, spelt out there). -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., binary_bufs_sub .., unary_bufs_sub .., unary_bufs_sub .., binary_bufs_sub .., reshape_bufs_sub ..⟩

end Ops

/-! ## What the list leaves in the result and in the arguments -/

-- the operations' bodies stay folded while the two spellings of the composed term are compared: the comparison never
-- looks inside them
attribute [local irreducible] Host.reduce Host.gather concatenate broadcastInDim shapeCast extractStridedSlice in
set_option maxHeartbeats 400000 in
/-- After the list, the result buffer holds `out` of what the argument buffers held before it: each operation's
    result is read at its own buffer, the buffers in between are substituted, and a typed buffer's two transports
    cancel. -/
theorem after_result (V : Valuation τ sig (Elt Ideal)) :
    after (ops (F := Ideal)) V (Proc.devRef .tc main_v12)
      = out (V (Proc.devRef .tc main_arg0)) (V (Proc.devRef .tc main_arg1)) (V (Proc.devRef .tc main_arg2))
          (V (Proc.devRef .tc main_arg3)) (V (Proc.devRef .tc main_arg4)) := by
  after_results_simp
  simp only [Cert.Lib.ofBuf_toBuf]
  unfold out outF cat take inb idxCol wrapIdx edgeRow biasCol
  rfl

/-- No operation writes an argument buffer. -/
theorem after_arg0 (V : Valuation τ sig (Elt Ideal)) :
    after (ops (F := Ideal)) V (Proc.devRef .tc main_arg0) = V (Proc.devRef .tc main_arg0) := by after_results_simp
theorem after_arg1 (V : Valuation τ sig (Elt Ideal)) :
    after (ops (F := Ideal)) V (Proc.devRef .tc main_arg1) = V (Proc.devRef .tc main_arg1) := by after_results_simp
theorem after_arg2 (V : Valuation τ sig (Elt Ideal)) :
    after (ops (F := Ideal)) V (Proc.devRef .tc main_arg2) = V (Proc.devRef .tc main_arg2) := by after_results_simp
theorem after_arg3 (V : Valuation τ sig (Elt Ideal)) :
    after (ops (F := Ideal)) V (Proc.devRef .tc main_arg3) = V (Proc.devRef .tc main_arg3) := by after_results_simp
theorem after_arg4 (V : Valuation τ sig (Elt Ideal)) :
    after (ops (F := Ideal)) V (Proc.devRef .tc main_arg4) = V (Proc.devRef .tc main_arg4) := by after_results_simp

/-! ## The run -/

/-- On every device, from any memory with zero counters: every weakly fair execution of the reference terminates with
    the result buffer at `out` of the arguments' launch contents and the arguments unchanged. -/
theorem run_proved (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v12)
          = out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run defs _ _).mono (fun _ h c => ⟨(h c main_v12).trans (after_result _),
      (h c main_arg0).trans (after_arg0 _), (h c main_arg1).trans (after_arg1 _), (h c main_arg2).trans (after_arg2 _),
      (h c main_arg3).trans (after_arg3 _), (h c main_arg4).trans (after_arg4 _)⟩)
    (run_seq scopedRefs_eq scopedSems_eq defs main (fun _ => ops) main_eq (fun _ => ops_sub) m g)

/-- The same for any instance of the program's stated facts. -/
theorem run [Cert.ReferenceIdeal.Facts] (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v12)
          = out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  run_proved m g

end Cert.RefSide

end
-- ==== Proof.LibHostDot2.lean ====
/-
  The host's plain matrix product read at an index.

  A `dot_general` on the host with the dimension numbers of a plain matrix product ("contract axis 1 of the left operand
  with axis 0 of the right, no batch axes") of an [A, K] and a [K, B] matrix is, at the ideal values and at output
  position (p, q), the sum over k < K of left(p, k) · right(k, q): the host product has no accumulator, its contraction
  shape has the one axis of extent K, and the operand indices at output (p, q) and contraction position k are (p, k)
  and (k, q). It is the same sum a `tpu.matmul` of those dimension numbers into the zero accumulator computes
  (`Cert.Lib.matmul2_zero_apply`), so a kernel that multiplies block by block and a reference that multiplies once
  agree entry by entry.
-/
import proofs.«207961_g9620726743389_cont_9to1c4b_395_8_alg».proof.Proof.LibMatmul2

noncomputable section

namespace Cert.Lib

open Idealize.ShloMosaic Idealize.ShloMosaic.ValueIdx

variable {A K B : ℕ} {φ₁ φ₂ : FTy}

/-- At output position (p, q) and contraction position k the left operand of a plain product is read at (p, k), -/
theorem plain2_lhsIdx (wf : DotDims.WF ⟨2, ![A, K]⟩ ⟨2, ![K, B]⟩ ⟨2, ![A, B]⟩ [1] [0] [0] [1] [] [])
    (p : Fin A) (q : Fin B) (k : Fin K) :
    (plain2 wf).lhsIdx (ix2 p q) ((contrEquiv1 (plain2 wf) K (plain2_rank wf) (plain2_size wf)).symm k) = ix2 p k := by
  have hk := contrEquiv1_symm_val (plain2 wf) K (plain2_rank wf) (plain2_size wf) k
  funext a; apply Fin.ext
  match a with
  | ⟨0, _⟩ => simp [DotDims.lhsIdx]; rfl
  | ⟨1, _⟩ => exact (DotDims.lhsIdx_val_of_single (plain2 wf) (cl := 1) rfl (ix2 p q) _).trans hk

/-- and the right operand at (k, q). -/
theorem plain2_rhsIdx (wf : DotDims.WF ⟨2, ![A, K]⟩ ⟨2, ![K, B]⟩ ⟨2, ![A, B]⟩ [1] [0] [0] [1] [] [])
    (p : Fin A) (q : Fin B) (k : Fin K) :
    (plain2 wf).rhsIdx (ix2 p q) ((contrEquiv1 (plain2 wf) K (plain2_rank wf) (plain2_size wf)).symm k) = ix2 k q := by
  have hk := contrEquiv1_symm_val (plain2 wf) K (plain2_rank wf) (plain2_size wf) k
  funext a; apply Fin.ext
  match a with
  | ⟨0, _⟩ => exact (DotDims.rhsIdx_val_of_single (plain2 wf) (cr := 0) rfl (ix2 p q) _).trans hk
  | ⟨1, _⟩ => simp [DotDims.rhsIdx]; rfl

/-- The host's product at (p, q) is `∑ k, l (p, k) * r (k, q)`. -/
theorem hostDot2_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    Host.dotGeneral (plain2 wf) none l r (ix2 p q) = ∑ k : Fin K, l (ix2 p k) * r (ix2 k q) := by
  refine (Ideal.dotGeneral_apply (plain2 wf) none .single l r (ix2 p q)).trans ?_
  refine (Equiv.sum_comp (contrEquiv1 (plain2 wf) K (plain2_rank wf) (plain2_size wf)).symm _).symm.trans ?_
  refine Finset.sum_congr rfl fun k _ => ?_
  show l _ * r _ = _
  rw [plain2_lhsIdx, plain2_rhsIdx]

end Cert.Lib

end
-- ==== Proof.LibRowOps.lean ====
/-
  GATHER AND SCATTER OF ROWS, READ AT AN INDEX. StableHLO's `gather` and `scatter` with ONE index column — the
  lowering of `x[idx]`, `x.at[idx].add(v)` for a 2-d array `x` and of `c.at[idx].add(v)` for a 1-d array `c`, at an
  integer vector `idx` presented as an `[E, 1]` array — stated generically in the extents: a gathered element is the
  operand's at the row index read signed and CLAMPED (`rowGather_apply`); an update lands at the row index read signed
  when it is inside the operand and is DROPPED otherwise (`rowScatter_resultIdx?`, `vecScatter_resultIdx?`), so the
  accumulating scatter at an element is the operand's element plus the sum of the updates whose row index is that
  element's row (`rowScatterAdd_apply`, `vecScatterAdd_apply`). Last, the INTEGER scatter of ones into zeros with
  wrapping 32-bit addition: the left fold over the updates adds one per update landing at the element
  (`scatter_ones_fold`), so with fewer than `2 ^ 31` updates the element, read signed, is the number of updates whose
  index is that element (`vecScatter_count`).
-/
import Idealize.ShloMosaic.Lib.ValueIdx
import Idealize.ShloMosaic.PureOps.Contract

noncomputable section

open scoped BigOperators
open Idealize.ShloMosaic Idealize.ShloMosaic.ValueIdx

namespace Cert.Lib

/-! ## A start index read as a row -/

/-- The word `b` read as a signed integer, as a row of an `n`-row array when it is inside `[0, n)`; `none` when it
    is outside (a scatter drops such an update). -/
def row? (n : Nat) {w : Nat} (b : BitVec w) : Option (Fin n) :=
  if h : 0 ≤ b.toInt ∧ b.toInt < n then some ⟨b.toInt.toNat, by omega⟩ else none

/-- The word `b` read as a signed integer and clamped into `[0, n - 1]` (a gather clamps every start index). -/
def clampRow (n : Nat) (hn : 0 < n) {w : Nat} (b : BitVec w) : Fin n := ⟨min b.toInt.toNat (n - 1), by omega⟩

/-- `row?` is `some i` exactly when the word, read signed, is the natural number `i`. -/
theorem row?_eq_some_iff {n w : Nat} (b : BitVec w) (i : Fin n) : row? n b = some i ↔ b.toInt = (i.val : Int) := by
  unfold row?
  constructor
  · intro h
    split at h
    · rename_i hb
      have := congrArg Fin.val (Option.some.inj h)
      simp only at this
      omega
    · exact absurd h (by simp)
  · intro h
    have hb : 0 ≤ b.toInt ∧ b.toInt < n := by have := i.isLt; omega
    rw [dif_pos hb]
    congr 1
    exact Fin.ext (by simp only; omega)

/-- Inside the range the clamped row is the row. -/
theorem clampRow_of_row? {n w : Nat} (hn : 0 < n) (b : BitVec w) (i : Fin n) (h : row? n b = some i) :
    clampRow n hn b = i := by
  rw [row?_eq_some_iff] at h
  refine Fin.ext ?_
  show min b.toInt.toNat (n - 1) = i.val
  have := i.isLt
  omega

/-! ## Gather of rows: `x[idx]` of a 2-d array at a column of row indices -/

section Gather
variable {α : Type}

/-- The dimension numbers of `x[idx, :]`: an operand `[N, D]`, start indices `[E, 1]` (one row index per result
    row), a result `[E, D]`; the row axis is collapsed, the column axis is the one offset axis, slices are `1 × D`. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, k)`: the operand's row `idx[e, 0]` — read signed and clamped into `[0, N - 1]` — at
    column `k`. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGather N E D wf) x idx (ix2 e k) = x (ix2 (clampRow N hN (idx (ix2 e 0))) k) := by
  unfold Host.gather
  congr 1
  funext a
  refine Fin.ext ?_
  match a with
  | ⟨0, _⟩ =>
    show (rowGather N E D wf).start (ix2 e k) idx 0 + (rowGather N E D wf).batchCoord (ix2 e k) 0
      + (rowGather N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e k) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e k) idx 1 + (rowGather N E D wf).batchCoord (ix2 e k) 1
      + (rowGather N E D wf).offCoord (ix2 e k) 1 = k.val
    rw [GatherDims.batchCoord_eq_zero _ _ _ List.not_mem_nil]
    have hs : (rowGather N E D wf).start (ix2 e k) idx 1 = 0 := by
      unfold GatherDims.start
      rw [dif_neg (show (1 : Fin 2) ∉ (rowGather N E D wf).startIndexMap from (by decide : (1 : Fin 2) ∉ ([0] : List (Fin 2))))]
    have ho : (rowGather N E D wf).offCoord (ix2 e k) 1 = k.val := by
      unfold GatherDims.offCoord
      rw [dif_pos (show (1 : Fin 2) ∈ (rowGather N E D wf).sKept from
        (GatherDims.mem_sKept _ _).2 ⟨(by decide : (1 : Fin 2) ∉ ([0] : List (Fin 2))), List.not_mem_nil⟩)]
      rfl
    rw [hs, ho]; omega

end Gather

/-! ## Scatter of rows: `x.at[idx].add(upd)` of a 2-d array at a column of row indices -/

section Scatter

/-- The dimension numbers of `x.at[idx, :].add(upd)`: an operand `[N, D]`, scatter indices `[E, 1]` (one row index
    per update row), updates `[E, D]`; the operand's row axis is inserted, the updates' column axis is the one window
    axis. -/
abbrev rowScatter (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

/-- On the row axis the window of update `(e, k)` starts at the scatter index `idx[e, 0]`, read signed. -/
theorem rowScatter_start_zero (idx : IVec ⟨2, ![E, 1]⟩ w) (e : Fin E) (k : Fin D) :
    (rowScatter N E D wf).start (ix2 e k) idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e k) ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at `0`: the scatter indices do not name that axis. -/
theorem rowScatter_start_one (idx : IVec ⟨2, ![E, 1]⟩ w) (j : (⟨2, ![E, D]⟩ : Shape).Idx) :
    (rowScatter N E D wf).start j idx 1 = 0 := by
  unfold ScatterDims.start
  rw [dif_neg (show (1 : Fin 2) ∉ (rowScatter N E D wf).scatterDimsToOperandDims from (by decide : (1 : Fin 2) ∉ ([0] : List (Fin 2))))]

/-- The row axis is inserted: no window coordinate there. -/
theorem rowScatter_window_zero (j : (⟨2, ![E, D]⟩ : Shape).Idx) : (rowScatter N E D wf).window j 0 = 0 := by
  unfold ScatterDims.window
  rw [dif_neg (show (0 : Fin 2) ∉ (rowScatter N E D wf).sKept from
    (by decide : (0 : Fin 2) ∉ (List.finRange 2).filter (· ∉ ([0] : List (Fin 2)))))]

/-- On the column axis the window coordinate is the update's column. -/
theorem rowScatter_window_one (e : Fin E) (k : Fin D) : (rowScatter N E D wf).window (ix2 e k) 1 = k.val := by
  unfold ScatterDims.window
  rw [dif_pos (show (1 : Fin 2) ∈ (rowScatter N E D wf).sKept from
    (by decide : (1 : Fin 2) ∈ (List.finRange 2).filter (· ∉ ([0] : List (Fin 2)))))]
  rfl

/-- WHERE UPDATE `(e, k)` LANDS: at row `idx[e, 0]` (read signed) and column `k` when that row is inside the operand,
    nowhere when it is not. -/
theorem rowScatter_resultIdx? (idx : IVec ⟨2, ![E, 1]⟩ w) (e : Fin E) (k : Fin D) :
    (rowScatter N E D wf).resultIdx? (ix2 e k) idx = (row? N (idx (ix2 e 0))).map (fun i => ix2 i k) := by
  have h0 := rowScatter_start_zero wf idx e k
  have h1 := rowScatter_start_one wf idx (ix2 e k)
  have w0 := rowScatter_window_zero wf (ix2 e k)
  have w1 := rowScatter_window_one wf e k
  unfold ScatterDims.resultIdx? row?
  by_cases h : 0 ≤ (idx (ix2 e 0)).toInt ∧ (idx (ix2 e 0)).toInt < (N : Int)
  · have hall : ∀ a : Fin 2, 0 ≤ (rowScatter N E D wf).start (ix2 e k) idx a + (rowScatter N E D wf).window (ix2 e k) a ∧
        (rowScatter N E D wf).start (ix2 e k) idx a + (rowScatter N E D wf).window (ix2 e k) a
          < ((⟨2, ![N, D]⟩ : Shape).size a : Int) := by
      intro a
      match a with
      | ⟨0, _⟩ =>
        show 0 ≤ (rowScatter N E D wf).start (ix2 e k) idx 0 + ((rowScatter N E D wf).window (ix2 e k) 0 : Nat) ∧
          (rowScatter N E D wf).start (ix2 e k) idx 0 + ((rowScatter N E D wf).window (ix2 e k) 0 : Nat) < (N : Int)
        rw [h0, w0]; simpa using h
      | ⟨1, _⟩ =>
        show 0 ≤ (rowScatter N E D wf).start (ix2 e k) idx 1 + ((rowScatter N E D wf).window (ix2 e k) 1 : Nat) ∧
          (rowScatter N E D wf).start (ix2 e k) idx 1 + ((rowScatter N E D wf).window (ix2 e k) 1 : Nat) < (D : Int)
        rw [h1, w1]; have := k.isLt; omega
    rw [dif_pos hall, dif_pos h]
    simp only [Option.map_some]
    congr 1
    funext a
    refine Fin.ext ?_
    match a with
    | ⟨0, _⟩ =>
      show ((rowScatter N E D wf).start (ix2 e k) idx 0 + ((rowScatter N E D wf).window (ix2 e k) 0 : Nat)).toNat
        = (idx (ix2 e 0)).toInt.toNat
      rw [h0, w0]; simp
    | ⟨1, _⟩ =>
      show ((rowScatter N E D wf).start (ix2 e k) idx 1 + ((rowScatter N E D wf).window (ix2 e k) 1 : Nat)).toNat = k.val
      rw [h1, w1]; simp
  · have hall : ¬ ∀ a : Fin 2, 0 ≤ (rowScatter N E D wf).start (ix2 e k) idx a + (rowScatter N E D wf).window (ix2 e k) a ∧
        (rowScatter N E D wf).start (ix2 e k) idx a + (rowScatter N E D wf).window (ix2 e k) a
          < ((⟨2, ![N, D]⟩ : Shape).size a : Int) := by
      intro hall
      apply h
      have := hall 0
      rw [h0, w0] at this
      simpa using this
    rw [dif_neg hall, dif_neg h]
    rfl

/-- Two rank-2 indices built from coordinates are equal exactly when the coordinates are. -/
theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- Update `(e, k')` lands at `(i, k)` exactly when its row index is `i` and its column is `k`. -/
theorem rowScatter_resultIdx?_eq_some_iff (idx : IVec ⟨2, ![E, 1]⟩ w) (e : Fin E) (k' : Fin D) (i : Fin N) (k : Fin D) :
    (rowScatter N E D wf).resultIdx? (ix2 e k') idx = some (ix2 i k) ↔ row? N (idx (ix2 e 0)) = some i ∧ k' = k := by
  rw [rowScatter_resultIdx?]
  cases hr : row? N (idx (ix2 e 0)) with
  | none => simp
  | some i' => simp [ix2_inj]

end Scatter

/-! ## The accumulating float scatter of rows, read at an element -/

section ScatterAdd
variable {N E D w : Nat} {φ : FTy}

/-- THE ROW SCATTER-ADD READ AT `(i, k)`: the operand's element plus the sum, over the update rows `e` whose row index
    `idx[e, 0]` is `i`, of the update's element `(e, k)`. -/
theorem rowScatterAdd_apply (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ) (i : Fin N) (k : Fin D) :
    Host.scatterAdd (rowScatter N E D wf) x idx upd (ix2 i k)
      = x (ix2 i k) + ∑ e ∈ Finset.univ.filter (fun e : Fin E => row? N (idx (ix2 e 0)) = some i), upd (ix2 e k) := by
  show x (ix2 i k) + ∑ j ∈ Finset.univ.filter (fun j => (rowScatter N E D wf).resultIdx? j idx = some (ix2 i k)), upd j = _
  congr 1
  rw [Finset.sum_filter, sum_idx2, Finset.sum_filter]
  refine Finset.sum_congr rfl fun e _ => ?_
  simp only [rowScatter_resultIdx?_eq_some_iff]
  by_cases hr : row? N (idx (ix2 e 0)) = some i
  · simp [hr]
  · simp [hr]

end ScatterAdd

/-! ## Scatter into a vector: `x.at[idx].add(upd)` of a 1-d array at a column of indices -/

section VecScatter

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Two rank-1 indices built from a coordinate are equal exactly when the coordinates are. -/
theorem ix1_inj {n : Nat} (a a' : Fin n) : ix1 a = ix1 a' ↔ a = a' :=
  ⟨fun h => congrFun h 0, fun h => h ▸ rfl⟩

/-- The dimension numbers of `x.at[idx].add(upd)`: an operand `[N]`, scatter indices `[E, 1]` (one index per update),
    updates `[E]`; the operand's one axis is inserted, the updates have no window axis. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- Update `e`'s window starts at the scatter index `idx[e, 0]`, read signed. -/
theorem vecScatter_start (idx : IVec ⟨2, ![E, 1]⟩ w) (e : Fin E) :
    (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: no window coordinate. -/
theorem vecScatter_window (j : (⟨1, ![E]⟩ : Shape).Idx) : (vecScatter N E wf).window j 0 = 0 := by
  unfold ScatterDims.window
  rw [dif_neg (show (0 : Fin 1) ∉ (vecScatter N E wf).sKept from
    (by decide : (0 : Fin 1) ∉ (List.finRange 1).filter (· ∉ ([0] : List (Fin 1)))))]

/-- WHERE UPDATE `e` LANDS: at `idx[e, 0]` (read signed) when that is inside the operand, nowhere when it is not. -/
theorem vecScatter_resultIdx? (idx : IVec ⟨2, ![E, 1]⟩ w) (e : Fin E) :
    (vecScatter N E wf).resultIdx? (ix1 e) idx = (row? N (idx (ix2 e 0))).map ix1 := by
  have h0 := vecScatter_start wf idx e
  have w0 := vecScatter_window wf (ix1 e)
  unfold ScatterDims.resultIdx? row?
  by_cases h : 0 ≤ (idx (ix2 e 0)).toInt ∧ (idx (ix2 e 0)).toInt < (N : Int)
  · have hall : ∀ a : Fin 1, 0 ≤ (vecScatter N E wf).start (ix1 e) idx a + (vecScatter N E wf).window (ix1 e) a ∧
        (vecScatter N E wf).start (ix1 e) idx a + (vecScatter N E wf).window (ix1 e) a
          < ((⟨1, ![N]⟩ : Shape).size a : Int) := by
      intro a
      match a with
      | ⟨0, _⟩ =>
        show 0 ≤ (vecScatter N E wf).start (ix1 e) idx 0 + ((vecScatter N E wf).window (ix1 e) 0 : Nat) ∧
          (vecScatter N E wf).start (ix1 e) idx 0 + ((vecScatter N E wf).window (ix1 e) 0 : Nat) < (N : Int)
        rw [h0, w0]; simpa using h
    rw [dif_pos hall, dif_pos h]
    simp only [Option.map_some]
    congr 1
    funext a
    refine Fin.ext ?_
    match a with
    | ⟨0, _⟩ =>
      show ((vecScatter N E wf).start (ix1 e) idx 0 + ((vecScatter N E wf).window (ix1 e) 0 : Nat)).toNat
        = (idx (ix2 e 0)).toInt.toNat
      rw [h0, w0]; simp
  · have hall : ¬ ∀ a : Fin 1, 0 ≤ (vecScatter N E wf).start (ix1 e) idx a + (vecScatter N E wf).window (ix1 e) a ∧
        (vecScatter N E wf).start (ix1 e) idx a + (vecScatter N E wf).window (ix1 e) a
          < ((⟨1, ![N]⟩ : Shape).size a : Int) := by
      intro hall
      apply h
      have := hall 0
      rw [h0, w0] at this
      simpa using this
    rw [dif_neg hall, dif_neg h]
    rfl

/-- Update `e` lands at `i` exactly when its index is `i`. -/
theorem vecScatter_resultIdx?_eq_some_iff (idx : IVec ⟨2, ![E, 1]⟩ w) (e : Fin E) (i : Fin N) :
    (vecScatter N E wf).resultIdx? (ix1 e) idx = some (ix1 i) ↔ row? N (idx (ix2 e 0)) = some i := by
  rw [vecScatter_resultIdx?]
  cases hr : row? N (idx (ix2 e 0)) with
  | none => simp
  | some i' => simp [ix1_inj]

/-- THE VECTOR SCATTER-ADD READ AT `i`: the operand's element plus the sum of the updates `e` whose index `idx[e, 0]`
    is `i`. -/
theorem vecScatterAdd_apply {φ : FTy} (x : FVec Ideal ⟨1, ![N]⟩ φ) (idx : IVec ⟨2, ![E, 1]⟩ w)
    (upd : FVec Ideal ⟨1, ![E]⟩ φ) (i : Fin N) :
    Host.scatterAdd (F := Ideal) (vecScatter N E wf) x idx upd (ix1 i)
      = x (ix1 i) + ∑ e ∈ Finset.univ.filter (fun e : Fin E => row? N (idx (ix2 e 0)) = some i), upd (ix1 e) := by
  show x (ix1 i) + ∑ j ∈ Finset.univ.filter (fun j => (vecScatter N E wf).resultIdx? j idx = some (ix1 i)), upd j = _
  congr 1
  rw [Finset.sum_filter, sum_idx1, Finset.sum_filter]
  refine Finset.sum_congr rfl fun e _ => ?_
  simp only [vecScatter_resultIdx?_eq_some_iff]

end VecScatter

/-! ## The integer scatter of ones: a count -/

section Count

/-- How many positions of `0, …, n - 1` satisfy `p`, counted along the list of them, is the size of the set of them. -/
theorem countP_finRange {n : Nat} (p : Fin n → Prop) [DecidablePred p] :
    (List.finRange n).countP (fun k => decide (p k)) = (Finset.univ.filter p).card := by
  rw [List.countP_eq_length_filter, ← List.toFinset_card_of_nodup ((List.nodup_finRange n).filter _),
    List.toFinset_filter, List.toFinset_finRange]
  congr 1
  ext k
  simp

/-- THE FOLD OF AN INTEGER SCATTER OF ONES over any list of update positions: at operand element `i` it has added, to
    what was there, the number of listed updates that land at `i` (modulo `2 ^ 32`). An update landing elsewhere, or
    nowhere, leaves element `i` as it was. -/
theorem scatter_ones_fold {s si u : Shape} {w : Nat} (d : ScatterDims s si u) (idx : IVec si w)
    (upd : u.Idx → BitVec 32) (hupd : ∀ j, upd j = 1#32) (i : s.Idx) (l : List (Fin u.numel)) (acc : s.Idx → BitVec 32) :
    (l.foldl (fun r n =>
        match d.resultIdx? (u.rowMajor.symm n) idx with
        | some i0 => fun i' => if i' = i0 then IntOp.addi (r i0) (upd (u.rowMajor.symm n)) else r i'
        | none => r) acc) i
      = acc i + BitVec.ofNat 32 (l.countP fun n => decide (d.resultIdx? (u.rowMajor.symm n) idx = some i)) := by
  induction l generalizing acc with
  | nil => simp
  | cons n l ih =>
    rw [List.foldl_cons, ih, List.countP_cons]
    cases hr : d.resultIdx? (u.rowMajor.symm n) idx with
    | none => simp
    | some i0 =>
      by_cases hi : i = i0
      · subst hi
        simp only [if_true, decide_true, IntOp.addi, hupd]
        rw [BitVec.ofNat_add, BitVec.add_assoc]
        congr 1
        rw [BitVec.add_comm]
      · have hne : ¬ (some i0 = some i) := fun h => hi (Option.some.inj h).symm
        simp [hi, hne]

end Count

section VecCount
variable {N E : Nat}

/-- THE INTEGER COUNT: scattering a `1` for every update into a vector of zeros with 32-bit wrapping addition leaves at
    element `i`, read signed, the number of updates `e` whose index `idx[e, 0]` is `i` — there are fewer than `2 ^ 31`
    updates, so the sum never wraps. -/
theorem vecScatter_count (hE : E < 2 ^ 31) (wf : ScatterDims.WF ⟨1, ![N]⟩ ⟨2, ![E, 1]⟩ ⟨1, ![E]⟩ [] [0] [0] 1)
    (idx : IVec ⟨2, ![E, 1]⟩ 32) (i : Fin N) :
    (Host.scatter (vecScatter N E wf) IntOp.addi (fun _ => (0#32 : BitVec 32)) idx (fun _ => (1#32 : BitVec 32)) (ix1 i)).toInt
      = ((Finset.univ.filter (fun e : Fin E => row? N (idx (ix2 e 0)) = some i)).card : Int) := by
  refine (congrArg BitVec.toInt (scatter_ones_fold (vecScatter N E wf) idx (fun _ => 1#32) (fun _ => rfl) (ix1 i)
    (List.finRange (⟨1, ![E]⟩ : Shape).numel) (fun _ => 0#32))).trans ?_
  rw [countP_finRange (fun n => (vecScatter N E wf).resultIdx? ((⟨1, ![E]⟩ : Shape).rowMajor.symm n) idx = some (ix1 i))]
  have hcard : (Finset.univ.filter (fun n : Fin (⟨1, ![E]⟩ : Shape).numel =>
        (vecScatter N E wf).resultIdx? ((⟨1, ![E]⟩ : Shape).rowMajor.symm n) idx = some (ix1 i))).card
      = (Finset.univ.filter (fun e : Fin E => row? N (idx (ix2 e 0)) = some i)).card := by
    refine Finset.card_equiv ((⟨1, ![E]⟩ : Shape).rowMajor.symm.trans idxEquiv1) fun n => ?_
    simp only [Finset.mem_filter, Finset.mem_univ, true_and, Equiv.trans_apply]
    generalize (⟨1, ![E]⟩ : Shape).rowMajor.symm n = j
    obtain ⟨e, rfl⟩ : ∃ e : Fin E, j = ix1 e := ⟨j 0, eq_ix1 j⟩
    rw [vecScatter_resultIdx?_eq_some_iff]
    rfl
  rw [hcard]
  have hle : (Finset.univ.filter (fun e : Fin E => row? N (idx (ix2 e 0)) = some i)).card ≤ E := by
    simpa using Finset.card_le_univ (Finset.univ.filter (fun e : Fin E => row? N (idx (ix2 e 0)) = some i))
  generalize (Finset.univ.filter (fun e : Fin E => row? N (idx (ix2 e 0)) = some i)).card = c at hle ⊢
  rw [BitVec.zero_add, BitVec.toInt_eq_toNat_cond, BitVec.toNat_ofNat]
  have hc : c % 2 ^ 32 = c := Nat.mod_eq_of_lt (by omega)
  rw [hc, if_pos (by omega)]

end VecCount

end Cert.Lib

end
-- ==== Proof.LibGcnHost.lean ====
/-
  THE HOST SIDE OF A GRAPH CONVOLUTION, READ AT AN INDEX, generic in the extents.

  An array indexing `x[idx]` first counts a negative index from the end (`select (idx < 0) (idx + n) idx`), presents the index
  vector as a column, and gathers rows, clamping; `segment_sum` scatters update rows into zeros at a column of
  indices, dropping what falls outside. Here these compositions are read at an index: the gathered entry is the
  operand's at the wrapped and clamped row, the scattered entry is the sum of the update rows sent to that row. An
  index that a scatter keeps is inside the range, so wrapping and clamping leave it alone (`clamp_wrap_of_row?`).
  Last, the symmetric normalizer `where(deg > 0, rsqrt(deg), 0)` is a real number that is not negative whatever
  `deg` is: where the guard holds, `deg` is a positive real or `+∞`, and the reciprocal root of either is a real
  ≥ 0; elsewhere it is 0.
-/
import Idealize.ShloMosaic.Lib.ValueIdx
import Idealize.ShloMosaic.Lib.Pipeline.Value
import Idealize.ShloMosaic.Lib.IdealHost
import Idealize.ShloMosaic.PureOps.Ideal.Laws
import proofs.«207961_g9620726743389_cont_9to1c4b_395_8_alg».proof.Proof.LibRowOps

noncomputable section

open scoped BigOperators
open Idealize.ShloMosaic Idealize.ShloMosaic.ValueIdx

namespace Cert.Lib

/-! ## A possibly negative row index -/

/-- The index word `w` counted from the end (`w + n`) when it is negative as a signed number, itself otherwise. -/
def wrapRow (n w : BitVec 32) : BitVec 32 := Scalar.select (IntOp.cmpi .slt w 0#32) (IntOp.addi w n) w

/-- The normalization of an index vector (a negative entry counts from the end), entry by entry. -/
theorem wrap_apply {s : Shape} (h0 hn : (⟨0, ![]⟩ : Shape).BroadcastsInDim s ![]) (n : BitVec 32) (v : IVec s 32) (i : s.Idx) :
    select (cmpi .slt v (broadcastInDim s ![] h0 (constantI ⟨0, ![]⟩ 32 0#32)))
        (addi v (broadcastInDim s ![] hn (constantI ⟨0, ![]⟩ 32 n))) v i = wrapRow n (v i) := by
  show Scalar.select (IntOp.cmpi .slt (v i) (broadcastInDim s ![] h0 (constantI ⟨0, ![]⟩ 32 0#32) i))
      (IntOp.addi (v i) (broadcastInDim s ![] hn (constantI ⟨0, ![]⟩ 32 n) i)) (v i) = _
  rw [broadcastInDim_scalar_apply, broadcastInDim_scalar_apply]
  rfl

/-- A word that is a row of an `n`-row array is not negative and below `n`: wrapping leaves it alone. -/
theorem wrapRow_of_row? {N : Nat} (hN32 : N < 2 ^ 31) (w : BitVec 32) (i : Fin N) (h : row? N w = some i) :
    wrapRow (BitVec.ofNat 32 N) w = w := by
  rw [row?_eq_some_iff] at h
  unfold wrapRow
  have hnn : ¬ (IntOp.cmpi .slt w 0#32 = 1) := by
    intro hc
    have h0 : w.toInt < 0 := by
      by_contra hlt
      simp [IntOp.cmpi, BitVec.slt, hlt] at hc
    omega
  unfold Scalar.select
  rw [if_neg hnn]

/-- An index a scatter keeps (`row?`) is the row a gather reads after wrapping and clamping. -/
theorem clamp_wrap_of_row? {N : Nat} (hN : 0 < N) (hN32 : N < 2 ^ 31) (w : BitVec 32) (i : Fin N) (h : row? N w = some i) :
    clampRow N hN (wrapRow (BitVec.ofNat 32 N) w) = i := by
  rw [wrapRow_of_row? hN32 w i h]; exact clampRow_of_row? hN w i h

/-! ## An index vector as a column -/

/-- An index vector `[E]` presented as a column `[E, 1]` reads the vector at the row. -/
theorem idxCol_apply {α : Type} {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    split
    · have := e.isLt; omega
    · rfl

/-! ## Gather of rows at a wrapped index vector; scatter of rows into zeros -/

section
variable {N E D : Nat}

/-- `x[v]` for a 2-d `x` and an index vector `v` already normalized: the row `v e`, clamped. -/
theorem gatherRows_apply {α : Type} (hN : 0 < N)
    (wf : GatherDims.WF ⟨2, ![N, D]⟩ ⟨2, ![E, 1]⟩ ⟨2, ![E, D]⟩ [1] [0] [] [0] [] 1 ![1, D])
    (hb : (⟨1, ![E]⟩ : Shape).BroadcastsInDim ⟨2, ![E, 1]⟩ ![0])
    (x : (⟨2, ![N, D]⟩ : Shape).Idx → α) (v : IVec ⟨1, ![E]⟩ 32) (e : Fin E) (k : Fin D) :
    Host.gather (rowGather N E D wf) x (broadcastInDim ⟨2, ![E, 1]⟩ ![0] hb v) (ix2 e k)
      = x (ix2 (clampRow N hN (v (ix1 e))) k) := by
  rw [rowGather_apply hN wf, idxCol_apply]

/-- `segment_sum(upd, v)` of update rows into an all-zero `[N, D]` array: the sum of the rows sent to row `i`. -/
theorem scatterRows_apply
    (wf : ScatterDims.WF ⟨2, ![N, D]⟩ ⟨2, ![E, 1]⟩ ⟨2, ![E, D]⟩ [1] [0] [0] 1)
    (hb : (⟨1, ![E]⟩ : Shape).BroadcastsInDim ⟨2, ![E, 1]⟩ ![0])
    (h0 : (⟨0, ![]⟩ : Shape).BroadcastsInDim ⟨2, ![N, D]⟩ ![])
    (v : IVec ⟨1, ![E]⟩ 32) (upd : FVec Ideal ⟨2, ![E, D]⟩ .f32) (i : Fin N) (k : Fin D) :
    Host.scatterAdd (F := Ideal) (rowScatter N E D wf)
        (broadcastInDim ⟨2, ![N, D]⟩ ![] h0 (constant (F := Ideal) ⟨0, ![]⟩ .f32 0x00000000#32))
        (broadcastInDim ⟨2, ![E, 1]⟩ ![0] hb v) upd (ix2 i k)
      = ∑ e ∈ Finset.univ.filter (fun e : Fin E => row? N (v (ix1 e)) = some i), upd (ix2 e k) := by
  rw [rowScatterAdd_apply wf, broadcastInDim_scalar_apply, constant_apply, Ideal.ofBits_zero_f32, zero_add]
  refine Finset.sum_congr (Finset.filter_congr fun e _ => ?_) fun _ _ => rfl
  rw [idxCol_apply hb v e 0]

end

/-! ## Gather from a vector: `c[v]` for a 1-d array `c` -/

section VecGather
variable {α : Type}

/-- The dimension numbers of `c[idx]`: an operand `[N]`, start indices `[E, 1]`, a result `[E]`; the one axis is
    collapsed, slices have one element. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the index `idx[e, 0]`, read signed and clamped into `[0, N - 1]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampRow N hN (idx (ix2 e 0)))) := by
  unfold Host.gather
  congr 1
  funext a
  refine Fin.ext ?_
  match a with
  | ⟨0, _⟩ =>
    show (vecGather N E wf).start (ix1 e) idx 0 + (vecGather N E wf).batchCoord (ix1 e) 0
      + (vecGather N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGather N E wf).startIndexMap from List.mem_singleton.mpr rfl)]
    have hsi : (vecGather N E wf).siIdx (ix1 e) ⟨List.idxOf (0 : Fin 1) (vecGather N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-- `c[v]` for a 1-d `c` and an index vector `v` already normalized. -/
theorem gatherVec_apply {N E : Nat} (hN : 0 < N)
    (wf : GatherDims.WF ⟨1, ![N]⟩ ⟨2, ![E, 1]⟩ ⟨1, ![E]⟩ [] [0] [] [0] [] 1 ![1])
    (hb : (⟨1, ![E]⟩ : Shape).BroadcastsInDim ⟨2, ![E, 1]⟩ ![0])
    (x : (⟨1, ![N]⟩ : Shape).Idx → α) (v : IVec ⟨1, ![E]⟩ 32) (e : Fin E) :
    Host.gather (vecGather N E wf) x (broadcastInDim ⟨2, ![E, 1]⟩ ![0] hb v) (ix1 e)
      = x (ix1 (clampRow N hN (v (ix1 e)))) := by
  rw [vecGather_apply hN wf, idxCol_apply]

end VecGather

/-! ## The guarded reciprocal root is a real that is not negative -/

/-- The reciprocal root of an extended real above zero is a real number ≥ 0 (of `+∞` it is 0). -/
theorem exists_real_rsqrt_of_pos (d : EReal) (hd : 0 < d) : ∃ r : ℝ, 0 ≤ r ∧ Ideal.rsqrt d = (r : EReal) := by
  induction d using EReal.rec with
  | bot => exact absurd hd (by simp)
  | top => exact ⟨0, le_refl _, by simp⟩
  | coe r =>
    have hr : 0 < r := by exact_mod_cast hd
    refine ⟨(Real.sqrt r)⁻¹, inv_nonneg.mpr (Real.sqrt_nonneg r), ?_⟩
    rw [Ideal.rsqrt_coe, if_neg (not_lt.mpr hr.le), if_neg hr.ne']

/-- `where(d > 0, rsqrt(d), 0)`, entry by entry, is a real number that is not negative, whatever `d` is. -/
theorem exists_real_guarded_rsqrt {s : Shape} (d z z' : FVec Ideal s .f32) (hz : ∀ i, z i = 0) (hz' : ∀ i, z' i = 0) (i : s.Idx) :
    ∃ r : ℝ, 0 ≤ r ∧ select (cmpf .ogt d z) (Host.rsqrt d) z' i = (r : EReal) := by
  show ∃ r : ℝ, 0 ≤ r ∧ Scalar.select (Ideal.cmp .ogt (d i) (z i)) (Ideal.rsqrt (d i)) (z' i) = (r : EReal)
  rw [hz, hz']
  by_cases hd : 0 < d i
  · have hc : Ideal.cmp .ogt (d i) 0 = 1#1 := by simp [Ideal.cmp, hd]
    rw [hc, select_one]
    exact exists_real_rsqrt_of_pos _ hd
  · have hc : Ideal.cmp .ogt (d i) 0 = 0#1 := by simp [Ideal.cmp, hd]
    rw [hc, select_zero]
    exact ⟨0, le_refl _, by simp⟩

end Cert.Lib

end
-- ==== Proof.RefValue.lean ====
/-
  The reference's result, entry by entry.

  Read at edge `j`, the reference's result is the sum over the 768 columns of (the three feature rows laid end to
  end) times the weights, plus the bias. The flattened column is its one entry; the product is the sum over the
  contraction index; the two concatenations send columns 0-255 to the source look-up, 256-511 to the target look-up
  and 512-767 to the edge's own features. When every entry of the edge list is at most 9999, a look-up reads the
  node the entry spells: the entry is not negative, so it is not counted from the end; it passes both range tests,
  so the and-reduction over the unit axis is 1 and the select keeps the gathered row; and the gather's clamp leaves
  it alone. The sum over 768 columns splits into three runs of 256, and re-bracketing (the extended reals' addition
  is associative) gives the grouped form (source part + target part) + (edge part + bias).
-/
import proofs.«207961_g9620726743389_cont_9to1c4b_395_8_alg».proof.Proof.RefRun
import proofs.«207961_g9620726743389_cont_9to1c4b_395_8_alg».proof.Proof.Spec
import proofs.«207961_g9620726743389_cont_9to1c4b_395_8_alg».proof.Proof.LibHostDot2
import proofs.«207961_g9620726743389_cont_9to1c4b_395_8_alg».proof.Proof.LibGcnHost
import proofs.«207961_g9620726743389_cont_9to1c4b_395_8_alg».proof.Defs
import Idealize.ShloMosaic.Lib.Pipeline.Value
import Idealize.ShloMosaic.Lib.ValueLayout
import Idealize.ShloMosaic.Lib.IdealHost
import Idealize.ShloMosaic.Lib.Affine
import Idealize.ShloMosaic.PureOps.Reduce

noncomputable section

open scoped BigOperators

namespace Cert.RefSide

open Cert.ReferenceIdeal Cert.ReferenceIdeal.Gen Idealize.ShloMosaic Idealize.ShloMosaic.ValueIdx Idealize.SL.Sem

/-! ## Index words in range -/

/-- A word at most 9999 reads the same signed and unsigned. -/
theorem toInt_of_le {w : BitVec 32} (h : w.toNat ≤ 9999) : w.toInt = (w.toNat : Int) :=
  BitVec.toInt_eq_toNat_of_lt (by omega)

/-- Such a word is not negative: counting from the end leaves it alone. -/
theorem wrapRow_of_le (n : BitVec 32) {w : BitVec 32} (h : w.toNat ≤ 9999) : Cert.Lib.wrapRow n w = w := by
  have hn : ¬ IntOp.cmpi .slt w 0#32 = 1#1 := by
    intro hc
    have h1 := IntOp.cmpi_slt.1 hc
    rw [toInt_of_le h, show (0#32 : BitVec 32).toInt = 0 from by decide] at h1
    omega
  unfold Cert.Lib.wrapRow Scalar.select
  exact if_neg hn

/-- Clamped into the 10000 rows it is the node it spells. -/
theorem clampRow_of_le {w : BitVec 32} (h : w.toNat ≤ 9999) :
    Cert.Lib.clampRow 10000 (by omega) w = Cert.Spec.node w := by
  apply Fin.ext
  show min w.toInt.toNat (10000 - 1) = min w.toNat 9999
  rw [toInt_of_le h, Int.toNat_natCast]

/-! ## An and-reduction of ones -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by `and` from 1 is 1 at `j` when every operand entry that reduces into `j` is 1. -/
theorem reduce_andi_one {s t u : Shape} {axes : List (Fin s.rank)} (x : s.Idx → BitVec 1) (init : u.Idx → BitVec 1)
    (h : s.ReducesTo axes t) (hu : 0 < u.numel) (j : t.Idx) (hinit : ∀ i, init i = 1#1)
    (hx : ∀ i, h.drop i = j → x i = 1#1) : Host.reduce IntOp.andi x init h hu j = 1#1 := by
  rw [Host.reduce_eq_foldl, hinit]
  exact foldl_andi_one x _ fun n hn => hx n (of_decide_eq_true (List.mem_filter.1 hn).2)

/-! ## The look-up of rows, read at an entry -/

/-- Row `r` of the edge list, flattened, at `j` is the edge list at `(r, j)`. -/
theorem edgeRow_apply (r : Fin 2) (ei : IVec S2x160000 32) (hs : S2x160000.Slices ![r.val, 0] S1x160000) (j : Fin 160000) :
    edgeRow r.val ei hs (ix1 j) = ei (ix2 r j) := by
  unfold edgeRow
  refine (shapeCast_apply _ _ (ix1 j) (ix2 (0 : Fin 1) j) ?_).trans ?_
  · rw [Shape.rowMajor_val_two, Shape.rowMajor_val_one]
    show 0 * 160000 + j.val = j.val
    omega
  · exact slice2_axis0_apply r.val ei hs (0 : Fin 1) j r (by show r.val = r.val + 0; omega)

/-- The source row … -/
theorem edgeRow0_apply (ei : IVec S2x160000 32) (j : Fin 160000) :
    edgeRow 0 ei slices_S2x160000_S1x160000_0_0 (ix1 j) = ei (ix2 (0 : Fin 2) j) :=
  edgeRow_apply 0 ei slices_S2x160000_S1x160000_0_0 j

/-- … and the target row. -/
theorem edgeRow1_apply (ei : IVec S2x160000 32) (j : Fin 160000) :
    edgeRow 1 ei slices_S2x160000_S1x160000_1_0 (ix1 j) = ei (ix2 (1 : Fin 2) j) :=
  edgeRow_apply 1 ei slices_S2x160000_S1x160000_1_0 j

/-- The wrapped index vector, entry by entry. -/
theorem wrapIdx_apply (idx : IVec S160000 32) (j : Fin 160000) :
    wrapIdx idx (ix1 j) = Cert.Lib.wrapRow 10000#32 (idx (ix1 j)) := by
  unfold wrapIdx
  exact Cert.Lib.wrap_apply _ _ _ _ _

/-- The index column at row `j` is the wrapped index `j`. -/
theorem idxCol_apply (idx : IVec S160000 32) (j : Fin 160000) (z : Fin 1) :
    idxCol idx (ix2 j z) = wrapIdx idx (ix1 j) := by
  unfold idxCol
  exact Cert.Lib.idxCol_apply _ _ j z

/-- An index at most 9999 passes both range tests. -/
theorem inb_apply (idx : IVec S160000 32) (j : Fin 160000) (h : (idx (ix1 j)).toNat ≤ 9999) :
    inb idx (ix1 j) = 1#1 := by
  unfold inb
  refine reduce_andi_one _ _ _ _ _ (fun _ => rfl) fun i hi => ?_
  have hi0 : (i 0).val = j.val := by
    have e := Shape.ReducesTo.drop_apply_val_of_eq reducesTo_S160000x1_S160000_d1 i 0 0
    rw [hi] at e
    exact e.symm
  obtain ⟨p, q, rfl⟩ : ∃ (p : Fin 160000) (q : Fin 1), i = ix2 p q := ⟨i 0, i 1, eq_ix2 i⟩
  obtain rfl : p = j := Fin.ext hi0
  show IntOp.andi (IntOp.cmpi .sge (idxCol idx (ix2 p q)) 0#32) (IntOp.cmpi .sle (idxCol idx (ix2 p q)) 9999#32) = 1#1
  rw [idxCol_apply, wrapIdx_apply, wrapRow_of_le _ h]
  refine IntOp.andi_eq_one.2 ⟨IntOp.cmpi_sge.2 ?_, IntOp.cmpi_sle.2 ?_⟩
  · rw [toInt_of_le h, show (0#32 : BitVec 32).toInt = 0 from by decide]; omega
  · rw [toInt_of_le h, show (9999#32 : BitVec 32).toInt = 9999 from by decide]; omega

/-- The printed gather record is the row gather's. -/
theorem gather_eq : gather_S10000x256_S160000x1_S160000x256_1_0_n_n_0_1_1256
    = Cert.Lib.rowGather 10000 160000 256 gather_S10000x256_S160000x1_S160000x256_1_0_n_n_0_1_1256_wf := rfl

/-- THE LOOK-UP READ AT `(j, k)`: for an index at most 9999, the features of the node it spells. -/
theorem take_apply (x : FVec Ideal S10000x256 .f32) (idx : IVec S160000 32) (j : Fin 160000) (k : Fin 256)
    (h : (idx (ix1 j)).toNat ≤ 9999) : take x idx (ix2 j k) = x (ix2 (Cert.Spec.node (idx (ix1 j))) k) := by
  unfold take
  rw [select_apply]
  have hc : broadcastInDim S160000x256 ![0] bcast_S160000_S160000x256_0 (inb idx) (ix2 j k) = 1#1 := by
    refine (broadcastInDim_apply _ _ _ (ix2 j k) (ix1 j) fun a => ?_).trans (inb_apply idx j h)
    match a with
    | ⟨0, _⟩ =>
      show j.val = if (160000 : Nat) = 1 then 0 else j.val
      rw [if_neg (by omega)]
  rw [hc, select_one, gather_eq]
  unfold idxCol
  rw [Cert.Lib.gatherRows_apply (by omega) _ _ x (wrapIdx idx) j k, wrapIdx_apply, wrapRow_of_le _ h, clampRow_of_le h]

/-! ## The 768 columns -/

/-- Columns 0-255 are the source look-up's. -/
theorem cat_src (x : FVec Ideal S10000x256 .f32) (ee : FVec Ideal S160000x256 .f32) (ei : IVec S2x160000 32)
    (j : Fin 160000) (k : Fin 256) :
    cat x ee ei (ix2 j (⟨0 + k.val, by omega⟩ : Fin 768))
      = take x (edgeRow 0 ei slices_S2x160000_S1x160000_0_0) (ix2 j k) := by
  unfold cat cat768 cat512
  refine (concatenate_pair_apply_left (t := S160000x768) (s₁ := S160000x512) (s₂ := S160000x256) 1 _ _ _ _ rfl
    (ix2 j (⟨0 + k.val, by omega⟩ : Fin 512)) fun a => ?_).trans ?_
  · match a with
    | ⟨0, _⟩ => rfl
    | ⟨1, _⟩ => rfl
  · refine concatenate_pair_apply_left (t := S160000x512) (s₁ := S160000x256) (s₂ := S160000x256) 1 _ _ _ _ rfl (ix2 j k) fun a => ?_
    match a with
    | ⟨0, _⟩ => rfl
    | ⟨1, _⟩ => show k.val = 0 + k.val; omega

/-- Columns 256-511 are the target look-up's. -/
theorem cat_tgt (x : FVec Ideal S10000x256 .f32) (ee : FVec Ideal S160000x256 .f32) (ei : IVec S2x160000 32)
    (j : Fin 160000) (k : Fin 256) :
    cat x ee ei (ix2 j (⟨256 + k.val, by omega⟩ : Fin 768))
      = take x (edgeRow 1 ei slices_S2x160000_S1x160000_1_0) (ix2 j k) := by
  unfold cat cat768 cat512
  refine (concatenate_pair_apply_left (t := S160000x768) (s₁ := S160000x512) (s₂ := S160000x256) 1 _ _ _ _ rfl
    (ix2 j (⟨256 + k.val, by omega⟩ : Fin 512)) fun a => ?_).trans ?_
  · match a with
    | ⟨0, _⟩ => rfl
    | ⟨1, _⟩ => rfl
  · refine concatenate_pair_apply_right (t := S160000x512) (s₁ := S160000x256) (s₂ := S160000x256) 1 _ _ _ _ rfl rfl (ix2 j k) (fun a ha => ?_) ?_
    · match a with
      | ⟨0, _⟩ => rfl
      | ⟨1, _⟩ => exact absurd rfl ha
    · show k.val + 256 = 256 + k.val
      omega

/-- Columns 512-767 are the edge's own features. -/
theorem cat_own (x : FVec Ideal S10000x256 .f32) (ee : FVec Ideal S160000x256 .f32) (ei : IVec S2x160000 32)
    (j : Fin 160000) (k : Fin 256) :
    cat x ee ei (ix2 j (⟨512 + k.val, by omega⟩ : Fin 768)) = ee (ix2 j k) := by
  unfold cat cat768
  refine concatenate_pair_apply_right (t := S160000x768) (s₁ := S160000x512) (s₂ := S160000x256) 1 _ _ _ _ rfl rfl (ix2 j k) (fun a ha => ?_) ?_
  · match a with
    | ⟨0, _⟩ => rfl
    | ⟨1, _⟩ => exact absurd rfl ha
  · show k.val + 512 = 512 + k.val
    omega

/-! ## The product, the bias, the flattening -/

/-- The printed product record is the plain matrix product's. -/
theorem dot_eq : dot_S160000x768_S768x1_S160000x1_1_0_0_1_n_n
    = Cert.Lib.plain2 (A := 160000) (K := 768) (B := 1) dot_S160000x768_S768x1_S160000x1_1_0_0_1_n_n_wf := rfl

/-- The bias column at any row is the bias. -/
theorem biasCol_apply (b : FVec Ideal S1 .f32) (j : Fin 160000) (z : Fin 1) : biasCol b (ix2 j z) = b (ix1 (0 : Fin 1)) := by
  unfold biasCol
  refine (broadcastInDim_apply _ _ _ (ix2 j z) (ix2 (0 : Fin 1) (0 : Fin 1)) fun a => ?_).trans ?_
  · match a with
    | ⟨0, _⟩ => rfl
    | ⟨1, _⟩ => rfl
  · refine broadcastInDim_apply _ _ _ (ix2 (0 : Fin 1) (0 : Fin 1)) (ix1 (0 : Fin 1)) fun a => ?_
    match a with
    | ⟨0, _⟩ => rfl

/-- THE RESULT READ AT `j`: the sum over the 768 columns, plus the bias. -/
theorem out_apply (x : FVec Ideal S10000x256 .f32) (ee : FVec Ideal S160000x256 .f32) (ei : IVec S2x160000 32)
    (W : FVec Ideal S768x1 .f32) (b : FVec Ideal S1 .f32) (j : Fin 160000) :
    out x ee ei W b (ix1 j) = (∑ k : Fin 768, cat x ee ei (ix2 j k) * W (ix2 k (0 : Fin 1))) + b (ix1 (0 : Fin 1)) := by
  unfold out outF
  refine (shapeCast_apply _ _ (ix1 j) (ix2 j (0 : Fin 1)) ?_).trans ?_
  · rw [Shape.rowMajor_val_two, Shape.rowMajor_val_one]
    show j.val * 1 + 0 = j.val
    omega
  · rw [addf_apply, dot_eq, Cert.Lib.hostDot2_apply, biasCol_apply]

/-- A sum over 768 columns is the sum of its three runs of 256. -/
theorem sum_768 {M : Type} [AddCommMonoid M] (f : Fin 768 → M) :
    ∑ k, f k = (∑ k : Fin 256, f ⟨0 + k.val, by omega⟩ + ∑ k : Fin 256, f ⟨256 + k.val, by omega⟩)
        + ∑ k : Fin 256, f ⟨512 + k.val, by omega⟩ := by
  have h1 : ∑ k : Fin (512 + 256), f k = _ := Fin.sum_univ_add (a := 512) (b := 256) f
  have h2 : ∑ k : Fin (256 + 256), f (Fin.castAdd 256 k) = _ :=
    Fin.sum_univ_add (a := 256) (b := 256) fun k : Fin (256 + 256) => f (Fin.castAdd 256 k)
  rw [show (∑ k, f k) = ∑ k : Fin (512 + 256), f k from rfl, h1, h2]
  exact congrArg₂ (· + ·) (congrArg₂ (· + ·)
    (Finset.sum_congr rfl fun k _ => congrArg f (Fin.ext (Nat.zero_add k.val).symm)) rfl) rfl

/-! ## The reference is the score -/

theorem out_eq_scores (x : FVec Ideal Cert.ReferenceIdeal.S10000x256 .f32) (ee : FVec Ideal Cert.ReferenceIdeal.S160000x256 .f32)
    (ei : IVec Cert.ReferenceIdeal.S2x160000 32) (W : FVec Ideal Cert.ReferenceIdeal.S768x1 .f32) (b : FVec Ideal Cert.ReferenceIdeal.S1 .f32)
    (h : Cert.Spec.InRange ei) : out x ee ei W b = Cert.Spec.scores x ee ei W b := by
  funext i
  obtain ⟨j, rfl⟩ : ∃ j : Fin 160000, i = ix1 j := ⟨i 0, eq_ix1 i⟩
  rw [out_apply, sum_768, add_assoc]
  show _ = (Cert.Spec.src x ei W j + Cert.Spec.tgt x ei W j) + Cert.Spec.own ee W b j
  unfold Cert.Spec.src Cert.Spec.tgt Cert.Spec.own Cert.Spec.part
  refine congrArg₂ (· + ·) (congrArg₂ (· + ·) ?_ ?_) (congrArg₂ (· + ·) ?_ rfl)
  · refine Finset.sum_congr rfl fun k _ => ?_
    rw [cat_src, take_apply x _ j k (by rw [edgeRow0_apply]; exact h _), edgeRow0_apply]
  · refine Finset.sum_congr rfl fun k _ => ?_
    rw [cat_tgt, take_apply x _ j k (by rw [edgeRow1_apply]; exact h _), edgeRow1_apply]
  · refine Finset.sum_congr rfl fun k _ => ?_
    rw [cat_own]

/-! ## The reference runs and keeps its arguments -/

theorem frame_ri [Cert.ReferenceIdeal.Facts] [Cert.Pre_input_domain.Facts] : Cert.frame_ReferenceIdeal :=
  fun m g _ => (θ_run _ _ _).mono (fun _ h c => (h c).2) (run m g)

end Cert.RefSide

end
-- ==== Proof.PreRange.lean ====
/-
  From the precondition to the edge list's range.

  The precondition ends in an and-reduction, over both axes of the edge list, of the entrywise test
  0 ≤ e ∧ e ≤ 9999 (both comparisons signed). When the whole predicate is 1 that reduction is 1, so every
  entry passes both tests; a 32-bit word that is, read signed, between 0 and 9999 is the same number read
  unsigned, so it is at most 9999.
-/
import proofs.«207961_g9620726743389_cont_9to1c4b_395_8_alg».proof.Pre_input_domain
import proofs.«207961_g9620726743389_cont_9to1c4b_395_8_alg».proof.Proof.Spec
import Idealize.ShloMosaic.Lib.ReduceAll

namespace Cert.PreRange

open Idealize.ShloMosaic Idealize.ShloMosaic.ValueIdx

/-- A word that is, read signed, between 0 and 9999 is at most 9999 read unsigned. -/
theorem toNat_le_of_signed {w : BitVec 32} (h0 : (0#32 : BitVec 32).toInt ≤ w.toInt)
    (h1 : w.toInt ≤ (9999#32 : BitVec 32).toInt) : w.toNat ≤ 9999 := by
  have e0 : (0#32 : BitVec 32).toInt = 0 := by decide
  have e1 : (9999#32 : BitVec 32).toInt = 9999 := by decide
  rw [e0] at h0; rw [e1] at h1
  rw [BitVec.toInt_eq_toNat_cond] at h0 h1
  have hlt := w.isLt
  split at h0 <;> omega

/-- The scalar shape has one index. -/
local instance : Subsingleton Cert.Pre_input_domain.S_.Idx := ⟨fun a b => funext fun d => d.elim0⟩

theorem inRange_of_pre {F : FTy → Type} [FloatOps F] [Cert.Pre_input_domain.Facts]
    (a0 : FVec F Cert.Pre_input_domain.S10000x256 .f32) (a1 : FVec F Cert.Pre_input_domain.S160000x256 .f32) (ei : IVec Cert.Pre_input_domain.S2x160000 32)
    (a3 : FVec F Cert.Pre_input_domain.S768x1 .f32) (a4 : FVec F Cert.Pre_input_domain.S1 .f32)
    (h : Cert.Pre_input_domain.fn (F := F) a0 a1 ei a3 a4 = fun _ => 1#1) : Cert.Spec.InRange ei := by
  have h0 := congrFun h ValueIdx.ix0
  dsimp only [Cert.Pre_input_domain.fn, Cert.Pre_input_domain.fn_part1] at h0
  have h1 := (IntOp.andi_eq_one.1 h0).2
  intro i
  have h2 := Host.reduce_andi_all _ _ _ _ _ h1 i
  obtain ⟨hge, hle⟩ := IntOp.andi_eq_one.1 h2
  exact toNat_le_of_signed (IntOp.cmpi_sge.1 hge) (IntOp.cmpi_sle.1 hle)

end Cert.PreRange
-- ==== Proof.lean ====
/-
  The five claims.

  Both programs compute, for every edge, the inner product of the 768 weights with the source node's, the target
  node's and the edge's own 256 features laid end to end, plus the bias (`Cert.Spec.score`). The reference does it as one
  sum of 768 products; the kernel as three sums of 256, the first two looked up in a table of 2 x 10000 node scores by the
  edge's two node numbers, grouped (source + target) + (edge + bias). On the extended reals the two groupings agree
  because addition is associative; no entry needs to be finite. What the precondition is used for is that every entry
  of the edge list names a node, so that every look-up, on both sides, stays inside its table.

  The three frames are the three runs with the values dropped; the idealised kernel is the kernel's own text (no
  rewrite was applied), so `preserves` asks nothing.
-/
import proofs.«207961_g9620726743389_cont_9to1c4b_395_8_alg».proof.Defs
import proofs.«207961_g9620726743389_cont_9to1c4b_395_8_alg».proof.Proof.KernelRunI
import proofs.«207961_g9620726743389_cont_9to1c4b_395_8_alg».proof.Proof.KernelRunB
import proofs.«207961_g9620726743389_cont_9to1c4b_395_8_alg».proof.Proof.RefValue
import proofs.«207961_g9620726743389_cont_9to1c4b_395_8_alg».proof.Proof.PreRange
import proofs.«207961_g9620726743389_cont_9to1c4b_395_8_alg».proof.Proof.Gen.Kernel
import proofs.«207961_g9620726743389_cont_9to1c4b_395_8_alg».proof.Proof.Gen.KernelIdeal
import proofs.«207961_g9620726743389_cont_9to1c4b_395_8_alg».proof.Proof.Gen.ReferenceIdeal
import proofs.«207961_g9620726743389_cont_9to1c4b_395_8_alg».proof.Proof.Gen.Pre_input_domain

noncomputable section

namespace Cert.Proof

open Idealize.ShloMosaic Idealize.SL.Sem

/-- Under the precondition every entry of the kernel's edge list names a node: at the word-level instance, -/
theorem inRange_K (m : (ℓ : Loc Cert.Kernel.nD Cert.Kernel.τ Cert.Kernel.sig) → Buf (Elt Bits) ℓ) (h : Cert.Pre_Kernel m)
    (d : Dev Cert.Kernel.nD) : Cert.Spec.InRange (m (d, Cert.Kernel.Vals.r Cert.Kernel.main_arg2)) :=
  Cert.PreRange.inRange_of_pre (F := Bits) _ _ _ _ _ (h d)

/-- and at the ideal one. -/
theorem inRange_KI (m : (ℓ : Loc Cert.KernelIdeal.nD Cert.KernelIdeal.τ Cert.KernelIdeal.sig) → Buf (Elt Ideal) ℓ) (h : Cert.Pre_KernelIdeal m)
    (d : Dev Cert.KernelIdeal.nD) : Cert.Spec.InRange (m (d, Cert.KernelIdeal.Vals.r Cert.KernelIdeal.main_arg2)) :=
  Cert.PreRange.inRange_of_pre (F := Ideal) _ _ _ _ _ (h d)

theorem frame_p : Cert.frame_Kernel := fun m g hpre =>
  (θ_run Cert.Kernel.defs _ _).mono (fun _ h c => (h c).2) (Cert.Kernel.Launch.kernel_run (F := Bits) m g (inRange_K m hpre))

theorem frame_pi : Cert.frame_KernelIdeal := fun m g hpre =>
  (θ_run Cert.KernelIdeal.defs _ _).mono (fun _ h c => (h c).2) (Cert.KernelIdeal.Launch.kernel_run (F := Ideal) m g (inRange_KI m hpre))

theorem frame_ri : Cert.frame_ReferenceIdeal := Cert.RefSide.frame_ri

theorem preserves : Cert.preserves_Kernel_KernelIdeal := trivial

/-- Both runs end with every edge's score in the result: the kernel's by the node-score table, the stacked edge scores and
    the gathered sums; the reference's by its one sum of 768 products split in three. -/
theorem algebraic : Cert.algebraic_KernelIdeal_ReferenceIdeal := by
  intro m g m' g' hpre hagree
  have hin := inRange_KI m hpre
  refine ⟨fun c => Cert.Spec.scores (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩)
      (Cert.KernelIdeal.Launch.kernel_run (F := Ideal) m g hin)
    exact Cert.KernelIdeal.Value.kernel_eq_scores Cert.KernelIdeal.Launch.Rreal
      (fun x w p q => Cert.KernelIdeal.Regions.nodeVal_apply_ideal x w p q)
      (fun s e4 w3 b2 p => Cert.KernelIdeal.Regions.edgeVal_apply_ideal s e4 w3 b2 p) m c (hin c)
  · refine (θ_run Cert.ReferenceIdeal.defs _ _).mono (fun _ h c => ⟨(h c).1.trans ?_, (h c).2⟩) (Cert.RefSide.run m' g')
    rw [(hagree c).1, (hagree c).2.1, (hagree c).2.2.1, (hagree c).2.2.2.1, (hagree c).2.2.2.2]
    exact Cert.RefSide.out_eq_scores _ _ _ _ _ (hin c)

theorem claim : Cert.Claim :=
  ⟨Cert.Kernel.Gen.facts, Cert.KernelIdeal.Gen.facts, Cert.ReferenceIdeal.Gen.facts, Cert.Pre_input_domain.Gen.facts,
    frame_p, frame_pi, frame_ri, preserves, algebraic⟩

end Cert.Proof

end
